-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v162)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v162) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S3x64x64 : Shape := ⟨3, ![3, 64, 64]⟩
abbrev S2x1600000 : Shape := ⟨2, ![2, 1600000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg4 : FVec F S2x1600000 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S2x1600000 .f32 := Host.absf main_arg4
  let main_cst_6 : FVec F S_ .f32 := constant S_ .f32 0x7F800000#32
  let main_v20 : FVec F S2x1600000 .f32 := broadcastInDim S2x1600000 ![] bcast_S_S2x1600000 main_cst_6
  let main_v21 : IVec S2x1600000 1 := cmpf .olt main_v19 main_v20
  let main_c_7 : IVec S_ 1 := constantI S_ 1 1#1
  let main_v22 : IVec S_ 1 := (fun x v => Host.reduce IntOp.andi x v reducesTo_S2x1600000_S_d0_1 h_S_) main_v21 main_c_7
  let main_v23 : IVec S_ 1 := andi main_v18 main_v22
  main_v23

def fn {F : FTy → Type} [FloatOps F] (main_arg0 : FVec F S100000x64 .f32) (main_arg1 : FVec F S100000x64 .f32) (main_arg2 : FVec F S3x64x64 .f32) (main_arg3 : FVec F S3x64x64 .f32) (main_arg4 : FVec F S2x1600000 .f32) (main_arg5 : IVec S2x1600000 32) (main_arg6 : IVec S2x1600000 32) (main_arg7 : IVec S100000 32) (main_arg8 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S3x64x64 .f32 := Host.absf main_arg2
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64x64 .f32 := Host.absf main_arg3
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg4 main_v13 main_v16
-- ==== Kernel.lean ====
abbrev S100000x64 : Shape := ⟨2, ![100000, 64]⟩
abbrev S3x64x64 : Shape := ⟨3, ![3, 64, 64]⟩
abbrev S2x1600000 : Shape := ⟨2, ![2, 1600000]⟩
abbrev S100000 : Shape := ⟨1, ![100000]⟩
abbrev S_ : Shape := ⟨0, ![]⟩
abbrev S100000x1 : Shape := ⟨2, ![100000, 1]⟩
abbrev S200000x64 : Shape := ⟨2, ![200000, 64]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S4000x64 : Shape := ⟨2, ![4000, 64]⟩
abbrev S100000x256 : Shape := ⟨2, ![100000, 256]⟩
abbrev S2000x256 : Shape := ⟨2, ![2000, 256]⟩
abbrev S2000x1 : Shape := ⟨2, ![2000, 1]⟩
abbrev S2000 : Shape := ⟨1, ![2000]⟩

abbrev nBuf : Space → Nat
  | .hbm => 197
  | .vmem => 30
  | .smem => 0
  | _ => 0

abbrev hbmTy0_0 (i : Nat) : BufTy := match i % 128 with
  | 0 => ⟨S100000x64, .f32⟩
  | 1 => ⟨S100000x64, .f32⟩
  | 2 => ⟨S3x64x64, .f32⟩
  | 3 => ⟨S3x64x64, .f32⟩
  | 4 => ⟨S2x1600000, .f32⟩
  | 5 => ⟨S2x1600000, .i32⟩
  | 6 => ⟨S2x1600000, .i32⟩
  | 7 => ⟨S100000, .i32⟩
  | 8 => ⟨S100000, .i32⟩
  | 9 => ⟨S_, .i32⟩
  | 10 => ⟨S100000, .i32⟩
  | 11 => ⟨S100000, .i1⟩
  | 12 => ⟨S_, .i32⟩
  | 13 => ⟨S100000, .i32⟩
  | 14 => ⟨S100000, .i32⟩
  | 15 => ⟨S100000, .i32⟩
  | 16 => ⟨S100000x1, .i32⟩
  | 17 => ⟨S100000x64, .f32⟩
  | 18 => ⟨S_, .i32⟩
  | 19 => ⟨S100000, .i32⟩
  | 20 => ⟨S100000, .i1⟩
  | 21 => ⟨S_, .i32⟩
  | 22 => ⟨S100000, .i32⟩
  | 23 => ⟨S100000, .i32⟩
  | 24 => ⟨S100000, .i32⟩
  | 25 => ⟨S100000x1, .i32⟩
  | 26 => ⟨S100000x64, .f32⟩
  | 27 => ⟨S200000x64, .f32⟩
  | 28 => ⟨S_, .f32⟩
  | 29 => ⟨S200000x64, .f32⟩
  | 30 => ⟨S1x1600000, .i32⟩
  | 31 => ⟨S1600000, .i32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x64, .f32⟩
  | 41 => ⟨S1x1600000, .f32⟩
  | 42 => ⟨S1600000, .f32⟩
  | 43 => ⟨S1600000x1, .f32⟩
  | 44 => ⟨S1600000x64, .f32⟩
  | 45 => ⟨S1600000x64, .f32⟩
  | 46 => ⟨S1x1600000, .i32⟩
  | 47 => ⟨S1600000, .i32⟩
  | 48 => ⟨S_, .f32⟩
  | 49 => ⟨S200000x64, .f32⟩
  | 50 => ⟨S1600000x1, .i32⟩
  | 51 => ⟨S200000x64, .f32⟩
  | 52 => ⟨S200000x64, .f32⟩
  | 53 => ⟨S1x1600000, .i32⟩
  | 54 => ⟨S1600000, .i32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x64, .f32⟩
  | 64 => ⟨S1x1600000, .f32⟩
  | 65 => ⟨S1600000, .f32⟩
  | 66 => ⟨S1600000x1, .f32⟩
  | 67 => ⟨S1600000x64, .f32⟩
  | 68 => ⟨S1600000x64, .f32⟩
  | 69 => ⟨S1x1600000, .i32⟩
  | 70 => ⟨S1600000, .i32⟩
  | 71 => ⟨S_, .f32⟩
  | 72 => ⟨S200000x64, .f32⟩
  | 73 => ⟨S1600000x1, .i32⟩
  | 74 => ⟨S200000x64, .f32⟩
  | 75 => ⟨S200000x64, .f32⟩
  | 76 => ⟨S1x64x64, .f32⟩
  | 77 => ⟨S64x64, .f32⟩
  | 78 => ⟨S1x64x64, .f32⟩
  | 79 => ⟨S64x64, .f32⟩
  | 80 => ⟨S200000x64, .f32⟩
  | 81 => ⟨S100000x64, .f32⟩
  | 82 => ⟨S100000x64, .f32⟩
  | 83 => ⟨S_, .f32⟩
  | 84 => ⟨S200000x64, .f32⟩
  | 85 => ⟨S1x1600000, .i32⟩
  | 86 => ⟨S1600000, .i32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x64, .f32⟩
  | 96 => ⟨S1x1600000, .f32⟩
  | 97 => ⟨S1600000, .f32⟩
  | 98 => ⟨S1600000x1, .f32⟩
  | 99 => ⟨S1600000x64, .f32⟩
  | 100 => ⟨S1600000x64, .f32⟩
  | 101 => ⟨S1x1600000, .i32⟩
  | 102 => ⟨S1600000, .i32⟩
  | 103 => ⟨S_, .f32⟩
  | 104 => ⟨S200000x64, .f32⟩
  | 105 => ⟨S1600000x1, .i32⟩
  | 106 => ⟨S200000x64, .f32⟩
  | 107 => ⟨S200000x64, .f32⟩
  | 108 => ⟨S1x1600000, .i32⟩
  | 109 => ⟨S1600000, .i32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x64, .f32⟩
  | 119 => ⟨S1x1600000, .f32⟩
  | 120 => ⟨S1600000, .f32⟩
  | 121 => ⟨S1600000x1, .f32⟩
  | 122 => ⟨S1600000x64, .f32⟩
  | 123 => ⟨S1600000x64, .f32⟩
  | 124 => ⟨S1x1600000, .i32⟩
  | 125 => ⟨S1600000, .i32⟩
  | 126 => ⟨S_, .f32⟩
  | 127 => ⟨S200000x64, .f32⟩
  | _ => ⟨S100000x64, .f32⟩

abbrev hbmTy0_1 (i : Nat) : BufTy := match i % 128 with
  | 0 => ⟨S1600000x1, .i32⟩
  | 1 => ⟨S200000x64, .f32⟩
  | 2 => ⟨S200000x64, .f32⟩
  | 3 => ⟨S1x64x64, .f32⟩
  | 4 => ⟨S64x64, .f32⟩
  | 5 => ⟨S1x64x64, .f32⟩
  | 6 => ⟨S64x64, .f32⟩
  | 7 => ⟨S200000x64, .f32⟩
  | 8 => ⟨S100000x64, .f32⟩
  | 9 => ⟨S100000x64, .f32⟩
  | 10 => ⟨S_, .f32⟩
  | 11 => ⟨S200000x64, .f32⟩
  | 12 => ⟨S1x1600000, .i32⟩
  | 13 => ⟨S1600000, .i32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x64, .f32⟩
  | 23 => ⟨S1x1600000, .f32⟩
  | 24 => ⟨S1600000, .f32⟩
  | 25 => ⟨S1600000x1, .f32⟩
  | 26 => ⟨S1600000x64, .f32⟩
  | 27 => ⟨S1600000x64, .f32⟩
  | 28 => ⟨S1x1600000, .i32⟩
  | 29 => ⟨S1600000, .i32⟩
  | 30 => ⟨S_, .f32⟩
  | 31 => ⟨S200000x64, .f32⟩
  | 32 => ⟨S1600000x1, .i32⟩
  | 33 => ⟨S200000x64, .f32⟩
  | 34 => ⟨S200000x64, .f32⟩
  | 35 => ⟨S1x1600000, .i32⟩
  | 36 => ⟨S1600000, .i32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x64, .f32⟩
  | 46 => ⟨S1x1600000, .f32⟩
  | 47 => ⟨S1600000, .f32⟩
  | 48 => ⟨S1600000x1, .f32⟩
  | 49 => ⟨S1600000x64, .f32⟩
  | 50 => ⟨S1600000x64, .f32⟩
  | 51 => ⟨S1x1600000, .i32⟩
  | 52 => ⟨S1600000, .i32⟩
  | 53 => ⟨S_, .f32⟩
  | 54 => ⟨S200000x64, .f32⟩
  | 55 => ⟨S1600000x1, .i32⟩
  | 56 => ⟨S200000x64, .f32⟩
  | 57 => ⟨S200000x64, .f32⟩
  | 58 => ⟨S1x64x64, .f32⟩
  | 59 => ⟨S64x64, .f32⟩
  | 60 => ⟨S1x64x64, .f32⟩
  | 61 => ⟨S64x64, .f32⟩
  | 62 => ⟨S200000x64, .f32⟩
  | 63 => ⟨S100000x64, .f32⟩
  | 64 => ⟨S100000x64, .f32⟩
  | 65 => ⟨S100000x256, .f32⟩
  | 66 => ⟨S100000x256, .f32⟩
  | 67 => ⟨S100000x1, .f32⟩
  | 68 => ⟨S100000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S64x64, .f32⟩
  | .local _ .vmem, ⟨5, _⟩ => ⟨S64x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S64x64, .f32⟩
  | .local _ .vmem, ⟨13, _⟩ => ⟨S64x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S64x64, .f32⟩
  | .local _ .vmem, ⟨21, _⟩ => ⟨S64x64, .f32⟩
  | .local _ .vmem, ⟨22, _⟩ => ⟨S4000x64, .f32⟩
  | .local _ .vmem, ⟨23, _⟩ => ⟨S4000x64, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x1, .f32⟩
  | .local _ .vmem, ⟨29, _⟩ => ⟨S2000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_10 : Ref sig .tc := ⟨.hbm, 87, rfl⟩
abbrev main_v66 : Ref sig .tc := ⟨.hbm, 88, rfl⟩
abbrev main_v67 : Ref sig .tc := ⟨.hbm, 89, rfl⟩
abbrev main_c_11 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_12 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_c_13 : Ref sig .tc := ⟨.hbm, 110, rfl⟩
abbrev main_v86 : Ref sig .tc := ⟨.hbm, 111, rfl⟩
abbrev main_v87 : Ref sig .tc := ⟨.hbm, 112, rfl⟩
abbrev main_c_14 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_15 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_cst_16 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_c_17 : Ref sig .tc := ⟨.hbm, 142, rfl⟩
abbrev main_v114 : Ref sig .tc := ⟨.hbm, 143, rfl⟩
abbrev main_v115 : Ref sig .tc := ⟨.hbm, 144, rfl⟩
abbrev main_c_18 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_cst_19 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_c_20 : Ref sig .tc := ⟨.hbm, 165, rfl⟩
abbrev main_v134 : Ref sig .tc := ⟨.hbm, 166, rfl⟩
abbrev main_v135 : Ref sig .tc := ⟨.hbm, 167, rfl⟩
abbrev main_c_21 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_cst_22 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  concatenates_S100000x64_S100000x64_S200000x64_d0 : Shape.Concatenates [S100000x64, S100000x64] S200000x64 0
  bcast_S_S200000x64 : S_.BroadcastsInDim S200000x64 (![] : Fin 0 → Fin S200000x64.rank)
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  slices_S2x1600000_S1x1600000_1_0 : S2x1600000.Slices ![1, 0] S1x1600000
  slices_S3x64x64_S1x64x64_0_0_0 : S3x64x64.Slices ![0, 0, 0] S1x64x64
  shapeCasts_S1x64x64_S64x64 : S1x64x64.ShapeCasts S64x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S200000x64_S100000x64_0_0 : S200000x64.Slices ![0, 0] S100000x64
  slices_S200000x64_S100000x64_100000_0 : S200000x64.Slices ![100000, 0] S100000x64
  slices_S3x64x64_S1x64x64_1_0_0 : S3x64x64.Slices ![1, 0, 0] S1x64x64
  slices_S3x64x64_S1x64x64_2_0_0 : S3x64x64.Slices ![2, 0, 0] S1x64x64
  concatenates_S100000x64_S100000x64_S100000x64_S100000x64_S100000x256_d1 : Shape.Concatenates [S100000x64, S100000x64, S100000x64, S100000x64] S100000x256 1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  reduces_S2000x256_S2000 : S2000x256.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  shapeCasts_S100000x1_S100000 : S100000x1.ShapeCasts S100000
  gather_S100000x64_S100000x1_S100000x64_1_0_n_n_0_1_164_wf : GatherDims.WF S100000x64 S100000x1 S100000x64 [1] [0] [] [0] [] 1 ![1, 64]
  gather_S200000x64_S1600000x1_S1600000x64_1_0_n_n_0_1_164_wf : GatherDims.WF S200000x64 S1600000x1 S1600000x64 [1] [0] [] [0] [] 1 ![1, 64]
  scatter_S200000x64_S1600000x1_S1600000x64_1_0_0_1_wf : ScatterDims.WF S200000x64 S1600000x1 S1600000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S200000x64.size a
  hwx0_0 : ∀ i : grid0.Coords, EltTy.bits .f32 = 32 ∨ (Rect.block (s := S200000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S200000x64.size a
  hwx0_1 : ∀ i : grid0.Coords, EltTy.bits .f32 = 32 ∨ (Rect.block (s := S200000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S200000x64.size a
  hwx0_4 : ∀ i : grid0.Coords, EltTy.bits .f32 = 32 ∨ (Rect.block (s := S200000x64) S4000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S200000x64.size a
  hwx1_0 : ∀ i : grid1.Coords, EltTy.bits .f32 = 32 ∨ (Rect.block (s := S200000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S200000x64.size a
  hwx1_1 : ∀ i : grid1.Coords, EltTy.bits .f32 = 32 ∨ (Rect.block (s := S200000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S200000x64.size a
  hwx1_4 : ∀ i : grid1.Coords, EltTy.bits .f32 = 32 ∨ (Rect.block (s := S200000x64) S4000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S200000x64.size a
  hwx2_0 : ∀ i : grid2.Coords, EltTy.bits .f32 = 32 ∨ (Rect.block (s := S200000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S200000x64.size a
  hwx2_1 : ∀ i : grid2.Coords, EltTy.bits .f32 = 32 ∨ (Rect.block (s := S200000x64) S4000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S200000x64.size a
  hwx2_4 : ∀ i : grid2.Coords, EltTy.bits .f32 = 32 ∨ (Rect.block (s := S200000x64) S4000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S100000x256.size a
  hwx3_1 : ∀ i : grid3.Coords, EltTy.bits .f32 = 32 ∨ (Rect.block (s := S100000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def gather_S200000x64_S1600000x1_S1600000x64_1_0_n_n_0_1_164 : GatherDims S200000x64 S1600000x1 S1600000x64 where
  offsetDims := [1]
  collapsedSliceDims := [0]
  operandBatchingDims := []
  startIndicesBatchingDims := []
  startIndexMap := [0]
  indexVectorDim := 1
  sliceSizes := ![1, 64]
  wf := gather_S200000x64_S1600000x1_S1600000x64_1_0_n_n_0_1_164_wf
def scatter_S200000x64_S1600000x1_S1600000x64_1_0_0_1 : ScatterDims S200000x64 S1600000x1 S1600000x64 where
  updateWindowDims := [1]
  insertedWindowDims := [0]
  scatterDimsToOperandDims := [0]
  indexVectorDim := 1
  wf := scatter_S200000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_v55) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v57) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v59) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v60) S4000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v103) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v105) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v107) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v108) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v151) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v108) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v153) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v155) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v156) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v159) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v160) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v161) S2000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S3x64x64 : Shape := ⟨3, ![3, 64, 64]⟩
abbrev S2x1600000 : Shape := ⟨2, ![2, 1600000]⟩
abbrev S100000 : Shape := ⟨1, ![100000]⟩
abbrev S_ : Shape := ⟨0, ![]⟩
abbrev S100000x1 : Shape := ⟨2, ![100000, 1]⟩
abbrev S200000x64 : Shape := ⟨2, ![200000, 64]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S100000x256 : Shape := ⟨2, ![100000, 256]⟩

abbrev nBuf : Space → Nat
  | .hbm => 255
  | .vmem => 0
  | .smem => 0
  | _ => 0

abbrev hbmTy0_0 (i : Nat) : BufTy := match i % 128 with
  | 0 => ⟨S100000x64, .f32⟩
  | 1 => ⟨S100000x64, .f32⟩
  | 2 => ⟨S3x64x64, .f32⟩
  | 3 => ⟨S3x64x64, .f32⟩
  | 4 => ⟨S2x1600000, .f32⟩
  | 5 => ⟨S2x1600000, .i32⟩
  | 6 => ⟨S2x1600000, .i32⟩
  | 7 => ⟨S100000, .i32⟩
  | 8 => ⟨S100000, .i32⟩
  | 9 => ⟨S_, .i32⟩
  | 10 => ⟨S100000, .i32⟩
  | 11 => ⟨S100000, .i1⟩
  | 12 => ⟨S_, .i32⟩
  | 13 => ⟨S100000, .i32⟩
  | 14 => ⟨S100000, .i32⟩
  | 15 => ⟨S100000, .i32⟩
  | 16 => ⟨S100000x1, .i32⟩
  | 17 => ⟨S100000x64, .f32⟩
  | 18 => ⟨S_, .i32⟩
  | 19 => ⟨S100000, .i32⟩
  | 20 => ⟨S100000, .i1⟩
  | 21 => ⟨S_, .i32⟩
  | 22 => ⟨S100000, .i32⟩
  | 23 => ⟨S100000, .i32⟩
  | 24 => ⟨S100000, .i32⟩
  | 25 => ⟨S100000x1, .i32⟩
  | 26 => ⟨S100000x64, .f32⟩
  | 27 => ⟨S200000x64, .f32⟩
  | 28 => ⟨S_, .f32⟩
  | 29 => ⟨S200000x64, .f32⟩
  | 30 => ⟨S1x1600000, .i32⟩
  | 31 => ⟨S1600000, .i32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x64, .f32⟩
  | 41 => ⟨S1x1600000, .f32⟩
  | 42 => ⟨S1600000, .f32⟩
  | 43 => ⟨S1600000x1, .f32⟩
  | 44 => ⟨S1600000x64, .f32⟩
  | 45 => ⟨S1600000x64, .f32⟩
  | 46 => ⟨S1x1600000, .i32⟩
  | 47 => ⟨S1600000, .i32⟩
  | 48 => ⟨S_, .f32⟩
  | 49 => ⟨S200000x64, .f32⟩
  | 50 => ⟨S1600000x1, .i32⟩
  | 51 => ⟨S200000x64, .f32⟩
  | 52 => ⟨S1x64x64, .f32⟩
  | 53 => ⟨S64x64, .f32⟩
  | 54 => ⟨S200000x64, .f32⟩
  | 55 => ⟨S200000x64, .f32⟩
  | 56 => ⟨S200000x64, .f32⟩
  | 57 => ⟨S1x64x64, .f32⟩
  | 58 => ⟨S64x64, .f32⟩
  | 59 => ⟨S200000x64, .f32⟩
  | 60 => ⟨S200000x64, .f32⟩
  | 61 => ⟨S1x1600000, .i32⟩
  | 62 => ⟨S1600000, .i32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x64, .f32⟩
  | 72 => ⟨S1x1600000, .f32⟩
  | 73 => ⟨S1600000, .f32⟩
  | 74 => ⟨S1600000x1, .f32⟩
  | 75 => ⟨S1600000x64, .f32⟩
  | 76 => ⟨S1600000x64, .f32⟩
  | 77 => ⟨S1x1600000, .i32⟩
  | 78 => ⟨S1600000, .i32⟩
  | 79 => ⟨S_, .f32⟩
  | 80 => ⟨S200000x64, .f32⟩
  | 81 => ⟨S1600000x1, .i32⟩
  | 82 => ⟨S200000x64, .f32⟩
  | 83 => ⟨S1x64x64, .f32⟩
  | 84 => ⟨S64x64, .f32⟩
  | 85 => ⟨S200000x64, .f32⟩
  | 86 => ⟨S200000x64, .f32⟩
  | 87 => ⟨S200000x64, .f32⟩
  | 88 => ⟨S1x64x64, .f32⟩
  | 89 => ⟨S64x64, .f32⟩
  | 90 => ⟨S200000x64, .f32⟩
  | 91 => ⟨S200000x64, .f32⟩
  | 92 => ⟨S_, .f32⟩
  | 93 => ⟨S_, .f32⟩
  | 94 => ⟨S200000x64, .f32⟩
  | 95 => ⟨S200000x64, .i1⟩
  | 96 => ⟨S_, .f32⟩
  | 97 => ⟨S200000x64, .f32⟩
  | 98 => ⟨S200000x64, .f32⟩
  | 99 => ⟨S200000x64, .f32⟩
  | 100 => ⟨S100000x64, .f32⟩
  | 101 => ⟨S100000x64, .f32⟩
  | 102 => ⟨S_, .f32⟩
  | 103 => ⟨S200000x64, .f32⟩
  | 104 => ⟨S1x1600000, .i32⟩
  | 105 => ⟨S1600000, .i32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x64, .f32⟩
  | 115 => ⟨S1x1600000, .f32⟩
  | 116 => ⟨S1600000, .f32⟩
  | 117 => ⟨S1600000x1, .f32⟩
  | 118 => ⟨S1600000x64, .f32⟩
  | 119 => ⟨S1600000x64, .f32⟩
  | 120 => ⟨S1x1600000, .i32⟩
  | 121 => ⟨S1600000, .i32⟩
  | 122 => ⟨S_, .f32⟩
  | 123 => ⟨S200000x64, .f32⟩
  | 124 => ⟨S1600000x1, .i32⟩
  | 125 => ⟨S200000x64, .f32⟩
  | 126 => ⟨S1x64x64, .f32⟩
  | 127 => ⟨S64x64, .f32⟩
  | _ => ⟨S100000x64, .f32⟩

abbrev hbmTy0_1 (i : Nat) : BufTy := match i % 128 with
  | 0 => ⟨S200000x64, .f32⟩
  | 1 => ⟨S200000x64, .f32⟩
  | 2 => ⟨S200000x64, .f32⟩
  | 3 => ⟨S1x64x64, .f32⟩
  | 4 => ⟨S64x64, .f32⟩
  | 5 => ⟨S200000x64, .f32⟩
  | 6 => ⟨S200000x64, .f32⟩
  | 7 => ⟨S1x1600000, .i32⟩
  | 8 => ⟨S1600000, .i32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x64, .f32⟩
  | 18 => ⟨S1x1600000, .f32⟩
  | 19 => ⟨S1600000, .f32⟩
  | 20 => ⟨S1600000x1, .f32⟩
  | 21 => ⟨S1600000x64, .f32⟩
  | 22 => ⟨S1600000x64, .f32⟩
  | 23 => ⟨S1x1600000, .i32⟩
  | 24 => ⟨S1600000, .i32⟩
  | 25 => ⟨S_, .f32⟩
  | 26 => ⟨S200000x64, .f32⟩
  | 27 => ⟨S1600000x1, .i32⟩
  | 28 => ⟨S200000x64, .f32⟩
  | 29 => ⟨S1x64x64, .f32⟩
  | 30 => ⟨S64x64, .f32⟩
  | 31 => ⟨S200000x64, .f32⟩
  | 32 => ⟨S200000x64, .f32⟩
  | 33 => ⟨S200000x64, .f32⟩
  | 34 => ⟨S1x64x64, .f32⟩
  | 35 => ⟨S64x64, .f32⟩
  | 36 => ⟨S200000x64, .f32⟩
  | 37 => ⟨S200000x64, .f32⟩
  | 38 => ⟨S_, .f32⟩
  | 39 => ⟨S_, .f32⟩
  | 40 => ⟨S200000x64, .f32⟩
  | 41 => ⟨S200000x64, .i1⟩
  | 42 => ⟨S_, .f32⟩
  | 43 => ⟨S200000x64, .f32⟩
  | 44 => ⟨S200000x64, .f32⟩
  | 45 => ⟨S200000x64, .f32⟩
  | 46 => ⟨S100000x64, .f32⟩
  | 47 => ⟨S100000x64, .f32⟩
  | 48 => ⟨S_, .f32⟩
  | 49 => ⟨S200000x64, .f32⟩
  | 50 => ⟨S1x1600000, .i32⟩
  | 51 => ⟨S1600000, .i32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .f32⟩
  | 61 => ⟨S1x1600000, .f32⟩
  | 62 => ⟨S1600000, .f32⟩
  | 63 => ⟨S1600000x1, .f32⟩
  | 64 => ⟨S1600000x64, .f32⟩
  | 65 => ⟨S1600000x64, .f32⟩
  | 66 => ⟨S1x1600000, .i32⟩
  | 67 => ⟨S1600000, .i32⟩
  | 68 => ⟨S_, .f32⟩
  | 69 => ⟨S200000x64, .f32⟩
  | 70 => ⟨S1600000x1, .i32⟩
  | 71 => ⟨S200000x64, .f32⟩
  | 72 => ⟨S1x64x64, .f32⟩
  | 73 => ⟨S64x64, .f32⟩
  | 74 => ⟨S200000x64, .f32⟩
  | 75 => ⟨S200000x64, .f32⟩
  | 76 => ⟨S200000x64, .f32⟩
  | 77 => ⟨S1x64x64, .f32⟩
  | 78 => ⟨S64x64, .f32⟩
  | 79 => ⟨S200000x64, .f32⟩
  | 80 => ⟨S200000x64, .f32⟩
  | 81 => ⟨S1x1600000, .i32⟩
  | 82 => ⟨S1600000, .i32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x64, .f32⟩
  | 92 => ⟨S1x1600000, .f32⟩
  | 93 => ⟨S1600000, .f32⟩
  | 94 => ⟨S1600000x1, .f32⟩
  | 95 => ⟨S1600000x64, .f32⟩
  | 96 => ⟨S1600000x64, .f32⟩
  | 97 => ⟨S1x1600000, .i32⟩
  | 98 => ⟨S1600000, .i32⟩
  | 99 => ⟨S_, .f32⟩
  | 100 => ⟨S200000x64, .f32⟩
  | 101 => ⟨S1600000x1, .i32⟩
  | 102 => ⟨S200000x64, .f32⟩
  | 103 => ⟨S1x64x64, .f32⟩
  | 104 => ⟨S64x64, .f32⟩
  | 105 => ⟨S200000x64, .f32⟩
  | 106 => ⟨S200000x64, .f32⟩
  | 107 => ⟨S200000x64, .f32⟩
  | 108 => ⟨S1x64x64, .f32⟩
  | 109 => ⟨S64x64, .f32⟩
  | 110 => ⟨S200000x64, .f32⟩
  | 111 => ⟨S200000x64, .f32⟩
  | 112 => ⟨S_, .f32⟩
  | 113 => ⟨S_, .f32⟩
  | 114 => ⟨S200000x64, .f32⟩
  | 115 => ⟨S200000x64, .i1⟩
  | 116 => ⟨S_, .f32⟩
  | 117 => ⟨S200000x64, .f32⟩
  | 118 => ⟨S200000x64, .f32⟩
  | 119 => ⟨S200000x64, .f32⟩
  | 120 => ⟨S100000x64, .f32⟩
  | 121 => ⟨S100000x64, .f32⟩
  | 122 => ⟨S100000x256, .f32⟩
  | 123 => ⟨S100000x256, .f32⟩
  | 124 => ⟨S100000x256, .f32⟩
  | 125 => ⟨S_, .f32⟩
  | 126 => ⟨S100000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_6 : Ref sig .tc := ⟨.hbm, 63, rfl⟩
abbrev main_v46 : Ref sig .tc := ⟨.hbm, 64, rfl⟩
abbrev main_v47 : Ref sig .tc := ⟨.hbm, 65, rfl⟩
abbrev main_c_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_9 : Ref sig .tc := ⟨.hbm, 92, rfl⟩
abbrev main_call0_cst : Ref sig .tc := ⟨.hbm, 93, rfl⟩
abbrev main_call0_v0 : Ref sig .tc := ⟨.hbm, 94, rfl⟩
abbrev main_call0_v1 : Ref sig .tc := ⟨.hbm, 95, rfl⟩
abbrev main_call0_v2 : Ref sig .tc := ⟨.hbm, 96, rfl⟩
abbrev main_call0_v3 : Ref sig .tc := ⟨.hbm, 97, rfl⟩
abbrev main_call0_v4 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_10 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_11 : Ref sig .tc := ⟨.hbm, 106, rfl⟩
abbrev main_v78 : Ref sig .tc := ⟨.hbm, 107, rfl⟩
abbrev main_v79 : Ref sig .tc := ⟨.hbm, 108, rfl⟩
abbrev main_c_12 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_13 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_c_14 : Ref sig .tc := ⟨.hbm, 137, rfl⟩
abbrev main_v106 : Ref sig .tc := ⟨.hbm, 138, rfl⟩
abbrev main_v107 : Ref sig .tc := ⟨.hbm, 139, rfl⟩
abbrev main_c_15 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_16 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_cst_17 : Ref sig .tc := ⟨.hbm, 166, rfl⟩
abbrev main_call1_cst : Ref sig .tc := ⟨.hbm, 167, rfl⟩
abbrev main_call1_v0 : Ref sig .tc := ⟨.hbm, 168, rfl⟩
abbrev main_call1_v1 : Ref sig .tc := ⟨.hbm, 169, rfl⟩
abbrev main_call1_v2 : Ref sig .tc := ⟨.hbm, 170, rfl⟩
abbrev main_call1_v3 : Ref sig .tc := ⟨.hbm, 171, rfl⟩
abbrev main_call1_v4 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_cst_18 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_c_19 : Ref sig .tc := ⟨.hbm, 180, rfl⟩
abbrev main_v138 : Ref sig .tc := ⟨.hbm, 181, rfl⟩
abbrev main_v139 : Ref sig .tc := ⟨.hbm, 182, rfl⟩
abbrev main_c_20 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_cst_21 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_c_22 : Ref sig .tc := ⟨.hbm, 211, rfl⟩
abbrev main_v166 : Ref sig .tc := ⟨.hbm, 212, rfl⟩
abbrev main_v167 : Ref sig .tc := ⟨.hbm, 213, rfl⟩
abbrev main_c_23 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_cst_24 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_cst_25 : Ref sig .tc := ⟨.hbm, 240, rfl⟩
abbrev main_call2_cst : Ref sig .tc := ⟨.hbm, 241, rfl⟩
abbrev main_call2_v0 : Ref sig .tc := ⟨.hbm, 242, rfl⟩
abbrev main_call2_v1 : Ref sig .tc := ⟨.hbm, 243, rfl⟩
abbrev main_call2_v2 : Ref sig .tc := ⟨.hbm, 244, rfl⟩
abbrev main_call2_v3 : Ref sig .tc := ⟨.hbm, 245, rfl⟩
abbrev main_call2_v4 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_cst_26 : Ref sig .tc := ⟨.hbm, 253, rfl⟩
abbrev main_v198 : Ref sig .tc := ⟨.hbm, 254, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  concatenates_S100000x64_S100000x64_S200000x64_d0 : Shape.Concatenates [S100000x64, S100000x64] S200000x64 0
  bcast_S_S200000x64 : S_.BroadcastsInDim S200000x64 (![] : Fin 0 → Fin S200000x64.rank)
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  slices_S3x64x64_S1x64x64_0_0_0 : S3x64x64.Slices ![0, 0, 0] S1x64x64
  shapeCasts_S1x64x64_S64x64 : S1x64x64.ShapeCasts S64x64
  slices_S2x1600000_S1x1600000_1_0 : S2x1600000.Slices ![1, 0] S1x1600000
  slices_S200000x64_S100000x64_0_0 : S200000x64.Slices ![0, 0] S100000x64
  slices_S200000x64_S100000x64_100000_0 : S200000x64.Slices ![100000, 0] S100000x64
  slices_S3x64x64_S1x64x64_1_0_0 : S3x64x64.Slices ![1, 0, 0] S1x64x64
  slices_S3x64x64_S1x64x64_2_0_0 : S3x64x64.Slices ![2, 0, 0] S1x64x64
  concatenates_S100000x64_S100000x64_S100000x64_S100000x64_S100000x256_d1 : Shape.Concatenates [S100000x64, S100000x64, S100000x64, S100000x64] S100000x256 1
  reducesTo_S100000x256_S100000_d1 : S100000x256.ReducesTo [1] S100000
  h_S_ : 0 < S_.numel
  gather_S100000x64_S100000x1_S100000x64_1_0_n_n_0_1_164_wf : GatherDims.WF S100000x64 S100000x1 S100000x64 [1] [0] [] [0] [] 1 ![1, 64]
  gather_S200000x64_S1600000x1_S1600000x64_1_0_n_n_0_1_164_wf : GatherDims.WF S200000x64 S1600000x1 S1600000x64 [1] [0] [] [0] [] 1 ![1, 64]
  scatter_S200000x64_S1600000x1_S1600000x64_1_0_0_1_wf : ScatterDims.WF S200000x64 S1600000x1 S1600000x64 [1] [0] [0] 1
  dot_S200000x64_S64x64_S200000x64_1_0_0_1_n_n_wf : DotDims.WF S200000x64 S64x64 S200000x64 [1] [0] [0] [1] [] []

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def gather_S200000x64_S1600000x1_S1600000x64_1_0_n_n_0_1_164 : GatherDims S200000x64 S1600000x1 S1600000x64 where
  offsetDims := [1]
  collapsedSliceDims := [0]
  operandBatchingDims := []
  startIndicesBatchingDims := []
  startIndexMap := [0]
  indexVectorDim := 1
  sliceSizes := ![1, 64]
  wf := gather_S200000x64_S1600000x1_S1600000x64_1_0_n_n_0_1_164_wf
def scatter_S200000x64_S1600000x1_S1600000x64_1_0_0_1 : ScatterDims S200000x64 S1600000x1 S1600000x64 where
  updateWindowDims := [1]
  insertedWindowDims := [0]
  scatterDimsToOperandDims := [0]
  indexVectorDim := 1
  wf := scatter_S200000x64_S1600000x1_S1600000x64_1_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf

class Facts : Prop extends Facts₀ where

variable [Facts]
-- ==== Proof.K.Body0.lean ====
import proofs.«168404_j17343077941930_1_alg».proof.Proof.Gen.Kernel.Launch
import proofs.«168404_j17343077941930_1_alg».proof.Proof.Gen.Kernel.Skeleton
import proofs.«168404_j17343077941930_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 (the layer kernel of pipeline 0): the body half, at arbitrary entry contents `V`

Five windows over a grid of 50 points. Windows 0 and 1 are blocks of 4000 rows of two 200000×64 arrays, moved at
every point; windows 2 and 3 are two whole 64×64 weight matrices, moved once, at the first point; window 4 is the
4000×64 block of the result, written back at every point. The body reads the four input buffers whole, reads its
output buffer once without using the value, and overwrites the output buffer whole with one value computed from the
four reads. Hence: every input buffer holds, at every point, the block of its array at that point (for the weights:
the block index never moves, so what was fetched at the first point is still the block), and the output buffer is
left at the one store's value over those blocks. -/

-- membership of an index in a rectangle of 4000 rows is checked by structural recursion on the coordinates
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks -/

/-- The block of window `w` at point `t`: the window's array, at its entry contents, read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: for any proof data over the entry contents whose body leaves the window's buffer at the block,
    the buffer holds the block when the body starts at `t`, whether the block was moved in at `t` or earlier. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: for any proof data over the entry contents whose body leaves the window's buffer at the block,
    the buffer holds the block when the body starts at `t`, whether the block was moved in at `t` or earlier. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: for any proof data over the entry contents whose body leaves the window's buffer at the block,
    the buffer holds the block when the body starts at `t`, whether the block was moved in at `t` or earlier (it is
    moved in at the first point only; its block index is constant). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: for any proof data over the entry contents whose body leaves the window's buffer at the block,
    the buffer holds the block when the body starts at `t`, whether the block was moved in at `t` or earlier (it is
    moved in at the first point only; its block index is constant). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each buffer whole -/

abbrev r0_blk : Rect S4000x64 := Rect.unit (s := S4000x64) ![0, 0] S4000x64.size inb_S4000x64_S4000x64_0_0
abbrev r0_wt : Rect S64x64 := Rect.unit (s := S64x64) ![0, 0] S64x64.size inb_S64x64_S64x64_0_0

/-! ## The output buffer after the body -/

/-- What the body leaves in the output buffer, as a function of what the four input buffers read: its single
    whole-buffer store, whose value is `k0_pay1` of the four whole-buffer reads. -/
def out0_4 (x0 x1 : Vec F S4000x64 .f32) (x2 x3 : Vec F S64x64 .f32) : Vec F S4000x64 .f32 :=
  View.canon [⟨r0_blk, k0_pay1 (View.ld x0 r0_blk) (View.ld x1 r0_blk) (View.ld x2 r0_wt) (View.ld x3 r0_wt)⟩]

/-- The one store covers the buffer: the whole rectangle tiles it. -/
theorem cover0_4 (p0 : Vec F S4000x64 .f32) (y : S4000x64.Idx) :
    ∃ pc ∈ ([⟨r0_blk, p0⟩] : List (View.Piece (Elt F) S4000x64 .f32)), y ∈ pc.1.set :=
  View.cover_of_tiled [⟨r0_blk, p0⟩] S4000x64.size (by rfl) y

/-! ## The body's triple -/

set_option maxHeartbeats 1000000 in
/-- On five whole buffers, the inputs reading `x0 … x3` and the output holding anything, the body terminates with
    the inputs unchanged and the output at `out0_4 x0 x1 x2 x3`. -/
theorem sound_kernel0 (c : Dev nD) (E : Set ℕ) (i : grid0.Coords)
    (arg1 : Memref sig .tc .vmem S4000x64 .f32) (harg1 : arg1.IsWhole) (arg2 : Memref sig .tc .vmem S4000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S4000x64 .f32) (harg5 : arg5.IsWhole)
    (x0 x1 : Vec F S4000x64 .f32) (x2 x3 : Vec F S64x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__layer_kernel i arg1 harg1 arg2 harg2 arg3 harg3 arg4 harg4 arg5 harg5) K := by
  simp only [cc0__layer_kernel_eq_skeleton]; unfold cc0__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The proof data -/

/-- Pipeline 0's proof data on core `c`: the arrays at the entry contents; after the body at `t` every input
    buffer at its block and the output buffer at `out0_4` of the four blocks; the invariant is the rest of the
    core's scoped memory and its generator register, untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Every input buffer holds its block when the body starts, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is started with at point `t`: the invariant, the core's debts, and each window's current
    staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it must return. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the input buffers hold their blocks, so the body's triple applies; the invariant and
    the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
import proofs.«168404_j17343077941930_1_alg».proof.Proof.Gen.Kernel.Launch
import proofs.«168404_j17343077941930_1_alg».proof.Proof.Gen.Kernel.Skeleton
import proofs.«168404_j17343077941930_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 (the layer kernel of pipeline 1): the body half, at arbitrary entry contents `V`

Five windows over a grid of 50 points. Windows 0 and 1 are blocks of 4000 rows of two 200000×64 arrays, moved at
every point; windows 2 and 3 are two whole 64×64 weight matrices, moved once, at the first point; window 4 is the
4000×64 block of the result, written back at every point. The body reads the four input buffers whole, reads its
output buffer once without using the value, and overwrites the output buffer whole with one value computed from the
four reads. Hence: every input buffer holds, at every point, the block of its array at that point (for the weights:
the block index never moves, so what was fetched at the first point is still the block), and the output buffer is
left at the one store's value over those blocks. -/

-- membership of an index in a rectangle of 4000 rows is checked by structural recursion on the coordinates
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks -/

/-- The block of window `w` at point `t`: the window's array, at its entry contents, read through the block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: for any proof data over the entry contents whose body leaves the window's buffer at the block,
    the buffer holds the block when the body starts at `t`, whether the block was moved in at `t` or earlier. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: for any proof data over the entry contents whose body leaves the window's buffer at the block,
    the buffer holds the block when the body starts at `t`, whether the block was moved in at `t` or earlier. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: for any proof data over the entry contents whose body leaves the window's buffer at the block,
    the buffer holds the block when the body starts at `t`, whether the block was moved in at `t` or earlier (it is
    moved in at the first point only; its block index is constant). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: for any proof data over the entry contents whose body leaves the window's buffer at the block,
    the buffer holds the block when the body starts at `t`, whether the block was moved in at `t` or earlier (it is
    moved in at the first point only; its block index is constant). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each buffer whole -/

abbrev r1_blk : Rect S4000x64 := Rect.unit (s := S4000x64) ![0, 0] S4000x64.size inb_S4000x64_S4000x64_0_0
abbrev r1_wt : Rect S64x64 := Rect.unit (s := S64x64) ![0, 0] S64x64.size inb_S64x64_S64x64_0_0

/-! ## The output buffer after the body -/

/-- What the body leaves in the output buffer, as a function of what the four input buffers read: its single
    whole-buffer store, whose value is `k1_pay1` of the four whole-buffer reads. -/
def out1_4 (x0 x1 : Vec F S4000x64 .f32) (x2 x3 : Vec F S64x64 .f32) : Vec F S4000x64 .f32 :=
  View.canon [⟨r1_blk, k1_pay1 (View.ld x0 r1_blk) (View.ld x1 r1_blk) (View.ld x2 r1_wt) (View.ld x3 r1_wt)⟩]

/-- The one store covers the buffer: the whole rectangle tiles it. -/
theorem cover1_4 (p0 : Vec F S4000x64 .f32) (y : S4000x64.Idx) :
    ∃ pc ∈ ([⟨r1_blk, p0⟩] : List (View.Piece (Elt F) S4000x64 .f32)), y ∈ pc.1.set :=
  View.cover_of_tiled [⟨r1_blk, p0⟩] S4000x64.size (by rfl) y

/-! ## The body's triple -/

set_option maxHeartbeats 1000000 in
/-- On five whole buffers, the inputs reading `x0 … x3` and the output holding anything, the body terminates with
    the inputs unchanged and the output at `out1_4 x0 x1 x2 x3`. -/
theorem sound_kernel1 (c : Dev nD) (E : Set ℕ) (i : grid1.Coords)
    (arg1 : Memref sig .tc .vmem S4000x64 .f32) (harg1 : arg1.IsWhole) (arg2 : Memref sig .tc .vmem S4000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S4000x64 .f32) (harg5 : arg5.IsWhole)
    (x0 x1 : Vec F S4000x64 .f32) (x2 x3 : Vec F S64x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__layer_kernel i arg1 harg1 arg2 harg2 arg3 harg3 arg4 harg4 arg5 harg5) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data -/

/-- Pipeline 1's proof data on core `c`: the arrays at the entry contents; after the body at `t` every input
    buffer at its block and the output buffer at `out1_4` of the four blocks; the invariant is the rest of the
    core's scoped memory and its generator register, untouched; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The arrays of the proof data are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Every input buffer holds its block when the body starts, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is started with at point `t`: the invariant, the core's debts, and each window's current
    staging buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it must return. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so the body's triple applies; the invariant and
    the debts are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
import proofs.«168404_j17343077941930_1_alg».proof.Proof.Gen.Kernel.Launch
import proofs.«168404_j17343077941930_1_alg».proof.Proof.Gen.Kernel.Skeleton
import proofs.«168404_j17343077941930_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 (the layer kernel of pipeline 2): the body half, at arbitrary entry contents `V`

Five windows over a grid of 50 points. Windows 0 and 1 are blocks of 4000 rows of two 200000×64 arrays, moved at
every point; windows 2 and 3 are two whole 64×64 weight matrices, moved once, at the first point; window 4 is the
4000×64 block of the result, written back at every point. The body reads the four input buffers whole, reads its
output buffer once without using the value, and overwrites the output buffer whole with one value computed from the
four reads. Hence: every input buffer holds, at every point, the block of its array at that point (for the weights:
the block index never moves, so what was fetched at the first point is still the block), and the output buffer is
left at the one store's value over those blocks. -/

-- membership of an index in a rectangle of 4000 rows is checked by structural recursion on the coordinates
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks -/

/-- The block of window `w` at point `t`: the window's array, at its entry contents, read through the block's view. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: for any proof data over the entry contents whose body leaves the window's buffer at the block,
    the buffer holds the block when the body starts at `t`, whether the block was moved in at `t` or earlier. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: for any proof data over the entry contents whose body leaves the window's buffer at the block,
    the buffer holds the block when the body starts at `t`, whether the block was moved in at `t` or earlier. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: for any proof data over the entry contents whose body leaves the window's buffer at the block,
    the buffer holds the block when the body starts at `t`, whether the block was moved in at `t` or earlier (it is
    moved in at the first point only; its block index is constant). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: for any proof data over the entry contents whose body leaves the window's buffer at the block,
    the buffer holds the block when the body starts at `t`, whether the block was moved in at `t` or earlier (it is
    moved in at the first point only; its block index is constant). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each buffer whole -/

abbrev r2_blk : Rect S4000x64 := Rect.unit (s := S4000x64) ![0, 0] S4000x64.size inb_S4000x64_S4000x64_0_0
abbrev r2_wt : Rect S64x64 := Rect.unit (s := S64x64) ![0, 0] S64x64.size inb_S64x64_S64x64_0_0

/-! ## The output buffer after the body -/

/-- What the body leaves in the output buffer, as a function of what the four input buffers read: its single
    whole-buffer store, whose value is `k2_pay1` of the four whole-buffer reads. -/
def out2_4 (x0 x1 : Vec F S4000x64 .f32) (x2 x3 : Vec F S64x64 .f32) : Vec F S4000x64 .f32 :=
  View.canon [⟨r2_blk, k2_pay1 (View.ld x0 r2_blk) (View.ld x1 r2_blk) (View.ld x2 r2_wt) (View.ld x3 r2_wt)⟩]

/-- The one store covers the buffer: the whole rectangle tiles it. -/
theorem cover2_4 (p0 : Vec F S4000x64 .f32) (y : S4000x64.Idx) :
    ∃ pc ∈ ([⟨r2_blk, p0⟩] : List (View.Piece (Elt F) S4000x64 .f32)), y ∈ pc.1.set :=
  View.cover_of_tiled [⟨r2_blk, p0⟩] S4000x64.size (by rfl) y

/-! ## The body's triple -/

set_option maxHeartbeats 1000000 in
/-- On five whole buffers, the inputs reading `x0 … x3` and the output holding anything, the body terminates with
    the inputs unchanged and the output at `out2_4 x0 x1 x2 x3`. -/
theorem sound_kernel2 (c : Dev nD) (E : Set ℕ) (i : grid2.Coords)
    (arg1 : Memref sig .tc .vmem S4000x64 .f32) (harg1 : arg1.IsWhole) (arg2 : Memref sig .tc .vmem S4000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S4000x64 .f32) (harg5 : arg5.IsWhole)
    (x0 x1 : Vec F S4000x64 .f32) (x2 x3 : Vec F S64x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1 x2 x3)) -∗ K ⟨⟩))
      ⊢ wp frame (wpE (defs₀ (F := F)) Variants.none c none) E (cc2__layer_kernel i arg1 harg1 arg2 harg2 arg3 harg3 arg4 harg4 arg5 harg5) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The proof data -/

/-- Pipeline 2's proof data on core `c`: the arrays at the entry contents; after the body at `t` every input
    buffer at its block and the output buffer at `out2_4` of the four blocks; the invariant is the rest of the
    core's scoped memory and its generator register, untouched; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The arrays of the proof data are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Every input buffer holds its block when the body starts, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

/-- What the body is started with at point `t`: the invariant, the core's debts, and each window's current
    staging buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it must return. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the input buffers hold their blocks, so the body's triple applies; the invariant and
    the debts are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Body3.lean ====
import proofs.«168404_j17343077941930_1_alg».proof.Proof.Gen.Kernel.Launch
import proofs.«168404_j17343077941930_1_alg».proof.Proof.Gen.Kernel.Skeleton
import proofs.«168404_j17343077941930_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 (the final reduction kernel, pipeline 3): the body half, at arbitrary entry contents `V`

Three windows over a grid of 50 points. Windows 0 and 1 are blocks of 2000 rows of two 100000×256 arrays, moved at
every point; window 2 is the 2000×1 block of the result, written back at every point. The body reads the two input
buffers whole, reads its output buffer once without using the value, and overwrites the output buffer whole with one
value computed from the two reads. Hence every input buffer holds, at every point, the block of its array at that
point, and the output buffer is left at the one store's value over those two blocks. -/

-- membership of an index in a rectangle of 2000 rows is checked by structural recursion on the coordinates
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks -/

/-- The block of window `w` at point `t`: the window's array, at its entry contents, read through the block's view. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: for any proof data over the entry contents whose body leaves the window's buffer at the block,
    the buffer holds the block when the body starts at `t`. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: for any proof data over the entry contents whose body leaves the window's buffer at the block,
    the buffer holds the block when the body starts at `t`. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each buffer whole -/

abbrev r3_blk : Rect S2000x256 := Rect.unit (s := S2000x256) ![0, 0] S2000x256.size inb_S2000x256_S2000x256_0_0
abbrev r3_res : Rect S2000x1 := Rect.unit (s := S2000x1) ![0, 0] S2000x1.size inb_S2000x1_S2000x1_0_0

/-! ## The output buffer after the body -/

/-- What the body leaves in the output buffer, as a function of what the two input buffers read: its single
    whole-buffer store, whose value is `k3_pay1` of the two whole-buffer reads. -/
def out3_2 (x0 x1 : Vec F S2000x256 .f32) : Vec F S2000x1 .f32 :=
  View.canon [⟨r3_res, k3_pay1 (View.ld x0 r3_blk) (View.ld x1 r3_blk)⟩]

/-- The one store covers the buffer: the whole rectangle tiles it. -/
theorem cover3_2 (p0 : Vec F S2000x1 .f32) (y : S2000x1.Idx) :
    ∃ pc ∈ ([⟨r3_res, p0⟩] : List (View.Piece (Elt F) S2000x1 .f32)), y ∈ pc.1.set :=
  View.cover_of_tiled [⟨r3_res, p0⟩] S2000x1.size (by rfl) y

/-! ## The body's triple -/

set_option maxHeartbeats 1000000 in
/-- On three whole buffers, the inputs reading `x0`, `x1` and the output holding anything, the body terminates with
    the inputs unchanged and the output at `out3_2 x0 x1`. -/
theorem sound_kernel3 (c : Dev nD) (E : Set ℕ) (i : grid3.Coords)
    (arg1 : Memref sig .tc .vmem S2000x256 .f32) (harg1 : arg1.IsWhole) (arg2 : Memref sig .tc .vmem S2000x256 .f32) (harg2 : arg2.IsWhole)
    (arg3 : Memref sig .tc .vmem S2000x1 .f32) (harg3 : arg3.IsWhole)
    (x0 x1 : Vec F S2000x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__final_reduce_kernel i arg1 harg1 arg2 harg2 arg3 harg3) K := by
  simp only [cc3__final_reduce_kernel_eq_skeleton]; unfold cc3__final_reduce_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data -/

/-- Pipeline 3's proof data on core `c`: the arrays at the entry contents; after the body at `t` every input
    buffer at its block and the output buffer at `out3_2` of the two blocks; the invariant is the rest of the
    core's scoped memory and its generator register, untouched; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The arrays of the proof data are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

/-- Every input buffer holds its block when the body starts, at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

/-- What the body is started with at point `t`: the invariant, the core's debts, and each window's current
    staging buffer, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it must return. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the input buffers hold their blocks, so the body's triple applies; the invariant and
    the debts are not touched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Folds.lean ====
/-
  The buffer contents at every boundary of @main, as a fold from the launch memory: a stretch of host operations
  maps the contents through its operations; a kernel region replaces its arrays by what its grid leaves in them
  (each input as entered, the output block by block what the body stored) and keeps every other buffer.
-/
import proofs.«168404_j17343077941930_1_alg».proof.Proof.K.Body0
import proofs.«168404_j17343077941930_1_alg».proof.Proof.K.Body1
import proofs.«168404_j17343077941930_1_alg».proof.Proof.K.Body2
import proofs.«168404_j17343077941930_1_alg».proof.Proof.K.Body3

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host operations `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (inputs as entered, the output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host operations `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (inputs as entered, the output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host operations `hostOps3`. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-- At region 3's exit: its arrays at what the pipeline leaves (inputs as entered, the output's write-backs folded),
    every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host operations `hostOps4`. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b

end Cert.Kernel.Hand

end
-- ==== Proof.K.State.lean ====
/-
  The proof data of the four kernel regions, each at the contents its region is entered with, and what rides beside
  the buffers from segment to segment: the core's generator register at some state and the core owing nothing.
-/
import proofs.«168404_j17343077941930_1_alg».proof.Proof.K.Folds

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 4) → (pcfgs (F := F) p).Adm := fun p => (cfgs p).toPCfg_adm
/-- Every pipeline's proof data, each at its region's entry contents (a literal match, so that the pinned
    configuration at a numeral reduces to the printed one). -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of @main allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Reg0.lean ====
/-
  Kernel region 0 of @main as a segment between thread states "every unscoped buffer at the boundary's contents".
-/
import proofs.«168404_j17343077941930_1_alg».proof.Proof.K.State

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's lemmas are stated over `pin pcs a p`; unifying them with the printed configuration unfolds plain
-- definitions inside a metavariable's type
set_option backward.isDefEq.respectTransparency.types false in
/-- Region 0 over the thread state: entered from every unscoped buffer at `W1`, left with them at `W2`. Its
    arrays are split out of the unscoped buffers at entry and put back at the exit contents; the generator register
    goes into the kernel's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg1.lean ====
/-
  Kernel region 1 of @main as a segment between thread states "every unscoped buffer at the boundary's contents".
-/
import proofs.«168404_j17343077941930_1_alg».proof.Proof.K.State

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's lemmas are stated over `pin pcs a p`; unifying them with the printed configuration unfolds plain
-- definitions inside a metavariable's type
set_option backward.isDefEq.respectTransparency.types false in
/-- Region 1 over the thread state: entered from every unscoped buffer at `W3`, left with them at `W4`. Its
    arrays are split out of the unscoped buffers at entry and put back at the exit contents; the generator register
    goes into the kernel's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg2.lean ====
/-
  Kernel region 2 of @main as a segment between thread states "every unscoped buffer at the boundary's contents".
-/
import proofs.«168404_j17343077941930_1_alg».proof.Proof.K.State

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's lemmas are stated over `pin pcs a p`; unifying them with the printed configuration unfolds plain
-- definitions inside a metavariable's type
set_option backward.isDefEq.respectTransparency.types false in
/-- Region 2 over the thread state: entered from every unscoped buffer at `W5`, left with them at `W6`. Its
    arrays are split out of the unscoped buffers at entry and put back at the exit contents; the generator register
    goes into the kernel's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg3.lean ====
/-
  Kernel region 3 of @main as a segment between thread states "every unscoped buffer at the boundary's contents".
-/
import proofs.«168404_j17343077941930_1_alg».proof.Proof.K.State

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's lemmas are stated over `pin pcs a p`; unifying them with the printed configuration unfolds plain
-- definitions inside a metavariable's type
set_option backward.isDefEq.respectTransparency.types false in
/-- Region 3 over the thread state: entered from every unscoped buffer at `W7`, left with them at `W8`. Its
    arrays are split out of the unscoped buffers at entry and put back at the exit contents; the generator register
    goes into the kernel's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RunMain.lean ====
/-
  @main as its nine segments — five stretches of host operations around the four kernel regions — and the launch:
  every weakly fair execution terminates, and every unscoped buffer of every core ends at the last boundary's contents.
-/
import proofs.«168404_j17343077941930_1_alg».proof.Proof.K.Reg0
import proofs.«168404_j17343077941930_1_alg».proof.Proof.K.Reg1
import proofs.«168404_j17343077941930_1_alg».proof.Proof.K.Reg2
import proofs.«168404_j17343077941930_1_alg».proof.Proof.K.Reg3

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]

/-- @main is the run of its segments. -/
theorem main_run (c : Dev nD) : main (F := F) c = Pipeline.Seg.run (segs m ρ) := (main_chain c).trans (by chain_rfl)

/-- The last thread state without the core's debts: every unscoped buffer at the last boundary's contents, the
    generator register at some state. -/
abbrev Tₙ (c : Dev nD) : sProp 𝕄 := iprop(StableHlo.held (c : Thread nD τ) (Pipeline.ucRefs τ sig) (W9 m ρ c) ∗ ∃ r, prngReg c r)

set_option backward.isDefEq.respectTransparency.types false in
/-- From any memory with zero counters every weakly fair execution of @main terminates, nothing faulting, and in
    every final state each unscoped buffer of each core holds the fold of @main's segments over the launch memory. -/
theorem run_main : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W9 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c b hb => h c _ (mem_uc b hb))

end Cert.Kernel.Hand

end
-- ==== Proof.K.HostKeep0.lean ====
/-
  No operation of the host stretch `hostOps0` writes an argument array: through it each argument's buffer keeps its contents.
-/
import proofs.«168404_j17343077941930_1_alg».proof.Proof.Gen.Kernel.Launch
import Idealize.ShloMosaic.Lib.StableHlo.Run

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

set_option maxRecDepth 16384

theorem host0_arg0 (W : Valuation τ sig (Elt F)) :
    StableHlo.after (hostOps0 (F := F)) W (Proc.devRef .tc main_arg0) = W (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host0_arg1 (W : Valuation τ sig (Elt F)) :
    StableHlo.after (hostOps0 (F := F)) W (Proc.devRef .tc main_arg1) = W (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host0_arg2 (W : Valuation τ sig (Elt F)) :
    StableHlo.after (hostOps0 (F := F)) W (Proc.devRef .tc main_arg2) = W (Proc.devRef .tc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host0_arg3 (W : Valuation τ sig (Elt F)) :
    StableHlo.after (hostOps0 (F := F)) W (Proc.devRef .tc main_arg3) = W (Proc.devRef .tc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host0_arg4 (W : Valuation τ sig (Elt F)) :
    StableHlo.after (hostOps0 (F := F)) W (Proc.devRef .tc main_arg4) = W (Proc.devRef .tc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host0_arg5 (W : Valuation τ sig (Elt F)) :
    StableHlo.after (hostOps0 (F := F)) W (Proc.devRef .tc main_arg5) = W (Proc.devRef .tc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host0_arg6 (W : Valuation τ sig (Elt F)) :
    StableHlo.after (hostOps0 (F := F)) W (Proc.devRef .tc main_arg6) = W (Proc.devRef .tc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host0_arg7 (W : Valuation τ sig (Elt F)) :
    StableHlo.after (hostOps0 (F := F)) W (Proc.devRef .tc main_arg7) = W (Proc.devRef .tc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host0_arg8 (W : Valuation τ sig (Elt F)) :
    StableHlo.after (hostOps0 (F := F)) W (Proc.devRef .tc main_arg8) = W (Proc.devRef .tc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.Kernel.Hand

end
-- ==== Proof.K.HostKeep1.lean ====
/-
  No operation of the host stretch `hostOps1` writes an argument array: through it each argument's buffer keeps its contents.
-/
import proofs.«168404_j17343077941930_1_alg».proof.Proof.Gen.Kernel.Launch
import Idealize.ShloMosaic.Lib.StableHlo.Run

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

set_option maxRecDepth 16384

theorem host1_arg0 (W : Valuation τ sig (Elt F)) :
    StableHlo.after (hostOps1 (F := F)) W (Proc.devRef .tc main_arg0) = W (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host1_arg1 (W : Valuation τ sig (Elt F)) :
    StableHlo.after (hostOps1 (F := F)) W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host1_arg2 (W : Valuation τ sig (Elt F)) :
    StableHlo.after (hostOps1 (F := F)) W (Proc.devRef .tc main_arg2) = W (Proc.devRef .tc main_arg2) :=
  StableHlo.after_of_forall_not_mem (b := Proc.devRef .tc main_arg2) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host1_arg3 (W : Valuation τ sig (Elt F)) :
    StableHlo.after (hostOps1 (F := F)) W (Proc.devRef .tc main_arg3) = W (Proc.devRef .tc main_arg3) :=
  StableHlo.after_of_forall_not_mem (b := Proc.devRef .tc main_arg3) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host1_arg4 (W : Valuation τ sig (Elt F)) :
    StableHlo.after (hostOps1 (F := F)) W (Proc.devRef .tc main_arg4) = W (Proc.devRef .tc main_arg4) :=
  StableHlo.after_of_forall_not_mem (b := Proc.devRef .tc main_arg4) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host1_arg5 (W : Valuation τ sig (Elt F)) :
    StableHlo.after (hostOps1 (F := F)) W (Proc.devRef .tc main_arg5) = W (Proc.devRef .tc main_arg5) :=
  StableHlo.after_of_forall_not_mem (b := Proc.devRef .tc main_arg5) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host1_arg6 (W : Valuation τ sig (Elt F)) :
    StableHlo.after (hostOps1 (F := F)) W (Proc.devRef .tc main_arg6) = W (Proc.devRef .tc main_arg6) :=
  StableHlo.after_of_forall_not_mem (b := Proc.devRef .tc main_arg6) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host1_arg7 (W : Valuation τ sig (Elt F)) :
    StableHlo.after (hostOps1 (F := F)) W (Proc.devRef .tc main_arg7) = W (Proc.devRef .tc main_arg7) :=
  StableHlo.after_of_forall_not_mem (b := Proc.devRef .tc main_arg7) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host1_arg8 (W : Valuation τ sig (Elt F)) :
    StableHlo.after (hostOps1 (F := F)) W (Proc.devRef .tc main_arg8) = W (Proc.devRef .tc main_arg8) :=
  StableHlo.after_of_forall_not_mem (b := Proc.devRef .tc main_arg8) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.Kernel.Hand

end
-- ==== Proof.K.HostKeep2.lean ====
/-
  No operation of the host stretch `hostOps2` writes an argument array: through it each argument's buffer keeps its contents.
-/
import proofs.«168404_j17343077941930_1_alg».proof.Proof.Gen.Kernel.Launch
import Idealize.ShloMosaic.Lib.StableHlo.Run

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

set_option maxRecDepth 16384

theorem host2_arg0 (W : Valuation τ sig (Elt F)) :
    StableHlo.after (hostOps2 (F := F)) W (Proc.devRef .tc main_arg0) = W (Proc.devRef .tc main_arg0) :=
  StableHlo.after_of_forall_not_mem (b := Proc.devRef .tc main_arg0) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host2_arg1 (W : Valuation τ sig (Elt F)) :
    StableHlo.after (hostOps2 (F := F)) W (Proc.devRef .tc main_arg1) = W (Proc.devRef .tc main_arg1) :=
  StableHlo.after_of_forall_not_mem (b := Proc.devRef .tc main_arg1) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host2_arg2 (W : Valuation τ sig (Elt F)) :
    StableHlo.after (hostOps2 (F := F)) W (Proc.devRef .tc main_arg2) = W (Proc.devRef .tc main_arg2) :=
  StableHlo.after_of_forall_not_mem (b := Proc.devRef .tc main_arg2) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host2_arg3 (W : Valuation τ sig (Elt F)) :
    StableHlo.after (hostOps2 (F := F)) W (Proc.devRef .tc main_arg3) = W (Proc.devRef .tc main_arg3) :=
  StableHlo.after_of_forall_not_mem (b := Proc.devRef .tc main_arg3) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host2_arg4 (W : Valuation τ sig (Elt F)) :
    StableHlo.after (hostOps2 (F := F)) W (Proc.devRef .tc main_arg4) = W (Proc.devRef .tc main_arg4) :=
  StableHlo.after_of_forall_not_mem (b := Proc.devRef .tc main_arg4) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host2_arg5 (W : Valuation τ sig (Elt F)) :
    StableHlo.after (hostOps2 (F := F)) W (Proc.devRef .tc main_arg5) = W (Proc.devRef .tc main_arg5) :=
  StableHlo.after_of_forall_not_mem (b := Proc.devRef .tc main_arg5) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host2_arg6 (W : Valuation τ sig (Elt F)) :
    StableHlo.after (hostOps2 (F := F)) W (Proc.devRef .tc main_arg6) = W (Proc.devRef .tc main_arg6) :=
  StableHlo.after_of_forall_not_mem (b := Proc.devRef .tc main_arg6) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host2_arg7 (W : Valuation τ sig (Elt F)) :
    StableHlo.after (hostOps2 (F := F)) W (Proc.devRef .tc main_arg7) = W (Proc.devRef .tc main_arg7) :=
  StableHlo.after_of_forall_not_mem (b := Proc.devRef .tc main_arg7) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host2_arg8 (W : Valuation τ sig (Elt F)) :
    StableHlo.after (hostOps2 (F := F)) W (Proc.devRef .tc main_arg8) = W (Proc.devRef .tc main_arg8) :=
  StableHlo.after_of_forall_not_mem (b := Proc.devRef .tc main_arg8) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.Kernel.Hand

end
-- ==== Proof.K.HostKeep3.lean ====
/-
  No operation of the host stretch `hostOps3` writes an argument array: through it each argument's buffer keeps its contents.
-/
import proofs.«168404_j17343077941930_1_alg».proof.Proof.Gen.Kernel.Launch
import Idealize.ShloMosaic.Lib.StableHlo.Run

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

set_option maxRecDepth 16384

theorem host3_arg0 (W : Valuation τ sig (Elt F)) :
    StableHlo.after (hostOps3 (F := F)) W (Proc.devRef .tc main_arg0) = W (Proc.devRef .tc main_arg0) :=
  StableHlo.after_of_forall_not_mem (b := Proc.devRef .tc main_arg0) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host3_arg1 (W : Valuation τ sig (Elt F)) :
    StableHlo.after (hostOps3 (F := F)) W (Proc.devRef .tc main_arg1) = W (Proc.devRef .tc main_arg1) :=
  StableHlo.after_of_forall_not_mem (b := Proc.devRef .tc main_arg1) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host3_arg2 (W : Valuation τ sig (Elt F)) :
    StableHlo.after (hostOps3 (F := F)) W (Proc.devRef .tc main_arg2) = W (Proc.devRef .tc main_arg2) :=
  StableHlo.after_of_forall_not_mem (b := Proc.devRef .tc main_arg2) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host3_arg3 (W : Valuation τ sig (Elt F)) :
    StableHlo.after (hostOps3 (F := F)) W (Proc.devRef .tc main_arg3) = W (Proc.devRef .tc main_arg3) :=
  StableHlo.after_of_forall_not_mem (b := Proc.devRef .tc main_arg3) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host3_arg4 (W : Valuation τ sig (Elt F)) :
    StableHlo.after (hostOps3 (F := F)) W (Proc.devRef .tc main_arg4) = W (Proc.devRef .tc main_arg4) :=
  StableHlo.after_of_forall_not_mem (b := Proc.devRef .tc main_arg4) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host3_arg5 (W : Valuation τ sig (Elt F)) :
    StableHlo.after (hostOps3 (F := F)) W (Proc.devRef .tc main_arg5) = W (Proc.devRef .tc main_arg5) :=
  StableHlo.after_of_forall_not_mem (b := Proc.devRef .tc main_arg5) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host3_arg6 (W : Valuation τ sig (Elt F)) :
    StableHlo.after (hostOps3 (F := F)) W (Proc.devRef .tc main_arg6) = W (Proc.devRef .tc main_arg6) :=
  StableHlo.after_of_forall_not_mem (b := Proc.devRef .tc main_arg6) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host3_arg7 (W : Valuation τ sig (Elt F)) :
    StableHlo.after (hostOps3 (F := F)) W (Proc.devRef .tc main_arg7) = W (Proc.devRef .tc main_arg7) :=
  StableHlo.after_of_forall_not_mem (b := Proc.devRef .tc main_arg7) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host3_arg8 (W : Valuation τ sig (Elt F)) :
    StableHlo.after (hostOps3 (F := F)) W (Proc.devRef .tc main_arg8) = W (Proc.devRef .tc main_arg8) :=
  StableHlo.after_of_forall_not_mem (b := Proc.devRef .tc main_arg8) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.Kernel.Hand

end
-- ==== Proof.K.HostKeep4.lean ====
/-
  No operation of the host stretch `hostOps4` writes an argument array: through it each argument's buffer keeps its contents.
-/
import proofs.«168404_j17343077941930_1_alg».proof.Proof.Gen.Kernel.Launch
import Idealize.ShloMosaic.Lib.StableHlo.Run

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

set_option maxRecDepth 16384

theorem host4_arg0 (W : Valuation τ sig (Elt F)) :
    StableHlo.after (hostOps4 (F := F)) W (Proc.devRef .tc main_arg0) = W (Proc.devRef .tc main_arg0) :=
  StableHlo.after_of_forall_not_mem (b := Proc.devRef .tc main_arg0) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host4_arg1 (W : Valuation τ sig (Elt F)) :
    StableHlo.after (hostOps4 (F := F)) W (Proc.devRef .tc main_arg1) = W (Proc.devRef .tc main_arg1) :=
  StableHlo.after_of_forall_not_mem (b := Proc.devRef .tc main_arg1) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host4_arg2 (W : Valuation τ sig (Elt F)) :
    StableHlo.after (hostOps4 (F := F)) W (Proc.devRef .tc main_arg2) = W (Proc.devRef .tc main_arg2) :=
  StableHlo.after_of_forall_not_mem (b := Proc.devRef .tc main_arg2) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host4_arg3 (W : Valuation τ sig (Elt F)) :
    StableHlo.after (hostOps4 (F := F)) W (Proc.devRef .tc main_arg3) = W (Proc.devRef .tc main_arg3) :=
  StableHlo.after_of_forall_not_mem (b := Proc.devRef .tc main_arg3) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host4_arg4 (W : Valuation τ sig (Elt F)) :
    StableHlo.after (hostOps4 (F := F)) W (Proc.devRef .tc main_arg4) = W (Proc.devRef .tc main_arg4) :=
  StableHlo.after_of_forall_not_mem (b := Proc.devRef .tc main_arg4) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host4_arg5 (W : Valuation τ sig (Elt F)) :
    StableHlo.after (hostOps4 (F := F)) W (Proc.devRef .tc main_arg5) = W (Proc.devRef .tc main_arg5) :=
  StableHlo.after_of_forall_not_mem (b := Proc.devRef .tc main_arg5) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host4_arg6 (W : Valuation τ sig (Elt F)) :
    StableHlo.after (hostOps4 (F := F)) W (Proc.devRef .tc main_arg6) = W (Proc.devRef .tc main_arg6) :=
  StableHlo.after_of_forall_not_mem (b := Proc.devRef .tc main_arg6) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host4_arg7 (W : Valuation τ sig (Elt F)) :
    StableHlo.after (hostOps4 (F := F)) W (Proc.devRef .tc main_arg7) = W (Proc.devRef .tc main_arg7) :=
  StableHlo.after_of_forall_not_mem (b := Proc.devRef .tc main_arg7) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host4_arg8 (W : Valuation τ sig (Elt F)) :
    StableHlo.after (hostOps4 (F := F)) W (Proc.devRef .tc main_arg8) = W (Proc.devRef .tc main_arg8) :=
  StableHlo.after_of_forall_not_mem (b := Proc.devRef .tc main_arg8) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.Kernel.Hand

end
-- ==== Proof.K.Args.lean ====
/-
  Every argument array ends as launched: no host operation writes one and no kernel region has one among its arrays,
  so its buffer's contents walk back through the nine boundaries to the launch memory.
-/
import proofs.«168404_j17343077941930_1_alg».proof.Proof.K.Folds
import proofs.«168404_j17343077941930_1_alg».proof.Proof.K.HostKeep0
import proofs.«168404_j17343077941930_1_alg».proof.Proof.K.HostKeep1
import proofs.«168404_j17343077941930_1_alg».proof.Proof.K.HostKeep2
import proofs.«168404_j17343077941930_1_alg».proof.Proof.K.HostKeep3
import proofs.«168404_j17343077941930_1_alg».proof.Proof.K.HostKeep4

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Argument 0 ends as launched. -/
theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := host4_arg0 _
    _ = W7 m ρ c (Proc.devRef .tc main_arg0) := W8_of_ne m ρ c main_arg0 (by decide)
    _ = W6 m ρ c (Proc.devRef .tc main_arg0) := host3_arg0 _
    _ = W5 m ρ c (Proc.devRef .tc main_arg0) := W6_of_ne m ρ c main_arg0 (by decide)
    _ = W4 m ρ c (Proc.devRef .tc main_arg0) := host2_arg0 _
    _ = W3 m ρ c (Proc.devRef .tc main_arg0) := W4_of_ne m ρ c main_arg0 (by decide)
    _ = W2 m ρ c (Proc.devRef .tc main_arg0) := host1_arg0 _
    _ = W1 m ρ c (Proc.devRef .tc main_arg0) := W2_of_ne m ρ c main_arg0 (by decide)
    _ = W0 m ρ c (Proc.devRef .tc main_arg0) := host0_arg0 _
    _ = m ((c : Thread nD τ).loc main_arg0) := rfl

/-- Argument 1 ends as launched. -/
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := host4_arg1 _
    _ = W7 m ρ c (Proc.devRef .tc main_arg1) := W8_of_ne m ρ c main_arg1 (by decide)
    _ = W6 m ρ c (Proc.devRef .tc main_arg1) := host3_arg1 _
    _ = W5 m ρ c (Proc.devRef .tc main_arg1) := W6_of_ne m ρ c main_arg1 (by decide)
    _ = W4 m ρ c (Proc.devRef .tc main_arg1) := host2_arg1 _
    _ = W3 m ρ c (Proc.devRef .tc main_arg1) := W4_of_ne m ρ c main_arg1 (by decide)
    _ = W2 m ρ c (Proc.devRef .tc main_arg1) := host1_arg1 _
    _ = W1 m ρ c (Proc.devRef .tc main_arg1) := W2_of_ne m ρ c main_arg1 (by decide)
    _ = W0 m ρ c (Proc.devRef .tc main_arg1) := host0_arg1 _
    _ = m ((c : Thread nD τ).loc main_arg1) := rfl

/-- Argument 2 ends as launched. -/
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := host4_arg2 _
    _ = W7 m ρ c (Proc.devRef .tc main_arg2) := W8_of_ne m ρ c main_arg2 (by decide)
    _ = W6 m ρ c (Proc.devRef .tc main_arg2) := host3_arg2 _
    _ = W5 m ρ c (Proc.devRef .tc main_arg2) := W6_of_ne m ρ c main_arg2 (by decide)
    _ = W4 m ρ c (Proc.devRef .tc main_arg2) := host2_arg2 _
    _ = W3 m ρ c (Proc.devRef .tc main_arg2) := W4_of_ne m ρ c main_arg2 (by decide)
    _ = W2 m ρ c (Proc.devRef .tc main_arg2) := host1_arg2 _
    _ = W1 m ρ c (Proc.devRef .tc main_arg2) := W2_of_ne m ρ c main_arg2 (by decide)
    _ = W0 m ρ c (Proc.devRef .tc main_arg2) := host0_arg2 _
    _ = m ((c : Thread nD τ).loc main_arg2) := rfl

/-- Argument 3 ends as launched. -/
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := host4_arg3 _
    _ = W7 m ρ c (Proc.devRef .tc main_arg3) := W8_of_ne m ρ c main_arg3 (by decide)
    _ = W6 m ρ c (Proc.devRef .tc main_arg3) := host3_arg3 _
    _ = W5 m ρ c (Proc.devRef .tc main_arg3) := W6_of_ne m ρ c main_arg3 (by decide)
    _ = W4 m ρ c (Proc.devRef .tc main_arg3) := host2_arg3 _
    _ = W3 m ρ c (Proc.devRef .tc main_arg3) := W4_of_ne m ρ c main_arg3 (by decide)
    _ = W2 m ρ c (Proc.devRef .tc main_arg3) := host1_arg3 _
    _ = W1 m ρ c (Proc.devRef .tc main_arg3) := W2_of_ne m ρ c main_arg3 (by decide)
    _ = W0 m ρ c (Proc.devRef .tc main_arg3) := host0_arg3 _
    _ = m ((c : Thread nD τ).loc main_arg3) := rfl

/-- Argument 4 ends as launched. -/
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := host4_arg4 _
    _ = W7 m ρ c (Proc.devRef .tc main_arg4) := W8_of_ne m ρ c main_arg4 (by decide)
    _ = W6 m ρ c (Proc.devRef .tc main_arg4) := host3_arg4 _
    _ = W5 m ρ c (Proc.devRef .tc main_arg4) := W6_of_ne m ρ c main_arg4 (by decide)
    _ = W4 m ρ c (Proc.devRef .tc main_arg4) := host2_arg4 _
    _ = W3 m ρ c (Proc.devRef .tc main_arg4) := W4_of_ne m ρ c main_arg4 (by decide)
    _ = W2 m ρ c (Proc.devRef .tc main_arg4) := host1_arg4 _
    _ = W1 m ρ c (Proc.devRef .tc main_arg4) := W2_of_ne m ρ c main_arg4 (by decide)
    _ = W0 m ρ c (Proc.devRef .tc main_arg4) := host0_arg4 _
    _ = m ((c : Thread nD τ).loc main_arg4) := rfl

/-- Argument 5 ends as launched. -/
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := host4_arg5 _
    _ = W7 m ρ c (Proc.devRef .tc main_arg5) := W8_of_ne m ρ c main_arg5 (by decide)
    _ = W6 m ρ c (Proc.devRef .tc main_arg5) := host3_arg5 _
    _ = W5 m ρ c (Proc.devRef .tc main_arg5) := W6_of_ne m ρ c main_arg5 (by decide)
    _ = W4 m ρ c (Proc.devRef .tc main_arg5) := host2_arg5 _
    _ = W3 m ρ c (Proc.devRef .tc main_arg5) := W4_of_ne m ρ c main_arg5 (by decide)
    _ = W2 m ρ c (Proc.devRef .tc main_arg5) := host1_arg5 _
    _ = W1 m ρ c (Proc.devRef .tc main_arg5) := W2_of_ne m ρ c main_arg5 (by decide)
    _ = W0 m ρ c (Proc.devRef .tc main_arg5) := host0_arg5 _
    _ = m ((c : Thread nD τ).loc main_arg5) := rfl

/-- Argument 6 ends as launched. -/
theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := host4_arg6 _
    _ = W7 m ρ c (Proc.devRef .tc main_arg6) := W8_of_ne m ρ c main_arg6 (by decide)
    _ = W6 m ρ c (Proc.devRef .tc main_arg6) := host3_arg6 _
    _ = W5 m ρ c (Proc.devRef .tc main_arg6) := W6_of_ne m ρ c main_arg6 (by decide)
    _ = W4 m ρ c (Proc.devRef .tc main_arg6) := host2_arg6 _
    _ = W3 m ρ c (Proc.devRef .tc main_arg6) := W4_of_ne m ρ c main_arg6 (by decide)
    _ = W2 m ρ c (Proc.devRef .tc main_arg6) := host1_arg6 _
    _ = W1 m ρ c (Proc.devRef .tc main_arg6) := W2_of_ne m ρ c main_arg6 (by decide)
    _ = W0 m ρ c (Proc.devRef .tc main_arg6) := host0_arg6 _
    _ = m ((c : Thread nD τ).loc main_arg6) := rfl

/-- Argument 7 ends as launched. -/
theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := host4_arg7 _
    _ = W7 m ρ c (Proc.devRef .tc main_arg7) := W8_of_ne m ρ c main_arg7 (by decide)
    _ = W6 m ρ c (Proc.devRef .tc main_arg7) := host3_arg7 _
    _ = W5 m ρ c (Proc.devRef .tc main_arg7) := W6_of_ne m ρ c main_arg7 (by decide)
    _ = W4 m ρ c (Proc.devRef .tc main_arg7) := host2_arg7 _
    _ = W3 m ρ c (Proc.devRef .tc main_arg7) := W4_of_ne m ρ c main_arg7 (by decide)
    _ = W2 m ρ c (Proc.devRef .tc main_arg7) := host1_arg7 _
    _ = W1 m ρ c (Proc.devRef .tc main_arg7) := W2_of_ne m ρ c main_arg7 (by decide)
    _ = W0 m ρ c (Proc.devRef .tc main_arg7) := host0_arg7 _
    _ = m ((c : Thread nD τ).loc main_arg7) := rfl

/-- Argument 8 ends as launched. -/
theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := host4_arg8 _
    _ = W7 m ρ c (Proc.devRef .tc main_arg8) := W8_of_ne m ρ c main_arg8 (by decide)
    _ = W6 m ρ c (Proc.devRef .tc main_arg8) := host3_arg8 _
    _ = W5 m ρ c (Proc.devRef .tc main_arg8) := W6_of_ne m ρ c main_arg8 (by decide)
    _ = W4 m ρ c (Proc.devRef .tc main_arg8) := host2_arg8 _
    _ = W3 m ρ c (Proc.devRef .tc main_arg8) := W4_of_ne m ρ c main_arg8 (by decide)
    _ = W2 m ρ c (Proc.devRef .tc main_arg8) := host1_arg8 _
    _ = W1 m ρ c (Proc.devRef .tc main_arg8) := W2_of_ne m ρ c main_arg8 (by decide)
    _ = W0 m ρ c (Proc.devRef .tc main_arg8) := host0_arg8 _
    _ = m ((c : Thread nD τ).loc main_arg8) := rfl

end Cert.Kernel.Hand

end
-- ==== Proof.K.Frame.lean ====
/-
  The frame: @main runs to the end, nothing faults, and the nine argument arrays end unchanged.
-/
import proofs.«168404_j17343077941930_1_alg».proof.Proof.K.RunMain
import proofs.«168404_j17343077941930_1_alg».proof.Proof.K.Args

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c main_arg0 (by decide)).trans (W9_main_arg0 m ρ c), (h c main_arg1 (by decide)).trans (W9_main_arg1 m ρ c),
     (h c main_arg2 (by decide)).trans (W9_main_arg2 m ρ c), (h c main_arg3 (by decide)).trans (W9_main_arg3 m ρ c),
     (h c main_arg4 (by decide)).trans (W9_main_arg4 m ρ c), (h c main_arg5 (by decide)).trans (W9_main_arg5 m ρ c),
     (h c main_arg6 (by decide)).trans (W9_main_arg6 m ρ c), (h c main_arg7 (by decide)).trans (W9_main_arg7 m ρ c),
     (h c main_arg8 (by decide)).trans (W9_main_arg8 m ρ c)⟩) (run_main m ρ)

end Cert.Kernel.Hand

end
-- ==== Proof.KI.Body0.lean ====
import proofs.«168404_j17343077941930_1_alg».proof.Proof.Gen.KernelIdeal.Launch
import proofs.«168404_j17343077941930_1_alg».proof.Proof.Gen.KernelIdeal.Skeleton
import proofs.«168404_j17343077941930_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 (the layer kernel of pipeline 0): the body half, at arbitrary entry contents `V`

Five windows over a grid of 50 points. Windows 0 and 1 are blocks of 4000 rows of two 200000×64 arrays, moved at
every point; windows 2 and 3 are two whole 64×64 weight matrices, moved once, at the first point; window 4 is the
4000×64 block of the result, written back at every point. The body reads the four input buffers whole, reads its
output buffer once without using the value, and overwrites the output buffer whole with one value computed from the
four reads. Hence: every input buffer holds, at every point, the block of its array at that point (for the weights:
the block index never moves, so what was fetched at the first point is still the block), and the output buffer is
left at the one store's value over those blocks. -/

-- membership of an index in a rectangle of 4000 rows is checked by structural recursion on the coordinates
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks -/

/-- The block of window `w` at point `t`: the window's array, at its entry contents, read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: for any proof data over the entry contents whose body leaves the window's buffer at the block,
    the buffer holds the block when the body starts at `t`, whether the block was moved in at `t` or earlier. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: for any proof data over the entry contents whose body leaves the window's buffer at the block,
    the buffer holds the block when the body starts at `t`, whether the block was moved in at `t` or earlier. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: for any proof data over the entry contents whose body leaves the window's buffer at the block,
    the buffer holds the block when the body starts at `t`, whether the block was moved in at `t` or earlier (it is
    moved in at the first point only; its block index is constant). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: for any proof data over the entry contents whose body leaves the window's buffer at the block,
    the buffer holds the block when the body starts at `t`, whether the block was moved in at `t` or earlier (it is
    moved in at the first point only; its block index is constant). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each buffer whole -/

abbrev r0_blk : Rect S4000x64 := Rect.unit (s := S4000x64) ![0, 0] S4000x64.size inb_S4000x64_S4000x64_0_0
abbrev r0_wt : Rect S64x64 := Rect.unit (s := S64x64) ![0, 0] S64x64.size inb_S64x64_S64x64_0_0

/-! ## The output buffer after the body -/

/-- What the body leaves in the output buffer, as a function of what the four input buffers read: its single
    whole-buffer store, whose value is `k0_pay1` of the four whole-buffer reads. -/
def out0_4 (x0 x1 : Vec F S4000x64 .f32) (x2 x3 : Vec F S64x64 .f32) : Vec F S4000x64 .f32 :=
  View.canon [⟨r0_blk, k0_pay1 (View.ld x0 r0_blk) (View.ld x1 r0_blk) (View.ld x2 r0_wt) (View.ld x3 r0_wt)⟩]

/-- The one store covers the buffer: the whole rectangle tiles it. -/
theorem cover0_4 (p0 : Vec F S4000x64 .f32) (y : S4000x64.Idx) :
    ∃ pc ∈ ([⟨r0_blk, p0⟩] : List (View.Piece (Elt F) S4000x64 .f32)), y ∈ pc.1.set :=
  View.cover_of_tiled [⟨r0_blk, p0⟩] S4000x64.size (by rfl) y

/-! ## The body's triple -/

set_option maxHeartbeats 1000000 in
/-- On five whole buffers, the inputs reading `x0 … x3` and the output holding anything, the body terminates with
    the inputs unchanged and the output at `out0_4 x0 x1 x2 x3`. -/
theorem sound_kernel0 (c : Dev nD) (E : Set ℕ) (i : grid0.Coords)
    (arg1 : Memref sig .tc .vmem S4000x64 .f32) (harg1 : arg1.IsWhole) (arg2 : Memref sig .tc .vmem S4000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S4000x64 .f32) (harg5 : arg5.IsWhole)
    (x0 x1 : Vec F S4000x64 .f32) (x2 x3 : Vec F S64x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__layer_kernel i arg1 harg1 arg2 harg2 arg3 harg3 arg4 harg4 arg5 harg5) K := by
  simp only [cc0__layer_kernel_eq_skeleton]; unfold cc0__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The proof data -/

/-- Pipeline 0's proof data on core `c`: the arrays at the entry contents; after the body at `t` every input
    buffer at its block and the output buffer at `out0_4` of the four blocks; the invariant is the rest of the
    core's scoped memory and its generator register, untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Every input buffer holds its block when the body starts, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is started with at point `t`: the invariant, the core's debts, and each window's current
    staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it must return. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the input buffers hold their blocks, so the body's triple applies; the invariant and
    the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
import proofs.«168404_j17343077941930_1_alg».proof.Proof.Gen.KernelIdeal.Launch
import proofs.«168404_j17343077941930_1_alg».proof.Proof.Gen.KernelIdeal.Skeleton
import proofs.«168404_j17343077941930_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 (the layer kernel of pipeline 1): the body half, at arbitrary entry contents `V`

Five windows over a grid of 50 points. Windows 0 and 1 are blocks of 4000 rows of two 200000×64 arrays, moved at
every point; windows 2 and 3 are two whole 64×64 weight matrices, moved once, at the first point; window 4 is the
4000×64 block of the result, written back at every point. The body reads the four input buffers whole, reads its
output buffer once without using the value, and overwrites the output buffer whole with one value computed from the
four reads. Hence: every input buffer holds, at every point, the block of its array at that point (for the weights:
the block index never moves, so what was fetched at the first point is still the block), and the output buffer is
left at the one store's value over those blocks. -/

-- membership of an index in a rectangle of 4000 rows is checked by structural recursion on the coordinates
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks -/

/-- The block of window `w` at point `t`: the window's array, at its entry contents, read through the block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: for any proof data over the entry contents whose body leaves the window's buffer at the block,
    the buffer holds the block when the body starts at `t`, whether the block was moved in at `t` or earlier. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: for any proof data over the entry contents whose body leaves the window's buffer at the block,
    the buffer holds the block when the body starts at `t`, whether the block was moved in at `t` or earlier. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: for any proof data over the entry contents whose body leaves the window's buffer at the block,
    the buffer holds the block when the body starts at `t`, whether the block was moved in at `t` or earlier (it is
    moved in at the first point only; its block index is constant). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: for any proof data over the entry contents whose body leaves the window's buffer at the block,
    the buffer holds the block when the body starts at `t`, whether the block was moved in at `t` or earlier (it is
    moved in at the first point only; its block index is constant). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each buffer whole -/

abbrev r1_blk : Rect S4000x64 := Rect.unit (s := S4000x64) ![0, 0] S4000x64.size inb_S4000x64_S4000x64_0_0
abbrev r1_wt : Rect S64x64 := Rect.unit (s := S64x64) ![0, 0] S64x64.size inb_S64x64_S64x64_0_0

/-! ## The output buffer after the body -/

/-- What the body leaves in the output buffer, as a function of what the four input buffers read: its single
    whole-buffer store, whose value is `k1_pay1` of the four whole-buffer reads. -/
def out1_4 (x0 x1 : Vec F S4000x64 .f32) (x2 x3 : Vec F S64x64 .f32) : Vec F S4000x64 .f32 :=
  View.canon [⟨r1_blk, k1_pay1 (View.ld x0 r1_blk) (View.ld x1 r1_blk) (View.ld x2 r1_wt) (View.ld x3 r1_wt)⟩]

/-- The one store covers the buffer: the whole rectangle tiles it. -/
theorem cover1_4 (p0 : Vec F S4000x64 .f32) (y : S4000x64.Idx) :
    ∃ pc ∈ ([⟨r1_blk, p0⟩] : List (View.Piece (Elt F) S4000x64 .f32)), y ∈ pc.1.set :=
  View.cover_of_tiled [⟨r1_blk, p0⟩] S4000x64.size (by rfl) y

/-! ## The body's triple -/

set_option maxHeartbeats 1000000 in
/-- On five whole buffers, the inputs reading `x0 … x3` and the output holding anything, the body terminates with
    the inputs unchanged and the output at `out1_4 x0 x1 x2 x3`. -/
theorem sound_kernel1 (c : Dev nD) (E : Set ℕ) (i : grid1.Coords)
    (arg1 : Memref sig .tc .vmem S4000x64 .f32) (harg1 : arg1.IsWhole) (arg2 : Memref sig .tc .vmem S4000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S4000x64 .f32) (harg5 : arg5.IsWhole)
    (x0 x1 : Vec F S4000x64 .f32) (x2 x3 : Vec F S64x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__layer_kernel i arg1 harg1 arg2 harg2 arg3 harg3 arg4 harg4 arg5 harg5) K := by
  simp only [cc1__layer_kernel_eq_skeleton]; unfold cc1__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data -/

/-- Pipeline 1's proof data on core `c`: the arrays at the entry contents; after the body at `t` every input
    buffer at its block and the output buffer at `out1_4` of the four blocks; the invariant is the rest of the
    core's scoped memory and its generator register, untouched; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The arrays of the proof data are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Every input buffer holds its block when the body starts, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is started with at point `t`: the invariant, the core's debts, and each window's current
    staging buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it must return. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so the body's triple applies; the invariant and
    the debts are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
import proofs.«168404_j17343077941930_1_alg».proof.Proof.Gen.KernelIdeal.Launch
import proofs.«168404_j17343077941930_1_alg».proof.Proof.Gen.KernelIdeal.Skeleton
import proofs.«168404_j17343077941930_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 (the layer kernel of pipeline 2): the body half, at arbitrary entry contents `V`

Five windows over a grid of 50 points. Windows 0 and 1 are blocks of 4000 rows of two 200000×64 arrays, moved at
every point; windows 2 and 3 are two whole 64×64 weight matrices, moved once, at the first point; window 4 is the
4000×64 block of the result, written back at every point. The body reads the four input buffers whole, reads its
output buffer once without using the value, and overwrites the output buffer whole with one value computed from the
four reads. Hence: every input buffer holds, at every point, the block of its array at that point (for the weights:
the block index never moves, so what was fetched at the first point is still the block), and the output buffer is
left at the one store's value over those blocks. -/

-- membership of an index in a rectangle of 4000 rows is checked by structural recursion on the coordinates
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks -/

/-- The block of window `w` at point `t`: the window's array, at its entry contents, read through the block's view. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: for any proof data over the entry contents whose body leaves the window's buffer at the block,
    the buffer holds the block when the body starts at `t`, whether the block was moved in at `t` or earlier. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: for any proof data over the entry contents whose body leaves the window's buffer at the block,
    the buffer holds the block when the body starts at `t`, whether the block was moved in at `t` or earlier. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: for any proof data over the entry contents whose body leaves the window's buffer at the block,
    the buffer holds the block when the body starts at `t`, whether the block was moved in at `t` or earlier (it is
    moved in at the first point only; its block index is constant). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: for any proof data over the entry contents whose body leaves the window's buffer at the block,
    the buffer holds the block when the body starts at `t`, whether the block was moved in at `t` or earlier (it is
    moved in at the first point only; its block index is constant). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each buffer whole -/

abbrev r2_blk : Rect S4000x64 := Rect.unit (s := S4000x64) ![0, 0] S4000x64.size inb_S4000x64_S4000x64_0_0
abbrev r2_wt : Rect S64x64 := Rect.unit (s := S64x64) ![0, 0] S64x64.size inb_S64x64_S64x64_0_0

/-! ## The output buffer after the body -/

/-- What the body leaves in the output buffer, as a function of what the four input buffers read: its single
    whole-buffer store, whose value is `k2_pay1` of the four whole-buffer reads. -/
def out2_4 (x0 x1 : Vec F S4000x64 .f32) (x2 x3 : Vec F S64x64 .f32) : Vec F S4000x64 .f32 :=
  View.canon [⟨r2_blk, k2_pay1 (View.ld x0 r2_blk) (View.ld x1 r2_blk) (View.ld x2 r2_wt) (View.ld x3 r2_wt)⟩]

/-- The one store covers the buffer: the whole rectangle tiles it. -/
theorem cover2_4 (p0 : Vec F S4000x64 .f32) (y : S4000x64.Idx) :
    ∃ pc ∈ ([⟨r2_blk, p0⟩] : List (View.Piece (Elt F) S4000x64 .f32)), y ∈ pc.1.set :=
  View.cover_of_tiled [⟨r2_blk, p0⟩] S4000x64.size (by rfl) y

/-! ## The body's triple -/

set_option maxHeartbeats 1000000 in
/-- On five whole buffers, the inputs reading `x0 … x3` and the output holding anything, the body terminates with
    the inputs unchanged and the output at `out2_4 x0 x1 x2 x3`. -/
theorem sound_kernel2 (c : Dev nD) (E : Set ℕ) (i : grid2.Coords)
    (arg1 : Memref sig .tc .vmem S4000x64 .f32) (harg1 : arg1.IsWhole) (arg2 : Memref sig .tc .vmem S4000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S4000x64 .f32) (harg5 : arg5.IsWhole)
    (x0 x1 : Vec F S4000x64 .f32) (x2 x3 : Vec F S64x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1 x2 x3)) -∗ K ⟨⟩))
      ⊢ wp frame (wpE (defs₀ (F := F)) Variants.none c none) E (cc2__layer_kernel i arg1 harg1 arg2 harg2 arg3 harg3 arg4 harg4 arg5 harg5) K := by
  simp only [cc2__layer_kernel_eq_skeleton]; unfold cc2__layer_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The proof data -/

/-- Pipeline 2's proof data on core `c`: the arrays at the entry contents; after the body at `t` every input
    buffer at its block and the output buffer at `out2_4` of the four blocks; the invariant is the rest of the
    core's scoped memory and its generator register, untouched; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The arrays of the proof data are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Every input buffer holds its block when the body starts, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

/-- What the body is started with at point `t`: the invariant, the core's debts, and each window's current
    staging buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it must return. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the input buffers hold their blocks, so the body's triple applies; the invariant and
    the debts are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Body3.lean ====
import proofs.«168404_j17343077941930_1_alg».proof.Proof.Gen.KernelIdeal.Launch
import proofs.«168404_j17343077941930_1_alg».proof.Proof.Gen.KernelIdeal.Skeleton
import proofs.«168404_j17343077941930_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 (the final reduction kernel, pipeline 3): the body half, at arbitrary entry contents `V`

Three windows over a grid of 50 points. Windows 0 and 1 are blocks of 2000 rows of two 100000×256 arrays, moved at
every point; window 2 is the 2000×1 block of the result, written back at every point. The body reads the two input
buffers whole, reads its output buffer once without using the value, and overwrites the output buffer whole with one
value computed from the two reads. Hence every input buffer holds, at every point, the block of its array at that
point, and the output buffer is left at the one store's value over those two blocks. -/

-- membership of an index in a rectangle of 2000 rows is checked by structural recursion on the coordinates
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks -/

/-- The block of window `w` at point `t`: the window's array, at its entry contents, read through the block's view. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: for any proof data over the entry contents whose body leaves the window's buffer at the block,
    the buffer holds the block when the body starts at `t`. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: for any proof data over the entry contents whose body leaves the window's buffer at the block,
    the buffer holds the block when the body starts at `t`. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each buffer whole -/

abbrev r3_blk : Rect S2000x256 := Rect.unit (s := S2000x256) ![0, 0] S2000x256.size inb_S2000x256_S2000x256_0_0
abbrev r3_res : Rect S2000x1 := Rect.unit (s := S2000x1) ![0, 0] S2000x1.size inb_S2000x1_S2000x1_0_0

/-! ## The output buffer after the body -/

/-- What the body leaves in the output buffer, as a function of what the two input buffers read: its single
    whole-buffer store, whose value is `k3_pay1` of the two whole-buffer reads. -/
def out3_2 (x0 x1 : Vec F S2000x256 .f32) : Vec F S2000x1 .f32 :=
  View.canon [⟨r3_res, k3_pay1 (View.ld x0 r3_blk) (View.ld x1 r3_blk)⟩]

/-- The one store covers the buffer: the whole rectangle tiles it. -/
theorem cover3_2 (p0 : Vec F S2000x1 .f32) (y : S2000x1.Idx) :
    ∃ pc ∈ ([⟨r3_res, p0⟩] : List (View.Piece (Elt F) S2000x1 .f32)), y ∈ pc.1.set :=
  View.cover_of_tiled [⟨r3_res, p0⟩] S2000x1.size (by rfl) y

/-! ## The body's triple -/

set_option maxHeartbeats 1000000 in
/-- On three whole buffers, the inputs reading `x0`, `x1` and the output holding anything, the body terminates with
    the inputs unchanged and the output at `out3_2 x0 x1`. -/
theorem sound_kernel3 (c : Dev nD) (E : Set ℕ) (i : grid3.Coords)
    (arg1 : Memref sig .tc .vmem S2000x256 .f32) (harg1 : arg1.IsWhole) (arg2 : Memref sig .tc .vmem S2000x256 .f32) (harg2 : arg2.IsWhole)
    (arg3 : Memref sig .tc .vmem S2000x1 .f32) (harg3 : arg3.IsWhole)
    (x0 x1 : Vec F S2000x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__final_reduce_kernel i arg1 harg1 arg2 harg2 arg3 harg3) K := by
  simp only [cc3__final_reduce_kernel_eq_skeleton]; unfold cc3__final_reduce_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data -/

/-- Pipeline 3's proof data on core `c`: the arrays at the entry contents; after the body at `t` every input
    buffer at its block and the output buffer at `out3_2` of the two blocks; the invariant is the rest of the
    core's scoped memory and its generator register, untouched; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The arrays of the proof data are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

/-- Every input buffer holds its block when the body starts, at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

/-- What the body is started with at point `t`: the invariant, the core's debts, and each window's current
    staging buffer, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it must return. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the input buffers hold their blocks, so the body's triple applies; the invariant and
    the debts are not touched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Folds.lean ====
/-
  The buffer contents at every boundary of @main, as a fold from the launch memory: a stretch of host operations
  maps the contents through its operations; a kernel region replaces its arrays by what its grid leaves in them
  (each input as entered, the output block by block what the body stored) and keeps every other buffer.
-/
import proofs.«168404_j17343077941930_1_alg».proof.Proof.KI.Body0
import proofs.«168404_j17343077941930_1_alg».proof.Proof.KI.Body1
import proofs.«168404_j17343077941930_1_alg».proof.Proof.KI.Body2
import proofs.«168404_j17343077941930_1_alg».proof.Proof.KI.Body3

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host operations `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (inputs as entered, the output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host operations `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (inputs as entered, the output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host operations `hostOps3`. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-- At region 3's exit: its arrays at what the pipeline leaves (inputs as entered, the output's write-backs folded),
    every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host operations `hostOps4`. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b

end Cert.KernelIdeal.Hand

end
-- ==== Proof.KI.State.lean ====
/-
  The proof data of the four kernel regions, each at the contents its region is entered with, and what rides beside
  the buffers from segment to segment: the core's generator register at some state and the core owing nothing.
-/
import proofs.«168404_j17343077941930_1_alg».proof.Proof.KI.Folds

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 4) → (pcfgs (F := F) p).Adm := fun p => (cfgs p).toPCfg_adm
/-- Every pipeline's proof data, each at its region's entry contents (a literal match, so that the pinned
    configuration at a numeral reduces to the printed one). -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of @main allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Reg0.lean ====
/-
  Kernel region 0 of @main as a segment between thread states "every unscoped buffer at the boundary's contents".
-/
import proofs.«168404_j17343077941930_1_alg».proof.Proof.KI.State

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's lemmas are stated over `pin pcs a p`; unifying them with the printed configuration unfolds plain
-- definitions inside a metavariable's type
set_option backward.isDefEq.respectTransparency.types false in
/-- Region 0 over the thread state: entered from every unscoped buffer at `W1`, left with them at `W2`. Its
    arrays are split out of the unscoped buffers at entry and put back at the exit contents; the generator register
    goes into the kernel's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1.lean ====
/-
  Kernel region 1 of @main as a segment between thread states "every unscoped buffer at the boundary's contents".
-/
import proofs.«168404_j17343077941930_1_alg».proof.Proof.KI.State

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's lemmas are stated over `pin pcs a p`; unifying them with the printed configuration unfolds plain
-- definitions inside a metavariable's type
set_option backward.isDefEq.respectTransparency.types false in
/-- Region 1 over the thread state: entered from every unscoped buffer at `W3`, left with them at `W4`. Its
    arrays are split out of the unscoped buffers at entry and put back at the exit contents; the generator register
    goes into the kernel's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg2.lean ====
/-
  Kernel region 2 of @main as a segment between thread states "every unscoped buffer at the boundary's contents".
-/
import proofs.«168404_j17343077941930_1_alg».proof.Proof.KI.State

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's lemmas are stated over `pin pcs a p`; unifying them with the printed configuration unfolds plain
-- definitions inside a metavariable's type
set_option backward.isDefEq.respectTransparency.types false in
/-- Region 2 over the thread state: entered from every unscoped buffer at `W5`, left with them at `W6`. Its
    arrays are split out of the unscoped buffers at entry and put back at the exit contents; the generator register
    goes into the kernel's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg3.lean ====
/-
  Kernel region 3 of @main as a segment between thread states "every unscoped buffer at the boundary's contents".
-/
import proofs.«168404_j17343077941930_1_alg».proof.Proof.KI.State

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's lemmas are stated over `pin pcs a p`; unifying them with the printed configuration unfolds plain
-- definitions inside a metavariable's type
set_option backward.isDefEq.respectTransparency.types false in
/-- Region 3 over the thread state: entered from every unscoped buffer at `W7`, left with them at `W8`. Its
    arrays are split out of the unscoped buffers at entry and put back at the exit contents; the generator register
    goes into the kernel's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunMain.lean ====
/-
  @main as its nine segments — five stretches of host operations around the four kernel regions — and the launch:
  every weakly fair execution terminates, and every unscoped buffer of every core ends at the last boundary's contents.
-/
import proofs.«168404_j17343077941930_1_alg».proof.Proof.KI.Reg0
import proofs.«168404_j17343077941930_1_alg».proof.Proof.KI.Reg1
import proofs.«168404_j17343077941930_1_alg».proof.Proof.KI.Reg2
import proofs.«168404_j17343077941930_1_alg».proof.Proof.KI.Reg3

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]

/-- @main is the run of its segments. -/
theorem main_run (c : Dev nD) : main (F := F) c = Pipeline.Seg.run (segs m ρ) := (main_chain c).trans (by chain_rfl)

/-- The last thread state without the core's debts: every unscoped buffer at the last boundary's contents, the
    generator register at some state. -/
abbrev Tₙ (c : Dev nD) : sProp 𝕄 := iprop(StableHlo.held (c : Thread nD τ) (Pipeline.ucRefs τ sig) (W9 m ρ c) ∗ ∃ r, prngReg c r)

set_option backward.isDefEq.respectTransparency.types false in
/-- From any memory with zero counters every weakly fair execution of @main terminates, nothing faulting, and in
    every final state each unscoped buffer of each core holds the fold of @main's segments over the launch memory. -/
theorem run_main : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W9 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c b hb => h c _ (mem_uc b hb))

end Cert.KernelIdeal.Hand

end
-- ==== Proof.KI.HostKeep0.lean ====
/-
  No operation of the host stretch `hostOps0` writes an argument array: through it each argument's buffer keeps its contents.
-/
import proofs.«168404_j17343077941930_1_alg».proof.Proof.Gen.KernelIdeal.Launch
import Idealize.ShloMosaic.Lib.StableHlo.Run

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxRecDepth 16384

theorem host0_arg0 (W : Valuation τ sig (Elt F)) :
    StableHlo.after (hostOps0 (F := F)) W (Proc.devRef .tc main_arg0) = W (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host0_arg1 (W : Valuation τ sig (Elt F)) :
    StableHlo.after (hostOps0 (F := F)) W (Proc.devRef .tc main_arg1) = W (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host0_arg2 (W : Valuation τ sig (Elt F)) :
    StableHlo.after (hostOps0 (F := F)) W (Proc.devRef .tc main_arg2) = W (Proc.devRef .tc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host0_arg3 (W : Valuation τ sig (Elt F)) :
    StableHlo.after (hostOps0 (F := F)) W (Proc.devRef .tc main_arg3) = W (Proc.devRef .tc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host0_arg4 (W : Valuation τ sig (Elt F)) :
    StableHlo.after (hostOps0 (F := F)) W (Proc.devRef .tc main_arg4) = W (Proc.devRef .tc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host0_arg5 (W : Valuation τ sig (Elt F)) :
    StableHlo.after (hostOps0 (F := F)) W (Proc.devRef .tc main_arg5) = W (Proc.devRef .tc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host0_arg6 (W : Valuation τ sig (Elt F)) :
    StableHlo.after (hostOps0 (F := F)) W (Proc.devRef .tc main_arg6) = W (Proc.devRef .tc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host0_arg7 (W : Valuation τ sig (Elt F)) :
    StableHlo.after (hostOps0 (F := F)) W (Proc.devRef .tc main_arg7) = W (Proc.devRef .tc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host0_arg8 (W : Valuation τ sig (Elt F)) :
    StableHlo.after (hostOps0 (F := F)) W (Proc.devRef .tc main_arg8) = W (Proc.devRef .tc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.KernelIdeal.Hand

end
-- ==== Proof.KI.HostKeep1.lean ====
/-
  No operation of the host stretch `hostOps1` writes an argument array: through it each argument's buffer keeps its contents.
-/
import proofs.«168404_j17343077941930_1_alg».proof.Proof.Gen.KernelIdeal.Launch
import Idealize.ShloMosaic.Lib.StableHlo.Run

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxRecDepth 16384

theorem host1_arg0 (W : Valuation τ sig (Elt F)) :
    StableHlo.after (hostOps1 (F := F)) W (Proc.devRef .tc main_arg0) = W (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host1_arg1 (W : Valuation τ sig (Elt F)) :
    StableHlo.after (hostOps1 (F := F)) W (Proc.devRef .tc main_arg1) = W (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host1_arg2 (W : Valuation τ sig (Elt F)) :
    StableHlo.after (hostOps1 (F := F)) W (Proc.devRef .tc main_arg2) = W (Proc.devRef .tc main_arg2) :=
  StableHlo.after_of_forall_not_mem (b := Proc.devRef .tc main_arg2) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host1_arg3 (W : Valuation τ sig (Elt F)) :
    StableHlo.after (hostOps1 (F := F)) W (Proc.devRef .tc main_arg3) = W (Proc.devRef .tc main_arg3) :=
  StableHlo.after_of_forall_not_mem (b := Proc.devRef .tc main_arg3) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host1_arg4 (W : Valuation τ sig (Elt F)) :
    StableHlo.after (hostOps1 (F := F)) W (Proc.devRef .tc main_arg4) = W (Proc.devRef .tc main_arg4) :=
  StableHlo.after_of_forall_not_mem (b := Proc.devRef .tc main_arg4) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host1_arg5 (W : Valuation τ sig (Elt F)) :
    StableHlo.after (hostOps1 (F := F)) W (Proc.devRef .tc main_arg5) = W (Proc.devRef .tc main_arg5) :=
  StableHlo.after_of_forall_not_mem (b := Proc.devRef .tc main_arg5) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host1_arg6 (W : Valuation τ sig (Elt F)) :
    StableHlo.after (hostOps1 (F := F)) W (Proc.devRef .tc main_arg6) = W (Proc.devRef .tc main_arg6) :=
  StableHlo.after_of_forall_not_mem (b := Proc.devRef .tc main_arg6) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host1_arg7 (W : Valuation τ sig (Elt F)) :
    StableHlo.after (hostOps1 (F := F)) W (Proc.devRef .tc main_arg7) = W (Proc.devRef .tc main_arg7) :=
  StableHlo.after_of_forall_not_mem (b := Proc.devRef .tc main_arg7) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host1_arg8 (W : Valuation τ sig (Elt F)) :
    StableHlo.after (hostOps1 (F := F)) W (Proc.devRef .tc main_arg8) = W (Proc.devRef .tc main_arg8) :=
  StableHlo.after_of_forall_not_mem (b := Proc.devRef .tc main_arg8) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.KernelIdeal.Hand

end
-- ==== Proof.KI.HostKeep2.lean ====
/-
  No operation of the host stretch `hostOps2` writes an argument array: through it each argument's buffer keeps its contents.
-/
import proofs.«168404_j17343077941930_1_alg».proof.Proof.Gen.KernelIdeal.Launch
import Idealize.ShloMosaic.Lib.StableHlo.Run

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxRecDepth 16384

theorem host2_arg0 (W : Valuation τ sig (Elt F)) :
    StableHlo.after (hostOps2 (F := F)) W (Proc.devRef .tc main_arg0) = W (Proc.devRef .tc main_arg0) :=
  StableHlo.after_of_forall_not_mem (b := Proc.devRef .tc main_arg0) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host2_arg1 (W : Valuation τ sig (Elt F)) :
    StableHlo.after (hostOps2 (F := F)) W (Proc.devRef .tc main_arg1) = W (Proc.devRef .tc main_arg1) :=
  StableHlo.after_of_forall_not_mem (b := Proc.devRef .tc main_arg1) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host2_arg2 (W : Valuation τ sig (Elt F)) :
    StableHlo.after (hostOps2 (F := F)) W (Proc.devRef .tc main_arg2) = W (Proc.devRef .tc main_arg2) :=
  StableHlo.after_of_forall_not_mem (b := Proc.devRef .tc main_arg2) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host2_arg3 (W : Valuation τ sig (Elt F)) :
    StableHlo.after (hostOps2 (F := F)) W (Proc.devRef .tc main_arg3) = W (Proc.devRef .tc main_arg3) :=
  StableHlo.after_of_forall_not_mem (b := Proc.devRef .tc main_arg3) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host2_arg4 (W : Valuation τ sig (Elt F)) :
    StableHlo.after (hostOps2 (F := F)) W (Proc.devRef .tc main_arg4) = W (Proc.devRef .tc main_arg4) :=
  StableHlo.after_of_forall_not_mem (b := Proc.devRef .tc main_arg4) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host2_arg5 (W : Valuation τ sig (Elt F)) :
    StableHlo.after (hostOps2 (F := F)) W (Proc.devRef .tc main_arg5) = W (Proc.devRef .tc main_arg5) :=
  StableHlo.after_of_forall_not_mem (b := Proc.devRef .tc main_arg5) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host2_arg6 (W : Valuation τ sig (Elt F)) :
    StableHlo.after (hostOps2 (F := F)) W (Proc.devRef .tc main_arg6) = W (Proc.devRef .tc main_arg6) :=
  StableHlo.after_of_forall_not_mem (b := Proc.devRef .tc main_arg6) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host2_arg7 (W : Valuation τ sig (Elt F)) :
    StableHlo.after (hostOps2 (F := F)) W (Proc.devRef .tc main_arg7) = W (Proc.devRef .tc main_arg7) :=
  StableHlo.after_of_forall_not_mem (b := Proc.devRef .tc main_arg7) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host2_arg8 (W : Valuation τ sig (Elt F)) :
    StableHlo.after (hostOps2 (F := F)) W (Proc.devRef .tc main_arg8) = W (Proc.devRef .tc main_arg8) :=
  StableHlo.after_of_forall_not_mem (b := Proc.devRef .tc main_arg8) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.KernelIdeal.Hand

end
-- ==== Proof.KI.HostKeep3.lean ====
/-
  No operation of the host stretch `hostOps3` writes an argument array: through it each argument's buffer keeps its contents.
-/
import proofs.«168404_j17343077941930_1_alg».proof.Proof.Gen.KernelIdeal.Launch
import Idealize.ShloMosaic.Lib.StableHlo.Run

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxRecDepth 16384

theorem host3_arg0 (W : Valuation τ sig (Elt F)) :
    StableHlo.after (hostOps3 (F := F)) W (Proc.devRef .tc main_arg0) = W (Proc.devRef .tc main_arg0) :=
  StableHlo.after_of_forall_not_mem (b := Proc.devRef .tc main_arg0) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host3_arg1 (W : Valuation τ sig (Elt F)) :
    StableHlo.after (hostOps3 (F := F)) W (Proc.devRef .tc main_arg1) = W (Proc.devRef .tc main_arg1) :=
  StableHlo.after_of_forall_not_mem (b := Proc.devRef .tc main_arg1) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host3_arg2 (W : Valuation τ sig (Elt F)) :
    StableHlo.after (hostOps3 (F := F)) W (Proc.devRef .tc main_arg2) = W (Proc.devRef .tc main_arg2) :=
  StableHlo.after_of_forall_not_mem (b := Proc.devRef .tc main_arg2) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host3_arg3 (W : Valuation τ sig (Elt F)) :
    StableHlo.after (hostOps3 (F := F)) W (Proc.devRef .tc main_arg3) = W (Proc.devRef .tc main_arg3) :=
  StableHlo.after_of_forall_not_mem (b := Proc.devRef .tc main_arg3) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host3_arg4 (W : Valuation τ sig (Elt F)) :
    StableHlo.after (hostOps3 (F := F)) W (Proc.devRef .tc main_arg4) = W (Proc.devRef .tc main_arg4) :=
  StableHlo.after_of_forall_not_mem (b := Proc.devRef .tc main_arg4) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host3_arg5 (W : Valuation τ sig (Elt F)) :
    StableHlo.after (hostOps3 (F := F)) W (Proc.devRef .tc main_arg5) = W (Proc.devRef .tc main_arg5) :=
  StableHlo.after_of_forall_not_mem (b := Proc.devRef .tc main_arg5) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host3_arg6 (W : Valuation τ sig (Elt F)) :
    StableHlo.after (hostOps3 (F := F)) W (Proc.devRef .tc main_arg6) = W (Proc.devRef .tc main_arg6) :=
  StableHlo.after_of_forall_not_mem (b := Proc.devRef .tc main_arg6) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host3_arg7 (W : Valuation τ sig (Elt F)) :
    StableHlo.after (hostOps3 (F := F)) W (Proc.devRef .tc main_arg7) = W (Proc.devRef .tc main_arg7) :=
  StableHlo.after_of_forall_not_mem (b := Proc.devRef .tc main_arg7) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host3_arg8 (W : Valuation τ sig (Elt F)) :
    StableHlo.after (hostOps3 (F := F)) W (Proc.devRef .tc main_arg8) = W (Proc.devRef .tc main_arg8) :=
  StableHlo.after_of_forall_not_mem (b := Proc.devRef .tc main_arg8) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.KernelIdeal.Hand

end
-- ==== Proof.KI.HostKeep4.lean ====
/-
  No operation of the host stretch `hostOps4` writes an argument array: through it each argument's buffer keeps its contents.
-/
import proofs.«168404_j17343077941930_1_alg».proof.Proof.Gen.KernelIdeal.Launch
import Idealize.ShloMosaic.Lib.StableHlo.Run

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

set_option maxRecDepth 16384

theorem host4_arg0 (W : Valuation τ sig (Elt F)) :
    StableHlo.after (hostOps4 (F := F)) W (Proc.devRef .tc main_arg0) = W (Proc.devRef .tc main_arg0) :=
  StableHlo.after_of_forall_not_mem (b := Proc.devRef .tc main_arg0) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host4_arg1 (W : Valuation τ sig (Elt F)) :
    StableHlo.after (hostOps4 (F := F)) W (Proc.devRef .tc main_arg1) = W (Proc.devRef .tc main_arg1) :=
  StableHlo.after_of_forall_not_mem (b := Proc.devRef .tc main_arg1) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host4_arg2 (W : Valuation τ sig (Elt F)) :
    StableHlo.after (hostOps4 (F := F)) W (Proc.devRef .tc main_arg2) = W (Proc.devRef .tc main_arg2) :=
  StableHlo.after_of_forall_not_mem (b := Proc.devRef .tc main_arg2) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host4_arg3 (W : Valuation τ sig (Elt F)) :
    StableHlo.after (hostOps4 (F := F)) W (Proc.devRef .tc main_arg3) = W (Proc.devRef .tc main_arg3) :=
  StableHlo.after_of_forall_not_mem (b := Proc.devRef .tc main_arg3) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host4_arg4 (W : Valuation τ sig (Elt F)) :
    StableHlo.after (hostOps4 (F := F)) W (Proc.devRef .tc main_arg4) = W (Proc.devRef .tc main_arg4) :=
  StableHlo.after_of_forall_not_mem (b := Proc.devRef .tc main_arg4) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host4_arg5 (W : Valuation τ sig (Elt F)) :
    StableHlo.after (hostOps4 (F := F)) W (Proc.devRef .tc main_arg5) = W (Proc.devRef .tc main_arg5) :=
  StableHlo.after_of_forall_not_mem (b := Proc.devRef .tc main_arg5) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host4_arg6 (W : Valuation τ sig (Elt F)) :
    StableHlo.after (hostOps4 (F := F)) W (Proc.devRef .tc main_arg6) = W (Proc.devRef .tc main_arg6) :=
  StableHlo.after_of_forall_not_mem (b := Proc.devRef .tc main_arg6) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host4_arg7 (W : Valuation τ sig (Elt F)) :
    StableHlo.after (hostOps4 (F := F)) W (Proc.devRef .tc main_arg7) = W (Proc.devRef .tc main_arg7) :=
  StableHlo.after_of_forall_not_mem (b := Proc.devRef .tc main_arg7) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem host4_arg8 (W : Valuation τ sig (Elt F)) :
    StableHlo.after (hostOps4 (F := F)) W (Proc.devRef .tc main_arg8) = W (Proc.devRef .tc main_arg8) :=
  StableHlo.after_of_forall_not_mem (b := Proc.devRef .tc main_arg8) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.KernelIdeal.Hand

end
-- ==== Proof.KI.Args.lean ====
/-
  Every argument array ends as launched: no host operation writes one and no kernel region has one among its arrays,
  so its buffer's contents walk back through the nine boundaries to the launch memory.
-/
import proofs.«168404_j17343077941930_1_alg».proof.Proof.KI.Folds
import proofs.«168404_j17343077941930_1_alg».proof.Proof.KI.HostKeep0
import proofs.«168404_j17343077941930_1_alg».proof.Proof.KI.HostKeep1
import proofs.«168404_j17343077941930_1_alg».proof.Proof.KI.HostKeep2
import proofs.«168404_j17343077941930_1_alg».proof.Proof.KI.HostKeep3
import proofs.«168404_j17343077941930_1_alg».proof.Proof.KI.HostKeep4

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Argument 0 ends as launched. -/
theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := host4_arg0 _
    _ = W7 m ρ c (Proc.devRef .tc main_arg0) := W8_of_ne m ρ c main_arg0 (by decide)
    _ = W6 m ρ c (Proc.devRef .tc main_arg0) := host3_arg0 _
    _ = W5 m ρ c (Proc.devRef .tc main_arg0) := W6_of_ne m ρ c main_arg0 (by decide)
    _ = W4 m ρ c (Proc.devRef .tc main_arg0) := host2_arg0 _
    _ = W3 m ρ c (Proc.devRef .tc main_arg0) := W4_of_ne m ρ c main_arg0 (by decide)
    _ = W2 m ρ c (Proc.devRef .tc main_arg0) := host1_arg0 _
    _ = W1 m ρ c (Proc.devRef .tc main_arg0) := W2_of_ne m ρ c main_arg0 (by decide)
    _ = W0 m ρ c (Proc.devRef .tc main_arg0) := host0_arg0 _
    _ = m ((c : Thread nD τ).loc main_arg0) := rfl

/-- Argument 1 ends as launched. -/
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := host4_arg1 _
    _ = W7 m ρ c (Proc.devRef .tc main_arg1) := W8_of_ne m ρ c main_arg1 (by decide)
    _ = W6 m ρ c (Proc.devRef .tc main_arg1) := host3_arg1 _
    _ = W5 m ρ c (Proc.devRef .tc main_arg1) := W6_of_ne m ρ c main_arg1 (by decide)
    _ = W4 m ρ c (Proc.devRef .tc main_arg1) := host2_arg1 _
    _ = W3 m ρ c (Proc.devRef .tc main_arg1) := W4_of_ne m ρ c main_arg1 (by decide)
    _ = W2 m ρ c (Proc.devRef .tc main_arg1) := host1_arg1 _
    _ = W1 m ρ c (Proc.devRef .tc main_arg1) := W2_of_ne m ρ c main_arg1 (by decide)
    _ = W0 m ρ c (Proc.devRef .tc main_arg1) := host0_arg1 _
    _ = m ((c : Thread nD τ).loc main_arg1) := rfl

/-- Argument 2 ends as launched. -/
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := host4_arg2 _
    _ = W7 m ρ c (Proc.devRef .tc main_arg2) := W8_of_ne m ρ c main_arg2 (by decide)
    _ = W6 m ρ c (Proc.devRef .tc main_arg2) := host3_arg2 _
    _ = W5 m ρ c (Proc.devRef .tc main_arg2) := W6_of_ne m ρ c main_arg2 (by decide)
    _ = W4 m ρ c (Proc.devRef .tc main_arg2) := host2_arg2 _
    _ = W3 m ρ c (Proc.devRef .tc main_arg2) := W4_of_ne m ρ c main_arg2 (by decide)
    _ = W2 m ρ c (Proc.devRef .tc main_arg2) := host1_arg2 _
    _ = W1 m ρ c (Proc.devRef .tc main_arg2) := W2_of_ne m ρ c main_arg2 (by decide)
    _ = W0 m ρ c (Proc.devRef .tc main_arg2) := host0_arg2 _
    _ = m ((c : Thread nD τ).loc main_arg2) := rfl

/-- Argument 3 ends as launched. -/
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := host4_arg3 _
    _ = W7 m ρ c (Proc.devRef .tc main_arg3) := W8_of_ne m ρ c main_arg3 (by decide)
    _ = W6 m ρ c (Proc.devRef .tc main_arg3) := host3_arg3 _
    _ = W5 m ρ c (Proc.devRef .tc main_arg3) := W6_of_ne m ρ c main_arg3 (by decide)
    _ = W4 m ρ c (Proc.devRef .tc main_arg3) := host2_arg3 _
    _ = W3 m ρ c (Proc.devRef .tc main_arg3) := W4_of_ne m ρ c main_arg3 (by decide)
    _ = W2 m ρ c (Proc.devRef .tc main_arg3) := host1_arg3 _
    _ = W1 m ρ c (Proc.devRef .tc main_arg3) := W2_of_ne m ρ c main_arg3 (by decide)
    _ = W0 m ρ c (Proc.devRef .tc main_arg3) := host0_arg3 _
    _ = m ((c : Thread nD τ).loc main_arg3) := rfl

/-- Argument 4 ends as launched. -/
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := host4_arg4 _
    _ = W7 m ρ c (Proc.devRef .tc main_arg4) := W8_of_ne m ρ c main_arg4 (by decide)
    _ = W6 m ρ c (Proc.devRef .tc main_arg4) := host3_arg4 _
    _ = W5 m ρ c (Proc.devRef .tc main_arg4) := W6_of_ne m ρ c main_arg4 (by decide)
    _ = W4 m ρ c (Proc.devRef .tc main_arg4) := host2_arg4 _
    _ = W3 m ρ c (Proc.devRef .tc main_arg4) := W4_of_ne m ρ c main_arg4 (by decide)
    _ = W2 m ρ c (Proc.devRef .tc main_arg4) := host1_arg4 _
    _ = W1 m ρ c (Proc.devRef .tc main_arg4) := W2_of_ne m ρ c main_arg4 (by decide)
    _ = W0 m ρ c (Proc.devRef .tc main_arg4) := host0_arg4 _
    _ = m ((c : Thread nD τ).loc main_arg4) := rfl

/-- Argument 5 ends as launched. -/
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := host4_arg5 _
    _ = W7 m ρ c (Proc.devRef .tc main_arg5) := W8_of_ne m ρ c main_arg5 (by decide)
    _ = W6 m ρ c (Proc.devRef .tc main_arg5) := host3_arg5 _
    _ = W5 m ρ c (Proc.devRef .tc main_arg5) := W6_of_ne m ρ c main_arg5 (by decide)
    _ = W4 m ρ c (Proc.devRef .tc main_arg5) := host2_arg5 _
    _ = W3 m ρ c (Proc.devRef .tc main_arg5) := W4_of_ne m ρ c main_arg5 (by decide)
    _ = W2 m ρ c (Proc.devRef .tc main_arg5) := host1_arg5 _
    _ = W1 m ρ c (Proc.devRef .tc main_arg5) := W2_of_ne m ρ c main_arg5 (by decide)
    _ = W0 m ρ c (Proc.devRef .tc main_arg5) := host0_arg5 _
    _ = m ((c : Thread nD τ).loc main_arg5) := rfl

/-- Argument 6 ends as launched. -/
theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := host4_arg6 _
    _ = W7 m ρ c (Proc.devRef .tc main_arg6) := W8_of_ne m ρ c main_arg6 (by decide)
    _ = W6 m ρ c (Proc.devRef .tc main_arg6) := host3_arg6 _
    _ = W5 m ρ c (Proc.devRef .tc main_arg6) := W6_of_ne m ρ c main_arg6 (by decide)
    _ = W4 m ρ c (Proc.devRef .tc main_arg6) := host2_arg6 _
    _ = W3 m ρ c (Proc.devRef .tc main_arg6) := W4_of_ne m ρ c main_arg6 (by decide)
    _ = W2 m ρ c (Proc.devRef .tc main_arg6) := host1_arg6 _
    _ = W1 m ρ c (Proc.devRef .tc main_arg6) := W2_of_ne m ρ c main_arg6 (by decide)
    _ = W0 m ρ c (Proc.devRef .tc main_arg6) := host0_arg6 _
    _ = m ((c : Thread nD τ).loc main_arg6) := rfl

/-- Argument 7 ends as launched. -/
theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := host4_arg7 _
    _ = W7 m ρ c (Proc.devRef .tc main_arg7) := W8_of_ne m ρ c main_arg7 (by decide)
    _ = W6 m ρ c (Proc.devRef .tc main_arg7) := host3_arg7 _
    _ = W5 m ρ c (Proc.devRef .tc main_arg7) := W6_of_ne m ρ c main_arg7 (by decide)
    _ = W4 m ρ c (Proc.devRef .tc main_arg7) := host2_arg7 _
    _ = W3 m ρ c (Proc.devRef .tc main_arg7) := W4_of_ne m ρ c main_arg7 (by decide)
    _ = W2 m ρ c (Proc.devRef .tc main_arg7) := host1_arg7 _
    _ = W1 m ρ c (Proc.devRef .tc main_arg7) := W2_of_ne m ρ c main_arg7 (by decide)
    _ = W0 m ρ c (Proc.devRef .tc main_arg7) := host0_arg7 _
    _ = m ((c : Thread nD τ).loc main_arg7) := rfl

/-- Argument 8 ends as launched. -/
theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := host4_arg8 _
    _ = W7 m ρ c (Proc.devRef .tc main_arg8) := W8_of_ne m ρ c main_arg8 (by decide)
    _ = W6 m ρ c (Proc.devRef .tc main_arg8) := host3_arg8 _
    _ = W5 m ρ c (Proc.devRef .tc main_arg8) := W6_of_ne m ρ c main_arg8 (by decide)
    _ = W4 m ρ c (Proc.devRef .tc main_arg8) := host2_arg8 _
    _ = W3 m ρ c (Proc.devRef .tc main_arg8) := W4_of_ne m ρ c main_arg8 (by decide)
    _ = W2 m ρ c (Proc.devRef .tc main_arg8) := host1_arg8 _
    _ = W1 m ρ c (Proc.devRef .tc main_arg8) := W2_of_ne m ρ c main_arg8 (by decide)
    _ = W0 m ρ c (Proc.devRef .tc main_arg8) := host0_arg8 _
    _ = m ((c : Thread nD τ).loc main_arg8) := rfl

end Cert.KernelIdeal.Hand

end
-- ==== Proof.KI.Frame.lean ====
/-
  The frame: @main runs to the end, nothing faults, and the nine argument arrays end unchanged.
-/
import proofs.«168404_j17343077941930_1_alg».proof.Proof.KI.RunMain
import proofs.«168404_j17343077941930_1_alg».proof.Proof.KI.Args

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c main_arg0 (by decide)).trans (W9_main_arg0 m ρ c), (h c main_arg1 (by decide)).trans (W9_main_arg1 m ρ c),
     (h c main_arg2 (by decide)).trans (W9_main_arg2 m ρ c), (h c main_arg3 (by decide)).trans (W9_main_arg3 m ρ c),
     (h c main_arg4 (by decide)).trans (W9_main_arg4 m ρ c), (h c main_arg5 (by decide)).trans (W9_main_arg5 m ρ c),
     (h c main_arg6 (by decide)).trans (W9_main_arg6 m ρ c), (h c main_arg7 (by decide)).trans (W9_main_arg7 m ρ c),
     (h c main_arg8 (by decide)).trans (W9_main_arg8 m ρ c)⟩) (run_main m ρ)

end Cert.KernelIdeal.Hand

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.KI.HostStages.lean ====
/-
  THE HOST OPERATIONS BETWEEN THE KERNEL REGIONS, NAMED.

  Each stretch of host operations computes a few arrays the next region (or the result) reads, as compositions of the
  same few steps: the embedding tables' rows picked at the given indices (negative indices counted from the end) and
  stacked; for one fold of the adjacency, the aggregate — the table's rows gathered at the edges' source indices, each
  multiplied by its edge's weight, scatter-added into a zero array at the edges' target indices —; the two folds'
  aggregates added up from zero; a layer's weight matrix cut out of the stack of three; the two halves of a table; four
  pieces laid side by side; a column flattened. Each buffer a later segment reads is such a composition of the contents
  the stretch started from.
-/
import proofs.«168404_j17343077941930_1_alg».proof.Proof.Gen.KernelIdeal.Launch
import proofs.«168404_j17343077941930_1_alg».proof.Proof.LibHostWalk

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo Cert.HostWalk

variable {F : FTy → Type} [FloatOps F]

/-! ## The steps -/

/-- Row indices into a table of 100000 rows as a column, a negative index counted from the end. -/
def userCol (x : (⟨S100000, .i32⟩ : BufTy).Contents (Elt F)) : (⟨S100000x1, .i32⟩ : BufTy).Contents (Elt F) :=
  broadcastInDim S100000x1 ![0] bcast_S100000_S100000x1_0
    (select (cmpi .slt x (broadcastInDim S100000 ![] bcast_S_S100000 (constantI S_ 32 0#32)))
      (addi x (broadcastInDim S100000 ![] bcast_S_S100000 (constantI S_ 32 100000#32))) x)

/-- The rows of a table picked at the given indices. -/
def rowsOf (a : (⟨S100000x64, .f32⟩ : BufTy).Contents (Elt F)) (x : (⟨S100000, .i32⟩ : BufTy).Contents (Elt F)) :
    (⟨S100000x64, .f32⟩ : BufTy).Contents (Elt F) :=
  Host.gather gather_S100000x64_S100000x1_S100000x64_1_0_n_n_0_1_164 a (userCol x)

/-- The user rows stacked on the item rows. -/
def stack (u i : (⟨S100000x64, .f32⟩ : BufTy).Contents (Elt F)) : (⟨S200000x64, .f32⟩ : BufTy).Contents (Elt F) :=
  cat2 S200000x64 0 S100000x64 S100000x64 u i concatenates_S100000x64_S100000x64_S200000x64_d0

/-- Fold 0's row of a [2, 1600000] array, as a vector. -/
def fold0 {e : EltTy} (a : (⟨S2x1600000, e⟩ : BufTy).Contents (Elt F)) : (⟨S1600000, e⟩ : BufTy).Contents (Elt F) :=
  fun i => shapeCast S1600000 (extractStridedSlice S1x1600000 ![0, 0] a slices_S2x1600000_S1x1600000_0_0) shapeCasts_S1x1600000_S1600000 i

/-- Fold 1's row. -/
def fold1 {e : EltTy} (a : (⟨S2x1600000, e⟩ : BufTy).Contents (Elt F)) : (⟨S1600000, e⟩ : BufTy).Contents (Elt F) :=
  fun i => shapeCast S1600000 (extractStridedSlice S1x1600000 ![1, 0] a slices_S2x1600000_S1x1600000_1_0) shapeCasts_S1x1600000_S1600000 i

/-- The zero array. -/
def zeros : (⟨S200000x64, .f32⟩ : BufTy).Contents (Elt F) :=
  broadcastInDim S200000x64 ![] bcast_S_S200000x64 (constant S_ .f32 0x00000000#32)

/-- One fold's aggregate of the table `tab`: edge weights `q`, source indices `src` (negative ones counted from the end),
    target indices `dst`. -/
def aggOf (tab : (⟨S200000x64, .f32⟩ : BufTy).Contents (Elt F)) (q : (⟨S1600000, .f32⟩ : BufTy).Contents (Elt F))
    (src dst : (⟨S1600000, .i32⟩ : BufTy).Contents (Elt F)) : (⟨S200000x64, .f32⟩ : BufTy).Contents (Elt F) :=
  Host.scatterAdd scatter_S200000x64_S1600000x1_S1600000x64_1_0_0_1 zeros
    (broadcastInDim S1600000x1 ![0] bcast_S1600000_S1600000x1_0 dst)
    (mulf
      (Host.gather gather_S200000x64_S1600000x1_S1600000x64_1_0_n_n_0_1_164 tab
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 200000#32))) src)))
      (broadcastInDim S1600000x64 ![0, 1] bcast_S1600000x1_S1600000x64_0_1
        (broadcastInDim S1600000x1 ![0] bcast_S1600000_S1600000x1_0 q)))

/-- The two folds' aggregates of `tab`, added up from zero. -/
def relsum (tab : (⟨S200000x64, .f32⟩ : BufTy).Contents (Elt F)) (a4 : (⟨S2x1600000, .f32⟩ : BufTy).Contents (Elt F))
    (a5 a6 : (⟨S2x1600000, .i32⟩ : BufTy).Contents (Elt F)) : (⟨S200000x64, .f32⟩ : BufTy).Contents (Elt F) :=
  addf (addf zeros (aggOf tab (fold0 a4) (fold0 a6) (fold0 a5))) (aggOf tab (fold1 a4) (fold1 a6) (fold1 a5))

/-- Layer 0's, 1's, 2's matrix of a stack of three 64×64 matrices. -/
def wmat0 (a : (⟨S3x64x64, .f32⟩ : BufTy).Contents (Elt F)) : (⟨S64x64, .f32⟩ : BufTy).Contents (Elt F) :=
  fun i => shapeCast S64x64 (extractStridedSlice S1x64x64 ![0, 0, 0] a slices_S3x64x64_S1x64x64_0_0_0) shapeCasts_S1x64x64_S64x64 i
def wmat1 (a : (⟨S3x64x64, .f32⟩ : BufTy).Contents (Elt F)) : (⟨S64x64, .f32⟩ : BufTy).Contents (Elt F) :=
  fun i => shapeCast S64x64 (extractStridedSlice S1x64x64 ![1, 0, 0] a slices_S3x64x64_S1x64x64_1_0_0) shapeCasts_S1x64x64_S64x64 i
def wmat2 (a : (⟨S3x64x64, .f32⟩ : BufTy).Contents (Elt F)) : (⟨S64x64, .f32⟩ : BufTy).Contents (Elt F) :=
  fun i => shapeCast S64x64 (extractStridedSlice S1x64x64 ![2, 0, 0] a slices_S3x64x64_S1x64x64_2_0_0) shapeCasts_S1x64x64_S64x64 i

/-- The user half and the item half of a table of 200000 rows. -/
def lo (e : (⟨S200000x64, .f32⟩ : BufTy).Contents (Elt F)) : (⟨S100000x64, .f32⟩ : BufTy).Contents (Elt F) :=
  extractStridedSlice S100000x64 ![0, 0] e slices_S200000x64_S100000x64_0_0
def hi (e : (⟨S200000x64, .f32⟩ : BufTy).Contents (Elt F)) : (⟨S100000x64, .f32⟩ : BufTy).Contents (Elt F) :=
  extractStridedSlice S100000x64 ![100000, 0] e slices_S200000x64_S100000x64_100000_0

/-- Four 64-column pieces side by side. -/
def cat4 (a b c d : (⟨S100000x64, .f32⟩ : BufTy).Contents (Elt F)) : (⟨S100000x256, .f32⟩ : BufTy).Contents (Elt F) :=
  concatenate S100000x256 1 [⟨S100000x64, a⟩, ⟨S100000x64, b⟩, ⟨S100000x64, c⟩, ⟨S100000x64, d⟩]
    concatenates_S100000x64_S100000x64_S100000x64_S100000x64_S100000x256_d1

/-- A [100000, 1] column as a vector. -/
def flat (x : (⟨S100000x1, .f32⟩ : BufTy).Contents (Elt F)) : (⟨S100000, .f32⟩ : BufTy).Contents (Elt F) :=
  fun i => shapeCast S100000 x shapeCasts_S100000x1_S100000 i

/-! ## What each stretch leaves in the buffers read later -/

variable (W : Valuation τ sig (Elt F))

theorem h0_v6 : after (hostOps0 (F := F)) W (Proc.devRef .tc main_v6) = rowsOf (W (Proc.devRef .tc main_arg0)) (W (Proc.devRef .tc main_arg7)) := by
  walk_back []; rfl
theorem h0_v13 : after (hostOps0 (F := F)) W (Proc.devRef .tc main_v13) = rowsOf (W (Proc.devRef .tc main_arg1)) (W (Proc.devRef .tc main_arg8)) := by
  walk_back []; rfl
theorem h0_v14 : after (hostOps0 (F := F)) W (Proc.devRef .tc main_v14)
    = stack (rowsOf (W (Proc.devRef .tc main_arg0)) (W (Proc.devRef .tc main_arg7))) (rowsOf (W (Proc.devRef .tc main_arg1)) (W (Proc.devRef .tc main_arg8))) := by
  walk_back []; rfl
theorem h0_v55 : after (hostOps0 (F := F)) W (Proc.devRef .tc main_v55)
    = relsum (stack (rowsOf (W (Proc.devRef .tc main_arg0)) (W (Proc.devRef .tc main_arg7))) (rowsOf (W (Proc.devRef .tc main_arg1)) (W (Proc.devRef .tc main_arg8))))
        (W (Proc.devRef .tc main_arg4)) (W (Proc.devRef .tc main_arg5)) (W (Proc.devRef .tc main_arg6)) := by
  walk_back []; rfl
theorem h0_v57 : after (hostOps0 (F := F)) W (Proc.devRef .tc main_v57) = wmat0 (W (Proc.devRef .tc main_arg2)) := by
  walk_back []; rfl
theorem h0_v59 : after (hostOps0 (F := F)) W (Proc.devRef .tc main_v59) = wmat0 (W (Proc.devRef .tc main_arg3)) := by
  walk_back []; rfl

theorem h1_v61 : after (hostOps1 (F := F)) W (Proc.devRef .tc main_v61) = lo (W (Proc.devRef .tc main_v60)) := by
  walk_back []; rfl
theorem h1_v62 : after (hostOps1 (F := F)) W (Proc.devRef .tc main_v62) = hi (W (Proc.devRef .tc main_v60)) := by
  walk_back []; rfl
theorem h1_v103 : after (hostOps1 (F := F)) W (Proc.devRef .tc main_v103)
    = relsum (W (Proc.devRef .tc main_v60)) (W (Proc.devRef .tc main_arg4)) (W (Proc.devRef .tc main_arg5)) (W (Proc.devRef .tc main_arg6)) := by
  walk_back []; rfl
theorem h1_v105 : after (hostOps1 (F := F)) W (Proc.devRef .tc main_v105) = wmat1 (W (Proc.devRef .tc main_arg2)) := by
  walk_back []; rfl
theorem h1_v107 : after (hostOps1 (F := F)) W (Proc.devRef .tc main_v107) = wmat1 (W (Proc.devRef .tc main_arg3)) := by
  walk_back []; rfl
theorem h1_v60 : after (hostOps1 (F := F)) W (Proc.devRef .tc main_v60) = W (Proc.devRef .tc main_v60) := by
  walk_back []
theorem h1_v6 : after (hostOps1 (F := F)) W (Proc.devRef .tc main_v6) = W (Proc.devRef .tc main_v6) := by
  walk_back []
theorem h1_v13 : after (hostOps1 (F := F)) W (Proc.devRef .tc main_v13) = W (Proc.devRef .tc main_v13) := by
  walk_back []

theorem h2_v109 : after (hostOps2 (F := F)) W (Proc.devRef .tc main_v109) = lo (W (Proc.devRef .tc main_v108)) := by
  walk_back []; rfl
theorem h2_v110 : after (hostOps2 (F := F)) W (Proc.devRef .tc main_v110) = hi (W (Proc.devRef .tc main_v108)) := by
  walk_back []; rfl
theorem h2_v151 : after (hostOps2 (F := F)) W (Proc.devRef .tc main_v151)
    = relsum (W (Proc.devRef .tc main_v108)) (W (Proc.devRef .tc main_arg4)) (W (Proc.devRef .tc main_arg5)) (W (Proc.devRef .tc main_arg6)) := by
  walk_back []; rfl
theorem h2_v153 : after (hostOps2 (F := F)) W (Proc.devRef .tc main_v153) = wmat2 (W (Proc.devRef .tc main_arg2)) := by
  walk_back []; rfl
theorem h2_v155 : after (hostOps2 (F := F)) W (Proc.devRef .tc main_v155) = wmat2 (W (Proc.devRef .tc main_arg3)) := by
  walk_back []; rfl
theorem h2_v108 : after (hostOps2 (F := F)) W (Proc.devRef .tc main_v108) = W (Proc.devRef .tc main_v108) := by
  walk_back []
theorem h2_v6 : after (hostOps2 (F := F)) W (Proc.devRef .tc main_v6) = W (Proc.devRef .tc main_v6) := by
  walk_back []
theorem h2_v13 : after (hostOps2 (F := F)) W (Proc.devRef .tc main_v13) = W (Proc.devRef .tc main_v13) := by
  walk_back []
theorem h2_v61 : after (hostOps2 (F := F)) W (Proc.devRef .tc main_v61) = W (Proc.devRef .tc main_v61) := by
  walk_back []
theorem h2_v62 : after (hostOps2 (F := F)) W (Proc.devRef .tc main_v62) = W (Proc.devRef .tc main_v62) := by
  walk_back []

theorem h3_v159 : after (hostOps3 (F := F)) W (Proc.devRef .tc main_v159)
    = cat4 (W (Proc.devRef .tc main_v6)) (W (Proc.devRef .tc main_v61)) (W (Proc.devRef .tc main_v109)) (lo (W (Proc.devRef .tc main_v156))) := by
  walk_back []; rfl
theorem h3_v160 : after (hostOps3 (F := F)) W (Proc.devRef .tc main_v160)
    = cat4 (W (Proc.devRef .tc main_v13)) (W (Proc.devRef .tc main_v62)) (W (Proc.devRef .tc main_v110)) (hi (W (Proc.devRef .tc main_v156))) := by
  walk_back []; rfl

theorem h4_v162 : after (hostOps4 (F := F)) W (Proc.devRef .tc main_v162) = flat (W (Proc.devRef .tc main_v161)) := by
  walk_back []; rfl

end Cert.KernelIdeal.Hand

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibWholeProduct.lean ====
/-
  The matrix product of an M×K array with a K×N array on the extended reals, as ONE function of the two arrays:
  entry (p, c) is Σ_{q < K} x[p, q] · w[q, c] (`mm`). The vector unit's product into a zero accumulator (whatever
  float formats its operands were cast to) and the host's dot_general (contract the left operand's axis 1 with the
  right operand's axis 0, no batch axes) are both this function, as whole arrays (`matmul_zero_eq`,
  `dotGeneral_eq`). An entry depends on one row of the left operand and one column of the right operand
  (`mm_eq_of_row_col`): two products of arrays of any heights and widths agree at a pair of entries whose row and
  column agree term by term — what a product computed a block of rows at a time needs. Any extents; no program.
-/
import proofs.«168404_j17343077941930_1_alg».proof.Proof.LibPlainDot

noncomputable section

open scoped BigOperators

namespace Cert.Product

open Idealize.ShloMosaic Idealize.ShloMosaic.ValueIdx Cert.PlainDot

/-- The product, entry by entry. -/
def mm {M K N : Nat} (x : (⟨2, ![M, K]⟩ : Shape).Idx → EReal) (w : (⟨2, ![K, N]⟩ : Shape).Idx → EReal) :
    (⟨2, ![M, N]⟩ : Shape).Idx → EReal :=
  fun i => ∑ q : Fin K, x (ix2 (i 0) q) * w (ix2 q (i 1))

theorem mm_apply {M K N : Nat} (x : (⟨2, ![M, K]⟩ : Shape).Idx → EReal) (w : (⟨2, ![K, N]⟩ : Shape).Idx → EReal)
    (p : Fin M) (c : Fin N) : mm x w (ix2 p c) = ∑ q : Fin K, x (ix2 p q) * w (ix2 q c) := rfl

/-- An entry of a product depends on one row of the left operand and one column of the right operand: two products,
    of arrays of any heights and widths, agree at a pair of entries whose row and column agree term by term. -/
theorem mm_eq_of_row_col {M K N M' N' : Nat}
    (x : (⟨2, ![M, K]⟩ : Shape).Idx → EReal) (w : (⟨2, ![K, N]⟩ : Shape).Idx → EReal)
    (x' : (⟨2, ![M', K]⟩ : Shape).Idx → EReal) (w' : (⟨2, ![K, N']⟩ : Shape).Idx → EReal)
    (i : (⟨2, ![M, N]⟩ : Shape).Idx) (i' : (⟨2, ![M', N']⟩ : Shape).Idx)
    (hx : ∀ q : Fin K, x (ix2 (i 0) q) = x' (ix2 (i' 0) q)) (hw : ∀ q : Fin K, w (ix2 q (i 1)) = w' (ix2 q (i' 1))) :
    mm x w i = mm x' w' i' :=
  Finset.sum_congr rfl fun q _ => by rw [hx q, hw q]

variable {M K N : Nat} {d : DotDims ⟨2, ![M, K]⟩ ⟨2, ![K, N]⟩ ⟨2, ![M, N]⟩}

/-- The host's dot_general of a plain product is `mm`. -/
theorem dotGeneral_eq (h : IsPlain d) (prec : Option ContractPrecision)
    (l : FVec Ideal ⟨2, ![M, K]⟩ .f32) (r : FVec Ideal ⟨2, ![K, N]⟩ .f32) :
    Host.dotGeneral d prec l r = mm l r := by
  funext i
  rw [eq_ix2 i]
  exact dotGeneral_apply h prec l r (i 0) (i 1)

/-- The vector unit's product into a zero accumulator is `mm`, whatever float formats the operands were cast to. -/
theorem matmul_zero_eq (h : IsPlain d) (prec : Option ContractPrecision) {φ₁ φ₂ : FTy}
    (l : FVec Ideal ⟨2, ![M, K]⟩ φ₁) (r : FVec Ideal ⟨2, ![K, N]⟩ φ₂) :
    matmul d prec l r (constant ⟨2, ![M, N]⟩ .f32 0x00000000#32) = mm (K := K) (fun i => l i) (fun i => r i) := by
  funext i
  rw [eq_ix2 i]
  exact matmul_zero_apply h prec l r (i 0) (i 1)

end Cert.Product

end
-- ==== Proof.LibRealSum.lean ====
/-
  Real numbers inside the extended reals: they are closed under sums, products, maxima and finite sums,
  and on them a weighted sum of matrix-vector products may be exchanged with the matrix-vector product of
  the weighted sums. A sum over 136 consecutive coordinates is also split into blocks of 64, 64 and 8.
-/
import Idealize.ShloMosaic.PureOps.Ideal

noncomputable section

namespace Cert.RealSum

/-- An extended real that is a real number. -/
def IsReal (x : EReal) : Prop := ∃ r : ℝ, x = (r : EReal)

/-- Zero is a real number. -/
theorem isReal_zero : IsReal 0 := ⟨0, EReal.coe_zero.symm⟩

/-- The image of a real number in the extended reals is a real number. -/
theorem isReal_coe (r : ℝ) : IsReal (r : EReal) := ⟨r, rfl⟩

/-- The sum of two real numbers is a real number. -/
theorem IsReal.add {x y : EReal} (hx : IsReal x) (hy : IsReal y) : IsReal (x + y) := by
  obtain ⟨p, rfl⟩ := hx
  obtain ⟨q, rfl⟩ := hy
  exact ⟨p + q, (EReal.coe_add p q).symm⟩

/-- The product of two real numbers is a real number. -/
theorem IsReal.mul {x y : EReal} (hx : IsReal x) (hy : IsReal y) : IsReal (x * y) := by
  obtain ⟨p, rfl⟩ := hx
  obtain ⟨q, rfl⟩ := hy
  exact ⟨p * q, (EReal.coe_mul p q).symm⟩

/-- The larger of two real numbers is a real number, because it is one of the two. -/
theorem IsReal.max {x y : EReal} (hx : IsReal x) (hy : IsReal y) : IsReal (max x y) := by
  rcases max_choice x y with h | h
  · rw [h]; exact hx
  · rw [h]; exact hy

/-- A finite sum of real numbers is a real number. -/
theorem isReal_sum {ι : Type} (s : Finset ι) (f : ι → EReal) (h : ∀ e ∈ s, IsReal (f e)) :
    IsReal (∑ e ∈ s, f e) :=
  Finset.sum_induction f IsReal (fun _ _ hx hy => hx.add hy) isReal_zero h

/-- An extended real that is neither plus nor minus infinity is a real number. -/
theorem isReal_of_ne_top_of_ne_bot {x : EReal} (ht : x ≠ ⊤) (hb : x ≠ ⊥) : IsReal x :=
  ⟨x.toReal, (EReal.coe_toReal ht hb).symm⟩

/-- A nonnegative extended real other than plus infinity is a real number: being at least zero, it is
    not minus infinity either. -/
theorem isReal_of_nonneg_of_ne_top {x : EReal} (h0 : 0 ≤ x) (ht : x ≠ ⊤) : IsReal x :=
  isReal_of_ne_top_of_ne_bot ht (lt_of_lt_of_le EReal.bot_lt_zero h0).ne'

/-- The image of a finite sum of real numbers is the sum of the images. -/
private theorem coe_sum {ι : Type} (s : Finset ι) (g : ι → ℝ) :
    ((∑ e ∈ s, g e : ℝ) : EReal) = ∑ e ∈ s, (g e : EReal) := by
  classical
  induction s using Finset.induction_on with
  | empty => rw [Finset.sum_empty, Finset.sum_empty, EReal.coe_zero]
  | insert b t hb ih => rw [Finset.sum_insert hb, Finset.sum_insert hb, EReal.coe_add, ih]

/-- The exchange law over the real numbers: both sides expand to the double sum of `a e k * w k * c e`,
    summed in the two possible orders. -/
private theorem commute_real {ι κ : Type} [Fintype κ] (s : Finset ι) (a : ι → κ → ℝ) (w : κ → ℝ)
    (c : ι → ℝ) :
    ∑ e ∈ s, (∑ k, a e k * w k) * c e = ∑ k, (∑ e ∈ s, a e k * c e) * w k := by
  simp only [Finset.sum_mul]
  rw [Finset.sum_comm]
  refine Finset.sum_congr rfl (fun k _ => Finset.sum_congr rfl (fun e _ => ?_))
  exact mul_right_comm (a e k) (w k) (c e)

/-- THE COMMUTE LAW: a weighted sum over edges of matrix-vector products is the matrix-vector product of
    the weighted sums, when every entry is real. Both edge sums start from zero, as a scatter-add into a
    zero array does. -/
theorem commute {ι κ : Type} [Fintype κ] (s : Finset ι) (a : ι → κ → EReal) (w : κ → EReal)
    (c : ι → EReal) (ha : ∀ e k, IsReal (a e k)) (hw : ∀ k, IsReal (w k)) (hc : ∀ e, IsReal (c e)) :
    (0 + ∑ e ∈ s, (∑ k, a e k * w k) * c e) = ∑ k, (0 + ∑ e ∈ s, a e k * c e) * w k := by
  choose a' ha' using ha
  choose w' hw' using hw
  choose c' hc' using hc
  -- every entry is the image of a real number, so both sides are images of real expressions
  have hL : (0 + ∑ e ∈ s, (∑ k, a e k * w k) * c e)
      = ((∑ e ∈ s, (∑ k, a' e k * w' k) * c' e : ℝ) : EReal) := by
    rw [zero_add, coe_sum]
    refine Finset.sum_congr rfl (fun e _ => ?_)
    rw [EReal.coe_mul, coe_sum, hc' e]
    congr 1
    refine Finset.sum_congr rfl (fun k _ => ?_)
    rw [EReal.coe_mul, ha' e k, hw' k]
  have hR : (∑ k, (0 + ∑ e ∈ s, a e k * c e) * w k)
      = ((∑ k, (∑ e ∈ s, a' e k * c' e) * w' k : ℝ) : EReal) := by
    rw [coe_sum]
    refine Finset.sum_congr rfl (fun k _ => ?_)
    rw [zero_add, EReal.coe_mul, coe_sum, hw' k]
    congr 1
    refine Finset.sum_congr rfl (fun e _ => ?_)
    rw [EReal.coe_mul, ha' e k, hc' e]
  rw [hL, hR, commute_real s a' w' c']

/-- A sum over 136 coordinates split as 64 + 64 + 8 consecutive coordinates, grouped
    (first + second) + third. -/
theorem sum_split_136 (f : Fin 136 → EReal) :
    ∑ q : Fin 136, f q
      = (∑ q : Fin 64, f ⟨q.val, by omega⟩ + ∑ q : Fin 64, f ⟨64 + q.val, by omega⟩)
        + ∑ q : Fin 8, f ⟨128 + q.val, by omega⟩ := by
  have h1 : ∑ q : Fin (64 + 64 + 8), f q
      = ∑ q : Fin (64 + 64), f (Fin.castAdd 8 q) + ∑ q : Fin 8, f (Fin.natAdd (64 + 64) q) :=
    Fin.sum_univ_add (fun q : Fin (64 + 64 + 8) => f q)
  have h2 : ∑ q : Fin (64 + 64), f (Fin.castAdd 8 q)
      = ∑ q : Fin 64, f (Fin.castAdd 8 (Fin.castAdd 64 q))
        + ∑ q : Fin 64, f (Fin.castAdd 8 (Fin.natAdd 64 q)) :=
    Fin.sum_univ_add (fun q : Fin (64 + 64) => f (Fin.castAdd 8 q))
  rw [h2] at h1
  exact h1

end Cert.RealSum
-- ==== Proof.LibLayerLaw.lean ====
/-
  ONE LAYER'S UPDATE AT ONE ENTRY, TWO WAYS.

  With r0, r1 the two folds' aggregates, e the current embedding row and w, v a column of each weight matrix, one
  program adds the aggregates first and multiplies once,

      Σ_q ((0 + r0 q) + r1 q) · w q  +  Σ_q (((0 + r0 q) + r1 q) · e q) · v q,

  the other multiplies each aggregate and adds the four products up from zero,

      (((0 + Σ_q r0 q · w q) + Σ_q (r0 q · e q) · v q) + Σ_q r1 q · w q) + Σ_q (r1 q · e q) · v q.

  On real numbers these are equal (distributivity); on the extended reals distributivity fails at the infinities, so
  the entries are required to be real numbers. The leaky rectifier written with a strict test, x where x > 0 and
  s·x elsewhere, and with a weak test, x where x ≥ 0 and s·x elsewhere, agree on every extended real: they differ
  only at x = 0, where s·0 = 0.
-/
import proofs.«168404_j17343077941930_1_alg».proof.Proof.LibRealSum
import Idealize.ShloMosaic.PureOps.Ideal.Laws

noncomputable section

open scoped BigOperators

namespace Cert.LayerLaw

open Idealize.ShloMosaic Cert.RealSum

/-- The image of a finite sum of real numbers is the sum of the images. -/
theorem coe_sum {ι : Type} (s : Finset ι) (g : ι → ℝ) :
    ((∑ q ∈ s, g q : ℝ) : EReal) = ∑ q ∈ s, (g q : EReal) := by
  classical
  induction s using Finset.induction_on with
  | empty => rw [Finset.sum_empty, Finset.sum_empty, EReal.coe_zero]
  | insert b t hb ih => rw [Finset.sum_insert hb, Finset.sum_insert hb, EReal.coe_add, ih]

/-- The leaky rectifier with the strict test and with the weak test are one function. -/
theorem leaky_gt_eq_ge (s x : EReal) :
    Scalar.select (Ideal.cmp .ogt x 0) x (s * x) = Scalar.select (Ideal.cmp .oge x 0) x (s * x) := by
  unfold Scalar.select Ideal.cmp
  by_cases h : (0 : EReal) < x
  · simp [h, h.le]
  · by_cases h0 : (0 : EReal) ≤ x
    · have hx : x = 0 := le_antisymm (not_lt.mp h) h0
      subst hx
      simp
    · simp [h, h0]

/-- The leaky rectifier of a real number with a real slope is a real number. -/
theorem isReal_leaky {s x : EReal} (c : BitVec 1) (hs : IsReal s) (hx : IsReal x) :
    IsReal (Scalar.select c x (s * x)) := by
  unfold Scalar.select
  split
  · exact hx
  · exact hs.mul hx

/-- THE UPDATE, TWO WAYS: adding the folds' aggregates before the two products, or adding the four products of the
    separate aggregates up from zero, gives the same number when every entry is real. -/
theorem update_eq {κ : Type} [Fintype κ] (r0 r1 e w v : κ → EReal)
    (h0 : ∀ q, IsReal (r0 q)) (h1 : ∀ q, IsReal (r1 q)) (he : ∀ q, IsReal (e q))
    (hw : ∀ q, IsReal (w q)) (hv : ∀ q, IsReal (v q)) :
    (∑ q, ((0 + r0 q) + r1 q) * w q) + ∑ q, (((0 + r0 q) + r1 q) * e q) * v q
      = (((0 + ∑ q, r0 q * w q) + ∑ q, (r0 q * e q) * v q) + ∑ q, r1 q * w q) + ∑ q, (r1 q * e q) * v q := by
  choose a ha using h0
  choose b hb using h1
  choose e' he' using he
  choose w' hw' using hw
  choose v' hv' using hv
  simp only [zero_add]
  have e1 : ∀ q, (r0 q + r1 q) * w q = (((a q + b q) * w' q : ℝ) : EReal) := fun q => by
    rw [ha, hb, hw', ← EReal.coe_add, ← EReal.coe_mul]
  have e2 : ∀ q, ((r0 q + r1 q) * e q) * v q = ((((a q + b q) * e' q) * v' q : ℝ) : EReal) := fun q => by
    rw [ha, hb, he', hv', ← EReal.coe_add, ← EReal.coe_mul, ← EReal.coe_mul]
  have e3 : ∀ q, r0 q * w q = ((a q * w' q : ℝ) : EReal) := fun q => by rw [ha, hw', ← EReal.coe_mul]
  have e4 : ∀ q, (r0 q * e q) * v q = (((a q * e' q) * v' q : ℝ) : EReal) := fun q => by
    rw [ha, he', hv', ← EReal.coe_mul, ← EReal.coe_mul]
  have e5 : ∀ q, r1 q * w q = ((b q * w' q : ℝ) : EReal) := fun q => by rw [hb, hw', ← EReal.coe_mul]
  have e6 : ∀ q, (r1 q * e q) * v q = (((b q * e' q) * v' q : ℝ) : EReal) := fun q => by
    rw [hb, he', hv', ← EReal.coe_mul, ← EReal.coe_mul]
  simp only [e1, e2, e3, e4, e5, e6, ← coe_sum, ← EReal.coe_add]
  refine congrArg _ ?_
  simp only [add_mul, Finset.sum_add_distrib]
  ring

/-- The update's value is a real number. -/
theorem isReal_update {κ : Type} [Fintype κ] (r0 r1 e w v : κ → EReal)
    (h0 : ∀ q, IsReal (r0 q)) (h1 : ∀ q, IsReal (r1 q)) (he : ∀ q, IsReal (e q))
    (hw : ∀ q, IsReal (w q)) (hv : ∀ q, IsReal (v q)) :
    IsReal ((∑ q, ((0 + r0 q) + r1 q) * w q) + ∑ q, (((0 + r0 q) + r1 q) * e q) * v q) :=
  (isReal_sum _ _ fun q _ => ((isReal_zero.add (h0 q)).add (h1 q)).mul (hw q)).add
    (isReal_sum _ _ fun q _ => ((((isReal_zero.add (h0 q)).add (h1 q)).mul (he q)).mul (hv q)))

/-- The single-precision word of the slope 0.2 denotes a real number. -/
theorem isReal_slope : IsReal (Ideal.ofBits .f32 0x3E4CCCCD#32) := by
  unfold Ideal.ofBits Ideal.ieee
  simp
  exact ⟨_, rfl⟩

end Cert.LayerLaw

end
-- ==== Proof.LibLayerSpec.lean ====
/-
  ONE LAYER AS A FUNCTION OF WHOLE ARRAYS.

  With R the summed aggregate, E the current embeddings ([M, 64] arrays) and W1, W2 the layer's 64×64 weights, the
  layer's output at (p, c) is the leaky rectifier (slope: the single-precision word of 0.2, strict test against zero)
  of  Σ_q R[p,q]·W1[q,c] + Σ_q (R[p,q]·E[p,q])·W2[q,c].  An entry depends on row p of R and of E only, so a layer
  computed a block of rows at a time is the layer of the whole arrays. When the aggregate is a sum of two folds'
  aggregates with real entries, the same output is obtained by multiplying each fold's aggregate first and adding the
  four products up from zero, rectified with the weak test. The final read-out is a row-wise dot product.
-/
import proofs.«168404_j17343077941930_1_alg».proof.Proof.LibWholeProduct
import proofs.«168404_j17343077941930_1_alg».proof.Proof.LibLayerLaw

noncomputable section

open scoped BigOperators

namespace Cert.LayerSpec

open Idealize.ShloMosaic Idealize.ShloMosaic.ValueIdx Cert.Product Cert.RealSum Cert.LayerLaw

/-- Every entry of an array is a real number. -/
def AllReal {s : Shape} (x : s.Idx → EReal) : Prop := ∀ i, IsReal (x i)

/-- The leaky rectifier, strict test. -/
def leaky (x : EReal) : EReal :=
  Scalar.select (Ideal.cmp .ogt x (Ideal.ofBits .f32 0x00000000#32)) x (Ideal.ofBits .f32 0x3E4CCCCD#32 * x)

/-- The leaky rectifier, weak test. -/
def leakyGe (x : EReal) : EReal :=
  Scalar.select (Ideal.cmp .oge x (Ideal.ofBits .f32 0x00000000#32)) x (Ideal.ofBits .f32 0x3E4CCCCD#32 * x)

theorem leaky_eq_leakyGe (x : EReal) : leaky x = leakyGe x := by
  unfold leaky leakyGe
  rw [Ideal.ofBits_zero_f32]
  exact leaky_gt_eq_ge _ x

theorem isReal_leaky' {x : EReal} (hx : IsReal x) : IsReal (leaky x) := isReal_leaky _ isReal_slope hx

variable {M : Nat}

/-- One layer's output from the summed aggregate `R`, the embeddings `E` and the two weight matrices. -/
def layer (R E : (⟨2, ![M, 64]⟩ : Shape).Idx → EReal) (W1 W2 : (⟨2, ![64, 64]⟩ : Shape).Idx → EReal) :
    (⟨2, ![M, 64]⟩ : Shape).Idx → EReal :=
  fun i => leaky (mm R W1 i + mm (fun j => R j * E j) W2 i)

/-- The same from the two folds' aggregates separately: the four products added up from zero, weak test. -/
def layerSplit (r0 r1 E : (⟨2, ![M, 64]⟩ : Shape).Idx → EReal) (W1 W2 : (⟨2, ![64, 64]⟩ : Shape).Idx → EReal) :
    (⟨2, ![M, 64]⟩ : Shape).Idx → EReal :=
  fun i => leakyGe ((((0 + mm r0 W1 i) + mm (fun j => r0 j * E j) W2 i) + mm r1 W1 i) + mm (fun j => r1 j * E j) W2 i)

/-- An entry of a layer depends on one row of the aggregate and of the embeddings. -/
theorem layer_eq_of_rows {M' : Nat} (R E : (⟨2, ![M, 64]⟩ : Shape).Idx → EReal) (R' E' : (⟨2, ![M', 64]⟩ : Shape).Idx → EReal)
    (W1 W2 : (⟨2, ![64, 64]⟩ : Shape).Idx → EReal) (p : Fin M) (p' : Fin M') (c : Fin 64)
    (hR : ∀ q : Fin 64, R (ix2 p q) = R' (ix2 p' q)) (hE : ∀ q : Fin 64, E (ix2 p q) = E' (ix2 p' q)) :
    layer R E W1 W2 (ix2 p c) = layer R' E' W1 W2 (ix2 p' c) := by
  unfold layer
  refine congrArg leaky (congrArg₂ (· + ·) ?_ ?_)
  · exact mm_eq_of_row_col R W1 R' W1 (ix2 p c) (ix2 p' c) hR fun _ => rfl
  · exact mm_eq_of_row_col (fun j => R j * E j) W2 (fun j => R' j * E' j) W2 (ix2 p c) (ix2 p' c)
      (fun q => by show R (ix2 p q) * E (ix2 p q) = R' (ix2 p' q) * E' (ix2 p' q); rw [hR q, hE q]) fun _ => rfl

/-- THE TWO ARRANGEMENTS OF A LAYER AGREE on arrays of real numbers. -/
theorem layer_sum_eq_layerSplit (r0 r1 E : (⟨2, ![M, 64]⟩ : Shape).Idx → EReal) (W1 W2 : (⟨2, ![64, 64]⟩ : Shape).Idx → EReal)
    (h0 : AllReal r0) (h1 : AllReal r1) (hE : AllReal E) (hW1 : AllReal W1) (hW2 : AllReal W2) :
    layer (fun j => (0 + r0 j) + r1 j) E W1 W2 = layerSplit r0 r1 E W1 W2 := by
  funext i
  unfold layer layerSplit
  rw [leaky_eq_leakyGe]
  refine congrArg leakyGe ?_
  exact update_eq (fun q => r0 (ix2 (i 0) q)) (fun q => r1 (ix2 (i 0) q)) (fun q => E (ix2 (i 0) q))
    (fun q => W1 (ix2 q (i 1))) (fun q => W2 (ix2 q (i 1))) (fun q => h0 _) (fun q => h1 _) (fun q => hE _)
    (fun q => hW1 _) (fun q => hW2 _)

/-- A layer of real arrays is a real array. -/
theorem allReal_layer (r0 r1 E : (⟨2, ![M, 64]⟩ : Shape).Idx → EReal) (W1 W2 : (⟨2, ![64, 64]⟩ : Shape).Idx → EReal)
    (h0 : AllReal r0) (h1 : AllReal r1) (hE : AllReal E) (hW1 : AllReal W1) (hW2 : AllReal W2) :
    AllReal (layer (fun j => (0 + r0 j) + r1 j) E W1 W2) := fun i =>
  isReal_leaky' (isReal_update (fun q => r0 (ix2 (i 0) q)) (fun q => r1 (ix2 (i 0) q)) (fun q => E (ix2 (i 0) q))
    (fun q => W1 (ix2 q (i 1))) (fun q => W2 (ix2 q (i 1))) (fun q => h0 _) (fun q => h1 _) (fun q => hE _)
    (fun q => hW1 _) (fun q => hW2 _))

/-- The read-out: the dot product of row `n` of the two concatenated embedding tables. -/
def rowdot {N C : Nat} (U I : (⟨2, ![N, C]⟩ : Shape).Idx → EReal) (n : Fin N) : EReal :=
  ∑ k : Fin C, U (ix2 n k) * I (ix2 n k)

end Cert.LayerSpec

end
-- ==== Proof.KI.KFn.lean ====
/-
  The kernel program's result as one function of its nine argument arrays, on the extended reals: the embeddings before
  the first layer and after each of the three layers, the two concatenated tables, and the flattened column of their
  row-wise dot products.
-/
import proofs.«168404_j17343077941930_1_alg».proof.Proof.KI.HostStages
import proofs.«168404_j17343077941930_1_alg».proof.Proof.LibLayerSpec

noncomputable section

namespace Cert.KernelIdeal.Hand

open Cert.KernelIdeal Cert.KernelIdeal.Gen
open Idealize.ShloMosaic Idealize.ShloMosaic.TcCoe Idealize.ShloMosaic.ValueIdx
open Cert.LayerSpec

/-! ## The function -/

section Fn
variable (a0 a1 : (⟨S100000x64, .f32⟩ : BufTy).Contents (Elt Ideal)) (a2 a3 : (⟨S3x64x64, .f32⟩ : BufTy).Contents (Elt Ideal))
  (a4 : (⟨S2x1600000, .f32⟩ : BufTy).Contents (Elt Ideal)) (a5 a6 : (⟨S2x1600000, .i32⟩ : BufTy).Contents (Elt Ideal))
  (a7 a8 : (⟨S100000, .i32⟩ : BufTy).Contents (Elt Ideal))

/-- The embeddings before the first layer. -/
def kE0 : (⟨S200000x64, .f32⟩ : BufTy).Contents (Elt Ideal) := stack (rowsOf a0 a7) (rowsOf a1 a8)
/-- … after the first, second, third layer. -/
def kE1 : (⟨S200000x64, .f32⟩ : BufTy).Contents (Elt Ideal) :=
  layer (M := 200000) (relsum (kE0 a0 a1 a7 a8) a4 a5 a6) (kE0 a0 a1 a7 a8) (wmat0 a2) (wmat0 a3)
def kE2 : (⟨S200000x64, .f32⟩ : BufTy).Contents (Elt Ideal) :=
  layer (M := 200000) (relsum (kE1 a0 a1 a2 a3 a4 a5 a6 a7 a8) a4 a5 a6) (kE1 a0 a1 a2 a3 a4 a5 a6 a7 a8) (wmat1 a2) (wmat1 a3)
def kE3 : (⟨S200000x64, .f32⟩ : BufTy).Contents (Elt Ideal) :=
  layer (M := 200000) (relsum (kE2 a0 a1 a2 a3 a4 a5 a6 a7 a8) a4 a5 a6) (kE2 a0 a1 a2 a3 a4 a5 a6 a7 a8) (wmat2 a2) (wmat2 a3)
/-- The users' and the items' concatenated embeddings. -/
def kU : (⟨S100000x256, .f32⟩ : BufTy).Contents (Elt Ideal) :=
  cat4 (rowsOf a0 a7) (lo (kE1 a0 a1 a2 a3 a4 a5 a6 a7 a8)) (lo (kE2 a0 a1 a2 a3 a4 a5 a6 a7 a8)) (lo (kE3 a0 a1 a2 a3 a4 a5 a6 a7 a8))
def kI : (⟨S100000x256, .f32⟩ : BufTy).Contents (Elt Ideal) :=
  cat4 (rowsOf a1 a8) (hi (kE1 a0 a1 a2 a3 a4 a5 a6 a7 a8)) (hi (kE2 a0 a1 a2 a3 a4 a5 a6 a7 a8)) (hi (kE3 a0 a1 a2 a3 a4 a5 a6 a7 a8))
/-- The result. -/
def kOut : (⟨S100000, .f32⟩ : BufTy).Contents (Elt Ideal) :=
  flat (fun i => rowdot (N := 100000) (C := 256) (kU a0 a1 a2 a3 a4 a5 a6 a7 a8) (kI a0 a1 a2 a3 a4 a5 a6 a7 a8) (i 0))
end Fn

end Cert.KernelIdeal.Hand

end
-- ==== Proof.KI.ValLayer0.lean ====
/-
  THE VALUE OF LAYER REGION 0: after the region its output array is one layer (LayerSpec's `layer`) of the arrays the
  region was entered with — the summed aggregate, the embeddings, the two weight matrices. The body's one store holds
  the layer of the four blocks it loaded (the casts to a narrower float format are the identity on the extended
  reals; a product into a zero accumulator is the plain product); a block of 4000 rows of the layer of the whole arrays
  is the layer of the blocks, because an entry depends on its own row only; the 50 blocks cover the 200000 rows.
-/
import proofs.«168404_j17343077941930_1_alg».proof.Proof.KI.Body0
import proofs.«168404_j17343077941930_1_alg».proof.Proof.LibLayerSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LayerSpec Cert.Product

variable (V : (c : Dev nD) → (b : Ref sig .tc) → Buf (Elt Ideal) ((c : Thread nD τ).loc b))

theorem hz0 : (![0, 0] : Fin 2 → Nat) = fun _ => 0 := funext fun a => by fin_cases a <;> rfl

/-- The kernel's products are plain: left axis 1 against right axis 0, no batch axes. -/
theorem isPlain0 : Cert.PlainDot.IsPlain dot_S4000x64_S64x64_S4000x64_1_0_0_1_n_n := ⟨rfl, rfl, rfl, rfl, rfl, rfl⟩

/-- The body's stored value is the layer of its four loaded blocks. -/
theorem pay0_eq (x0 x1 : Vec Ideal S4000x64 .f32) (x2 x3 : Vec Ideal S64x64 .f32) :
    k0_pay1 x0 x1 x2 x3 = layer (M := 4000) x0 x1 x2 x3 := by
  simp only [k0_pay1, shapeCast_self]
  rw [matmul_zero_eq isPlain0, matmul_zero_eq isPlain0]
  rfl

/-- The printed index maps over the grid: the row blocks move with the point, everything else stays at block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A block of rows of a layer: with `x0`, `x1` the blocks of rows `T·4000 …` of `R`, `E`, the layer of the blocks at
    `(p, q)` is the layer of the arrays at `(T·4000 + p, q)`. -/
theorem layer_block0 (R E : S200000x64.Idx → EReal) (W1 W2 : S64x64.Idx → EReal)
    (x0 x1 : S4000x64.Idx → EReal) (x2 x3 : S64x64.Idx → EReal) (T : Nat) (hT : T < 50)
    (h0 : ∀ (p : Fin 4000) (q : Fin 64), x0 (ix2 p q) = R (ix2 (⟨T * 4000 + p.val, by omega⟩ : Fin 200000) q))
    (h1 : ∀ (p : Fin 4000) (q : Fin 64), x1 (ix2 p q) = E (ix2 (⟨T * 4000 + p.val, by omega⟩ : Fin 200000) q))
    (h2 : x2 = W1) (h3 : x3 = W2) (p : Fin 4000) (q : Fin 64) :
    layer (M := 4000) x0 x1 x2 x3 (ix2 p q) = layer (M := 200000) R E W1 W2 (ix2 (⟨T * 4000 + p.val, by omega⟩ : Fin 200000) q) := by
  subst h2 h3
  exact layer_eq_of_rows x0 x1 R E x2 x3 p _ q (fun k => h0 p k) (fun k => h1 p k)

/-- WHAT POINT `t` WRITES BACK is block `t` of the layer of the entry arrays. -/
theorem flushed0_eq (c : Dev nD) (t : Fin cfg0.N) :
    (dat0 V c).flushed 4 t = ((cfg0.win 4).blk t).view.read (Elt Ideal)
      (layer (M := 200000) (V c main_v55) (V c main_v14) (V c main_v57) (V c main_v59)) := by
  show (cfg0.win 4).cut (grid0.coords t) ((dat0 V c).after 4 t) = _
  rw [after0_4]
  unfold out0_4
  rw [View.canon_unit_zero hz0]
  simp only [View.ld_unit_zero (S := S4000x64) hz0, View.ld_unit_zero (S := S64x64) hz0]
  rw [pay0_eq]
  obtain ⟨e00, e01, e10, e11, e20, e21, e30, e31, e40, e41⟩ := idx_facts0 t
  have hT : t.val < 50 := lt_of_lt_of_eq t.isLt N_0
  funext j
  obtain ⟨p, q, rfl⟩ : ∃ (p : Fin 4000) (q : Fin 64), j = ix2 p q := ⟨j 0, j 1, eq_ix2 j⟩
  refine (layer_block0 (V c main_v55) (V c main_v14) (V c main_v57) (V c main_v59) (iblk0 V c 0 t) (iblk0 V c 1 t) (iblk0 V c 2 t) (iblk0 V c 3 t)
    t.val hT ?_ ?_ ?_ ?_ p q).trans ?_
  · intro p q
    show V c main_v55 (((cfg0.win 0).blk t).view.emb (ix2 p q)) = _
    refine congrArg _ (funext fun a => Fin.ext ?_)
    match a with
    | ⟨0, _⟩ => show win0_0.index t (0 : Fin 2) * 4000 + 1 * p.val = t.val * 4000 + p.val; omega
    | ⟨1, _⟩ => show win0_0.index t (1 : Fin 2) * 64 + 1 * q.val = q.val; omega
  · intro p q
    show V c main_v14 (((cfg0.win 1).blk t).view.emb (ix2 p q)) = _
    refine congrArg _ (funext fun a => Fin.ext ?_)
    match a with
    | ⟨0, _⟩ => show win0_1.index t (0 : Fin 2) * 4000 + 1 * p.val = t.val * 4000 + p.val; omega
    | ⟨1, _⟩ => show win0_1.index t (1 : Fin 2) * 64 + 1 * q.val = q.val; omega
  · funext y
    show V c main_v57 (((cfg0.win 2).blk t).view.emb y) = V c main_v57 y
    refine congrArg _ (funext fun a => Fin.ext ?_)
    match a with
    | ⟨0, _⟩ => show win0_2.index t (0 : Fin 2) * 64 + 1 * (y 0).val = (y 0).val; omega
    | ⟨1, _⟩ => show win0_2.index t (1 : Fin 2) * 64 + 1 * (y 1).val = (y 1).val; omega
  · funext y
    show V c main_v59 (((cfg0.win 3).blk t).view.emb y) = V c main_v59 y
    refine congrArg _ (funext fun a => Fin.ext ?_)
    match a with
    | ⟨0, _⟩ => show win0_3.index t (0 : Fin 2) * 64 + 1 * (y 0).val = (y 0).val; omega
    | ⟨1, _⟩ => show win0_3.index t (1 : Fin 2) * 64 + 1 * (y 1).val = (y 1).val; omega
  · show layer (M := 200000) (V c main_v55) (V c main_v14) (V c main_v57) (V c main_v59) _
      = layer (M := 200000) (V c main_v55) (V c main_v14) (V c main_v57) (V c main_v59) (((cfg0.win 4).blk t).view.emb (ix2 p q))
    refine congrArg _ (funext fun a => Fin.ext ?_)
    match a with
    | ⟨0, _⟩ => show t.val * 4000 + p.val = win0_4.index t (0 : Fin 2) * 4000 + 1 * p.val; omega
    | ⟨1, _⟩ => show q.val = win0_4.index t (1 : Fin 2) * 64 + 1 * q.val; omega

/-- An index of the output array is in point `t`'s block iff each coordinate is in the block's range. -/
theorem mem_blk0 (t : Fin cfg0.N) (i : S200000x64.Idx) :
    i ∈ ((cfg0.win 4).blk t).view.set ↔ ∀ a : Fin 2, win0_4.index t a * S4000x64.size a ≤ (i a).val ∧ (i a).val < win0_4.index t a * S4000x64.size a + S4000x64.size a := by
  show i ∈ ((View.whole main_v60).slice (win0_4.rect t)).set ↔ _
  rw [View.set_slice_whole, Rect.mem_set_unit]
  exact Iff.rfl

/-- Every index of the output array is in the block of the point `row / 4000`. -/
theorem cover0 (i : S200000x64.Idx) :
    ∃ t : Fin cfg0.N, (cfg0.win 4).flush t = true ∧ i ∈ ((cfg0.win 4).blk t).view.set := by
  have hi0 : (i 0).val < 200000 := (i 0).isLt
  have hi1 : (i 1).val < 64 := (i 1).isLt
  have hN : cfg0.N = 50 := N_0
  let t : Fin cfg0.N := ⟨(i 0).val / 4000, by rw [hN]; omega⟩
  obtain ⟨e00, e01, e10, e11, e20, e21, e30, e31, e40, e41⟩ := idx_facts0 t
  have ht : t.val = (i 0).val / 4000 := rfl
  refine ⟨t, flush0_4 t, ?_⟩
  rw [mem_blk0]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 64 ≤ (i 1).val ∧ (i 1).val < win0_4.index t (1 : Fin 2) * 64 + 64; omega

/-- THE OUTPUT ARRAY after region 0: the layer of the arrays the region was entered with. -/
theorem final0 (c : Dev nD) :
    (dat0 V c).arrAt 4 cfg0.N = layer (M := 200000) (V c main_v55) (V c main_v14) (V c main_v57) (V c main_v59) :=
  (dat0 V c).arrAt_eq_of_cover 4 _ (fun t _ => flushed0_eq V c t) (cover0)

end Cert.KernelIdeal.Hand

end
-- ==== Proof.KI.ValLayer1.lean ====
/-
  THE VALUE OF LAYER REGION 1: after the region its output array is one layer (LayerSpec's `layer`) of the arrays the
  region was entered with — the summed aggregate, the embeddings, the two weight matrices. The body's one store holds
  the layer of the four blocks it loaded (the casts to a narrower float format are the identity on the extended
  reals; a product into a zero accumulator is the plain product); a block of 4000 rows of the layer of the whole arrays
  is the layer of the blocks, because an entry depends on its own row only; the 50 blocks cover the 200000 rows.
-/
import proofs.«168404_j17343077941930_1_alg».proof.Proof.KI.Body1
import proofs.«168404_j17343077941930_1_alg».proof.Proof.LibLayerSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LayerSpec Cert.Product

variable (V : (c : Dev nD) → (b : Ref sig .tc) → Buf (Elt Ideal) ((c : Thread nD τ).loc b))

theorem hz1 : (![0, 0] : Fin 2 → Nat) = fun _ => 0 := funext fun a => by fin_cases a <;> rfl

/-- The kernel's products are plain: left axis 1 against right axis 0, no batch axes. -/
theorem isPlain1 : Cert.PlainDot.IsPlain dot_S4000x64_S64x64_S4000x64_1_0_0_1_n_n := ⟨rfl, rfl, rfl, rfl, rfl, rfl⟩

/-- The body's stored value is the layer of its four loaded blocks. -/
theorem pay1_eq (x0 x1 : Vec Ideal S4000x64 .f32) (x2 x3 : Vec Ideal S64x64 .f32) :
    k1_pay1 x0 x1 x2 x3 = layer (M := 4000) x0 x1 x2 x3 := by
  simp only [k1_pay1, shapeCast_self]
  rw [matmul_zero_eq isPlain1, matmul_zero_eq isPlain1]
  rfl

/-- The printed index maps over the grid: the row blocks move with the point, everything else stays at block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- A block of rows of a layer: with `x0`, `x1` the blocks of rows `T·4000 …` of `R`, `E`, the layer of the blocks at
    `(p, q)` is the layer of the arrays at `(T·4000 + p, q)`. -/
theorem layer_block1 (R E : S200000x64.Idx → EReal) (W1 W2 : S64x64.Idx → EReal)
    (x0 x1 : S4000x64.Idx → EReal) (x2 x3 : S64x64.Idx → EReal) (T : Nat) (hT : T < 50)
    (h0 : ∀ (p : Fin 4000) (q : Fin 64), x0 (ix2 p q) = R (ix2 (⟨T * 4000 + p.val, by omega⟩ : Fin 200000) q))
    (h1 : ∀ (p : Fin 4000) (q : Fin 64), x1 (ix2 p q) = E (ix2 (⟨T * 4000 + p.val, by omega⟩ : Fin 200000) q))
    (h2 : x2 = W1) (h3 : x3 = W2) (p : Fin 4000) (q : Fin 64) :
    layer (M := 4000) x0 x1 x2 x3 (ix2 p q) = layer (M := 200000) R E W1 W2 (ix2 (⟨T * 4000 + p.val, by omega⟩ : Fin 200000) q) := by
  subst h2 h3
  exact layer_eq_of_rows x0 x1 R E x2 x3 p _ q (fun k => h0 p k) (fun k => h1 p k)

/-- WHAT POINT `t` WRITES BACK is block `t` of the layer of the entry arrays. -/
theorem flushed1_eq (c : Dev nD) (t : Fin cfg1.N) :
    (dat1 V c).flushed 4 t = ((cfg1.win 4).blk t).view.read (Elt Ideal)
      (layer (M := 200000) (V c main_v103) (V c main_v60) (V c main_v105) (V c main_v107)) := by
  show (cfg1.win 4).cut (grid1.coords t) ((dat1 V c).after 4 t) = _
  rw [after1_4]
  unfold out1_4
  rw [View.canon_unit_zero hz1]
  simp only [View.ld_unit_zero (S := S4000x64) hz1, View.ld_unit_zero (S := S64x64) hz1]
  rw [pay1_eq]
  obtain ⟨e00, e01, e10, e11, e20, e21, e30, e31, e40, e41⟩ := idx_facts1 t
  have hT : t.val < 50 := lt_of_lt_of_eq t.isLt N_1
  funext j
  obtain ⟨p, q, rfl⟩ : ∃ (p : Fin 4000) (q : Fin 64), j = ix2 p q := ⟨j 0, j 1, eq_ix2 j⟩
  refine (layer_block1 (V c main_v103) (V c main_v60) (V c main_v105) (V c main_v107) (iblk1 V c 0 t) (iblk1 V c 1 t) (iblk1 V c 2 t) (iblk1 V c 3 t)
    t.val hT ?_ ?_ ?_ ?_ p q).trans ?_
  · intro p q
    show V c main_v103 (((cfg1.win 0).blk t).view.emb (ix2 p q)) = _
    refine congrArg _ (funext fun a => Fin.ext ?_)
    match a with
    | ⟨0, _⟩ => show win1_0.index t (0 : Fin 2) * 4000 + 1 * p.val = t.val * 4000 + p.val; omega
    | ⟨1, _⟩ => show win1_0.index t (1 : Fin 2) * 64 + 1 * q.val = q.val; omega
  · intro p q
    show V c main_v60 (((cfg1.win 1).blk t).view.emb (ix2 p q)) = _
    refine congrArg _ (funext fun a => Fin.ext ?_)
    match a with
    | ⟨0, _⟩ => show win1_1.index t (0 : Fin 2) * 4000 + 1 * p.val = t.val * 4000 + p.val; omega
    | ⟨1, _⟩ => show win1_1.index t (1 : Fin 2) * 64 + 1 * q.val = q.val; omega
  · funext y
    show V c main_v105 (((cfg1.win 2).blk t).view.emb y) = V c main_v105 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  · funext y
    show V c main_v107 (((cfg1.win 3).blk t).view.emb y) = V c main_v107 y
    refine congrArg _ (funext fun a => Fin.ext ?_)
    match a with
    | ⟨0, _⟩ => show win1_3.index t (0 : Fin 2) * 64 + 1 * (y 0).val = (y 0).val; omega
    | ⟨1, _⟩ => show win1_3.index t (1 : Fin 2) * 64 + 1 * (y 1).val = (y 1).val; omega
  · show layer (M := 200000) (V c main_v103) (V c main_v60) (V c main_v105) (V c main_v107) _
      = layer (M := 200000) (V c main_v103) (V c main_v60) (V c main_v105) (V c main_v107) (((cfg1.win 4).blk t).view.emb (ix2 p q))
    refine congrArg _ (funext fun a => Fin.ext ?_)
    match a with
    | ⟨0, _⟩ => show t.val * 4000 + p.val = win1_4.index t (0 : Fin 2) * 4000 + 1 * p.val; omega
    | ⟨1, _⟩ => show q.val = win1_4.index t (1 : Fin 2) * 64 + 1 * q.val; omega

/-- An index of the output array is in point `t`'s block iff each coordinate is in the block's range. -/
theorem mem_blk1 (t : Fin cfg1.N) (i : S200000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v108).slice (win1_4.rect t)).set ↔ _
  rw [View.set_slice_whole, Rect.mem_set_unit]
  exact Iff.rfl

/-- Every index of the output array is in the block of the point `row / 4000`. -/
theorem cover1 (i : S200000x64.Idx) :
    ∃ t : Fin cfg1.N, (cfg1.win 4).flush t = true ∧ i ∈ ((cfg1.win 4).blk t).view.set := by
  have hi0 : (i 0).val < 200000 := (i 0).isLt
  have hi1 : (i 1).val < 64 := (i 1).isLt
  have hN : cfg1.N = 50 := N_1
  let t : Fin cfg1.N := ⟨(i 0).val / 4000, by rw [hN]; omega⟩
  obtain ⟨e00, e01, e10, e11, e20, e21, e30, e31, e40, e41⟩ := idx_facts1 t
  have ht : t.val = (i 0).val / 4000 := rfl
  refine ⟨t, flush1_4 t, ?_⟩
  rw [mem_blk1]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 64 ≤ (i 1).val ∧ (i 1).val < win1_4.index t (1 : Fin 2) * 64 + 64; omega

/-- THE OUTPUT ARRAY after region 1: the layer of the arrays the region was entered with. -/
theorem final1 (c : Dev nD) :
    (dat1 V c).arrAt 4 cfg1.N = layer (M := 200000) (V c main_v103) (V c main_v60) (V c main_v105) (V c main_v107) :=
  (dat1 V c).arrAt_eq_of_cover 4 _ (fun t _ => flushed1_eq V c t) (cover1)

end Cert.KernelIdeal.Hand

end
-- ==== Proof.KI.ValLayer2.lean ====
/-
  THE VALUE OF LAYER REGION 2: after the region its output array is one layer (LayerSpec's `layer`) of the arrays the
  region was entered with — the summed aggregate, the embeddings, the two weight matrices. The body's one store holds
  the layer of the four blocks it loaded (the casts to a narrower float format are the identity on the extended
  reals; a product into a zero accumulator is the plain product); a block of 4000 rows of the layer of the whole arrays
  is the layer of the blocks, because an entry depends on its own row only; the 50 blocks cover the 200000 rows.
-/
import proofs.«168404_j17343077941930_1_alg».proof.Proof.KI.Body2
import proofs.«168404_j17343077941930_1_alg».proof.Proof.LibLayerSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LayerSpec Cert.Product

variable (V : (c : Dev nD) → (b : Ref sig .tc) → Buf (Elt Ideal) ((c : Thread nD τ).loc b))

theorem hz2 : (![0, 0] : Fin 2 → Nat) = fun _ => 0 := funext fun a => by fin_cases a <;> rfl

/-- The kernel's products are plain: left axis 1 against right axis 0, no batch axes. -/
theorem isPlain2 : Cert.PlainDot.IsPlain dot_S4000x64_S64x64_S4000x64_1_0_0_1_n_n := ⟨rfl, rfl, rfl, rfl, rfl, rfl⟩

/-- The body's stored value is the layer of its four loaded blocks. -/
theorem pay2_eq (x0 x1 : Vec Ideal S4000x64 .f32) (x2 x3 : Vec Ideal S64x64 .f32) :
    k2_pay1 x0 x1 x2 x3 = layer (M := 4000) x0 x1 x2 x3 := by
  simp only [k2_pay1, shapeCast_self]
  rw [matmul_zero_eq isPlain2, matmul_zero_eq isPlain2]
  rfl

/-- The printed index maps over the grid: the row blocks move with the point, everything else stays at block 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- A block of rows of a layer: with `x0`, `x1` the blocks of rows `T·4000 …` of `R`, `E`, the layer of the blocks at
    `(p, q)` is the layer of the arrays at `(T·4000 + p, q)`. -/
theorem layer_block2 (R E : S200000x64.Idx → EReal) (W1 W2 : S64x64.Idx → EReal)
    (x0 x1 : S4000x64.Idx → EReal) (x2 x3 : S64x64.Idx → EReal) (T : Nat) (hT : T < 50)
    (h0 : ∀ (p : Fin 4000) (q : Fin 64), x0 (ix2 p q) = R (ix2 (⟨T * 4000 + p.val, by omega⟩ : Fin 200000) q))
    (h1 : ∀ (p : Fin 4000) (q : Fin 64), x1 (ix2 p q) = E (ix2 (⟨T * 4000 + p.val, by omega⟩ : Fin 200000) q))
    (h2 : x2 = W1) (h3 : x3 = W2) (p : Fin 4000) (q : Fin 64) :
    layer (M := 4000) x0 x1 x2 x3 (ix2 p q) = layer (M := 200000) R E W1 W2 (ix2 (⟨T * 4000 + p.val, by omega⟩ : Fin 200000) q) := by
  subst h2 h3
  exact layer_eq_of_rows x0 x1 R E x2 x3 p _ q (fun k => h0 p k) (fun k => h1 p k)

/-- WHAT POINT `t` WRITES BACK is block `t` of the layer of the entry arrays. -/
theorem flushed2_eq (c : Dev nD) (t : Fin cfg2.N) :
    (dat2 V c).flushed 4 t = ((cfg2.win 4).blk t).view.read (Elt Ideal)
      (layer (M := 200000) (V c main_v151) (V c main_v108) (V c main_v153) (V c main_v155)) := by
  show (cfg2.win 4).cut (grid2.coords t) ((dat2 V c).after 4 t) = _
  rw [after2_4]
  unfold out2_4
  rw [View.canon_unit_zero hz2]
  simp only [View.ld_unit_zero (S := S4000x64) hz2, View.ld_unit_zero (S := S64x64) hz2]
  rw [pay2_eq]
  obtain ⟨e00, e01, e10, e11, e20, e21, e30, e31, e40, e41⟩ := idx_facts2 t
  have hT : t.val < 50 := lt_of_lt_of_eq t.isLt N_2
  funext j
  obtain ⟨p, q, rfl⟩ : ∃ (p : Fin 4000) (q : Fin 64), j = ix2 p q := ⟨j 0, j 1, eq_ix2 j⟩
  refine (layer_block2 (V c main_v151) (V c main_v108) (V c main_v153) (V c main_v155) (iblk2 V c 0 t) (iblk2 V c 1 t) (iblk2 V c 2 t) (iblk2 V c 3 t)
    t.val hT ?_ ?_ ?_ ?_ p q).trans ?_
  · intro p q
    show V c main_v151 (((cfg2.win 0).blk t).view.emb (ix2 p q)) = _
    refine congrArg _ (funext fun a => Fin.ext ?_)
    match a with
    | ⟨0, _⟩ => show win2_0.index t (0 : Fin 2) * 4000 + 1 * p.val = t.val * 4000 + p.val; omega
    | ⟨1, _⟩ => show win2_0.index t (1 : Fin 2) * 64 + 1 * q.val = q.val; omega
  · intro p q
    show V c main_v108 (((cfg2.win 1).blk t).view.emb (ix2 p q)) = _
    refine congrArg _ (funext fun a => Fin.ext ?_)
    match a with
    | ⟨0, _⟩ => show win2_1.index t (0 : Fin 2) * 4000 + 1 * p.val = t.val * 4000 + p.val; omega
    | ⟨1, _⟩ => show win2_1.index t (1 : Fin 2) * 64 + 1 * q.val = q.val; omega
  · funext y
    show V c main_v153 (((cfg2.win 2).blk t).view.emb y) = V c main_v153 y
    refine congrArg _ (funext fun a => Fin.ext ?_)
    match a with
    | ⟨0, _⟩ => show win2_2.index t (0 : Fin 2) * 64 + 1 * (y 0).val = (y 0).val; omega
    | ⟨1, _⟩ => show win2_2.index t (1 : Fin 2) * 64 + 1 * (y 1).val = (y 1).val; omega
  · funext y
    show V c main_v155 (((cfg2.win 3).blk t).view.emb y) = V c main_v155 y
    refine congrArg _ (funext fun a => Fin.ext ?_)
    match a with
    | ⟨0, _⟩ => show win2_3.index t (0 : Fin 2) * 64 + 1 * (y 0).val = (y 0).val; omega
    | ⟨1, _⟩ => show win2_3.index t (1 : Fin 2) * 64 + 1 * (y 1).val = (y 1).val; omega
  · show layer (M := 200000) (V c main_v151) (V c main_v108) (V c main_v153) (V c main_v155) _
      = layer (M := 200000) (V c main_v151) (V c main_v108) (V c main_v153) (V c main_v155) (((cfg2.win 4).blk t).view.emb (ix2 p q))
    refine congrArg _ (funext fun a => Fin.ext ?_)
    match a with
    | ⟨0, _⟩ => show t.val * 4000 + p.val = win2_4.index t (0 : Fin 2) * 4000 + 1 * p.val; omega
    | ⟨1, _⟩ => show q.val = win2_4.index t (1 : Fin 2) * 64 + 1 * q.val; omega

/-- An index of the output array is in point `t`'s block iff each coordinate is in the block's range. -/
theorem mem_blk2 (t : Fin cfg2.N) (i : S200000x64.Idx) :
    i ∈ ((cfg2.win 4).blk t).view.set ↔ ∀ a : Fin 2, win2_4.index t a * S4000x64.size a ≤ (i a).val ∧ (i a).val < win2_4.index t a * S4000x64.size a + S4000x64.size a := by
  show i ∈ ((View.whole main_v156).slice (win2_4.rect t)).set ↔ _
  rw [View.set_slice_whole, Rect.mem_set_unit]
  exact Iff.rfl

/-- Every index of the output array is in the block of the point `row / 4000`. -/
theorem cover2 (i : S200000x64.Idx) :
    ∃ t : Fin cfg2.N, (cfg2.win 4).flush t = true ∧ i ∈ ((cfg2.win 4).blk t).view.set := by
  have hi0 : (i 0).val < 200000 := (i 0).isLt
  have hi1 : (i 1).val < 64 := (i 1).isLt
  have hN : cfg2.N = 50 := N_2
  let t : Fin cfg2.N := ⟨(i 0).val / 4000, by rw [hN]; omega⟩
  obtain ⟨e00, e01, e10, e11, e20, e21, e30, e31, e40, e41⟩ := idx_facts2 t
  have ht : t.val = (i 0).val / 4000 := rfl
  refine ⟨t, flush2_4 t, ?_⟩
  rw [mem_blk2]
  intro a
  match a with
  | ⟨0, _⟩ => show win2_4.index t (0 : Fin 2) * 4000 ≤ (i 0).val ∧ (i 0).val < win2_4.index t (0 : Fin 2) * 4000 + 4000; omega
  | ⟨1, _⟩ => show win2_4.index t (1 : Fin 2) * 64 ≤ (i 1).val ∧ (i 1).val < win2_4.index t (1 : Fin 2) * 64 + 64; omega

/-- THE OUTPUT ARRAY after region 2: the layer of the arrays the region was entered with. -/
theorem final2 (c : Dev nD) :
    (dat2 V c).arrAt 4 cfg2.N = layer (M := 200000) (V c main_v151) (V c main_v108) (V c main_v153) (V c main_v155) :=
  (dat2 V c).arrAt_eq_of_cover 4 _ (fun t _ => flushed2_eq V c t) (cover2)

end Cert.KernelIdeal.Hand

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.KI.ValFinal.lean ====
/-
  THE VALUE OF THE READ-OUT REGION: after the region its [100000, 1] output array holds, in row n, the dot product of
  row n of the two [100000, 256] arrays the region was entered with. The body's one store holds, at (p, 0), the sum over
  the 256 columns of the products of the two loaded blocks' entries in row p (a row sum from zero, reshaped to a
  column); a block of 2000 rows of the row-wise dot product of the whole arrays is the row-wise dot product of the
  blocks; the 50 blocks cover the 100000 rows.
-/
import proofs.«168404_j17343077941930_1_alg».proof.Proof.KI.Body3
import proofs.«168404_j17343077941930_1_alg».proof.Proof.LibLayerSpec
import proofs.«168404_j17343077941930_1_alg».proof.Proof.LibAxisFold
import proofs.«168404_j17343077941930_1_alg».proof.Proof.LibColumn
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LayerSpec

variable (V : (c : Dev nD) → (b : Ref sig .tc) → Buf (Elt Ideal) ((c : Thread nD τ).loc b))

theorem hz3 : (![0, 0] : Fin 2 → Nat) = fun _ => 0 := funext fun a => by fin_cases a <;> rfl

/-- The body's stored value at `(p, u)`: the sum over the columns of the products of the two blocks' entries in row `p`. -/
theorem pay3_apply (x0 x1 : Vec Ideal S2000x256 .f32) (p : Fin 2000) (u : Fin 1) :
    k3_pay1 x0 x1 (ix2 p u) = ∑ k : Fin 256, x0 (ix2 p k) * x1 (ix2 p k) := by
  unfold k3_pay1
  simp only [shapeCast_self]
  refine (Cert.Column.shapeCast_a_a1_apply _ _ p u).trans ?_
  exact Cert.AxisFold.row_sum (mulf x0 x1) _ _ _ p

/-- The printed index maps over the grid: the row blocks move with the point, the column block is block 0. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- A block of rows of the row-wise dot product: with `x0`, `x1` the blocks of rows `T·2000 …` of `U`, `I`, the sum
    over row `p` of the blocks is the dot product of row `T·2000 + p` of the arrays. -/
theorem rowdot_block3 (U I : S100000x256.Idx → EReal) (x0 x1 : S2000x256.Idx → EReal) (T : Nat) (hT : T < 50)
    (h0 : ∀ (p : Fin 2000) (k : Fin 256), x0 (ix2 p k) = U (ix2 (⟨T * 2000 + p.val, by omega⟩ : Fin 100000) k))
    (h1 : ∀ (p : Fin 2000) (k : Fin 256), x1 (ix2 p k) = I (ix2 (⟨T * 2000 + p.val, by omega⟩ : Fin 100000) k))
    (p : Fin 2000) :
    ∑ k : Fin 256, x0 (ix2 p k) * x1 (ix2 p k)
      = rowdot (N := 100000) (C := 256) U I (⟨T * 2000 + p.val, by omega⟩ : Fin 100000) := by
  unfold rowdot
  exact Finset.sum_congr rfl fun k _ => by rw [h0 p k, h1 p k]

/-- WHAT POINT `t` WRITES BACK is block `t` of the row-wise dot product of the entry arrays. -/
theorem flushed3_eq (c : Dev nD) (t : Fin cfg3.N) :
    (dat3 V c).flushed 2 t = ((cfg3.win 2).blk t).view.read (Elt Ideal)
      (fun i => rowdot (N := 100000) (C := 256) (V c main_v159) (V c main_v160) (i 0)) := by
  show (cfg3.win 2).cut (grid3.coords t) ((dat3 V c).after 2 t) = _
  rw [after3_2]
  unfold out3_2
  rw [View.canon_unit_zero hz3]
  simp only [View.ld_unit_zero (S := S2000x256) hz3]
  obtain ⟨e00, e01, e10, e11, e20, e21⟩ := idx_facts3 t
  have hT : t.val < 50 := lt_of_lt_of_eq t.isLt N_3
  funext j
  obtain ⟨p, u, rfl⟩ : ∃ (p : Fin 2000) (u : Fin 1), j = ix2 p u := ⟨j 0, j 1, eq_ix2 j⟩
  refine (pay3_apply (iblk3 V c 0 t) (iblk3 V c 1 t) p u).trans ?_
  refine (rowdot_block3 (V c main_v159) (V c main_v160) (iblk3 V c 0 t) (iblk3 V c 1 t) t.val hT ?_ ?_ p).trans ?_
  · intro p k
    show V c main_v159 (((cfg3.win 0).blk t).view.emb (ix2 p k)) = _
    refine congrArg _ (funext fun a => Fin.ext ?_)
    match a with
    | ⟨0, _⟩ => show win3_0.index t (0 : Fin 2) * 2000 + 1 * p.val = t.val * 2000 + p.val; omega
    | ⟨1, _⟩ => show win3_0.index t (1 : Fin 2) * 256 + 1 * k.val = k.val; omega
  · intro p k
    show V c main_v160 (((cfg3.win 1).blk t).view.emb (ix2 p k)) = _
    refine congrArg _ (funext fun a => Fin.ext ?_)
    match a with
    | ⟨0, _⟩ => show win3_1.index t (0 : Fin 2) * 2000 + 1 * p.val = t.val * 2000 + p.val; omega
    | ⟨1, _⟩ => show win3_1.index t (1 : Fin 2) * 256 + 1 * k.val = k.val; omega
  · show rowdot (N := 100000) (C := 256) (V c main_v159) (V c main_v160) _
      = rowdot (N := 100000) (C := 256) (V c main_v159) (V c main_v160) ((((cfg3.win 2).blk t).view.emb (ix2 p u)) 0)
    refine congrArg _ (Fin.ext ?_)
    show t.val * 2000 + p.val = win3_2.index t (0 : Fin 2) * 2000 + 1 * p.val
    omega

/-- An index of the output array is in point `t`'s block iff each coordinate is in the block's range. -/
theorem mem_blk3 (t : Fin cfg3.N) (i : S100000x1.Idx) :
    i ∈ ((cfg3.win 2).blk t).view.set ↔ ∀ a : Fin 2, win3_2.index t a * S2000x1.size a ≤ (i a).val ∧ (i a).val < win3_2.index t a * S2000x1.size a + S2000x1.size a := by
  show i ∈ ((View.whole main_v161).slice (win3_2.rect t)).set ↔ _
  rw [View.set_slice_whole, Rect.mem_set_unit]
  exact Iff.rfl

/-- Every index of the output array is in the block of the point `row / 2000`. -/
theorem cover3 (i : S100000x1.Idx) :
    ∃ t : Fin cfg3.N, (cfg3.win 2).flush t = true ∧ i ∈ ((cfg3.win 2).blk t).view.set := by
  have hi0 : (i 0).val < 100000 := (i 0).isLt
  have hi1 : (i 1).val < 1 := (i 1).isLt
  have hN : cfg3.N = 50 := N_3
  let t : Fin cfg3.N := ⟨(i 0).val / 2000, by rw [hN]; omega⟩
  obtain ⟨e00, e01, e10, e11, e20, e21⟩ := idx_facts3 t
  have ht : t.val = (i 0).val / 2000 := rfl
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 1 ≤ (i 1).val ∧ (i 1).val < win3_2.index t (1 : Fin 2) * 1 + 1; omega

/-- THE OUTPUT ARRAY after the read-out region: row by row, the dot product of the two arrays the region was entered
    with. -/
theorem final3 (c : Dev nD) :
    (dat3 V c).arrAt 2 cfg3.N = fun i => rowdot (N := 100000) (C := 256) (V c main_v159) (V c main_v160) (i 0) :=
  (dat3 V c).arrAt_eq_of_cover 2 _ (fun t _ => flushed3_eq V c t) (cover3)

end Cert.KernelIdeal.Hand

end
-- ==== Proof.KI.ValChain.lean ====
/-
  THE KERNEL PROGRAM'S RESULT AS ONE FUNCTION OF ITS ARGUMENT ARRAYS (on the extended reals).

  Reading the result buffer back through @main's nine segments: it is the flattened column of row-wise dot products of
  the two tables that lay, side by side, the user (resp. item) halves of the embeddings before and after each of the
  three layers; each layer's embeddings are one `layer` of the summed two-fold aggregate of the previous embeddings,
  the previous embeddings and that layer's two weight matrices; the first embeddings are the tables' rows at the given
  indices, stacked.
-/
import proofs.«168404_j17343077941930_1_alg».proof.Proof.KI.Folds
import proofs.«168404_j17343077941930_1_alg».proof.Proof.KI.KFn
import proofs.«168404_j17343077941930_1_alg».proof.Proof.KI.HostKeep0
import proofs.«168404_j17343077941930_1_alg».proof.Proof.KI.HostKeep1
import proofs.«168404_j17343077941930_1_alg».proof.Proof.KI.ValLayer0
import proofs.«168404_j17343077941930_1_alg».proof.Proof.KI.ValLayer1
import proofs.«168404_j17343077941930_1_alg».proof.Proof.KI.ValLayer2
import proofs.«168404_j17343077941930_1_alg».proof.Proof.KI.ValFinal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LayerSpec

/-! ## The run's result buffer is that function of the launch contents -/

variable (m : (ℓ : Loc nD τ sig) → Buf (Elt Ideal) ℓ) (ρ : Dev nD → PrngReg) (c : Dev nD)

/-- The arguments at region 0's exit and at region 1's exit are the launch contents. -/
theorem W2_arg2 : W2 m ρ c (Proc.devRef .tc main_arg2) = (m ((c : Thread nD τ).loc main_arg2)) :=
  (W2_of_ne m ρ c main_arg2 (by decide)).trans (host0_arg2 _)
theorem W4_arg2 : W4 m ρ c (Proc.devRef .tc main_arg2) = (m ((c : Thread nD τ).loc main_arg2)) :=
  (W4_of_ne m ρ c main_arg2 (by decide)).trans ((host1_arg2 _).trans (W2_arg2 m ρ c))
theorem W2_arg3 : W2 m ρ c (Proc.devRef .tc main_arg3) = (m ((c : Thread nD τ).loc main_arg3)) :=
  (W2_of_ne m ρ c main_arg3 (by decide)).trans (host0_arg3 _)
theorem W4_arg3 : W4 m ρ c (Proc.devRef .tc main_arg3) = (m ((c : Thread nD τ).loc main_arg3)) :=
  (W4_of_ne m ρ c main_arg3 (by decide)).trans ((host1_arg3 _).trans (W2_arg3 m ρ c))
theorem W2_arg4 : W2 m ρ c (Proc.devRef .tc main_arg4) = (m ((c : Thread nD τ).loc main_arg4)) :=
  (W2_of_ne m ρ c main_arg4 (by decide)).trans (host0_arg4 _)
theorem W4_arg4 : W4 m ρ c (Proc.devRef .tc main_arg4) = (m ((c : Thread nD τ).loc main_arg4)) :=
  (W4_of_ne m ρ c main_arg4 (by decide)).trans ((host1_arg4 _).trans (W2_arg4 m ρ c))
theorem W2_arg5 : W2 m ρ c (Proc.devRef .tc main_arg5) = (m ((c : Thread nD τ).loc main_arg5)) :=
  (W2_of_ne m ρ c main_arg5 (by decide)).trans (host0_arg5 _)
theorem W4_arg5 : W4 m ρ c (Proc.devRef .tc main_arg5) = (m ((c : Thread nD τ).loc main_arg5)) :=
  (W4_of_ne m ρ c main_arg5 (by decide)).trans ((host1_arg5 _).trans (W2_arg5 m ρ c))
theorem W2_arg6 : W2 m ρ c (Proc.devRef .tc main_arg6) = (m ((c : Thread nD τ).loc main_arg6)) :=
  (W2_of_ne m ρ c main_arg6 (by decide)).trans (host0_arg6 _)
theorem W4_arg6 : W4 m ρ c (Proc.devRef .tc main_arg6) = (m ((c : Thread nD τ).loc main_arg6)) :=
  (W4_of_ne m ρ c main_arg6 (by decide)).trans ((host1_arg6 _).trans (W2_arg6 m ρ c))

/-! ### Layer 1 -/
theorem V1_v14 : V1 m ρ c main_v14 = kE0 (m ((c : Thread nD τ).loc main_arg0)) (m ((c : Thread nD τ).loc main_arg1)) (m ((c : Thread nD τ).loc main_arg7)) (m ((c : Thread nD τ).loc main_arg8)) := h0_v14 _
theorem V1_v55 : V1 m ρ c main_v55 = relsum (kE0 (m ((c : Thread nD τ).loc main_arg0)) (m ((c : Thread nD τ).loc main_arg1)) (m ((c : Thread nD τ).loc main_arg7)) (m ((c : Thread nD τ).loc main_arg8))) (m ((c : Thread nD τ).loc main_arg4)) (m ((c : Thread nD τ).loc main_arg5)) (m ((c : Thread nD τ).loc main_arg6)) := h0_v55 _
theorem V1_v57 : V1 m ρ c main_v57 = wmat0 (m ((c : Thread nD τ).loc main_arg2)) := h0_v57 _
theorem V1_v59 : V1 m ρ c main_v59 = wmat0 (m ((c : Thread nD τ).loc main_arg3)) := h0_v59 _
theorem W1_v6 : W1 m ρ c (Proc.devRef .tc main_v6) = rowsOf (m ((c : Thread nD τ).loc main_arg0)) (m ((c : Thread nD τ).loc main_arg7)) := h0_v6 _
theorem W1_v13 : W1 m ρ c (Proc.devRef .tc main_v13) = rowsOf (m ((c : Thread nD τ).loc main_arg1)) (m ((c : Thread nD τ).loc main_arg8)) := h0_v13 _

theorem W2_v60 : W2 m ρ c (Proc.devRef .tc main_v60) = kE1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W2_arr m ρ c 4).trans ?_
  rw [final0 (V1 m ρ) c, V1_v55, V1_v14, V1_v57, V1_v59]
  rfl

/-! ### Layer 2 -/
theorem V3_v60 : V3 m ρ c main_v60 = kE1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (h1_v60 _).trans (W2_v60 m ρ c)
theorem V3_v103 : V3 m ρ c main_v103 = relsum (kE1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg4)) (m ((c : Thread nD τ).loc main_arg5)) (m ((c : Thread nD τ).loc main_arg6)) := by
  refine (h1_v103 _).trans ?_
  rw [W2_v60, W2_arg4, W2_arg5, W2_arg6]
theorem V3_v105 : V3 m ρ c main_v105 = wmat1 (m ((c : Thread nD τ).loc main_arg2)) := by
  refine (h1_v105 _).trans ?_
  rw [W2_arg2]
theorem V3_v107 : V3 m ρ c main_v107 = wmat1 (m ((c : Thread nD τ).loc main_arg3)) := by
  refine (h1_v107 _).trans ?_
  rw [W2_arg3]

theorem W4_v108 : W4 m ρ c (Proc.devRef .tc main_v108) = kE2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 4).trans ?_
  rw [final1 (V3 m ρ) c, V3_v103, V3_v60, V3_v105, V3_v107]
  rfl

/-! ### Layer 3 -/
theorem V5_v108 : V5 m ρ c main_v108 = kE2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (h2_v108 _).trans (W4_v108 m ρ c)
theorem V5_v151 : V5 m ρ c main_v151 = relsum (kE2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg4)) (m ((c : Thread nD τ).loc main_arg5)) (m ((c : Thread nD τ).loc main_arg6)) := by
  refine (h2_v151 _).trans ?_
  rw [W4_v108, W4_arg4, W4_arg5, W4_arg6]
theorem V5_v153 : V5 m ρ c main_v153 = wmat2 (m ((c : Thread nD τ).loc main_arg2)) := by
  refine (h2_v153 _).trans ?_
  rw [W4_arg2]
theorem V5_v155 : V5 m ρ c main_v155 = wmat2 (m ((c : Thread nD τ).loc main_arg3)) := by
  refine (h2_v155 _).trans ?_
  rw [W4_arg3]

theorem W6_v156 : W6 m ρ c (Proc.devRef .tc main_v156) = kE3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 4).trans ?_
  rw [final2 (V5 m ρ) c, V5_v151, V5_v108, V5_v153, V5_v155]
  rfl

/-! ### The pieces of the two concatenated tables, carried to the last stretch -/
theorem W6_v6 : W6 m ρ c (Proc.devRef .tc main_v6) = rowsOf (m ((c : Thread nD τ).loc main_arg0)) (m ((c : Thread nD τ).loc main_arg7)) :=
  (W6_of_ne m ρ c main_v6 (by decide)).trans ((h2_v6 _).trans ((W4_of_ne m ρ c main_v6 (by decide)).trans
    ((h1_v6 _).trans ((W2_of_ne m ρ c main_v6 (by decide)).trans (W1_v6 m ρ c)))))
theorem W6_v13 : W6 m ρ c (Proc.devRef .tc main_v13) = rowsOf (m ((c : Thread nD τ).loc main_arg1)) (m ((c : Thread nD τ).loc main_arg8)) :=
  (W6_of_ne m ρ c main_v13 (by decide)).trans ((h2_v13 _).trans ((W4_of_ne m ρ c main_v13 (by decide)).trans
    ((h1_v13 _).trans ((W2_of_ne m ρ c main_v13 (by decide)).trans (W1_v13 m ρ c)))))
theorem W6_v61 : W6 m ρ c (Proc.devRef .tc main_v61) = lo (kE1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W6_of_ne m ρ c main_v61 (by decide)).trans ((h2_v61 _).trans ((W4_of_ne m ρ c main_v61 (by decide)).trans
    ((h1_v61 _).trans (congrArg lo (W2_v60 m ρ c)))))
theorem W6_v62 : W6 m ρ c (Proc.devRef .tc main_v62) = hi (kE1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W6_of_ne m ρ c main_v62 (by decide)).trans ((h2_v62 _).trans ((W4_of_ne m ρ c main_v62 (by decide)).trans
    ((h1_v62 _).trans (congrArg hi (W2_v60 m ρ c)))))
theorem W6_v109 : W6 m ρ c (Proc.devRef .tc main_v109) = lo (kE2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W6_of_ne m ρ c main_v109 (by decide)).trans ((h2_v109 _).trans (congrArg lo (W4_v108 m ρ c)))
theorem W6_v110 : W6 m ρ c (Proc.devRef .tc main_v110) = hi (kE2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W6_of_ne m ρ c main_v110 (by decide)).trans ((h2_v110 _).trans (congrArg hi (W4_v108 m ρ c)))

theorem V7_v159 : V7 m ρ c main_v159 = kU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (h3_v159 _).trans ?_
  rw [W6_v6, W6_v61, W6_v109, W6_v156]
  rfl
theorem V7_v160 : V7 m ρ c main_v160 = kI (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (h3_v160 _).trans ?_
  rw [W6_v13, W6_v62, W6_v110, W6_v156]
  rfl

/-! ### The read-out -/
theorem W8_v161 : W8 m ρ c (Proc.devRef .tc main_v161)
    = fun i => rowdot (N := 100000) (C := 256) (kU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (kI (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (i 0) := by
  refine (W8_arr m ρ c 2).trans ?_
  rw [final3 (V7 m ρ) c, V7_v159, V7_v160]

/-- THE RESULT BUFFER at the end of @main. -/
theorem W9_v162 : W9 m ρ c (Proc.devRef .tc main_v162) = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (h4_v162 _).trans ?_
  rw [W8_v161]
  rfl

end Cert.KernelIdeal.Hand

end
-- ==== Proof.Ref.Ops0.lean ====
/-
  The reference program's @main, statements 1 … 60 of 229, as a list of host operations:
  operations 1 … 60 of 246 in the order the program runs them.
  The window of the program is the sequence of these operations; every operation touches TensorCore buffers only,
  determines what it writes, and writes one buffer, listed in `ops0_W`.
-/
import proofs.«168404_j17343077941930_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 … 60 of @main, in order. -/
abbrev ops0 : List (HloOp τ sig (Elt F)) :=
  [ nullary main_c (constantI S_ 32 0#32),
    unary main_c main_v0 (broadcastInDim S100000 ![] bcast_S_S100000 : (⟨S_, .i32⟩ : BufTy).Contents (Elt F) → (⟨S100000, .i32⟩ : BufTy).Contents (Elt F)),
    binary main_arg7 main_v0 main_v1 (cmpi .slt : (⟨S100000, .i32⟩ : BufTy).Contents (Elt F) → (⟨S100000, .i32⟩ : BufTy).Contents (Elt F) → (⟨S100000, .i1⟩ : BufTy).Contents (Elt F)),
    nullary main_c_0 (constantI S_ 32 100000#32),
    unary main_c_0 main_v2 (broadcastInDim S100000 ![] bcast_S_S100000 : (⟨S_, .i32⟩ : BufTy).Contents (Elt F) → (⟨S100000, .i32⟩ : BufTy).Contents (Elt F)),
    binary main_arg7 main_v2 main_v3 (addi : (⟨S100000, .i32⟩ : BufTy).Contents (Elt F) → (⟨S100000, .i32⟩ : BufTy).Contents (Elt F) → (⟨S100000, .i32⟩ : BufTy).Contents (Elt F)),
    ternary main_v1 main_v3 main_arg7 main_v4 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v4 main_v5 (broadcastInDim S100000x1 ![0] bcast_S100000_S100000x1_0 : (⟨S100000, .i32⟩ : BufTy).Contents (Elt F) → (⟨S100000x1, .i32⟩ : BufTy).Contents (Elt F)),
    binary main_arg0 main_v5 main_v6 ((fun x i => Host.gather gather_S100000x64_S100000x1_S100000x64_1_0_n_n_0_1_164 x i) : (⟨S100000x64, .f32⟩ : BufTy).Contents (Elt F) → (⟨S100000x1, .i32⟩ : BufTy).Contents (Elt F) → (⟨S100000x64, .f32⟩ : BufTy).Contents (Elt F)),
    nullary main_c_1 (constantI S_ 32 0#32),
    unary main_c_1 main_v7 (broadcastInDim S100000 ![] bcast_S_S100000 : (⟨S_, .i32⟩ : BufTy).Contents (Elt F) → (⟨S100000, .i32⟩ : BufTy).Contents (Elt F)),
    binary main_arg8 main_v7 main_v8 (cmpi .slt : (⟨S100000, .i32⟩ : BufTy).Contents (Elt F) → (⟨S100000, .i32⟩ : BufTy).Contents (Elt F) → (⟨S100000, .i1⟩ : BufTy).Contents (Elt F)),
    nullary main_c_2 (constantI S_ 32 100000#32),
    unary main_c_2 main_v9 (broadcastInDim S100000 ![] bcast_S_S100000 : (⟨S_, .i32⟩ : BufTy).Contents (Elt F) → (⟨S100000, .i32⟩ : BufTy).Contents (Elt F)),
    binary main_arg8 main_v9 main_v10 (addi : (⟨S100000, .i32⟩ : BufTy).Contents (Elt F) → (⟨S100000, .i32⟩ : BufTy).Contents (Elt F) → (⟨S100000, .i32⟩ : BufTy).Contents (Elt F)),
    ternary main_v8 main_v10 main_arg8 main_v11 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v11 main_v12 (broadcastInDim S100000x1 ![0] bcast_S100000_S100000x1_0 : (⟨S100000, .i32⟩ : BufTy).Contents (Elt F) → (⟨S100000x1, .i32⟩ : BufTy).Contents (Elt F)),
    binary main_arg1 main_v12 main_v13 ((fun x i => Host.gather gather_S100000x64_S100000x1_S100000x64_1_0_n_n_0_1_164 x i) : (⟨S100000x64, .f32⟩ : BufTy).Contents (Elt F) → (⟨S100000x1, .i32⟩ : BufTy).Contents (Elt F) → (⟨S100000x64, .f32⟩ : BufTy).Contents (Elt F)),
    binary main_v6 main_v13 main_v14 ((fun a b => concatenate S200000x64 0 [⟨S100000x64, a⟩, ⟨S100000x64, b⟩] concatenates_S100000x64_S100000x64_S200000x64_d0) : (⟨S100000x64, .f32⟩ : BufTy).Contents (Elt F) → (⟨S100000x64, .f32⟩ : BufTy).Contents (Elt F) → (⟨S200000x64, .f32⟩ : BufTy).Contents (Elt F)),
    nullary main_cst (constant S_ .f32 0x00000000#32),
    unary main_cst main_v15 (broadcastInDim S200000x64 ![] bcast_S_S200000x64 : (⟨S_, .f32⟩ : BufTy).Contents (Elt F) → (⟨S200000x64, .f32⟩ : BufTy).Contents (Elt F)),
    unary main_arg6 main_v16 ((extractStridedSlice S1x1600000 ![0, 0] · slices_S2x1600000_S1x1600000_0_0) : (⟨S2x1600000, .i32⟩ : BufTy).Contents (Elt F) → (⟨S1x1600000, .i32⟩ : BufTy).Contents (Elt F)),
    reshape main_v16 main_v17 rfl shapeCasts_S1x1600000_S1600000,
    nullary main_c_3 (constantI S_ 32 0#32),
    unary main_c_3 main_v18 (broadcastInDim S1600000 ![] bcast_S_S1600000 : (⟨S_, .i32⟩ : BufTy).Contents (Elt F) → (⟨S1600000, .i32⟩ : BufTy).Contents (Elt F)),
    binary main_v17 main_v18 main_v19 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 200000#32),
    unary main_c_4 main_v20 (broadcastInDim S1600000 ![] bcast_S_S1600000 : (⟨S_, .i32⟩ : BufTy).Contents (Elt F) → (⟨S1600000, .i32⟩ : BufTy).Contents (Elt F)),
    binary main_v17 main_v20 main_v21 (addi : (⟨S1600000, .i32⟩ : BufTy).Contents (Elt F) → (⟨S1600000, .i32⟩ : BufTy).Contents (Elt F) → (⟨S1600000, .i32⟩ : BufTy).Contents (Elt F)),
    ternary main_v19 main_v21 main_v17 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v22 main_v23 (broadcastInDim S1600000x1 ![0] bcast_S1600000_S1600000x1_0 : (⟨S1600000, .i32⟩ : BufTy).Contents (Elt F) → (⟨S1600000x1, .i32⟩ : BufTy).Contents (Elt F)),
    binary main_v14 main_v23 main_v24 ((fun x i => Host.gather gather_S200000x64_S1600000x1_S1600000x64_1_0_n_n_0_1_164 x i) : (⟨S200000x64, .f32⟩ : BufTy).Contents (Elt F) → (⟨S1600000x1, .i32⟩ : BufTy).Contents (Elt F) → (⟨S1600000x64, .f32⟩ : BufTy).Contents (Elt F)),
    unary main_arg4 main_v25 ((extractStridedSlice S1x1600000 ![0, 0] · slices_S2x1600000_S1x1600000_0_0) : (⟨S2x1600000, .f32⟩ : BufTy).Contents (Elt F) → (⟨S1x1600000, .f32⟩ : BufTy).Contents (Elt F)),
    reshape main_v25 main_v26 rfl shapeCasts_S1x1600000_S1600000,
    unary main_v26 main_v27 (broadcastInDim S1600000x1 ![0] bcast_S1600000_S1600000x1_0 : (⟨S1600000, .f32⟩ : BufTy).Contents (Elt F) → (⟨S1600000x1, .f32⟩ : BufTy).Contents (Elt F)),
    unary main_v27 main_v28 (broadcastInDim S1600000x64 ![0, 1] bcast_S1600000x1_S1600000x64_0_1 : (⟨S1600000x1, .f32⟩ : BufTy).Contents (Elt F) → (⟨S1600000x64, .f32⟩ : BufTy).Contents (Elt F)),
    binary main_v24 main_v28 main_v29 (mulf : (⟨S1600000x64, .f32⟩ : BufTy).Contents (Elt F) → (⟨S1600000x64, .f32⟩ : BufTy).Contents (Elt F) → (⟨S1600000x64, .f32⟩ : BufTy).Contents (Elt F)),
    unary main_arg5 main_v30 ((extractStridedSlice S1x1600000 ![0, 0] · slices_S2x1600000_S1x1600000_0_0) : (⟨S2x1600000, .i32⟩ : BufTy).Contents (Elt F) → (⟨S1x1600000, .i32⟩ : BufTy).Contents (Elt F)),
    reshape main_v30 main_v31 rfl shapeCasts_S1x1600000_S1600000,
    nullary main_cst_5 (constant S_ .f32 0x00000000#32),
    unary main_cst_5 main_v32 (broadcastInDim S200000x64 ![] bcast_S_S200000x64 : (⟨S_, .f32⟩ : BufTy).Contents (Elt F) → (⟨S200000x64, .f32⟩ : BufTy).Contents (Elt F)),
    unary main_v31 main_v33 (broadcastInDim S1600000x1 ![0] bcast_S1600000_S1600000x1_0 : (⟨S1600000, .i32⟩ : BufTy).Contents (Elt F) → (⟨S1600000x1, .i32⟩ : BufTy).Contents (Elt F)),
    ternary main_v32 main_v33 main_v29 main_v34 ((fun x i u => Host.scatterAdd scatter_S200000x64_S1600000x1_S1600000x64_1_0_0_1 x i u) : (⟨S200000x64, .f32⟩ : BufTy).Contents (Elt F) → (⟨S1600000x1, .i32⟩ : BufTy).Contents (Elt F) → (⟨S1600000x64, .f32⟩ : BufTy).Contents (Elt F) → (⟨S200000x64, .f32⟩ : BufTy).Contents (Elt F)),
    unary main_arg2 main_v35 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v35 main_v36 rfl shapeCasts_S1x64x64_S64x64,
    binary main_v34 main_v36 main_v37 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v15 main_v37 main_v38 (addf : (⟨S200000x64, .f32⟩ : BufTy).Contents (Elt F) → (⟨S200000x64, .f32⟩ : BufTy).Contents (Elt F) → (⟨S200000x64, .f32⟩ : BufTy).Contents (Elt F)),
    binary main_v34 main_v14 main_v39 (mulf : (⟨S200000x64, .f32⟩ : BufTy).Contents (Elt F) → (⟨S200000x64, .f32⟩ : BufTy).Contents (Elt F) → (⟨S200000x64, .f32⟩ : BufTy).Contents (Elt F)),
    unary main_arg3 main_v40 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v40 main_v41 rfl shapeCasts_S1x64x64_S64x64,
    binary main_v39 main_v41 main_v42 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v38 main_v42 main_v43 (addf : (⟨S200000x64, .f32⟩ : BufTy).Contents (Elt F) → (⟨S200000x64, .f32⟩ : BufTy).Contents (Elt F) → (⟨S200000x64, .f32⟩ : BufTy).Contents (Elt F)),
    unary main_arg6 main_v44 ((extractStridedSlice S1x1600000 ![1, 0] · slices_S2x1600000_S1x1600000_1_0) : (⟨S2x1600000, .i32⟩ : BufTy).Contents (Elt F) → (⟨S1x1600000, .i32⟩ : BufTy).Contents (Elt F)),
    reshape main_v44 main_v45 rfl shapeCasts_S1x1600000_S1600000,
    nullary main_c_6 (constantI S_ 32 0#32),
    unary main_c_6 main_v46 (broadcastInDim S1600000 ![] bcast_S_S1600000 : (⟨S_, .i32⟩ : BufTy).Contents (Elt F) → (⟨S1600000, .i32⟩ : BufTy).Contents (Elt F)),
    binary main_v45 main_v46 main_v47 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 200000#32),
    unary main_c_7 main_v48 (broadcastInDim S1600000 ![] bcast_S_S1600000 : (⟨S_, .i32⟩ : BufTy).Contents (Elt F) → (⟨S1600000, .i32⟩ : BufTy).Contents (Elt F)),
    binary main_v45 main_v48 main_v49 (addi : (⟨S1600000, .i32⟩ : BufTy).Contents (Elt F) → (⟨S1600000, .i32⟩ : BufTy).Contents (Elt F) → (⟨S1600000, .i32⟩ : BufTy).Contents (Elt F)) ]

set_option maxRecDepth 8192 in
/-- The window is the sequence of its operations. -/
theorem main_part0_eq (c : Dev nD) : main_part0 (F := F) c = seq ops0 := rfl

set_option maxRecDepth 8192 in
/-- Every operation of the window touches TensorCore buffers only. -/
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., unary_bufs_sub .., ternary_bufs_sub .., unary_bufs_sub .., reshape_bufs_sub .., binary_bufs_sub .., binary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub ..⟩

set_option maxRecDepth 8192 in
/-- Every operation of the window determines the contents it writes. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops0_W : List (Ref sig .tc) := [main_c, main_v0, main_v1, main_c_0, main_v2, main_v3, main_v4, main_v5, main_v6, main_c_1, main_v7, main_v8, main_c_2, main_v9, main_v10, main_v11, main_v12, main_v13, main_v14, main_cst, main_v15, main_v16, main_v17, main_c_3, main_v18, main_v19, main_c_4, main_v20, main_v21, main_v22, main_v23, main_v24, main_v25, main_v26, main_v27, main_v28, main_v29, main_v30, main_v31, main_cst_5, main_v32, main_v33, main_v34, main_v35, main_v36, main_v37, main_v38, main_v39, main_v40, main_v41, main_v42, main_v43, main_v44, main_v45, main_c_6, main_v46, main_v47, main_c_7, main_v48, main_v49]

set_option maxRecDepth 8192 in
/-- Each operation writes a buffer of that list. -/
theorem ops0_writes : (ops0 : List (HloOp τ sig (Elt F))).Forall fun op => op.writes ⊆ (ops0_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer outside that list keeps its contents through the window. -/
theorem ops0_keep (V : Valuation τ sig (Elt F)) (r : Ref sig .tc) (h : r ∉ ops0_W) :
    after ops0 V (Proc.devRef .tc r) = V (Proc.devRef .tc r) :=
  after_of_writes_sub ops0 V ops0_writes h

end Cert.ReferenceIdeal.Hand

end
-- ==== Proof.Ref.Ops1.lean ====
/-
  The reference program's @main, statements 61 … 120 of 229, as a list of host operations:
  operations 61 … 126 of 246 in the order the program runs them, the seven operations of
  leaky_relu (zero, its broadcast, the comparison x ≥ 0, the slope converted and broadcast, slope · x, the select) standing
  at its call over the call's own buffers.
  The window of the program is the sequence of these operations; every operation touches TensorCore buffers only,
  determines what it writes, and writes one buffer, listed in `ops1_W`.
-/
import proofs.«168404_j17343077941930_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 61 … 126 of @main, in order. -/
abbrev ops1 : List (HloOp τ sig (Elt F)) :=
  [ ternary main_v47 main_v49 main_v45 main_v50 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v50 main_v51 (broadcastInDim S1600000x1 ![0] bcast_S1600000_S1600000x1_0 : (⟨S1600000, .i32⟩ : BufTy).Contents (Elt F) → (⟨S1600000x1, .i32⟩ : BufTy).Contents (Elt F)),
    binary main_v14 main_v51 main_v52 ((fun x i => Host.gather gather_S200000x64_S1600000x1_S1600000x64_1_0_n_n_0_1_164 x i) : (⟨S200000x64, .f32⟩ : BufTy).Contents (Elt F) → (⟨S1600000x1, .i32⟩ : BufTy).Contents (Elt F) → (⟨S1600000x64, .f32⟩ : BufTy).Contents (Elt F)),
    unary main_arg4 main_v53 ((extractStridedSlice S1x1600000 ![1, 0] · slices_S2x1600000_S1x1600000_1_0) : (⟨S2x1600000, .f32⟩ : BufTy).Contents (Elt F) → (⟨S1x1600000, .f32⟩ : BufTy).Contents (Elt F)),
    reshape main_v53 main_v54 rfl shapeCasts_S1x1600000_S1600000,
    unary main_v54 main_v55 (broadcastInDim S1600000x1 ![0] bcast_S1600000_S1600000x1_0 : (⟨S1600000, .f32⟩ : BufTy).Contents (Elt F) → (⟨S1600000x1, .f32⟩ : BufTy).Contents (Elt F)),
    unary main_v55 main_v56 (broadcastInDim S1600000x64 ![0, 1] bcast_S1600000x1_S1600000x64_0_1 : (⟨S1600000x1, .f32⟩ : BufTy).Contents (Elt F) → (⟨S1600000x64, .f32⟩ : BufTy).Contents (Elt F)),
    binary main_v52 main_v56 main_v57 (mulf : (⟨S1600000x64, .f32⟩ : BufTy).Contents (Elt F) → (⟨S1600000x64, .f32⟩ : BufTy).Contents (Elt F) → (⟨S1600000x64, .f32⟩ : BufTy).Contents (Elt F)),
    unary main_arg5 main_v58 ((extractStridedSlice S1x1600000 ![1, 0] · slices_S2x1600000_S1x1600000_1_0) : (⟨S2x1600000, .i32⟩ : BufTy).Contents (Elt F) → (⟨S1x1600000, .i32⟩ : BufTy).Contents (Elt F)),
    reshape main_v58 main_v59 rfl shapeCasts_S1x1600000_S1600000,
    nullary main_cst_8 (constant S_ .f32 0x00000000#32),
    unary main_cst_8 main_v60 (broadcastInDim S200000x64 ![] bcast_S_S200000x64 : (⟨S_, .f32⟩ : BufTy).Contents (Elt F) → (⟨S200000x64, .f32⟩ : BufTy).Contents (Elt F)),
    unary main_v59 main_v61 (broadcastInDim S1600000x1 ![0] bcast_S1600000_S1600000x1_0 : (⟨S1600000, .i32⟩ : BufTy).Contents (Elt F) → (⟨S1600000x1, .i32⟩ : BufTy).Contents (Elt F)),
    ternary main_v60 main_v61 main_v57 main_v62 ((fun x i u => Host.scatterAdd scatter_S200000x64_S1600000x1_S1600000x64_1_0_0_1 x i u) : (⟨S200000x64, .f32⟩ : BufTy).Contents (Elt F) → (⟨S1600000x1, .i32⟩ : BufTy).Contents (Elt F) → (⟨S1600000x64, .f32⟩ : BufTy).Contents (Elt F) → (⟨S200000x64, .f32⟩ : BufTy).Contents (Elt F)),
    unary main_arg2 main_v63 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v63 main_v64 rfl shapeCasts_S1x64x64_S64x64,
    binary main_v62 main_v64 main_v65 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v43 main_v65 main_v66 (addf : (⟨S200000x64, .f32⟩ : BufTy).Contents (Elt F) → (⟨S200000x64, .f32⟩ : BufTy).Contents (Elt F) → (⟨S200000x64, .f32⟩ : BufTy).Contents (Elt F)),
    binary main_v62 main_v14 main_v67 (mulf : (⟨S200000x64, .f32⟩ : BufTy).Contents (Elt F) → (⟨S200000x64, .f32⟩ : BufTy).Contents (Elt F) → (⟨S200000x64, .f32⟩ : BufTy).Contents (Elt F)),
    unary main_arg3 main_v68 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v68 main_v69 rfl shapeCasts_S1x64x64_S64x64,
    binary main_v67 main_v69 main_v70 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v66 main_v70 main_v71 (addf : (⟨S200000x64, .f32⟩ : BufTy).Contents (Elt F) → (⟨S200000x64, .f32⟩ : BufTy).Contents (Elt F) → (⟨S200000x64, .f32⟩ : BufTy).Contents (Elt F)),
    nullary main_cst_9 (constant S_ .f32 0x3E4CCCCD#32),
    TRef.nullary main_call0.cst (constant S_ .f32 0x00000000#32),
    TRef.unary main_call0.cst main_call0.v0 (broadcastInDim S200000x64 ![] bcast_S_S200000x64),
    TRef.binary (TRef.of main_v71 : TRef sig ⟨S200000x64, .f32⟩) main_call0.v0 main_call0.v1 (cmpf .oge),
    TRef.unary (TRef.of main_cst_9 : TRef sig ⟨S_, .f32⟩) main_call0.v2 id,
    TRef.unary main_call0.v2 main_call0.v3 (broadcastInDim S200000x64 ![] bcast_S_S200000x64),
    TRef.binary main_call0.v3 (TRef.of main_v71 : TRef sig ⟨S200000x64, .f32⟩) main_call0.v4 mulf,
    TRef.ternary main_call0.v1 (TRef.of main_v71 : TRef sig ⟨S200000x64, .f32⟩) main_call0.v4 main_call0.call0.v0 select,
    unary main_v72 main_v73 ((extractStridedSlice S100000x64 ![0, 0] · slices_S200000x64_S100000x64_0_0) : (⟨S200000x64, .f32⟩ : BufTy).Contents (Elt F) → (⟨S100000x64, .f32⟩ : BufTy).Contents (Elt F)),
    unary main_v72 main_v74 ((extractStridedSlice S100000x64 ![100000, 0] · slices_S200000x64_S100000x64_100000_0) : (⟨S200000x64, .f32⟩ : BufTy).Contents (Elt F) → (⟨S100000x64, .f32⟩ : BufTy).Contents (Elt F)),
    nullary main_cst_10 (constant S_ .f32 0x00000000#32),
    unary main_cst_10 main_v75 (broadcastInDim S200000x64 ![] bcast_S_S200000x64 : (⟨S_, .f32⟩ : BufTy).Contents (Elt F) → (⟨S200000x64, .f32⟩ : BufTy).Contents (Elt F)),
    unary main_arg6 main_v76 ((extractStridedSlice S1x1600000 ![0, 0] · slices_S2x1600000_S1x1600000_0_0) : (⟨S2x1600000, .i32⟩ : BufTy).Contents (Elt F) → (⟨S1x1600000, .i32⟩ : BufTy).Contents (Elt F)),
    reshape main_v76 main_v77 rfl shapeCasts_S1x1600000_S1600000,
    nullary main_c_11 (constantI S_ 32 0#32),
    unary main_c_11 main_v78 (broadcastInDim S1600000 ![] bcast_S_S1600000 : (⟨S_, .i32⟩ : BufTy).Contents (Elt F) → (⟨S1600000, .i32⟩ : BufTy).Contents (Elt F)),
    binary main_v77 main_v78 main_v79 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 200000#32),
    unary main_c_12 main_v80 (broadcastInDim S1600000 ![] bcast_S_S1600000 : (⟨S_, .i32⟩ : BufTy).Contents (Elt F) → (⟨S1600000, .i32⟩ : BufTy).Contents (Elt F)),
    binary main_v77 main_v80 main_v81 (addi : (⟨S1600000, .i32⟩ : BufTy).Contents (Elt F) → (⟨S1600000, .i32⟩ : BufTy).Contents (Elt F) → (⟨S1600000, .i32⟩ : BufTy).Contents (Elt F)),
    ternary main_v79 main_v81 main_v77 main_v82 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v82 main_v83 (broadcastInDim S1600000x1 ![0] bcast_S1600000_S1600000x1_0 : (⟨S1600000, .i32⟩ : BufTy).Contents (Elt F) → (⟨S1600000x1, .i32⟩ : BufTy).Contents (Elt F)),
    binary main_v72 main_v83 main_v84 ((fun x i => Host.gather gather_S200000x64_S1600000x1_S1600000x64_1_0_n_n_0_1_164 x i) : (⟨S200000x64, .f32⟩ : BufTy).Contents (Elt F) → (⟨S1600000x1, .i32⟩ : BufTy).Contents (Elt F) → (⟨S1600000x64, .f32⟩ : BufTy).Contents (Elt F)),
    unary main_arg4 main_v85 ((extractStridedSlice S1x1600000 ![0, 0] · slices_S2x1600000_S1x1600000_0_0) : (⟨S2x1600000, .f32⟩ : BufTy).Contents (Elt F) → (⟨S1x1600000, .f32⟩ : BufTy).Contents (Elt F)),
    reshape main_v85 main_v86 rfl shapeCasts_S1x1600000_S1600000,
    unary main_v86 main_v87 (broadcastInDim S1600000x1 ![0] bcast_S1600000_S1600000x1_0 : (⟨S1600000, .f32⟩ : BufTy).Contents (Elt F) → (⟨S1600000x1, .f32⟩ : BufTy).Contents (Elt F)),
    unary main_v87 main_v88 (broadcastInDim S1600000x64 ![0, 1] bcast_S1600000x1_S1600000x64_0_1 : (⟨S1600000x1, .f32⟩ : BufTy).Contents (Elt F) → (⟨S1600000x64, .f32⟩ : BufTy).Contents (Elt F)),
    binary main_v84 main_v88 main_v89 (mulf : (⟨S1600000x64, .f32⟩ : BufTy).Contents (Elt F) → (⟨S1600000x64, .f32⟩ : BufTy).Contents (Elt F) → (⟨S1600000x64, .f32⟩ : BufTy).Contents (Elt F)),
    unary main_arg5 main_v90 ((extractStridedSlice S1x1600000 ![0, 0] · slices_S2x1600000_S1x1600000_0_0) : (⟨S2x1600000, .i32⟩ : BufTy).Contents (Elt F) → (⟨S1x1600000, .i32⟩ : BufTy).Contents (Elt F)),
    reshape main_v90 main_v91 rfl shapeCasts_S1x1600000_S1600000,
    nullary main_cst_13 (constant S_ .f32 0x00000000#32),
    unary main_cst_13 main_v92 (broadcastInDim S200000x64 ![] bcast_S_S200000x64 : (⟨S_, .f32⟩ : BufTy).Contents (Elt F) → (⟨S200000x64, .f32⟩ : BufTy).Contents (Elt F)),
    unary main_v91 main_v93 (broadcastInDim S1600000x1 ![0] bcast_S1600000_S1600000x1_0 : (⟨S1600000, .i32⟩ : BufTy).Contents (Elt F) → (⟨S1600000x1, .i32⟩ : BufTy).Contents (Elt F)),
    ternary main_v92 main_v93 main_v89 main_v94 ((fun x i u => Host.scatterAdd scatter_S200000x64_S1600000x1_S1600000x64_1_0_0_1 x i u) : (⟨S200000x64, .f32⟩ : BufTy).Contents (Elt F) → (⟨S1600000x1, .i32⟩ : BufTy).Contents (Elt F) → (⟨S1600000x64, .f32⟩ : BufTy).Contents (Elt F) → (⟨S200000x64, .f32⟩ : BufTy).Contents (Elt F)),
    unary main_arg2 main_v95 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v95 main_v96 rfl shapeCasts_S1x64x64_S64x64,
    binary main_v94 main_v96 main_v97 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v75 main_v97 main_v98 (addf : (⟨S200000x64, .f32⟩ : BufTy).Contents (Elt F) → (⟨S200000x64, .f32⟩ : BufTy).Contents (Elt F) → (⟨S200000x64, .f32⟩ : BufTy).Contents (Elt F)),
    binary main_v94 main_v72 main_v99 (mulf : (⟨S200000x64, .f32⟩ : BufTy).Contents (Elt F) → (⟨S200000x64, .f32⟩ : BufTy).Contents (Elt F) → (⟨S200000x64, .f32⟩ : BufTy).Contents (Elt F)),
    unary main_arg3 main_v100 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v100 main_v101 rfl shapeCasts_S1x64x64_S64x64,
    binary main_v99 main_v101 main_v102 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v98 main_v102 main_v103 (addf : (⟨S200000x64, .f32⟩ : BufTy).Contents (Elt F) → (⟨S200000x64, .f32⟩ : BufTy).Contents (Elt F) → (⟨S200000x64, .f32⟩ : BufTy).Contents (Elt F)) ]

set_option maxRecDepth 8192 in
/-- The window is the sequence of its operations. -/
theorem main_part1_eq (c : Dev nD) : main_part1 (F := F) c = seq ops1 := rfl

set_option maxRecDepth 8192 in
/-- Every operation of the window touches TensorCore buffers only. -/
theorem ops1_sub : (ops1 : List (HloOp τ sig (Elt F))).Forall fun op => op.bufs ⊆ tcRefs τ sig :=
  ⟨ternary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., unary_bufs_sub .., ternary_bufs_sub .., unary_bufs_sub .., reshape_bufs_sub .., binary_bufs_sub .., binary_bufs_sub .., binary_bufs_sub .., unary_bufs_sub .., reshape_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., unary_bufs_sub .., nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., unary_bufs_sub .., ternary_bufs_sub .., unary_bufs_sub .., reshape_bufs_sub .., binary_bufs_sub .., binary_bufs_sub .., binary_bufs_sub .., unary_bufs_sub .., reshape_bufs_sub .., binary_bufs_sub .., binary_bufs_sub ..⟩

set_option maxRecDepth 8192 in
/-- Every operation of the window determines the contents it writes. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops1_W : List (Ref sig .tc) := [main_v50, main_v51, main_v52, main_v53, main_v54, main_v55, main_v56, main_v57, main_v58, main_v59, main_cst_8, main_v60, main_v61, main_v62, main_v63, main_v64, main_v65, main_v66, main_v67, main_v68, main_v69, main_v70, main_v71, main_cst_9, main_call0_cst, main_call0_v0, main_call0_v1, main_call0_v2, main_call0_v3, main_call0_v4, main_v72, main_v73, main_v74, main_cst_10, main_v75, main_v76, main_v77, main_c_11, main_v78, main_v79, main_c_12, main_v80, main_v81, main_v82, main_v83, main_v84, main_v85, main_v86, main_v87, main_v88, main_v89, main_v90, main_v91, main_cst_13, main_v92, main_v93, main_v94, main_v95, main_v96, main_v97, main_v98, main_v99, main_v100, main_v101, main_v102, main_v103]

set_option maxRecDepth 8192 in
/-- Each operation writes a buffer of that list. -/
theorem ops1_writes : (ops1 : List (HloOp τ sig (Elt F))).Forall fun op => op.writes ⊆ (ops1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer outside that list keeps its contents through the window. -/
theorem ops1_keep (V : Valuation τ sig (Elt F)) (r : Ref sig .tc) (h : r ∉ ops1_W) :
    after ops1 V (Proc.devRef .tc r) = V (Proc.devRef .tc r) :=
  after_of_writes_sub ops1 V ops1_writes h

end Cert.ReferenceIdeal.Hand

end
-- ==== Proof.Ref.Ops2.lean ====
/-
  The reference program's @main, statements 121 … 180 of 229, as a list of host operations:
  operations 127 … 192 of 246 in the order the program runs them, the seven operations of
  leaky_relu (zero, its broadcast, the comparison x ≥ 0, the slope converted and broadcast, slope · x, the select) standing
  at its call over the call's own buffers.
  The window of the program is the sequence of these operations; every operation touches TensorCore buffers only,
  determines what it writes, and writes one buffer, listed in `ops2_W`.
-/
import proofs.«168404_j17343077941930_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 127 … 192 of @main, in order. -/
abbrev ops2 : List (HloOp τ sig (Elt F)) :=
  [ unary main_arg6 main_v104 ((extractStridedSlice S1x1600000 ![1, 0] · slices_S2x1600000_S1x1600000_1_0) : (⟨S2x1600000, .i32⟩ : BufTy).Contents (Elt F) → (⟨S1x1600000, .i32⟩ : BufTy).Contents (Elt F)),
    reshape main_v104 main_v105 rfl shapeCasts_S1x1600000_S1600000,
    nullary main_c_14 (constantI S_ 32 0#32),
    unary main_c_14 main_v106 (broadcastInDim S1600000 ![] bcast_S_S1600000 : (⟨S_, .i32⟩ : BufTy).Contents (Elt F) → (⟨S1600000, .i32⟩ : BufTy).Contents (Elt F)),
    binary main_v105 main_v106 main_v107 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 200000#32),
    unary main_c_15 main_v108 (broadcastInDim S1600000 ![] bcast_S_S1600000 : (⟨S_, .i32⟩ : BufTy).Contents (Elt F) → (⟨S1600000, .i32⟩ : BufTy).Contents (Elt F)),
    binary main_v105 main_v108 main_v109 (addi : (⟨S1600000, .i32⟩ : BufTy).Contents (Elt F) → (⟨S1600000, .i32⟩ : BufTy).Contents (Elt F) → (⟨S1600000, .i32⟩ : BufTy).Contents (Elt F)),
    ternary main_v107 main_v109 main_v105 main_v110 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v110 main_v111 (broadcastInDim S1600000x1 ![0] bcast_S1600000_S1600000x1_0 : (⟨S1600000, .i32⟩ : BufTy).Contents (Elt F) → (⟨S1600000x1, .i32⟩ : BufTy).Contents (Elt F)),
    binary main_v72 main_v111 main_v112 ((fun x i => Host.gather gather_S200000x64_S1600000x1_S1600000x64_1_0_n_n_0_1_164 x i) : (⟨S200000x64, .f32⟩ : BufTy).Contents (Elt F) → (⟨S1600000x1, .i32⟩ : BufTy).Contents (Elt F) → (⟨S1600000x64, .f32⟩ : BufTy).Contents (Elt F)),
    unary main_arg4 main_v113 ((extractStridedSlice S1x1600000 ![1, 0] · slices_S2x1600000_S1x1600000_1_0) : (⟨S2x1600000, .f32⟩ : BufTy).Contents (Elt F) → (⟨S1x1600000, .f32⟩ : BufTy).Contents (Elt F)),
    reshape main_v113 main_v114 rfl shapeCasts_S1x1600000_S1600000,
    unary main_v114 main_v115 (broadcastInDim S1600000x1 ![0] bcast_S1600000_S1600000x1_0 : (⟨S1600000, .f32⟩ : BufTy).Contents (Elt F) → (⟨S1600000x1, .f32⟩ : BufTy).Contents (Elt F)),
    unary main_v115 main_v116 (broadcastInDim S1600000x64 ![0, 1] bcast_S1600000x1_S1600000x64_0_1 : (⟨S1600000x1, .f32⟩ : BufTy).Contents (Elt F) → (⟨S1600000x64, .f32⟩ : BufTy).Contents (Elt F)),
    binary main_v112 main_v116 main_v117 (mulf : (⟨S1600000x64, .f32⟩ : BufTy).Contents (Elt F) → (⟨S1600000x64, .f32⟩ : BufTy).Contents (Elt F) → (⟨S1600000x64, .f32⟩ : BufTy).Contents (Elt F)),
    unary main_arg5 main_v118 ((extractStridedSlice S1x1600000 ![1, 0] · slices_S2x1600000_S1x1600000_1_0) : (⟨S2x1600000, .i32⟩ : BufTy).Contents (Elt F) → (⟨S1x1600000, .i32⟩ : BufTy).Contents (Elt F)),
    reshape main_v118 main_v119 rfl shapeCasts_S1x1600000_S1600000,
    nullary main_cst_16 (constant S_ .f32 0x00000000#32),
    unary main_cst_16 main_v120 (broadcastInDim S200000x64 ![] bcast_S_S200000x64 : (⟨S_, .f32⟩ : BufTy).Contents (Elt F) → (⟨S200000x64, .f32⟩ : BufTy).Contents (Elt F)),
    unary main_v119 main_v121 (broadcastInDim S1600000x1 ![0] bcast_S1600000_S1600000x1_0 : (⟨S1600000, .i32⟩ : BufTy).Contents (Elt F) → (⟨S1600000x1, .i32⟩ : BufTy).Contents (Elt F)),
    ternary main_v120 main_v121 main_v117 main_v122 ((fun x i u => Host.scatterAdd scatter_S200000x64_S1600000x1_S1600000x64_1_0_0_1 x i u) : (⟨S200000x64, .f32⟩ : BufTy).Contents (Elt F) → (⟨S1600000x1, .i32⟩ : BufTy).Contents (Elt F) → (⟨S1600000x64, .f32⟩ : BufTy).Contents (Elt F) → (⟨S200000x64, .f32⟩ : BufTy).Contents (Elt F)),
    unary main_arg2 main_v123 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v123 main_v124 rfl shapeCasts_S1x64x64_S64x64,
    binary main_v122 main_v124 main_v125 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v103 main_v125 main_v126 (addf : (⟨S200000x64, .f32⟩ : BufTy).Contents (Elt F) → (⟨S200000x64, .f32⟩ : BufTy).Contents (Elt F) → (⟨S200000x64, .f32⟩ : BufTy).Contents (Elt F)),
    binary main_v122 main_v72 main_v127 (mulf : (⟨S200000x64, .f32⟩ : BufTy).Contents (Elt F) → (⟨S200000x64, .f32⟩ : BufTy).Contents (Elt F) → (⟨S200000x64, .f32⟩ : BufTy).Contents (Elt F)),
    unary main_arg3 main_v128 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v128 main_v129 rfl shapeCasts_S1x64x64_S64x64,
    binary main_v127 main_v129 main_v130 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v126 main_v130 main_v131 (addf : (⟨S200000x64, .f32⟩ : BufTy).Contents (Elt F) → (⟨S200000x64, .f32⟩ : BufTy).Contents (Elt F) → (⟨S200000x64, .f32⟩ : BufTy).Contents (Elt F)),
    nullary main_cst_17 (constant S_ .f32 0x3E4CCCCD#32),
    TRef.nullary main_call1.cst (constant S_ .f32 0x00000000#32),
    TRef.unary main_call1.cst main_call1.v0 (broadcastInDim S200000x64 ![] bcast_S_S200000x64),
    TRef.binary (TRef.of main_v131 : TRef sig ⟨S200000x64, .f32⟩) main_call1.v0 main_call1.v1 (cmpf .oge),
    TRef.unary (TRef.of main_cst_17 : TRef sig ⟨S_, .f32⟩) main_call1.v2 id,
    TRef.unary main_call1.v2 main_call1.v3 (broadcastInDim S200000x64 ![] bcast_S_S200000x64),
    TRef.binary main_call1.v3 (TRef.of main_v131 : TRef sig ⟨S200000x64, .f32⟩) main_call1.v4 mulf,
    TRef.ternary main_call1.v1 (TRef.of main_v131 : TRef sig ⟨S200000x64, .f32⟩) main_call1.v4 main_call1.call0.v0 select,
    unary main_v132 main_v133 ((extractStridedSlice S100000x64 ![0, 0] · slices_S200000x64_S100000x64_0_0) : (⟨S200000x64, .f32⟩ : BufTy).Contents (Elt F) → (⟨S100000x64, .f32⟩ : BufTy).Contents (Elt F)),
    unary main_v132 main_v134 ((extractStridedSlice S100000x64 ![100000, 0] · slices_S200000x64_S100000x64_100000_0) : (⟨S200000x64, .f32⟩ : BufTy).Contents (Elt F) → (⟨S100000x64, .f32⟩ : BufTy).Contents (Elt F)),
    nullary main_cst_18 (constant S_ .f32 0x00000000#32),
    unary main_cst_18 main_v135 (broadcastInDim S200000x64 ![] bcast_S_S200000x64 : (⟨S_, .f32⟩ : BufTy).Contents (Elt F) → (⟨S200000x64, .f32⟩ : BufTy).Contents (Elt F)),
    unary main_arg6 main_v136 ((extractStridedSlice S1x1600000 ![0, 0] · slices_S2x1600000_S1x1600000_0_0) : (⟨S2x1600000, .i32⟩ : BufTy).Contents (Elt F) → (⟨S1x1600000, .i32⟩ : BufTy).Contents (Elt F)),
    reshape main_v136 main_v137 rfl shapeCasts_S1x1600000_S1600000,
    nullary main_c_19 (constantI S_ 32 0#32),
    unary main_c_19 main_v138 (broadcastInDim S1600000 ![] bcast_S_S1600000 : (⟨S_, .i32⟩ : BufTy).Contents (Elt F) → (⟨S1600000, .i32⟩ : BufTy).Contents (Elt F)),
    binary main_v137 main_v138 main_v139 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 200000#32),
    unary main_c_20 main_v140 (broadcastInDim S1600000 ![] bcast_S_S1600000 : (⟨S_, .i32⟩ : BufTy).Contents (Elt F) → (⟨S1600000, .i32⟩ : BufTy).Contents (Elt F)),
    binary main_v137 main_v140 main_v141 (addi : (⟨S1600000, .i32⟩ : BufTy).Contents (Elt F) → (⟨S1600000, .i32⟩ : BufTy).Contents (Elt F) → (⟨S1600000, .i32⟩ : BufTy).Contents (Elt F)),
    ternary main_v139 main_v141 main_v137 main_v142 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v142 main_v143 (broadcastInDim S1600000x1 ![0] bcast_S1600000_S1600000x1_0 : (⟨S1600000, .i32⟩ : BufTy).Contents (Elt F) → (⟨S1600000x1, .i32⟩ : BufTy).Contents (Elt F)),
    binary main_v132 main_v143 main_v144 ((fun x i => Host.gather gather_S200000x64_S1600000x1_S1600000x64_1_0_n_n_0_1_164 x i) : (⟨S200000x64, .f32⟩ : BufTy).Contents (Elt F) → (⟨S1600000x1, .i32⟩ : BufTy).Contents (Elt F) → (⟨S1600000x64, .f32⟩ : BufTy).Contents (Elt F)),
    unary main_arg4 main_v145 ((extractStridedSlice S1x1600000 ![0, 0] · slices_S2x1600000_S1x1600000_0_0) : (⟨S2x1600000, .f32⟩ : BufTy).Contents (Elt F) → (⟨S1x1600000, .f32⟩ : BufTy).Contents (Elt F)),
    reshape main_v145 main_v146 rfl shapeCasts_S1x1600000_S1600000,
    unary main_v146 main_v147 (broadcastInDim S1600000x1 ![0] bcast_S1600000_S1600000x1_0 : (⟨S1600000, .f32⟩ : BufTy).Contents (Elt F) → (⟨S1600000x1, .f32⟩ : BufTy).Contents (Elt F)),
    unary main_v147 main_v148 (broadcastInDim S1600000x64 ![0, 1] bcast_S1600000x1_S1600000x64_0_1 : (⟨S1600000x1, .f32⟩ : BufTy).Contents (Elt F) → (⟨S1600000x64, .f32⟩ : BufTy).Contents (Elt F)),
    binary main_v144 main_v148 main_v149 (mulf : (⟨S1600000x64, .f32⟩ : BufTy).Contents (Elt F) → (⟨S1600000x64, .f32⟩ : BufTy).Contents (Elt F) → (⟨S1600000x64, .f32⟩ : BufTy).Contents (Elt F)),
    unary main_arg5 main_v150 ((extractStridedSlice S1x1600000 ![0, 0] · slices_S2x1600000_S1x1600000_0_0) : (⟨S2x1600000, .i32⟩ : BufTy).Contents (Elt F) → (⟨S1x1600000, .i32⟩ : BufTy).Contents (Elt F)),
    reshape main_v150 main_v151 rfl shapeCasts_S1x1600000_S1600000,
    nullary main_cst_21 (constant S_ .f32 0x00000000#32),
    unary main_cst_21 main_v152 (broadcastInDim S200000x64 ![] bcast_S_S200000x64 : (⟨S_, .f32⟩ : BufTy).Contents (Elt F) → (⟨S200000x64, .f32⟩ : BufTy).Contents (Elt F)),
    unary main_v151 main_v153 (broadcastInDim S1600000x1 ![0] bcast_S1600000_S1600000x1_0 : (⟨S1600000, .i32⟩ : BufTy).Contents (Elt F) → (⟨S1600000x1, .i32⟩ : BufTy).Contents (Elt F)),
    ternary main_v152 main_v153 main_v149 main_v154 ((fun x i u => Host.scatterAdd scatter_S200000x64_S1600000x1_S1600000x64_1_0_0_1 x i u) : (⟨S200000x64, .f32⟩ : BufTy).Contents (Elt F) → (⟨S1600000x1, .i32⟩ : BufTy).Contents (Elt F) → (⟨S1600000x64, .f32⟩ : BufTy).Contents (Elt F) → (⟨S200000x64, .f32⟩ : BufTy).Contents (Elt F)),
    unary main_arg2 main_v155 ((extractStridedSlice S1x64x64 ![2, 0, 0] · slices_S3x64x64_S1x64x64_2_0_0) : (⟨S3x64x64, .f32⟩ : BufTy).Contents (Elt F) → (⟨S1x64x64, .f32⟩ : BufTy).Contents (Elt F)) ]

set_option maxRecDepth 8192 in
/-- The window is the sequence of its operations. -/
theorem main_part2_eq (c : Dev nD) : main_part2 (F := F) c = seq ops2 := rfl

set_option maxRecDepth 8192 in
/-- Every operation of the window touches TensorCore buffers only. -/
theorem ops2_sub : (ops2 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., unary_bufs_sub .., ternary_bufs_sub .., unary_bufs_sub .., reshape_bufs_sub .., binary_bufs_sub .., binary_bufs_sub .., binary_bufs_sub .., unary_bufs_sub .., reshape_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., unary_bufs_sub .., nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., unary_bufs_sub .., ternary_bufs_sub .., unary_bufs_sub ..⟩

set_option maxRecDepth 8192 in
/-- Every operation of the window determines the contents it writes. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops2_W : List (Ref sig .tc) := [main_v104, main_v105, main_c_14, main_v106, main_v107, main_c_15, main_v108, main_v109, main_v110, main_v111, main_v112, main_v113, main_v114, main_v115, main_v116, main_v117, main_v118, main_v119, main_cst_16, main_v120, main_v121, main_v122, main_v123, main_v124, main_v125, main_v126, main_v127, main_v128, main_v129, main_v130, main_v131, main_cst_17, main_call1_cst, main_call1_v0, main_call1_v1, main_call1_v2, main_call1_v3, main_call1_v4, main_v132, main_v133, main_v134, main_cst_18, main_v135, main_v136, main_v137, main_c_19, main_v138, main_v139, main_c_20, main_v140, main_v141, main_v142, main_v143, main_v144, main_v145, main_v146, main_v147, main_v148, main_v149, main_v150, main_v151, main_cst_21, main_v152, main_v153, main_v154, main_v155]

set_option maxRecDepth 8192 in
/-- Each operation writes a buffer of that list. -/
theorem ops2_writes : (ops2 : List (HloOp τ sig (Elt F))).Forall fun op => op.writes ⊆ (ops2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer outside that list keeps its contents through the window. -/
theorem ops2_keep (V : Valuation τ sig (Elt F)) (r : Ref sig .tc) (h : r ∉ ops2_W) :
    after ops2 V (Proc.devRef .tc r) = V (Proc.devRef .tc r) :=
  after_of_writes_sub ops2 V ops2_writes h

end Cert.ReferenceIdeal.Hand

end
-- ==== Proof.Ref.Ops3.lean ====
/-
  The reference program's @main, statements 181 … 229 of 229, as a list of host operations:
  operations 193 … 246 of 246 in the order the program runs them, the seven operations of
  leaky_relu (zero, its broadcast, the comparison x ≥ 0, the slope converted and broadcast, slope · x, the select) standing
  at its call over the call's own buffers.
  The window of the program is the sequence of these operations; every operation touches TensorCore buffers only,
  determines what it writes, and writes one buffer, listed in `ops3_W`.
-/
import proofs.«168404_j17343077941930_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 193 … 246 of @main, in order. -/
abbrev ops3 : List (HloOp τ sig (Elt F)) :=
  [ reshape main_v155 main_v156 rfl shapeCasts_S1x64x64_S64x64,
    binary main_v154 main_v156 main_v157 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v135 main_v157 main_v158 (addf : (⟨S200000x64, .f32⟩ : BufTy).Contents (Elt F) → (⟨S200000x64, .f32⟩ : BufTy).Contents (Elt F) → (⟨S200000x64, .f32⟩ : BufTy).Contents (Elt F)),
    binary main_v154 main_v132 main_v159 (mulf : (⟨S200000x64, .f32⟩ : BufTy).Contents (Elt F) → (⟨S200000x64, .f32⟩ : BufTy).Contents (Elt F) → (⟨S200000x64, .f32⟩ : BufTy).Contents (Elt F)),
    unary main_arg3 main_v160 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v160 main_v161 rfl shapeCasts_S1x64x64_S64x64,
    binary main_v159 main_v161 main_v162 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v158 main_v162 main_v163 (addf : (⟨S200000x64, .f32⟩ : BufTy).Contents (Elt F) → (⟨S200000x64, .f32⟩ : BufTy).Contents (Elt F) → (⟨S200000x64, .f32⟩ : BufTy).Contents (Elt F)),
    unary main_arg6 main_v164 ((extractStridedSlice S1x1600000 ![1, 0] · slices_S2x1600000_S1x1600000_1_0) : (⟨S2x1600000, .i32⟩ : BufTy).Contents (Elt F) → (⟨S1x1600000, .i32⟩ : BufTy).Contents (Elt F)),
    reshape main_v164 main_v165 rfl shapeCasts_S1x1600000_S1600000,
    nullary main_c_22 (constantI S_ 32 0#32),
    unary main_c_22 main_v166 (broadcastInDim S1600000 ![] bcast_S_S1600000 : (⟨S_, .i32⟩ : BufTy).Contents (Elt F) → (⟨S1600000, .i32⟩ : BufTy).Contents (Elt F)),
    binary main_v165 main_v166 main_v167 (cmpi .slt : (⟨S1600000, .i32⟩ : BufTy).Contents (Elt F) → (⟨S1600000, .i32⟩ : BufTy).Contents (Elt F) → (⟨S1600000, .i1⟩ : BufTy).Contents (Elt F)),
    nullary main_c_23 (constantI S_ 32 200000#32),
    unary main_c_23 main_v168 (broadcastInDim S1600000 ![] bcast_S_S1600000 : (⟨S_, .i32⟩ : BufTy).Contents (Elt F) → (⟨S1600000, .i32⟩ : BufTy).Contents (Elt F)),
    binary main_v165 main_v168 main_v169 (addi : (⟨S1600000, .i32⟩ : BufTy).Contents (Elt F) → (⟨S1600000, .i32⟩ : BufTy).Contents (Elt F) → (⟨S1600000, .i32⟩ : BufTy).Contents (Elt F)),
    ternary main_v167 main_v169 main_v165 main_v170 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v170 main_v171 (broadcastInDim S1600000x1 ![0] bcast_S1600000_S1600000x1_0 : (⟨S1600000, .i32⟩ : BufTy).Contents (Elt F) → (⟨S1600000x1, .i32⟩ : BufTy).Contents (Elt F)),
    binary main_v132 main_v171 main_v172 ((fun x i => Host.gather gather_S200000x64_S1600000x1_S1600000x64_1_0_n_n_0_1_164 x i) : (⟨S200000x64, .f32⟩ : BufTy).Contents (Elt F) → (⟨S1600000x1, .i32⟩ : BufTy).Contents (Elt F) → (⟨S1600000x64, .f32⟩ : BufTy).Contents (Elt F)),
    unary main_arg4 main_v173 ((extractStridedSlice S1x1600000 ![1, 0] · slices_S2x1600000_S1x1600000_1_0) : (⟨S2x1600000, .f32⟩ : BufTy).Contents (Elt F) → (⟨S1x1600000, .f32⟩ : BufTy).Contents (Elt F)),
    reshape main_v173 main_v174 rfl shapeCasts_S1x1600000_S1600000,
    unary main_v174 main_v175 (broadcastInDim S1600000x1 ![0] bcast_S1600000_S1600000x1_0 : (⟨S1600000, .f32⟩ : BufTy).Contents (Elt F) → (⟨S1600000x1, .f32⟩ : BufTy).Contents (Elt F)),
    unary main_v175 main_v176 (broadcastInDim S1600000x64 ![0, 1] bcast_S1600000x1_S1600000x64_0_1 : (⟨S1600000x1, .f32⟩ : BufTy).Contents (Elt F) → (⟨S1600000x64, .f32⟩ : BufTy).Contents (Elt F)),
    binary main_v172 main_v176 main_v177 (mulf : (⟨S1600000x64, .f32⟩ : BufTy).Contents (Elt F) → (⟨S1600000x64, .f32⟩ : BufTy).Contents (Elt F) → (⟨S1600000x64, .f32⟩ : BufTy).Contents (Elt F)),
    unary main_arg5 main_v178 ((extractStridedSlice S1x1600000 ![1, 0] · slices_S2x1600000_S1x1600000_1_0) : (⟨S2x1600000, .i32⟩ : BufTy).Contents (Elt F) → (⟨S1x1600000, .i32⟩ : BufTy).Contents (Elt F)),
    reshape main_v178 main_v179 rfl shapeCasts_S1x1600000_S1600000,
    nullary main_cst_24 (constant S_ .f32 0x00000000#32),
    unary main_cst_24 main_v180 (broadcastInDim S200000x64 ![] bcast_S_S200000x64 : (⟨S_, .f32⟩ : BufTy).Contents (Elt F) → (⟨S200000x64, .f32⟩ : BufTy).Contents (Elt F)),
    unary main_v179 main_v181 (broadcastInDim S1600000x1 ![0] bcast_S1600000_S1600000x1_0 : (⟨S1600000, .i32⟩ : BufTy).Contents (Elt F) → (⟨S1600000x1, .i32⟩ : BufTy).Contents (Elt F)),
    ternary main_v180 main_v181 main_v177 main_v182 ((fun x i u => Host.scatterAdd scatter_S200000x64_S1600000x1_S1600000x64_1_0_0_1 x i u) : (⟨S200000x64, .f32⟩ : BufTy).Contents (Elt F) → (⟨S1600000x1, .i32⟩ : BufTy).Contents (Elt F) → (⟨S1600000x64, .f32⟩ : BufTy).Contents (Elt F) → (⟨S200000x64, .f32⟩ : BufTy).Contents (Elt F)),
    unary main_arg2 main_v183 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v183 main_v184 rfl shapeCasts_S1x64x64_S64x64,
    binary main_v182 main_v184 main_v185 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v163 main_v185 main_v186 (addf : (⟨S200000x64, .f32⟩ : BufTy).Contents (Elt F) → (⟨S200000x64, .f32⟩ : BufTy).Contents (Elt F) → (⟨S200000x64, .f32⟩ : BufTy).Contents (Elt F)),
    binary main_v182 main_v132 main_v187 (mulf : (⟨S200000x64, .f32⟩ : BufTy).Contents (Elt F) → (⟨S200000x64, .f32⟩ : BufTy).Contents (Elt F) → (⟨S200000x64, .f32⟩ : BufTy).Contents (Elt F)),
    unary main_arg3 main_v188 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v188 main_v189 rfl shapeCasts_S1x64x64_S64x64,
    binary main_v187 main_v189 main_v190 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v186 main_v190 main_v191 (addf : (⟨S200000x64, .f32⟩ : BufTy).Contents (Elt F) → (⟨S200000x64, .f32⟩ : BufTy).Contents (Elt F) → (⟨S200000x64, .f32⟩ : BufTy).Contents (Elt F)),
    nullary main_cst_25 (constant S_ .f32 0x3E4CCCCD#32),
    TRef.nullary main_call2.cst (constant S_ .f32 0x00000000#32),
    TRef.unary main_call2.cst main_call2.v0 (broadcastInDim S200000x64 ![] bcast_S_S200000x64),
    TRef.binary (TRef.of main_v191 : TRef sig ⟨S200000x64, .f32⟩) main_call2.v0 main_call2.v1 (cmpf .oge),
    TRef.unary (TRef.of main_cst_25 : TRef sig ⟨S_, .f32⟩) main_call2.v2 id,
    TRef.unary main_call2.v2 main_call2.v3 (broadcastInDim S200000x64 ![] bcast_S_S200000x64),
    TRef.binary main_call2.v3 (TRef.of main_v191 : TRef sig ⟨S200000x64, .f32⟩) main_call2.v4 mulf,
    TRef.ternary main_call2.v1 (TRef.of main_v191 : TRef sig ⟨S200000x64, .f32⟩) main_call2.v4 main_call2.call0.v0 select,
    unary main_v192 main_v193 ((extractStridedSlice S100000x64 ![0, 0] · slices_S200000x64_S100000x64_0_0) : (⟨S200000x64, .f32⟩ : BufTy).Contents (Elt F) → (⟨S100000x64, .f32⟩ : BufTy).Contents (Elt F)),
    unary main_v192 main_v194 ((extractStridedSlice S100000x64 ![100000, 0] · slices_S200000x64_S100000x64_100000_0) : (⟨S200000x64, .f32⟩ : BufTy).Contents (Elt F) → (⟨S100000x64, .f32⟩ : BufTy).Contents (Elt F)),
    nary ![main_v6, main_v73, main_v133, main_v193] main_v195 (fun u => concatenate S100000x256 1 [⟨S100000x64, u 0⟩, ⟨S100000x64, u 1⟩, ⟨S100000x64, u 2⟩, ⟨S100000x64, u 3⟩] concatenates_S100000x64_S100000x64_S100000x64_S100000x64_S100000x256_d1),
    nary ![main_v13, main_v74, main_v134, main_v194] main_v196 (fun u => concatenate S100000x256 1 [⟨S100000x64, u 0⟩, ⟨S100000x64, u 1⟩, ⟨S100000x64, u 2⟩, ⟨S100000x64, u 3⟩] concatenates_S100000x64_S100000x64_S100000x64_S100000x64_S100000x256_d1),
    binary main_v195 main_v196 main_v197 (mulf : (⟨S100000x256, .f32⟩ : BufTy).Contents (Elt F) → (⟨S100000x256, .f32⟩ : BufTy).Contents (Elt F) → (⟨S100000x256, .f32⟩ : BufTy).Contents (Elt F)),
    nullary main_cst_26 (constant S_ .f32 0x00000000#32),
    binary main_v197 main_cst_26 main_v198 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)) ]

set_option maxRecDepth 8192 in
/-- The window is the sequence of its operations. -/
theorem main_part3_eq (c : Dev nD) : main_part3 (F := F) c = seq ops3 := rfl

set_option maxRecDepth 8192 in
/-- Every operation of the window touches TensorCore buffers only. -/
theorem ops3_sub : (ops3 : List (HloOp τ sig (Elt F))).Forall fun op => op.bufs ⊆ tcRefs τ sig :=
  ⟨reshape_bufs_sub .., binary_bufs_sub .., binary_bufs_sub .., binary_bufs_sub .., unary_bufs_sub .., reshape_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., unary_bufs_sub .., ternary_bufs_sub .., unary_bufs_sub .., reshape_bufs_sub .., binary_bufs_sub .., binary_bufs_sub .., binary_bufs_sub .., unary_bufs_sub .., reshape_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., unary_bufs_sub .., nary_bufs_sub .., nary_bufs_sub .., binary_bufs_sub .., nullary_bufs_sub .., binary_bufs_sub ..⟩

set_option maxRecDepth 8192 in
/-- Every operation of the window determines the contents it writes. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev ops3_W : List (Ref sig .tc) := [main_v156, main_v157, main_v158, main_v159, main_v160, main_v161, main_v162, main_v163, main_v164, main_v165, main_c_22, main_v166, main_v167, main_c_23, main_v168, main_v169, main_v170, main_v171, main_v172, main_v173, main_v174, main_v175, main_v176, main_v177, main_v178, main_v179, main_cst_24, main_v180, main_v181, main_v182, main_v183, main_v184, main_v185, main_v186, main_v187, main_v188, main_v189, main_v190, main_v191, main_cst_25, main_call2_cst, main_call2_v0, main_call2_v1, main_call2_v2, main_call2_v3, main_call2_v4, main_v192, main_v193, main_v194, main_v195, main_v196, main_v197, main_cst_26, main_v198]

set_option maxRecDepth 8192 in
/-- Each operation writes a buffer of that list. -/
theorem ops3_writes : (ops3 : List (HloOp τ sig (Elt F))).Forall fun op => op.writes ⊆ (ops3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer outside that list keeps its contents through the window. -/
theorem ops3_keep (V : Valuation τ sig (Elt F)) (r : Ref sig .tc) (h : r ∉ ops3_W) :
    after ops3 V (Proc.devRef .tc r) = V (Proc.devRef .tc r) :=
  after_of_writes_sub ops3 V ops3_writes h

end Cert.ReferenceIdeal.Hand

end
-- ==== Proof.Ref.Ops.lean ====
/-
  The reference program's @main as ONE list of its 246 host operations, `ops = ops0 ++ (ops1 ++ (ops2 ++ ops3))`, one
  summand per window of the program: @main runs its four windows in order, each window is the sequence of its own
  operations, and two sequences run one after the other are the sequence of the concatenation. What holds of every
  operation of every window (TensorCore buffers only; the contents written determined) holds of every operation of `ops`.
-/
import proofs.«168404_j17343077941930_1_alg».proof.Proof.Ref.Ops0
import proofs.«168404_j17343077941930_1_alg».proof.Proof.Ref.Ops1
import proofs.«168404_j17343077941930_1_alg».proof.Proof.Ref.Ops2
import proofs.«168404_j17343077941930_1_alg».proof.Proof.Ref.Ops3

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 246 operations, in order: the four windows' lists, concatenated. -/
abbrev ops : List (HloOp τ sig (Elt F)) := ops0 ++ (ops1 ++ (ops2 ++ ops3))

/-- @main is the sequence of its operations: window by window, joined at the concatenations. -/
theorem main_eq (c : Dev nD) : main (F := F) c = seq ops := by
  simp only [ops, seq_append, ← main_part0_eq c, ← main_part1_eq c, ← main_part2_eq c, ← main_part3_eq c]
  rfl

/-- An operation of `ops` is an operation of one of the four windows. -/
theorem mem_ops {op : HloOp τ sig (Elt F)} (h : op ∈ (ops : List (HloOp τ sig (Elt F)))) :
    op ∈ (ops0 : List (HloOp τ sig (Elt F))) ∨ op ∈ (ops1 : List (HloOp τ sig (Elt F))) ∨ op ∈ (ops2 : List (HloOp τ sig (Elt F))) ∨ op ∈ (ops3 : List (HloOp τ sig (Elt F))) := by
  simpa only [ops, List.mem_append] using h

theorem ops_sub : (ops : List (HloOp τ sig (Elt F))).Forall fun op => op.bufs ⊆ tcRefs τ sig :=
  List.forall_iff_forall_mem.mpr fun op h => by
    rcases mem_ops h with h | h | h | h
    exacts [List.forall_iff_forall_mem.mp ops0_sub op h, List.forall_iff_forall_mem.mp ops1_sub op h,
      List.forall_iff_forall_mem.mp ops2_sub op h, List.forall_iff_forall_mem.mp ops3_sub op h]

theorem ops_fresh : ∀ op ∈ (ops : List (HloOp τ sig (Elt F))), op.fresh = ∅ := fun op h => by
  rcases mem_ops h with h | h | h | h
  exacts [List.forall_iff_forall_mem.mp ops0_fresh op h, List.forall_iff_forall_mem.mp ops1_fresh op h,
    List.forall_iff_forall_mem.mp ops2_fresh op h, List.forall_iff_forall_mem.mp ops3_fresh op h]

/-- The fold over two lists in a row is the fold over the second from the fold over the first. -/
theorem after_concat : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_concat l₁ l₂]

/-- The contents after all of @main's operations: the four windows' folds, composed. -/
theorem after_ops (V : Valuation τ sig (Elt F)) : after ops V = after ops3 (after ops2 (after ops1 (after ops0 V))) := by
  simp only [ops, after_concat]

/-- A buffer none of the four windows writes keeps its contents through @main. -/
theorem ops_keep (V : Valuation τ sig (Elt F)) (r : Ref sig .tc) (h0 : r ∉ ops0_W) (h1 : r ∉ ops1_W) (h2 : r ∉ ops2_W) (h3 : r ∉ ops3_W) :
    after ops V (Proc.devRef .tc r) = V (Proc.devRef .tc r) := by
  rw [after_ops, ops3_keep _ r h3, ops2_keep _ r h2, ops1_keep _ r h1, ops0_keep _ r h0]

end Cert.ReferenceIdeal.Hand

end
-- ==== Proof.Ref.Run.lean ====
/-
  The reference program's run. Its signature scopes no TensorCore buffer and no semaphore, @main is the sequence of its
  246 host operations (`main_eq`), each on TensorCore buffers only and determining what it writes; so from any memory
  with zero counters every weakly fair execution of @main terminates without a fault, and every TensorCore buffer of
  every device ends at the fold of the operations' results, in order, over the device's launch contents.
-/
import proofs.«168404_j17343077941930_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Hand

end
-- ==== Proof.Ref.Args.lean ====
/-
  The nine argument buffers of the reference program are written by none of its 246 operations (each operation writes
  the one buffer of its own result, a buffer other than every argument's): each keeps its contents through @main.
-/
import proofs.«168404_j17343077941930_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem arg0_eq (V : Valuation τ sig (Elt F)) : after ops V (main_arg0 : DevRef τ sig) = V (main_arg0 : DevRef τ sig) :=
  ops_keep V main_arg0 (by decide) (by decide) (by decide) (by decide)

theorem arg1_eq (V : Valuation τ sig (Elt F)) : after ops V (main_arg1 : DevRef τ sig) = V (main_arg1 : DevRef τ sig) :=
  ops_keep V main_arg1 (by decide) (by decide) (by decide) (by decide)

theorem arg2_eq (V : Valuation τ sig (Elt F)) : after ops V (main_arg2 : DevRef τ sig) = V (main_arg2 : DevRef τ sig) :=
  ops_keep V main_arg2 (by decide) (by decide) (by decide) (by decide)

theorem arg3_eq (V : Valuation τ sig (Elt F)) : after ops V (main_arg3 : DevRef τ sig) = V (main_arg3 : DevRef τ sig) :=
  ops_keep V main_arg3 (by decide) (by decide) (by decide) (by decide)

theorem arg4_eq (V : Valuation τ sig (Elt F)) : after ops V (main_arg4 : DevRef τ sig) = V (main_arg4 : DevRef τ sig) :=
  ops_keep V main_arg4 (by decide) (by decide) (by decide) (by decide)

theorem arg5_eq (V : Valuation τ sig (Elt F)) : after ops V (main_arg5 : DevRef τ sig) = V (main_arg5 : DevRef τ sig) :=
  ops_keep V main_arg5 (by decide) (by decide) (by decide) (by decide)

theorem arg6_eq (V : Valuation τ sig (Elt F)) : after ops V (main_arg6 : DevRef τ sig) = V (main_arg6 : DevRef τ sig) :=
  ops_keep V main_arg6 (by decide) (by decide) (by decide) (by decide)

theorem arg7_eq (V : Valuation τ sig (Elt F)) : after ops V (main_arg7 : DevRef τ sig) = V (main_arg7 : DevRef τ sig) :=
  ops_keep V main_arg7 (by decide) (by decide) (by decide) (by decide)

theorem arg8_eq (V : Valuation τ sig (Elt F)) : after ops V (main_arg8 : DevRef τ sig) = V (main_arg8 : DevRef τ sig) :=
  ops_keep V main_arg8 (by decide) (by decide) (by decide) (by decide)

end Cert.ReferenceIdeal.Hand

end
-- ==== Proof.Ref.Frame.lean ====
/-
  The reference program's frame at the ideal instance: from any memory with zero counters every weakly fair execution
  of @main terminates without a fault (`run_main`), and each of the nine argument arrays ends as it began: it ends at
  the operations' fold over the launch contents, and no operation writes it (`argK_eq`). The precondition is not used.
-/
import proofs.«168404_j17343077941930_1_alg».proof.Defs
import proofs.«168404_j17343077941930_1_alg».proof.Proof.Gen.Pre_finite_inputs
import proofs.«168404_j17343077941930_1_alg».proof.Proof.Ref.Run
import proofs.«168404_j17343077941930_1_alg».proof.Proof.Ref.Args

noncomputable section

namespace Cert.ReferenceIdeal.Hand

open Cert.ReferenceIdeal Cert.ReferenceIdeal.Gen Idealize.ShloMosaic Idealize.ShloMosaic.TcCoe Idealize.SL.Sem Idealize.ShloMosaic.StableHlo

theorem frame : Cert.frame_ReferenceIdeal := fun m ρ _ =>
  (θ_run defs _ _).mono (fun r h c =>
    ⟨(h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩) (run_main m ρ)

end Cert.ReferenceIdeal.Hand

end
-- ==== Proof.Ref.Steps.lean ====
/-
  THE REFERENCE PROGRAM'S STEPS, NAMED: the embedding tables' rows picked at the given indices and stacked; one fold's
  aggregate of a table (rows gathered at the edges' sources, weighted, scatter-added into zeros at the edges' targets); a
  layer's weight matrix; one layer — the aggregate of each fold multiplied by the first weight matrix and, after an
  entrywise product with the embeddings, by the second, the four products added up from zero, then the leaky rectifier
  (weak test) —; the halves of a table, four pieces side by side; and the result: the row sums of the entrywise product of
  the users' and the items' concatenated embeddings.
-/
import proofs.«168404_j17343077941930_1_alg».proof.Proof.Gen.ReferenceIdeal
import proofs.«168404_j17343077941930_1_alg».proof.Proof.LibHostWalk

noncomputable section

namespace Cert.ReferenceIdeal.Hand

open Cert.ReferenceIdeal Cert.ReferenceIdeal.Gen Idealize.ShloMosaic Idealize.ShloMosaic.TcCoe Idealize.SL.Sem Idealize.ShloMosaic.StableHlo Cert.HostWalk

variable {F : FTy → Type} [FloatOps F]

/-! ## The steps -/

/-- Row indices into a table of 100000 rows as a column, a negative index counted from the end. -/
def userCol (x : (⟨S100000, .i32⟩ : BufTy).Contents (Elt F)) : (⟨S100000x1, .i32⟩ : BufTy).Contents (Elt F) :=
  broadcastInDim S100000x1 ![0] bcast_S100000_S100000x1_0
    (select (cmpi .slt x (broadcastInDim S100000 ![] bcast_S_S100000 (constantI S_ 32 0#32)))
      (addi x (broadcastInDim S100000 ![] bcast_S_S100000 (constantI S_ 32 100000#32))) x)

/-- The rows of a table picked at the given indices. -/
def rowsOf (a : (⟨S100000x64, .f32⟩ : BufTy).Contents (Elt F)) (x : (⟨S100000, .i32⟩ : BufTy).Contents (Elt F)) :
    (⟨S100000x64, .f32⟩ : BufTy).Contents (Elt F) :=
  Host.gather gather_S100000x64_S100000x1_S100000x64_1_0_n_n_0_1_164 a (userCol x)

/-- The user rows stacked on the item rows. -/
def stack (u i : (⟨S100000x64, .f32⟩ : BufTy).Contents (Elt F)) : (⟨S200000x64, .f32⟩ : BufTy).Contents (Elt F) :=
  cat2 S200000x64 0 S100000x64 S100000x64 u i concatenates_S100000x64_S100000x64_S200000x64_d0

/-- Fold 0's row of a [2, 1600000] array, as a vector. -/
def fold0 {e : EltTy} (a : (⟨S2x1600000, e⟩ : BufTy).Contents (Elt F)) : (⟨S1600000, e⟩ : BufTy).Contents (Elt F) :=
  fun i => shapeCast S1600000 (extractStridedSlice S1x1600000 ![0, 0] a slices_S2x1600000_S1x1600000_0_0) shapeCasts_S1x1600000_S1600000 i

/-- Fold 1's row. -/
def fold1 {e : EltTy} (a : (⟨S2x1600000, e⟩ : BufTy).Contents (Elt F)) : (⟨S1600000, e⟩ : BufTy).Contents (Elt F) :=
  fun i => shapeCast S1600000 (extractStridedSlice S1x1600000 ![1, 0] a slices_S2x1600000_S1x1600000_1_0) shapeCasts_S1x1600000_S1600000 i

/-- The zero array. -/
def zeros : (⟨S200000x64, .f32⟩ : BufTy).Contents (Elt F) :=
  broadcastInDim S200000x64 ![] bcast_S_S200000x64 (constant S_ .f32 0x00000000#32)

/-- One fold's aggregate of the table `tab`: edge weights `q`, source indices `src` (negative ones counted from the end),
    target indices `dst`. -/
def aggOf (tab : (⟨S200000x64, .f32⟩ : BufTy).Contents (Elt F)) (q : (⟨S1600000, .f32⟩ : BufTy).Contents (Elt F))
    (src dst : (⟨S1600000, .i32⟩ : BufTy).Contents (Elt F)) : (⟨S200000x64, .f32⟩ : BufTy).Contents (Elt F) :=
  Host.scatterAdd scatter_S200000x64_S1600000x1_S1600000x64_1_0_0_1 zeros
    (broadcastInDim S1600000x1 ![0] bcast_S1600000_S1600000x1_0 dst)
    (mulf
      (Host.gather gather_S200000x64_S1600000x1_S1600000x64_1_0_n_n_0_1_164 tab
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 200000#32))) src)))
      (broadcastInDim S1600000x64 ![0, 1] bcast_S1600000x1_S1600000x64_0_1
        (broadcastInDim S1600000x1 ![0] bcast_S1600000_S1600000x1_0 q)))

/-- Layer 0's, 1's, 2's matrix of a stack of three 64×64 matrices. -/
def wmat0 (a : (⟨S3x64x64, .f32⟩ : BufTy).Contents (Elt F)) : (⟨S64x64, .f32⟩ : BufTy).Contents (Elt F) :=
  fun i => shapeCast S64x64 (extractStridedSlice S1x64x64 ![0, 0, 0] a slices_S3x64x64_S1x64x64_0_0_0) shapeCasts_S1x64x64_S64x64 i
def wmat1 (a : (⟨S3x64x64, .f32⟩ : BufTy).Contents (Elt F)) : (⟨S64x64, .f32⟩ : BufTy).Contents (Elt F) :=
  fun i => shapeCast S64x64 (extractStridedSlice S1x64x64 ![1, 0, 0] a slices_S3x64x64_S1x64x64_1_0_0) shapeCasts_S1x64x64_S64x64 i
def wmat2 (a : (⟨S3x64x64, .f32⟩ : BufTy).Contents (Elt F)) : (⟨S64x64, .f32⟩ : BufTy).Contents (Elt F) :=
  fun i => shapeCast S64x64 (extractStridedSlice S1x64x64 ![2, 0, 0] a slices_S3x64x64_S1x64x64_2_0_0) shapeCasts_S1x64x64_S64x64 i

/-- The user half and the item half of a table of 200000 rows. -/
def lo (e : (⟨S200000x64, .f32⟩ : BufTy).Contents (Elt F)) : (⟨S100000x64, .f32⟩ : BufTy).Contents (Elt F) :=
  extractStridedSlice S100000x64 ![0, 0] e slices_S200000x64_S100000x64_0_0
def hi (e : (⟨S200000x64, .f32⟩ : BufTy).Contents (Elt F)) : (⟨S100000x64, .f32⟩ : BufTy).Contents (Elt F) :=
  extractStridedSlice S100000x64 ![100000, 0] e slices_S200000x64_S100000x64_100000_0

/-- Four 64-column pieces side by side. -/
def cat4 (a b c d : (⟨S100000x64, .f32⟩ : BufTy).Contents (Elt F)) : (⟨S100000x256, .f32⟩ : BufTy).Contents (Elt F) :=
  concatenate S100000x256 1 [⟨S100000x64, a⟩, ⟨S100000x64, b⟩, ⟨S100000x64, c⟩, ⟨S100000x64, d⟩]
    concatenates_S100000x64_S100000x64_S100000x64_S100000x64_S100000x256_d1

/-- A product with a weight matrix. -/
def dotw (l : (⟨S200000x64, .f32⟩ : BufTy).Contents (Elt F)) (r : (⟨S64x64, .f32⟩ : BufTy).Contents (Elt F)) : (⟨S200000x64, .f32⟩ : BufTy).Contents (Elt F) :=
  Host.dotGeneral dot_S200000x64_S64x64_S200000x64_1_0_0_1_n_n none l r

/-- One layer before the rectifier: the four products of the two folds' aggregates, added up from zero. -/
def refSum (r0 r1 E : (⟨S200000x64, .f32⟩ : BufTy).Contents (Elt F)) (W1 W2 : (⟨S64x64, .f32⟩ : BufTy).Contents (Elt F)) : (⟨S200000x64, .f32⟩ : BufTy).Contents (Elt F) :=
  addf (addf (addf (addf zeros (dotw r0 W1)) (dotw (mulf r0 E) W2)) (dotw r1 W1)) (dotw (mulf r1 E) W2)

/-- The leaky rectifier of an array, weak test, slope the single-precision word of 0.2. -/
def refLeaky (L : (⟨S200000x64, .f32⟩ : BufTy).Contents (Elt F)) : (⟨S200000x64, .f32⟩ : BufTy).Contents (Elt F) :=
  select (cmpf .oge L zeros) L (mulf (broadcastInDim S200000x64 ![] bcast_S_S200000x64 (id (constant S_ .f32 0x3E4CCCCD#32))) L)

/-- One layer. -/
def refLayer (r0 r1 E : (⟨S200000x64, .f32⟩ : BufTy).Contents (Elt F)) (W1 W2 : (⟨S64x64, .f32⟩ : BufTy).Contents (Elt F)) : (⟨S200000x64, .f32⟩ : BufTy).Contents (Elt F) :=
  refLeaky (refSum r0 r1 E W1 W2)

section Fn
variable (a0 a1 : (⟨S100000x64, .f32⟩ : BufTy).Contents (Elt F)) (a2 a3 : (⟨S3x64x64, .f32⟩ : BufTy).Contents (Elt F))
  (a4 : (⟨S2x1600000, .f32⟩ : BufTy).Contents (Elt F)) (a5 a6 : (⟨S2x1600000, .i32⟩ : BufTy).Contents (Elt F))
  (a7 a8 : (⟨S100000, .i32⟩ : BufTy).Contents (Elt F))

/-- The embeddings before the first layer and after each layer. -/
def refE0 : (⟨S200000x64, .f32⟩ : BufTy).Contents (Elt F) := stack (rowsOf a0 a7) (rowsOf a1 a8)
def refE1 : (⟨S200000x64, .f32⟩ : BufTy).Contents (Elt F) :=
  refLayer (aggOf (refE0 a0 a1 a7 a8) (fold0 a4) (fold0 a6) (fold0 a5)) (aggOf (refE0 a0 a1 a7 a8) (fold1 a4) (fold1 a6) (fold1 a5))
    (refE0 a0 a1 a7 a8) (wmat0 a2) (wmat0 a3)
def refE2 : (⟨S200000x64, .f32⟩ : BufTy).Contents (Elt F) :=
  refLayer (aggOf (refE1 a0 a1 a2 a3 a4 a5 a6 a7 a8) (fold0 a4) (fold0 a6) (fold0 a5)) (aggOf (refE1 a0 a1 a2 a3 a4 a5 a6 a7 a8) (fold1 a4) (fold1 a6) (fold1 a5))
    (refE1 a0 a1 a2 a3 a4 a5 a6 a7 a8) (wmat1 a2) (wmat1 a3)
def refE3 : (⟨S200000x64, .f32⟩ : BufTy).Contents (Elt F) :=
  refLayer (aggOf (refE2 a0 a1 a2 a3 a4 a5 a6 a7 a8) (fold0 a4) (fold0 a6) (fold0 a5)) (aggOf (refE2 a0 a1 a2 a3 a4 a5 a6 a7 a8) (fold1 a4) (fold1 a6) (fold1 a5))
    (refE2 a0 a1 a2 a3 a4 a5 a6 a7 a8) (wmat2 a2) (wmat2 a3)
/-- The users' and the items' concatenated embeddings. -/
def refU : (⟨S100000x256, .f32⟩ : BufTy).Contents (Elt F) :=
  cat4 (rowsOf a0 a7) (lo (refE1 a0 a1 a2 a3 a4 a5 a6 a7 a8)) (lo (refE2 a0 a1 a2 a3 a4 a5 a6 a7 a8)) (lo (refE3 a0 a1 a2 a3 a4 a5 a6 a7 a8))
def refI : (⟨S100000x256, .f32⟩ : BufTy).Contents (Elt F) :=
  cat4 (rowsOf a1 a8) (hi (refE1 a0 a1 a2 a3 a4 a5 a6 a7 a8)) (hi (refE2 a0 a1 a2 a3 a4 a5 a6 a7 a8)) (hi (refE3 a0 a1 a2 a3 a4 a5 a6 a7 a8))
/-- The result. -/
def refOut : (⟨S100000, .f32⟩ : BufTy).Contents (Elt F) :=
  Host.reduceAdd (mulf (refU a0 a1 a2 a3 a4 a5 a6 a7 a8) (refI a0 a1 a2 a3 a4 a5 a6 a7 a8)) (constant S_ .f32 0x00000000#32)
    reducesTo_S100000x256_S100000_d1 h_S_
end Fn

end Cert.ReferenceIdeal.Hand

end
-- ==== Proof.Ref.Walk0.lean ====
/-
  What the first window of the reference's @main (operations 1 … 60) leaves in the buffers read later, as steps of
  the contents `W` it starts from: the picked rows, their stack E0, layer 0's running sum after fold 0's two terms,
  and fold 1's source indices with their sign test and their shift by 200000 (the window ends there).
-/
import proofs.«168404_j17343077941930_1_alg».proof.Proof.Ref.Steps
import proofs.«168404_j17343077941930_1_alg».proof.Proof.Ref.Ops0

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo Cert.HostWalk

variable {F : FTy → Type} [FloatOps F]

variable (W : Valuation τ sig (Elt F))

theorem r0_v6 : after (ops0 (F := F)) W (Proc.devRef .tc main_v6)
    = rowsOf (W (Proc.devRef .tc main_arg0)) (W (Proc.devRef .tc main_arg7)) := by
  walk_back []; rfl

theorem r0_v13 : after (ops0 (F := F)) W (Proc.devRef .tc main_v13)
    = rowsOf (W (Proc.devRef .tc main_arg1)) (W (Proc.devRef .tc main_arg8)) := by
  walk_back []; rfl

theorem r0_v14 : after (ops0 (F := F)) W (Proc.devRef .tc main_v14)
    = refE0 (W (Proc.devRef .tc main_arg0)) (W (Proc.devRef .tc main_arg1)) (W (Proc.devRef .tc main_arg7)) (W (Proc.devRef .tc main_arg8)) := by
  walk_back []; rfl

theorem r0_v43 : after (ops0 (F := F)) W (Proc.devRef .tc main_v43)
    = (addf (addf zeros (dotw (aggOf (refE0 (W (Proc.devRef .tc main_arg0)) (W (Proc.devRef .tc main_arg1)) (W (Proc.devRef .tc main_arg7)) (W (Proc.devRef .tc main_arg8))) (fold0 (W (Proc.devRef .tc main_arg4))) (fold0 (W (Proc.devRef .tc main_arg6))) (fold0 (W (Proc.devRef .tc main_arg5)))) (wmat0 (W (Proc.devRef .tc main_arg2))))) (dotw (mulf (aggOf (refE0 (W (Proc.devRef .tc main_arg0)) (W (Proc.devRef .tc main_arg1)) (W (Proc.devRef .tc main_arg7)) (W (Proc.devRef .tc main_arg8))) (fold0 (W (Proc.devRef .tc main_arg4))) (fold0 (W (Proc.devRef .tc main_arg6))) (fold0 (W (Proc.devRef .tc main_arg5)))) (refE0 (W (Proc.devRef .tc main_arg0)) (W (Proc.devRef .tc main_arg1)) (W (Proc.devRef .tc main_arg7)) (W (Proc.devRef .tc main_arg8)))) (wmat0 (W (Proc.devRef .tc main_arg3))))) := by
  walk_back []; rfl

theorem r0_v45 : after (ops0 (F := F)) W (Proc.devRef .tc main_v45)
    = fold1 (W (Proc.devRef .tc main_arg6)) := by
  walk_back []; rfl

theorem r0_v47 : after (ops0 (F := F)) W (Proc.devRef .tc main_v47)
    = cmpi .slt (fold1 (W (Proc.devRef .tc main_arg6))) (broadcastInDim S1600000 ![] bcast_S_S1600000 (constantI S_ 32 0#32)) := by
  walk_back []; rfl

theorem r0_v49 : after (ops0 (F := F)) W (Proc.devRef .tc main_v49)
    = addi (fold1 (W (Proc.devRef .tc main_arg6))) (broadcastInDim S1600000 ![] bcast_S_S1600000 (constantI S_ 32 200000#32)) := by
  walk_back []; rfl

end Cert.ReferenceIdeal.Hand

end
-- ==== Proof.Ref.Walk1.lean ====
/-
  What the second window (operations 61 … 126) leaves in the buffers read later, as steps of the contents `W` it
  starts from: layer 0's table (fold 1's aggregate from the indices, sign test and shift the window finds, its two terms
  added to the running sum it finds, then the rectifier), the table's two halves, and layer 1's running sum after
  fold 0's two terms.
-/
import proofs.«168404_j17343077941930_1_alg».proof.Proof.Ref.Steps
import proofs.«168404_j17343077941930_1_alg».proof.Proof.Ref.Ops1

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo Cert.HostWalk

variable {F : FTy → Type} [FloatOps F]

variable (W : Valuation τ sig (Elt F))

theorem r1_v72 : after (ops1 (F := F)) W (Proc.devRef .tc main_v72)
    = (refLeaky (addf (addf (W (Proc.devRef .tc main_v43)) (dotw (Host.scatterAdd scatter_S200000x64_S1600000x1_S1600000x64_1_0_0_1 zeros (broadcastInDim S1600000x1 ![0] bcast_S1600000_S1600000x1_0 (fold1 (W (Proc.devRef .tc main_arg5)))) (mulf (Host.gather gather_S200000x64_S1600000x1_S1600000x64_1_0_n_n_0_1_164 (W (Proc.devRef .tc main_v14)) (broadcastInDim S1600000x1 ![0] bcast_S1600000_S1600000x1_0 (select (W (Proc.devRef .tc main_v47)) (W (Proc.devRef .tc main_v49)) (W (Proc.devRef .tc main_v45))))) (broadcastInDim S1600000x64 ![0, 1] bcast_S1600000x1_S1600000x64_0_1 (broadcastInDim S1600000x1 ![0] bcast_S1600000_S1600000x1_0 (fold1 (W (Proc.devRef .tc main_arg4))))))) (wmat0 (W (Proc.devRef .tc main_arg2))))) (dotw (mulf (Host.scatterAdd scatter_S200000x64_S1600000x1_S1600000x64_1_0_0_1 zeros (broadcastInDim S1600000x1 ![0] bcast_S1600000_S1600000x1_0 (fold1 (W (Proc.devRef .tc main_arg5)))) (mulf (Host.gather gather_S200000x64_S1600000x1_S1600000x64_1_0_n_n_0_1_164 (W (Proc.devRef .tc main_v14)) (broadcastInDim S1600000x1 ![0] bcast_S1600000_S1600000x1_0 (select (W (Proc.devRef .tc main_v47)) (W (Proc.devRef .tc main_v49)) (W (Proc.devRef .tc main_v45))))) (broadcastInDim S1600000x64 ![0, 1] bcast_S1600000x1_S1600000x64_0_1 (broadcastInDim S1600000x1 ![0] bcast_S1600000_S1600000x1_0 (fold1 (W (Proc.devRef .tc main_arg4))))))) (W (Proc.devRef .tc main_v14))) (wmat0 (W (Proc.devRef .tc main_arg3)))))) := by
  walk_back []; rfl

theorem r1_v73 : after (ops1 (F := F)) W (Proc.devRef .tc main_v73)
    = lo (refLeaky (addf (addf (W (Proc.devRef .tc main_v43)) (dotw (Host.scatterAdd scatter_S200000x64_S1600000x1_S1600000x64_1_0_0_1 zeros (broadcastInDim S1600000x1 ![0] bcast_S1600000_S1600000x1_0 (fold1 (W (Proc.devRef .tc main_arg5)))) (mulf (Host.gather gather_S200000x64_S1600000x1_S1600000x64_1_0_n_n_0_1_164 (W (Proc.devRef .tc main_v14)) (broadcastInDim S1600000x1 ![0] bcast_S1600000_S1600000x1_0 (select (W (Proc.devRef .tc main_v47)) (W (Proc.devRef .tc main_v49)) (W (Proc.devRef .tc main_v45))))) (broadcastInDim S1600000x64 ![0, 1] bcast_S1600000x1_S1600000x64_0_1 (broadcastInDim S1600000x1 ![0] bcast_S1600000_S1600000x1_0 (fold1 (W (Proc.devRef .tc main_arg4))))))) (wmat0 (W (Proc.devRef .tc main_arg2))))) (dotw (mulf (Host.scatterAdd scatter_S200000x64_S1600000x1_S1600000x64_1_0_0_1 zeros (broadcastInDim S1600000x1 ![0] bcast_S1600000_S1600000x1_0 (fold1 (W (Proc.devRef .tc main_arg5)))) (mulf (Host.gather gather_S200000x64_S1600000x1_S1600000x64_1_0_n_n_0_1_164 (W (Proc.devRef .tc main_v14)) (broadcastInDim S1600000x1 ![0] bcast_S1600000_S1600000x1_0 (select (W (Proc.devRef .tc main_v47)) (W (Proc.devRef .tc main_v49)) (W (Proc.devRef .tc main_v45))))) (broadcastInDim S1600000x64 ![0, 1] bcast_S1600000x1_S1600000x64_0_1 (broadcastInDim S1600000x1 ![0] bcast_S1600000_S1600000x1_0 (fold1 (W (Proc.devRef .tc main_arg4))))))) (W (Proc.devRef .tc main_v14))) (wmat0 (W (Proc.devRef .tc main_arg3)))))) := by
  walk_back []; rfl

theorem r1_v74 : after (ops1 (F := F)) W (Proc.devRef .tc main_v74)
    = hi (refLeaky (addf (addf (W (Proc.devRef .tc main_v43)) (dotw (Host.scatterAdd scatter_S200000x64_S1600000x1_S1600000x64_1_0_0_1 zeros (broadcastInDim S1600000x1 ![0] bcast_S1600000_S1600000x1_0 (fold1 (W (Proc.devRef .tc main_arg5)))) (mulf (Host.gather gather_S200000x64_S1600000x1_S1600000x64_1_0_n_n_0_1_164 (W (Proc.devRef .tc main_v14)) (broadcastInDim S1600000x1 ![0] bcast_S1600000_S1600000x1_0 (select (W (Proc.devRef .tc main_v47)) (W (Proc.devRef .tc main_v49)) (W (Proc.devRef .tc main_v45))))) (broadcastInDim S1600000x64 ![0, 1] bcast_S1600000x1_S1600000x64_0_1 (broadcastInDim S1600000x1 ![0] bcast_S1600000_S1600000x1_0 (fold1 (W (Proc.devRef .tc main_arg4))))))) (wmat0 (W (Proc.devRef .tc main_arg2))))) (dotw (mulf (Host.scatterAdd scatter_S200000x64_S1600000x1_S1600000x64_1_0_0_1 zeros (broadcastInDim S1600000x1 ![0] bcast_S1600000_S1600000x1_0 (fold1 (W (Proc.devRef .tc main_arg5)))) (mulf (Host.gather gather_S200000x64_S1600000x1_S1600000x64_1_0_n_n_0_1_164 (W (Proc.devRef .tc main_v14)) (broadcastInDim S1600000x1 ![0] bcast_S1600000_S1600000x1_0 (select (W (Proc.devRef .tc main_v47)) (W (Proc.devRef .tc main_v49)) (W (Proc.devRef .tc main_v45))))) (broadcastInDim S1600000x64 ![0, 1] bcast_S1600000x1_S1600000x64_0_1 (broadcastInDim S1600000x1 ![0] bcast_S1600000_S1600000x1_0 (fold1 (W (Proc.devRef .tc main_arg4))))))) (W (Proc.devRef .tc main_v14))) (wmat0 (W (Proc.devRef .tc main_arg3)))))) := by
  walk_back []; rfl

theorem r1_v103 : after (ops1 (F := F)) W (Proc.devRef .tc main_v103)
    = (addf (addf zeros (dotw (aggOf (refLeaky (addf (addf (W (Proc.devRef .tc main_v43)) (dotw (Host.scatterAdd scatter_S200000x64_S1600000x1_S1600000x64_1_0_0_1 zeros (broadcastInDim S1600000x1 ![0] bcast_S1600000_S1600000x1_0 (fold1 (W (Proc.devRef .tc main_arg5)))) (mulf (Host.gather gather_S200000x64_S1600000x1_S1600000x64_1_0_n_n_0_1_164 (W (Proc.devRef .tc main_v14)) (broadcastInDim S1600000x1 ![0] bcast_S1600000_S1600000x1_0 (select (W (Proc.devRef .tc main_v47)) (W (Proc.devRef .tc main_v49)) (W (Proc.devRef .tc main_v45))))) (broadcastInDim S1600000x64 ![0, 1] bcast_S1600000x1_S1600000x64_0_1 (broadcastInDim S1600000x1 ![0] bcast_S1600000_S1600000x1_0 (fold1 (W (Proc.devRef .tc main_arg4))))))) (wmat0 (W (Proc.devRef .tc main_arg2))))) (dotw (mulf (Host.scatterAdd scatter_S200000x64_S1600000x1_S1600000x64_1_0_0_1 zeros (broadcastInDim S1600000x1 ![0] bcast_S1600000_S1600000x1_0 (fold1 (W (Proc.devRef .tc main_arg5)))) (mulf (Host.gather gather_S200000x64_S1600000x1_S1600000x64_1_0_n_n_0_1_164 (W (Proc.devRef .tc main_v14)) (broadcastInDim S1600000x1 ![0] bcast_S1600000_S1600000x1_0 (select (W (Proc.devRef .tc main_v47)) (W (Proc.devRef .tc main_v49)) (W (Proc.devRef .tc main_v45))))) (broadcastInDim S1600000x64 ![0, 1] bcast_S1600000x1_S1600000x64_0_1 (broadcastInDim S1600000x1 ![0] bcast_S1600000_S1600000x1_0 (fold1 (W (Proc.devRef .tc main_arg4))))))) (W (Proc.devRef .tc main_v14))) (wmat0 (W (Proc.devRef .tc main_arg3)))))) (fold0 (W (Proc.devRef .tc main_arg4))) (fold0 (W (Proc.devRef .tc main_arg6))) (fold0 (W (Proc.devRef .tc main_arg5)))) (wmat1 (W (Proc.devRef .tc main_arg2))))) (dotw (mulf (aggOf (refLeaky (addf (addf (W (Proc.devRef .tc main_v43)) (dotw (Host.scatterAdd scatter_S200000x64_S1600000x1_S1600000x64_1_0_0_1 zeros (broadcastInDim S1600000x1 ![0] bcast_S1600000_S1600000x1_0 (fold1 (W (Proc.devRef .tc main_arg5)))) (mulf (Host.gather gather_S200000x64_S1600000x1_S1600000x64_1_0_n_n_0_1_164 (W (Proc.devRef .tc main_v14)) (broadcastInDim S1600000x1 ![0] bcast_S1600000_S1600000x1_0 (select (W (Proc.devRef .tc main_v47)) (W (Proc.devRef .tc main_v49)) (W (Proc.devRef .tc main_v45))))) (broadcastInDim S1600000x64 ![0, 1] bcast_S1600000x1_S1600000x64_0_1 (broadcastInDim S1600000x1 ![0] bcast_S1600000_S1600000x1_0 (fold1 (W (Proc.devRef .tc main_arg4))))))) (wmat0 (W (Proc.devRef .tc main_arg2))))) (dotw (mulf (Host.scatterAdd scatter_S200000x64_S1600000x1_S1600000x64_1_0_0_1 zeros (broadcastInDim S1600000x1 ![0] bcast_S1600000_S1600000x1_0 (fold1 (W (Proc.devRef .tc main_arg5)))) (mulf (Host.gather gather_S200000x64_S1600000x1_S1600000x64_1_0_n_n_0_1_164 (W (Proc.devRef .tc main_v14)) (broadcastInDim S1600000x1 ![0] bcast_S1600000_S1600000x1_0 (select (W (Proc.devRef .tc main_v47)) (W (Proc.devRef .tc main_v49)) (W (Proc.devRef .tc main_v45))))) (broadcastInDim S1600000x64 ![0, 1] bcast_S1600000x1_S1600000x64_0_1 (broadcastInDim S1600000x1 ![0] bcast_S1600000_S1600000x1_0 (fold1 (W (Proc.devRef .tc main_arg4))))))) (W (Proc.devRef .tc main_v14))) (wmat0 (W (Proc.devRef .tc main_arg3)))))) (fold0 (W (Proc.devRef .tc main_arg4))) (fold0 (W (Proc.devRef .tc main_arg6))) (fold0 (W (Proc.devRef .tc main_arg5)))) (refLeaky (addf (addf (W (Proc.devRef .tc main_v43)) (dotw (Host.scatterAdd scatter_S200000x64_S1600000x1_S1600000x64_1_0_0_1 zeros (broadcastInDim S1600000x1 ![0] bcast_S1600000_S1600000x1_0 (fold1 (W (Proc.devRef .tc main_arg5)))) (mulf (Host.gather gather_S200000x64_S1600000x1_S1600000x64_1_0_n_n_0_1_164 (W (Proc.devRef .tc main_v14)) (broadcastInDim S1600000x1 ![0] bcast_S1600000_S1600000x1_0 (select (W (Proc.devRef .tc main_v47)) (W (Proc.devRef .tc main_v49)) (W (Proc.devRef .tc main_v45))))) (broadcastInDim S1600000x64 ![0, 1] bcast_S1600000x1_S1600000x64_0_1 (broadcastInDim S1600000x1 ![0] bcast_S1600000_S1600000x1_0 (fold1 (W (Proc.devRef .tc main_arg4))))))) (wmat0 (W (Proc.devRef .tc main_arg2))))) (dotw (mulf (Host.scatterAdd scatter_S200000x64_S1600000x1_S1600000x64_1_0_0_1 zeros (broadcastInDim S1600000x1 ![0] bcast_S1600000_S1600000x1_0 (fold1 (W (Proc.devRef .tc main_arg5)))) (mulf (Host.gather gather_S200000x64_S1600000x1_S1600000x64_1_0_n_n_0_1_164 (W (Proc.devRef .tc main_v14)) (broadcastInDim S1600000x1 ![0] bcast_S1600000_S1600000x1_0 (select (W (Proc.devRef .tc main_v47)) (W (Proc.devRef .tc main_v49)) (W (Proc.devRef .tc main_v45))))) (broadcastInDim S1600000x64 ![0, 1] bcast_S1600000x1_S1600000x64_0_1 (broadcastInDim S1600000x1 ![0] bcast_S1600000_S1600000x1_0 (fold1 (W (Proc.devRef .tc main_arg4))))))) (W (Proc.devRef .tc main_v14))) (wmat0 (W (Proc.devRef .tc main_arg3))))))) (wmat1 (W (Proc.devRef .tc main_arg3))))) := by
  walk_back []; rfl

end Cert.ReferenceIdeal.Hand

end
-- ==== Proof.Ref.Walk2.lean ====
/-
  What the third window (operations 127 … 192) leaves in the buffers read later, as steps of the contents `W` it
  starts from: layer 1's table (fold 1's two terms added to the running sum the window finds, then the rectifier), its
  two halves, and of layer 2 the zero array, fold 0's aggregate and the slice of the first stack of matrices.
-/
import proofs.«168404_j17343077941930_1_alg».proof.Proof.Ref.Steps
import proofs.«168404_j17343077941930_1_alg».proof.Proof.Ref.Ops2

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo Cert.HostWalk

variable {F : FTy → Type} [FloatOps F]

variable (W : Valuation τ sig (Elt F))

theorem r2_v132 : after (ops2 (F := F)) W (Proc.devRef .tc main_v132)
    = (refLeaky (addf (addf (W (Proc.devRef .tc main_v103)) (dotw (aggOf (W (Proc.devRef .tc main_v72)) (fold1 (W (Proc.devRef .tc main_arg4))) (fold1 (W (Proc.devRef .tc main_arg6))) (fold1 (W (Proc.devRef .tc main_arg5)))) (wmat1 (W (Proc.devRef .tc main_arg2))))) (dotw (mulf (aggOf (W (Proc.devRef .tc main_v72)) (fold1 (W (Proc.devRef .tc main_arg4))) (fold1 (W (Proc.devRef .tc main_arg6))) (fold1 (W (Proc.devRef .tc main_arg5)))) (W (Proc.devRef .tc main_v72))) (wmat1 (W (Proc.devRef .tc main_arg3)))))) := by
  walk_back [] <;> rfl

theorem r2_v133 : after (ops2 (F := F)) W (Proc.devRef .tc main_v133)
    = lo (refLeaky (addf (addf (W (Proc.devRef .tc main_v103)) (dotw (aggOf (W (Proc.devRef .tc main_v72)) (fold1 (W (Proc.devRef .tc main_arg4))) (fold1 (W (Proc.devRef .tc main_arg6))) (fold1 (W (Proc.devRef .tc main_arg5)))) (wmat1 (W (Proc.devRef .tc main_arg2))))) (dotw (mulf (aggOf (W (Proc.devRef .tc main_v72)) (fold1 (W (Proc.devRef .tc main_arg4))) (fold1 (W (Proc.devRef .tc main_arg6))) (fold1 (W (Proc.devRef .tc main_arg5)))) (W (Proc.devRef .tc main_v72))) (wmat1 (W (Proc.devRef .tc main_arg3)))))) := by
  walk_back [] <;> rfl

theorem r2_v134 : after (ops2 (F := F)) W (Proc.devRef .tc main_v134)
    = hi (refLeaky (addf (addf (W (Proc.devRef .tc main_v103)) (dotw (aggOf (W (Proc.devRef .tc main_v72)) (fold1 (W (Proc.devRef .tc main_arg4))) (fold1 (W (Proc.devRef .tc main_arg6))) (fold1 (W (Proc.devRef .tc main_arg5)))) (wmat1 (W (Proc.devRef .tc main_arg2))))) (dotw (mulf (aggOf (W (Proc.devRef .tc main_v72)) (fold1 (W (Proc.devRef .tc main_arg4))) (fold1 (W (Proc.devRef .tc main_arg6))) (fold1 (W (Proc.devRef .tc main_arg5)))) (W (Proc.devRef .tc main_v72))) (wmat1 (W (Proc.devRef .tc main_arg3)))))) := by
  walk_back [] <;> rfl

theorem r2_v135 : after (ops2 (F := F)) W (Proc.devRef .tc main_v135)
    = zeros := by
  walk_back [] <;> rfl

theorem r2_v154 : after (ops2 (F := F)) W (Proc.devRef .tc main_v154)
    = aggOf (refLeaky (addf (addf (W (Proc.devRef .tc main_v103)) (dotw (aggOf (W (Proc.devRef .tc main_v72)) (fold1 (W (Proc.devRef .tc main_arg4))) (fold1 (W (Proc.devRef .tc main_arg6))) (fold1 (W (Proc.devRef .tc main_arg5)))) (wmat1 (W (Proc.devRef .tc main_arg2))))) (dotw (mulf (aggOf (W (Proc.devRef .tc main_v72)) (fold1 (W (Proc.devRef .tc main_arg4))) (fold1 (W (Proc.devRef .tc main_arg6))) (fold1 (W (Proc.devRef .tc main_arg5)))) (W (Proc.devRef .tc main_v72))) (wmat1 (W (Proc.devRef .tc main_arg3)))))) (fold0 (W (Proc.devRef .tc main_arg4))) (fold0 (W (Proc.devRef .tc main_arg6))) (fold0 (W (Proc.devRef .tc main_arg5))) := by
  walk_back [] <;> rfl

theorem r2_v155 : after (ops2 (F := F)) W (Proc.devRef .tc main_v155)
    = extractStridedSlice S1x64x64 ![2, 0, 0] (W (Proc.devRef .tc main_arg2)) slices_S3x64x64_S1x64x64_2_0_0 := by
  walk_back [] <;> rfl

end Cert.ReferenceIdeal.Hand

end
-- ==== Proof.Ref.Walk3.lean ====
/-
  What the last window (operations 193 … 246) leaves in the result buffer, as steps of the contents `W` it starts
  from: layer 2's table (fold 0's two terms from the aggregate and the matrix slice the window finds, added to the zero
  array it finds, fold 1's two terms, the rectifier), then the four tables' user rows side by side times their item rows
  side by side, summed along the columns.
-/
import proofs.«168404_j17343077941930_1_alg».proof.Proof.Ref.Steps
import proofs.«168404_j17343077941930_1_alg».proof.Proof.Ref.Ops3

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo Cert.HostWalk

variable {F : FTy → Type} [FloatOps F]

/-- The concatenation of four pieces along an axis, the pieces as arguments. -/
def cat4g {α : Type} (t : Shape) (a : Fin t.rank) (s₁ s₂ s₃ s₄ : Shape) (x₁ : s₁.Idx → α) (x₂ : s₂.Idx → α) (x₃ : s₃.Idx → α)
    (x₄ : s₄.Idx → α) (h : Shape.Concatenates [s₁, s₂, s₃, s₄] t a) : t.Idx → α :=
  concatenate t a [⟨s₁, x₁⟩, ⟨s₂, x₂⟩, ⟨s₃, x₃⟩, ⟨s₄, x₄⟩] h

/-- A four-piece concatenation restated with its pieces as plain arguments, the same array. -/
theorem concatenate_four {α : Type} (t : Shape) (a : Fin t.rank) (s₁ s₂ s₃ s₄ : Shape) (x₁ : s₁.Idx → α) (x₂ : s₂.Idx → α)
    (x₃ : s₃.Idx → α) (x₄ : s₄.Idx → α) (h : Shape.Concatenates [s₁, s₂, s₃, s₄] t a) :
    concatenate t a [⟨s₁, x₁⟩, ⟨s₂, x₂⟩, ⟨s₃, x₃⟩, ⟨s₄, x₄⟩] h = cat4g t a s₁ s₂ s₃ s₄ x₁ x₂ x₃ x₄ h := rfl

variable (W : Valuation τ sig (Elt F))

set_option maxHeartbeats 4000000 in
theorem r3_v198 : after (ops3 (F := F)) W (Proc.devRef .tc main_v198)
    = Host.reduceAdd (mulf (cat4 (W (Proc.devRef .tc main_v6)) (W (Proc.devRef .tc main_v73)) (W (Proc.devRef .tc main_v133)) (lo (refLeaky (addf (addf (addf (addf (W (Proc.devRef .tc main_v135)) (dotw (W (Proc.devRef .tc main_v154)) (fun i => shapeCast S64x64 (W (Proc.devRef .tc main_v155)) shapeCasts_S1x64x64_S64x64 i))) (dotw (mulf (W (Proc.devRef .tc main_v154)) (W (Proc.devRef .tc main_v132))) (wmat2 (W (Proc.devRef .tc main_arg3))))) (dotw (aggOf (W (Proc.devRef .tc main_v132)) (fold1 (W (Proc.devRef .tc main_arg4))) (fold1 (W (Proc.devRef .tc main_arg6))) (fold1 (W (Proc.devRef .tc main_arg5)))) (wmat2 (W (Proc.devRef .tc main_arg2))))) (dotw (mulf (aggOf (W (Proc.devRef .tc main_v132)) (fold1 (W (Proc.devRef .tc main_arg4))) (fold1 (W (Proc.devRef .tc main_arg6))) (fold1 (W (Proc.devRef .tc main_arg5)))) (W (Proc.devRef .tc main_v132))) (wmat2 (W (Proc.devRef .tc main_arg3))))))))
        (cat4 (W (Proc.devRef .tc main_v13)) (W (Proc.devRef .tc main_v74)) (W (Proc.devRef .tc main_v134)) (hi (refLeaky (addf (addf (addf (addf (W (Proc.devRef .tc main_v135)) (dotw (W (Proc.devRef .tc main_v154)) (fun i => shapeCast S64x64 (W (Proc.devRef .tc main_v155)) shapeCasts_S1x64x64_S64x64 i))) (dotw (mulf (W (Proc.devRef .tc main_v154)) (W (Proc.devRef .tc main_v132))) (wmat2 (W (Proc.devRef .tc main_arg3))))) (dotw (aggOf (W (Proc.devRef .tc main_v132)) (fold1 (W (Proc.devRef .tc main_arg4))) (fold1 (W (Proc.devRef .tc main_arg6))) (fold1 (W (Proc.devRef .tc main_arg5)))) (wmat2 (W (Proc.devRef .tc main_arg2))))) (dotw (mulf (aggOf (W (Proc.devRef .tc main_v132)) (fold1 (W (Proc.devRef .tc main_arg4))) (fold1 (W (Proc.devRef .tc main_arg6))) (fold1 (W (Proc.devRef .tc main_arg5)))) (W (Proc.devRef .tc main_v132))) (wmat2 (W (Proc.devRef .tc main_arg3)))))))))
      (constant S_ .f32 0x00000000#32) reducesTo_S100000x256_S100000_d1 h_S_ := by
  walk_back [concatenate_four, Matrix.cons_val] <;> rfl

end Cert.ReferenceIdeal.Hand

end
-- ==== Proof.Ref.Stages.lean ====
/-
  THE REFERENCE PROGRAM'S RESULT.

  @main's four windows run in order, each from the contents the one before leaves. Reading each buffer a later window
  needs through the window that writes it (a step of what that window starts from) and through the windows that do not
  write it (unchanged), every such buffer is a function of the nine arguments' launch contents: the picked rows, the
  stack E0, the tables E1, E2, E3 after the three layers — a layer's running sum, cut by a window's end between fold 0's
  two terms and fold 1's, closes into the layer's sum where the next window adds the rest —, their halves, and at the end
  the result buffer holds `refOut` of the arguments.
-/
import proofs.«168404_j17343077941930_1_alg».proof.Proof.Ref.Ops
import proofs.«168404_j17343077941930_1_alg».proof.Proof.Ref.Walk0
import proofs.«168404_j17343077941930_1_alg».proof.Proof.Ref.Walk1
import proofs.«168404_j17343077941930_1_alg».proof.Proof.Ref.Walk2
import proofs.«168404_j17343077941930_1_alg».proof.Proof.Ref.Walk3

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo Cert.HostWalk

variable {F : FTy → Type} [FloatOps F]

variable (V : Valuation τ sig (Elt F))

/-! ## The arguments, through the first one, two, three windows -/

theorem g1_main_arg0 : after (ops0 (F := F)) V (Proc.devRef .tc main_arg0) = V (Proc.devRef .tc main_arg0) := ops0_keep V main_arg0 (by decide)
theorem g2_main_arg0 : after (ops1 (F := F)) (after (ops0 (F := F)) V) (Proc.devRef .tc main_arg0) = V (Proc.devRef .tc main_arg0) := by
  rw [ops1_keep _ main_arg0 (by decide), g1_main_arg0]
theorem g3_main_arg0 : after (ops2 (F := F)) (after (ops1 (F := F)) (after (ops0 (F := F)) V)) (Proc.devRef .tc main_arg0) = V (Proc.devRef .tc main_arg0) := by
  rw [ops2_keep _ main_arg0 (by decide), g2_main_arg0]
theorem g1_main_arg1 : after (ops0 (F := F)) V (Proc.devRef .tc main_arg1) = V (Proc.devRef .tc main_arg1) := ops0_keep V main_arg1 (by decide)
theorem g2_main_arg1 : after (ops1 (F := F)) (after (ops0 (F := F)) V) (Proc.devRef .tc main_arg1) = V (Proc.devRef .tc main_arg1) := by
  rw [ops1_keep _ main_arg1 (by decide), g1_main_arg1]
theorem g3_main_arg1 : after (ops2 (F := F)) (after (ops1 (F := F)) (after (ops0 (F := F)) V)) (Proc.devRef .tc main_arg1) = V (Proc.devRef .tc main_arg1) := by
  rw [ops2_keep _ main_arg1 (by decide), g2_main_arg1]
theorem g1_main_arg2 : after (ops0 (F := F)) V (Proc.devRef .tc main_arg2) = V (Proc.devRef .tc main_arg2) := ops0_keep V main_arg2 (by decide)
theorem g2_main_arg2 : after (ops1 (F := F)) (after (ops0 (F := F)) V) (Proc.devRef .tc main_arg2) = V (Proc.devRef .tc main_arg2) := by
  rw [ops1_keep _ main_arg2 (by decide), g1_main_arg2]
theorem g3_main_arg2 : after (ops2 (F := F)) (after (ops1 (F := F)) (after (ops0 (F := F)) V)) (Proc.devRef .tc main_arg2) = V (Proc.devRef .tc main_arg2) := by
  rw [ops2_keep _ main_arg2 (by decide), g2_main_arg2]
theorem g1_main_arg3 : after (ops0 (F := F)) V (Proc.devRef .tc main_arg3) = V (Proc.devRef .tc main_arg3) := ops0_keep V main_arg3 (by decide)
theorem g2_main_arg3 : after (ops1 (F := F)) (after (ops0 (F := F)) V) (Proc.devRef .tc main_arg3) = V (Proc.devRef .tc main_arg3) := by
  rw [ops1_keep _ main_arg3 (by decide), g1_main_arg3]
theorem g3_main_arg3 : after (ops2 (F := F)) (after (ops1 (F := F)) (after (ops0 (F := F)) V)) (Proc.devRef .tc main_arg3) = V (Proc.devRef .tc main_arg3) := by
  rw [ops2_keep _ main_arg3 (by decide), g2_main_arg3]
theorem g1_main_arg4 : after (ops0 (F := F)) V (Proc.devRef .tc main_arg4) = V (Proc.devRef .tc main_arg4) := ops0_keep V main_arg4 (by decide)
theorem g2_main_arg4 : after (ops1 (F := F)) (after (ops0 (F := F)) V) (Proc.devRef .tc main_arg4) = V (Proc.devRef .tc main_arg4) := by
  rw [ops1_keep _ main_arg4 (by decide), g1_main_arg4]
theorem g3_main_arg4 : after (ops2 (F := F)) (after (ops1 (F := F)) (after (ops0 (F := F)) V)) (Proc.devRef .tc main_arg4) = V (Proc.devRef .tc main_arg4) := by
  rw [ops2_keep _ main_arg4 (by decide), g2_main_arg4]
theorem g1_main_arg5 : after (ops0 (F := F)) V (Proc.devRef .tc main_arg5) = V (Proc.devRef .tc main_arg5) := ops0_keep V main_arg5 (by decide)
theorem g2_main_arg5 : after (ops1 (F := F)) (after (ops0 (F := F)) V) (Proc.devRef .tc main_arg5) = V (Proc.devRef .tc main_arg5) := by
  rw [ops1_keep _ main_arg5 (by decide), g1_main_arg5]
theorem g3_main_arg5 : after (ops2 (F := F)) (after (ops1 (F := F)) (after (ops0 (F := F)) V)) (Proc.devRef .tc main_arg5) = V (Proc.devRef .tc main_arg5) := by
  rw [ops2_keep _ main_arg5 (by decide), g2_main_arg5]
theorem g1_main_arg6 : after (ops0 (F := F)) V (Proc.devRef .tc main_arg6) = V (Proc.devRef .tc main_arg6) := ops0_keep V main_arg6 (by decide)
theorem g2_main_arg6 : after (ops1 (F := F)) (after (ops0 (F := F)) V) (Proc.devRef .tc main_arg6) = V (Proc.devRef .tc main_arg6) := by
  rw [ops1_keep _ main_arg6 (by decide), g1_main_arg6]
theorem g3_main_arg6 : after (ops2 (F := F)) (after (ops1 (F := F)) (after (ops0 (F := F)) V)) (Proc.devRef .tc main_arg6) = V (Proc.devRef .tc main_arg6) := by
  rw [ops2_keep _ main_arg6 (by decide), g2_main_arg6]
theorem g1_main_arg7 : after (ops0 (F := F)) V (Proc.devRef .tc main_arg7) = V (Proc.devRef .tc main_arg7) := ops0_keep V main_arg7 (by decide)
theorem g2_main_arg7 : after (ops1 (F := F)) (after (ops0 (F := F)) V) (Proc.devRef .tc main_arg7) = V (Proc.devRef .tc main_arg7) := by
  rw [ops1_keep _ main_arg7 (by decide), g1_main_arg7]
theorem g3_main_arg7 : after (ops2 (F := F)) (after (ops1 (F := F)) (after (ops0 (F := F)) V)) (Proc.devRef .tc main_arg7) = V (Proc.devRef .tc main_arg7) := by
  rw [ops2_keep _ main_arg7 (by decide), g2_main_arg7]
theorem g1_main_arg8 : after (ops0 (F := F)) V (Proc.devRef .tc main_arg8) = V (Proc.devRef .tc main_arg8) := ops0_keep V main_arg8 (by decide)
theorem g2_main_arg8 : after (ops1 (F := F)) (after (ops0 (F := F)) V) (Proc.devRef .tc main_arg8) = V (Proc.devRef .tc main_arg8) := by
  rw [ops1_keep _ main_arg8 (by decide), g1_main_arg8]
theorem g3_main_arg8 : after (ops2 (F := F)) (after (ops1 (F := F)) (after (ops0 (F := F)) V)) (Proc.devRef .tc main_arg8) = V (Proc.devRef .tc main_arg8) := by
  rw [ops2_keep _ main_arg8 (by decide), g2_main_arg8]

/-! ## The buffers the later windows read, as functions of the arguments -/

theorem g2_main_v6 : after (ops1 (F := F)) (after (ops0 (F := F)) V) (Proc.devRef .tc main_v6)
    = rowsOf (V (Proc.devRef .tc main_arg0)) (V (Proc.devRef .tc main_arg7)) := by
  rw [ops1_keep _ main_v6 (by decide), r0_v6]

theorem g3_main_v6 : after (ops2 (F := F)) (after (ops1 (F := F)) (after (ops0 (F := F)) V)) (Proc.devRef .tc main_v6)
    = rowsOf (V (Proc.devRef .tc main_arg0)) (V (Proc.devRef .tc main_arg7)) := by
  rw [ops2_keep _ main_v6 (by decide), g2_main_v6]

theorem g2_main_v73 : after (ops1 (F := F)) (after (ops0 (F := F)) V) (Proc.devRef .tc main_v73)
    = lo (refE1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) := by
  rw [r1_v73, r0_v43, g1_main_arg5, r0_v14, r0_v47, r0_v49, r0_v45, g1_main_arg4, g1_main_arg2, g1_main_arg3] <;> rfl

theorem g3_main_v73 : after (ops2 (F := F)) (after (ops1 (F := F)) (after (ops0 (F := F)) V)) (Proc.devRef .tc main_v73)
    = lo (refE1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) := by
  rw [ops2_keep _ main_v73 (by decide), g2_main_v73]

theorem g2_main_v103 : after (ops1 (F := F)) (after (ops0 (F := F)) V) (Proc.devRef .tc main_v103)
    = addf (addf zeros (dotw (aggOf (refE1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) (fold0 (V (Proc.devRef .tc main_arg4))) (fold0 (V (Proc.devRef .tc main_arg6))) (fold0 (V (Proc.devRef .tc main_arg5)))) (wmat1 (V (Proc.devRef .tc main_arg2))))) (dotw (mulf (aggOf (refE1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) (fold0 (V (Proc.devRef .tc main_arg4))) (fold0 (V (Proc.devRef .tc main_arg6))) (fold0 (V (Proc.devRef .tc main_arg5)))) (refE1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)))) (wmat1 (V (Proc.devRef .tc main_arg3)))) := by
  rw [r1_v103, r0_v43, g1_main_arg5, r0_v14, r0_v47, r0_v49, r0_v45, g1_main_arg4, g1_main_arg2, g1_main_arg3, g1_main_arg6] <;> rfl

theorem g2_main_v72 : after (ops1 (F := F)) (after (ops0 (F := F)) V) (Proc.devRef .tc main_v72)
    = refE1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [r1_v72, r0_v43, g1_main_arg5, r0_v14, r0_v47, r0_v49, r0_v45, g1_main_arg4, g1_main_arg2, g1_main_arg3] <;> rfl

theorem g3_main_v133 : after (ops2 (F := F)) (after (ops1 (F := F)) (after (ops0 (F := F)) V)) (Proc.devRef .tc main_v133)
    = lo (refE2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) := by
  rw [r2_v133, g2_main_v103, g2_main_v72, g2_main_arg4, g2_main_arg6, g2_main_arg5, g2_main_arg2, g2_main_arg3] <;> rfl

theorem g3_main_v135 : after (ops2 (F := F)) (after (ops1 (F := F)) (after (ops0 (F := F)) V)) (Proc.devRef .tc main_v135)
    = zeros := by
  rw [r2_v135] <;> rfl

theorem g3_main_v154 : after (ops2 (F := F)) (after (ops1 (F := F)) (after (ops0 (F := F)) V)) (Proc.devRef .tc main_v154)
    = aggOf (refE2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) (fold0 (V (Proc.devRef .tc main_arg4))) (fold0 (V (Proc.devRef .tc main_arg6))) (fold0 (V (Proc.devRef .tc main_arg5))) := by
  rw [r2_v154, g2_main_v103, g2_main_v72, g2_main_arg4, g2_main_arg6, g2_main_arg5, g2_main_arg2, g2_main_arg3] <;> rfl

theorem g3_main_v155 : after (ops2 (F := F)) (after (ops1 (F := F)) (after (ops0 (F := F)) V)) (Proc.devRef .tc main_v155)
    = extractStridedSlice S1x64x64 ![2, 0, 0] (V (Proc.devRef .tc main_arg2)) slices_S3x64x64_S1x64x64_2_0_0 := by
  rw [r2_v155, g2_main_arg2] <;> rfl

theorem g3_main_v132 : after (ops2 (F := F)) (after (ops1 (F := F)) (after (ops0 (F := F)) V)) (Proc.devRef .tc main_v132)
    = refE2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [r2_v132, g2_main_v103, g2_main_v72, g2_main_arg4, g2_main_arg6, g2_main_arg5, g2_main_arg2, g2_main_arg3] <;> rfl

theorem g2_main_v13 : after (ops1 (F := F)) (after (ops0 (F := F)) V) (Proc.devRef .tc main_v13)
    = rowsOf (V (Proc.devRef .tc main_arg1)) (V (Proc.devRef .tc main_arg8)) := by
  rw [ops1_keep _ main_v13 (by decide), r0_v13]

theorem g3_main_v13 : after (ops2 (F := F)) (after (ops1 (F := F)) (after (ops0 (F := F)) V)) (Proc.devRef .tc main_v13)
    = rowsOf (V (Proc.devRef .tc main_arg1)) (V (Proc.devRef .tc main_arg8)) := by
  rw [ops2_keep _ main_v13 (by decide), g2_main_v13]

theorem g2_main_v74 : after (ops1 (F := F)) (after (ops0 (F := F)) V) (Proc.devRef .tc main_v74)
    = hi (refE1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) := by
  rw [r1_v74, r0_v43, g1_main_arg5, r0_v14, r0_v47, r0_v49, r0_v45, g1_main_arg4, g1_main_arg2, g1_main_arg3] <;> rfl

theorem g3_main_v74 : after (ops2 (F := F)) (after (ops1 (F := F)) (after (ops0 (F := F)) V)) (Proc.devRef .tc main_v74)
    = hi (refE1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) := by
  rw [ops2_keep _ main_v74 (by decide), g2_main_v74]

theorem g3_main_v134 : after (ops2 (F := F)) (after (ops1 (F := F)) (after (ops0 (F := F)) V)) (Proc.devRef .tc main_v134)
    = hi (refE2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) := by
  rw [r2_v134, g2_main_v103, g2_main_v72, g2_main_arg4, g2_main_arg6, g2_main_arg5, g2_main_arg2, g2_main_arg3] <;> rfl

/-! ## The result -/

/-- After @main the result buffer holds `refOut` of the nine arguments' contents at launch. -/
theorem out_eq : after ops V (Proc.devRef .tc main_v198)
    = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [after_ops, r3_v198, g3_main_v6, g3_main_v73, g3_main_v133, g3_main_v135, g3_main_v154, g3_main_v155, g3_main_v132, g3_main_arg3, g3_main_arg4, g3_main_arg6, g3_main_arg5, g3_main_arg2, g3_main_v13, g3_main_v74, g3_main_v134] <;> rfl

end Cert.ReferenceIdeal.Hand

end
-- ==== Proof.LibRowGatherScatter.lean ====
/-
  ROW GATHER AND ROW / VECTOR SCATTER-ADD, READ AT ONE ENTRY (general lemmas: any extents, any element type).

  A table `x : [N, C]` is gathered at `E` start indices `S : [E, 1]` (what `x[src]` lowers to): result row `e` is the
  table's row at `S[e, 0]`, the start index read as a signed integer and clamped into `[0, N − 1]` (`srcRow`):
      gather x S (e, k) = x (srcRow S e, k)                                            (`gather_row_apply`).
  `E` update rows `u : [E, C]` are scatter-added into `x : [N, C]` at scatter indices `D : [E, 1]` (what a segment sum
  lowers to): update row `e` lands on row `n` exactly when `D[e, 0]`, read as a signed integer and NOT clamped, is `n`
  (`Lands D e n`); an update whose index is negative or at least `N` lands nowhere. In exact (extended-real)
  arithmetic the result's entry is the operand's entry plus the sum, over the edges that land there, of their updates:
      scatterAdd x D u (n, k) = x (n, k) + ∑ e with Lands D e n, u (e, k)              (`scatterAdd_row_apply`),
  and the same for `E` scalars scatter-added into a vector `x : [N]` (a degree count):
      scatterAdd x D u (n)    = x (n)    + ∑ e with Lands D e n, u (e)                 (`scatterAdd_vec_apply`).

  The dimension numbers enter through the predicates `IsRowGather`, `IsRowScatter`, `IsVecScatter`, which say what
  the lists of a record are; at a literal record every field equation is `rfl`. Each lemma is first proved for the
  literal record (`rowGatherDims`, `rowScatterDims`, `vecScatterDims`: those lists with an arbitrary proof of their
  conditions) by computing the start, window and offset coordinates axis by axis; the scatter lemmas go through the
  characterisation of the landing index (`resultIdx?_rowDims`: update `(e, c)` lands on `(n, k)` iff `Lands D e n` and
  `c = k`; `resultIdx?_vecDims`: update `e` lands on `n` iff `Lands D e n`) and then re-index the sum over update
  multi-indices by the edge number.
-/
import Idealize.ShloMosaic.PureOps.Ideal
import Idealize.ShloMosaic.Lib.ValueIdx

noncomputable section

open scoped BigOperators

namespace Cert.RowGS

open Idealize.ShloMosaic Idealize.ShloMosaic.ValueIdx

variable {N E C w : Nat}

/-- The row an edge reads: its start index read as a signed integer and clamped into `[0, N − 1]`. -/
def srcRow (hN : 0 < N) (S : IVec ⟨2, ![E, 1]⟩ w) (e : Fin E) : Fin N :=
  ⟨min (S (ix2 e (0 : Fin 1))).toInt.toNat (N - 1), by omega⟩

/-- Edge `e`'s update lands on row `n`: its scatter index read as a signed integer is `n`. -/
abbrev Lands (D : IVec ⟨2, ![E, 1]⟩ w) (e : Fin E) (n : Fin N) : Prop :=
  (D (ix2 e (0 : Fin 1))).toInt = (n.val : Int)

/-- An axis of a rank-2 shape is the first or the second. -/
theorem fin2_cases (a : Fin 2) : a = 0 ∨ a = 1 := by
  match a with
  | ⟨0, _⟩ => exact Or.inl rfl
  | ⟨1, _⟩ => exact Or.inr rfl

/-! ## Gather of whole rows -/

/-- `g` gathers whole rows of an `[N, C]` table at `[E, 1]` start indices: the row axis is collapsed and is the one
    the start index addresses, the column axis is the one offset axis with the full slice `C`, nothing is batched. -/
structure IsRowGather (g : GatherDims ⟨2, ![N, C]⟩ ⟨2, ![E, 1]⟩ ⟨2, ![E, C]⟩) : Prop where
  od : g.offsetDims = [1]
  cs : g.collapsedSliceDims = [0]
  ob : g.operandBatchingDims = []
  sb : g.startIndicesBatchingDims = []
  sim : g.startIndexMap = [0]
  ivd : g.indexVectorDim = 1
  ss : g.sliceSizes = ![1, C]

/-- The row-gather dimension numbers as a literal record (any proof `wf` of their conditions). -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather at the literal record, read at `(e, k)`. On the row axis the operand coordinate is the clamped start
    (no batching coordinate; the axis is collapsed, so no offset); on the column axis the start is `0` (the start
    index does not address it) and the offset coordinate is `k`. -/
theorem gather_rowDims_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (S : IVec ⟨2, ![E, 1]⟩ w) (e : Fin E) (k : Fin C) :
    Host.gather (rowGatherDims N E C wf) x S (ix2 e k) = x (ix2 (srcRow hN S e) k) := by
  unfold Host.gather
  congr 1
  funext a
  refine Fin.ext ?_
  show (rowGatherDims N E C wf).start (ix2 e k) S a + (rowGatherDims N E C wf).batchCoord (ix2 e k) a
    + (rowGatherDims N E C wf).offCoord (ix2 e k) a = _
  rw [GatherDims.batchCoord_eq_zero _ _ _ List.not_mem_nil]
  rcases fin2_cases a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    -- the start index of result row `e` is read at `[e, 0]`
    have hsi : (rowGatherDims N E C wf).siIdx (ix2 e k)
        ⟨List.idxOf (0 : Fin 2) (rowGatherDims N E C wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show (1 : Fin 2) ∉ (rowGatherDims N E C wf).startIndexMap from
      show (1 : Fin 2) ∉ ([0] : List (Fin 2)) from by decide)]
    unfold GatherDims.offCoord
    rw [dif_pos ((GatherDims.mem_sKept _ _).mpr
      ⟨show (1 : Fin 2) ∉ ([0] : List (Fin 2)) from by decide, List.not_mem_nil⟩)]
    simp only [Nat.add_zero, Nat.zero_add]
    rfl

/-- THE ROW GATHER READ AT `(e, k)`: the table at row `srcRow S e` (the start index `S[e, 0]`, read signed and clamped
    into `[0, N − 1]`), column `k`. -/
theorem gather_row_apply {α : Type} {g : GatherDims ⟨2, ![N, C]⟩ ⟨2, ![E, 1]⟩ ⟨2, ![E, C]⟩} (hg : IsRowGather g)
    (hN : 0 < N) (x : (⟨2, ![N, C]⟩ : Shape).Idx → α) (S : IVec ⟨2, ![E, 1]⟩ w) (e : Fin E) (k : Fin C) :
    Host.gather g x S (ix2 e k) = x (ix2 (srcRow hN S e) k) := by
  obtain ⟨od, cs, ob, sb, sim, ivd, ss, wf⟩ := g
  obtain ⟨h1, h2, h3, h4, h5, h6, h7⟩ := hg
  dsimp only at h1 h2 h3 h4 h5 h6 h7
  subst h1 h2 h3 h4 h5 h6 h7
  exact gather_rowDims_apply hN wf x S e k

/-! ## Scatter-add of rows into an `[N, C]` array -/

/-- `d` scatters `[E, C]` update rows into an `[N, C]` operand at `[E, 1]` scatter indices: the row axis is the
    inserted one and the one the scatter index addresses, the column axis is the one window axis. -/
structure IsRowScatter (d : ScatterDims ⟨2, ![N, C]⟩ ⟨2, ![E, 1]⟩ ⟨2, ![E, C]⟩) : Prop where
  uw : d.updateWindowDims = [1]
  iw : d.insertedWindowDims = [0]
  sd : d.scatterDimsToOperandDims = [0]
  ivd : d.indexVectorDim = 1

/-- The row-scatter dimension numbers as a literal record (any proof `wf` of their conditions). -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An operand axis carries a window coordinate exactly when it is not an inserted axis. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

section RowScatter
variable (wf : ScatterDims.WF ⟨2, ![N, C]⟩ ⟨2, ![E, 1]⟩ ⟨2, ![E, C]⟩ [1] [0] [0] 1)
  (j : (⟨2, ![E, C]⟩ : Shape).Idx) (D : IVec ⟨2, ![E, 1]⟩ w)

/-- On the row axis the window of update `(e, c)` starts at the scatter index `D[e, 0]`, read signed … -/
theorem rowScatter_start0 :
    (rowScatterDims N E C wf).start j D (0 : Fin 2) = (D (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j
      ⟨List.idxOf (0 : Fin 2) (rowScatterDims N E C wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … on the column axis, which the scatter index does not address, at `0`. -/
theorem rowScatter_start1 : (rowScatterDims N E C wf).start j D (1 : Fin 2) = 0 := by
  unfold ScatterDims.start
  rw [dif_neg (show (1 : Fin 2) ∉ (rowScatterDims N E C wf).scatterDimsToOperandDims from
    show (1 : Fin 2) ∉ ([0] : List (Fin 2)) from by decide)]

/-- The row axis is inserted: no window coordinate there … -/
theorem rowScatter_window0 : (rowScatterDims N E C wf).window j (0 : Fin 2) = 0 := by
  unfold ScatterDims.window
  rw [dif_neg (fun h => (scatter_mem_sKept _ _).mp h (List.mem_singleton.mpr rfl))]

/-- … and on the column axis the window coordinate of update `(e, c)` is `c`. -/
theorem rowScatter_window1 : (rowScatterDims N E C wf).window j (1 : Fin 2) = (j 1).val := by
  unfold ScatterDims.window
  rw [dif_pos ((scatter_mem_sKept _ _).mpr (show (1 : Fin 2) ∉ ([0] : List (Fin 2)) from by decide))]
  rfl

/-- WHERE AN UPDATE LANDS: update `(e, c)` lands on `(n, k)` iff its scatter index, read signed, is `n` and `c = k`.
    (The landing index is start plus window coordinate on each axis, kept only when in range: on the row axis that
    is `D[e, 0] + 0`, in range iff it is some `n < N`; on the column axis `0 + c`, always in range.) -/
theorem resultIdx?_rowDims (i : (⟨2, ![N, C]⟩ : Shape).Idx) :
    (rowScatterDims N E C wf).resultIdx? j D = some i ↔ Lands D (j 0) (i 0) ∧ (j 1).val = (i 1).val := by
  have hs0 := rowScatter_start0 wf j D
  have hs1 := rowScatter_start1 wf j D
  have hw0 := rowScatter_window0 wf j
  have hw1 := rowScatter_window1 wf j
  have hi0 : (i 0).val < N := idx2_lt0 i
  have hi1 : (i 1).val < C := idx2_lt1 i
  have hj1 : (j 1).val < C := idx2_lt1 j
  unfold ScatterDims.resultIdx?
  constructor
  · intro h
    split at h
    · rename_i hc
      have hf := Option.some.inj h
      have e0 : ((rowScatterDims N E C wf).start j D (0 : Fin 2)
          + ((rowScatterDims N E C wf).window j (0 : Fin 2) : Int)).toNat = (i 0).val :=
        congrArg Fin.val (congrFun hf 0)
      have e1 : ((rowScatterDims N E C wf).start j D (1 : Fin 2)
          + ((rowScatterDims N E C wf).window j (1 : Fin 2) : Int)).toNat = (i 1).val :=
        congrArg Fin.val (congrFun hf 1)
      have c0 := (hc 0).1
      have c1 := (hc 1).1
      rw [hs0, hw0] at e0 c0
      rw [hs1, hw1] at e1 c1
      refine ⟨?_, ?_⟩
      · show (D (ix2 (j 0) (0 : Fin 1))).toInt = ((i 0).val : Int)
        omega
      · omega
    · cases h
  · rintro ⟨hl, h1⟩
    have hl' : (D (ix2 (j 0) (0 : Fin 1))).toInt = ((i 0).val : Int) := hl
    have hc : ∀ a, 0 ≤ (rowScatterDims N E C wf).start j D a + ((rowScatterDims N E C wf).window j a : Int) ∧
        (rowScatterDims N E C wf).start j D a + ((rowScatterDims N E C wf).window j a : Int)
          < ((⟨2, ![N, C]⟩ : Shape).size a : Int) := by
      intro a
      rcases fin2_cases a with rfl | rfl
      · rw [hs0, hw0, hl']
        show 0 ≤ ((i 0).val : Int) + ((0 : Nat) : Int) ∧ ((i 0).val : Int) + ((0 : Nat) : Int) < (N : Int)
        omega
      · rw [hs1, hw1]
        show (0 : Int) ≤ 0 + ((j 1).val : Int) ∧ (0 : Int) + ((j 1).val : Int) < (C : Int)
        omega
    rw [dif_pos hc]
    congr 1
    funext a
    refine Fin.ext ?_
    rcases fin2_cases a with rfl | rfl
    · show ((rowScatterDims N E C wf).start j D (0 : Fin 2)
          + ((rowScatterDims N E C wf).window j (0 : Fin 2) : Int)).toNat = (i 0).val
      rw [hs0, hw0, hl']
      omega
    · show ((rowScatterDims N E C wf).start j D (1 : Fin 2)
          + ((rowScatterDims N E C wf).window j (1 : Fin 2) : Int)).toNat = (i 1).val
      rw [hs1, hw1]
      omega

end RowScatter

section RowScatterSum
variable (wf : ScatterDims.WF ⟨2, ![N, C]⟩ ⟨2, ![E, 1]⟩ ⟨2, ![E, C]⟩ [1] [0] [0] 1)

/-- The row scatter-add at the literal record, read at `(n, k)`: the updates landing on `(n, k)` are the `(e, k)`
    with `Lands D e n`, and `(e, c) ↦ e`, `e ↦ (e, k)` are inverse bijections between the two index sets. -/
theorem scatterAdd_rowDims_apply {φ : FTy} (x : FVec Ideal ⟨2, ![N, C]⟩ φ) (D : IVec ⟨2, ![E, 1]⟩ w)
    (u : FVec Ideal ⟨2, ![E, C]⟩ φ) (n : Fin N) (k : Fin C) :
    Host.scatterAdd (rowScatterDims N E C wf) x D u (ix2 n k)
      = x (ix2 n k) + ∑ e ∈ Finset.univ.filter (fun e : Fin E => Lands D e n), u (ix2 e k) := by
  show Ideal.hostScatterAdd (rowScatterDims N E C wf) x D u (ix2 n k) = _
  unfold Ideal.hostScatterAdd
  congr 1
  refine Finset.sum_nbij' (fun j => (j 0 : Fin E)) (fun e => ix2 e k) ?_ ?_ ?_ ?_ ?_
  · intro j hj
    obtain ⟨a, b, rfl⟩ : ∃ a b, j = ix2 a b := ⟨_, _, eq_ix2 j⟩
    have h := (resultIdx?_rowDims wf (ix2 a b) D (ix2 n k)).mp (Finset.mem_filter.mp hj).2
    exact Finset.mem_filter.mpr ⟨Finset.mem_univ _, h.1⟩
  · intro e he
    have h : Lands D e n := (Finset.mem_filter.mp he).2
    exact Finset.mem_filter.mpr ⟨Finset.mem_univ _, (resultIdx?_rowDims wf (ix2 e k) D (ix2 n k)).mpr ⟨h, rfl⟩⟩
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl
  · intro e _
    rfl
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl

end RowScatterSum

/-- THE ROW SCATTER-ADD READ AT `(n, k)`: the operand's entry plus the sum, over the edges `e` whose scatter index
    (read signed, not clamped) is `n`, of the update entries `u (e, k)`. -/
theorem scatterAdd_row_apply {φ : FTy} {d : ScatterDims ⟨2, ![N, C]⟩ ⟨2, ![E, 1]⟩ ⟨2, ![E, C]⟩} (hd : IsRowScatter d)
    (x : FVec Ideal ⟨2, ![N, C]⟩ φ) (D : IVec ⟨2, ![E, 1]⟩ w) (u : FVec Ideal ⟨2, ![E, C]⟩ φ) (n : Fin N) (k : Fin C) :
    Host.scatterAdd d x D u (ix2 n k)
      = x (ix2 n k) + ∑ e ∈ Finset.univ.filter (fun e : Fin E => Lands D e n), u (ix2 e k) := by
  obtain ⟨uw, iw, sd, ivd, wf⟩ := d
  obtain ⟨h1, h2, h3, h4⟩ := hd
  dsimp only at h1 h2 h3 h4
  subst h1 h2 h3 h4
  exact scatterAdd_rowDims_apply wf x D u n k

/-! ## Scatter-add of scalars into an `[N]` vector -/

/-- `d` scatters `[E]` update scalars into an `[N]` operand at `[E, 1]` scatter indices: the operand's one axis is
    inserted and addressed by the scatter index; the updates have no window axis. -/
structure IsVecScatter (d : ScatterDims ⟨1, ![N]⟩ ⟨2, ![E, 1]⟩ ⟨1, ![E]⟩) : Prop where
  uw : d.updateWindowDims = []
  iw : d.insertedWindowDims = [0]
  sd : d.scatterDimsToOperandDims = [0]
  ivd : d.indexVectorDim = 1

/-- The vector-scatter dimension numbers as a literal record (any proof `wf` of their conditions). -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable (wf : ScatterDims.WF ⟨1, ![N]⟩ ⟨2, ![E, 1]⟩ ⟨1, ![E]⟩ [] [0] [0] 1)
  (j : (⟨1, ![E]⟩ : Shape).Idx) (D : IVec ⟨2, ![E, 1]⟩ w)

/-- The window of update `e` starts at the scatter index `D[e, 0]`, read signed … -/
theorem vecScatter_start0 :
    (vecScatterDims N E wf).start j D (0 : Fin 1) = (D (ix2 (j 0) (0 : Fin 1))).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … and the operand's axis is inserted: no window coordinate. -/
theorem vecScatter_window0 : (vecScatterDims N E wf).window j (0 : Fin 1) = 0 := by
  unfold ScatterDims.window
  rw [dif_neg (fun h => (scatter_mem_sKept _ _).mp h (List.mem_singleton.mpr rfl))]

/-- WHERE AN UPDATE LANDS: update `e` lands on `n` iff its scatter index, read signed, is `n`. -/
theorem resultIdx?_vecDims (i : (⟨1, ![N]⟩ : Shape).Idx) :
    (vecScatterDims N E wf).resultIdx? j D = some i ↔ Lands D (j 0) (i 0) := by
  have hs0 := vecScatter_start0 wf j D
  have hw0 := vecScatter_window0 wf j
  have hi0 : (i 0).val < N := (i 0).isLt
  unfold ScatterDims.resultIdx?
  constructor
  · intro h
    split at h
    · rename_i hc
      have hf := Option.some.inj h
      have e0 : ((vecScatterDims N E wf).start j D (0 : Fin 1)
          + ((vecScatterDims N E wf).window j (0 : Fin 1) : Int)).toNat = (i 0).val :=
        congrArg Fin.val (congrFun hf 0)
      have c0 := (hc 0).1
      rw [hs0, hw0] at e0 c0
      show (D (ix2 (j 0) (0 : Fin 1))).toInt = ((i 0).val : Int)
      omega
    · cases h
  · intro hl
    have hl' : (D (ix2 (j 0) (0 : Fin 1))).toInt = ((i 0).val : Int) := hl
    have hc : ∀ a, 0 ≤ (vecScatterDims N E wf).start j D a + ((vecScatterDims N E wf).window j a : Int) ∧
        (vecScatterDims N E wf).start j D a + ((vecScatterDims N E wf).window j a : Int)
          < ((⟨1, ![N]⟩ : Shape).size a : Int) := by
      intro a
      obtain rfl : a = (0 : Fin 1) := Subsingleton.elim _ _
      rw [hs0, hw0, hl']
      show 0 ≤ ((i 0).val : Int) + ((0 : Nat) : Int) ∧ ((i 0).val : Int) + ((0 : Nat) : Int) < (N : Int)
      omega
    rw [dif_pos hc]
    congr 1
    funext a
    refine Fin.ext ?_
    obtain rfl : a = (0 : Fin 1) := Subsingleton.elim _ _
    show ((vecScatterDims N E wf).start j D (0 : Fin 1)
        + ((vecScatterDims N E wf).window j (0 : Fin 1) : Int)).toNat = (i 0).val
    rw [hs0, hw0, hl']
    omega

end VecScatter

section VecScatterSum
variable (wf : ScatterDims.WF ⟨1, ![N]⟩ ⟨2, ![E, 1]⟩ ⟨1, ![E]⟩ [] [0] [0] 1)

/-- The vector scatter-add at the literal record, read at `n`: an update index is its one coordinate, the edge
    number, and it lands on `n` iff `Lands D e n`. -/
theorem scatterAdd_vecDims_apply {φ : FTy} (x : FVec Ideal ⟨1, ![N]⟩ φ) (D : IVec ⟨2, ![E, 1]⟩ w)
    (u : FVec Ideal ⟨1, ![E]⟩ φ) (n : Fin N) :
    Host.scatterAdd (vecScatterDims N E wf) x D u (ix1 n)
      = x (ix1 n) + ∑ e ∈ Finset.univ.filter (fun e : Fin E => Lands D e n), u (ix1 e) := by
  show Ideal.hostScatterAdd (vecScatterDims N E wf) x D u (ix1 n) = _
  unfold Ideal.hostScatterAdd
  congr 1
  refine Finset.sum_nbij' (fun j => (j 0 : Fin E)) (fun e => ix1 e) ?_ ?_ ?_ ?_ ?_
  · intro j hj
    obtain ⟨a, rfl⟩ : ∃ a, j = ix1 a := ⟨_, eq_ix1 j⟩
    have h := (resultIdx?_vecDims wf (ix1 a) D (ix1 n)).mp (Finset.mem_filter.mp hj).2
    exact Finset.mem_filter.mpr ⟨Finset.mem_univ _, h⟩
  · intro e he
    have h : Lands D e n := (Finset.mem_filter.mp he).2
    exact Finset.mem_filter.mpr ⟨Finset.mem_univ _, (resultIdx?_vecDims wf (ix1 e) D (ix1 n)).mpr h⟩
  · intro j _
    obtain ⟨a, rfl⟩ : ∃ a, j = ix1 a := ⟨_, eq_ix1 j⟩
    rfl
  · intro e _
    rfl
  · intro j _
    obtain ⟨a, rfl⟩ : ∃ a, j = ix1 a := ⟨_, eq_ix1 j⟩
    rfl

end VecScatterSum

/-- THE VECTOR SCATTER-ADD READ AT `n`: the operand's entry plus the sum, over the edges `e` whose scatter index
    (read signed, not clamped) is `n`, of the update scalars `u (e)`. -/
theorem scatterAdd_vec_apply {φ : FTy} {d : ScatterDims ⟨1, ![N]⟩ ⟨2, ![E, 1]⟩ ⟨1, ![E]⟩} (hd : IsVecScatter d)
    (x : FVec Ideal ⟨1, ![N]⟩ φ) (D : IVec ⟨2, ![E, 1]⟩ w) (u : FVec Ideal ⟨1, ![E]⟩ φ) (n : Fin N) :
    Host.scatterAdd d x D u (ix1 n)
      = x (ix1 n) + ∑ e ∈ Finset.univ.filter (fun e : Fin E => Lands D e n), u (ix1 e) := by
  obtain ⟨uw, iw, sd, ivd, wf⟩ := d
  obtain ⟨h1, h2, h3, h4⟩ := hd
  dsimp only at h1 h2 h3 h4
  subst h1 h2 h3 h4
  exact scatterAdd_vecDims_apply wf x D u n

end Cert.RowGS

end
-- ==== Proof.LibBroadcast.lean ====
/-
  BROADCASTS BY DIMENSION MAP, READ AT ONE ENTRY (general lemmas: any extents, any element type).

  * a vector `[E]` broadcast to the column `[E, 1]` along axis 0: the entry at `(e, 0)` is the vector's entry `e`;
  * a column `[N, 1]` broadcast to `[N, C]` along axes (0, 1): the entry at `(n, c)` is the column's entry at row `n`;
  * a vector `[C]` broadcast to the row `[1, C]` along axis 1 and then down `N` rows: the entry at `(n, c)` is the
    vector's entry `c`;
  * a rank-0 value broadcast over any shape: every entry is that value.
  (An operand axis of extent one is read at coordinate zero, so the extents that are not unit axes are assumed `≠ 1`.)
-/
import Idealize.ShloMosaic.Lib.Pipeline.Value
import Idealize.ShloMosaic.Lib.ValueIdx

noncomputable section

namespace Cert.Bcast

open Idealize.ShloMosaic Idealize.ShloMosaic.ValueIdx

/-- A vector as a column. -/
theorem col_apply {α : Type} {E : Nat} (hE : E ≠ 1) (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      rw [if_neg hE])

/-- A column repeated across `C` columns. -/
theorem rows_of_col_apply {α : Type} {N C : Nat} (hN : N ≠ 1) (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) :=
  broadcastInDim_apply ![0, 1] h x (ix2 n c) (ix2 n (0 : Fin 1)) (fun a => by
    match a with
    | ⟨0, _⟩ =>
      show n.val = if N = 1 then 0 else n.val
      rw [if_neg hN]
    | ⟨1, _⟩ =>
      show (0 : ℕ) = if (1 : ℕ) = 1 then 0 else c.val
      rw [if_pos rfl])

/-- A bias vector laid out as a row and repeated down `N` rows. -/
theorem bias_rows_apply {α : Type} {N C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (c : Fin C) :
    broadcastInDim ⟨2, ![N, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])).trans
  (broadcastInDim_apply ![1] h1 b (ix2 (0 : Fin 1) c) (ix1 c) (fun a => by
    match a with
    | ⟨0, _⟩ =>
      show c.val = if C = 1 then 0 else c.val
      rw [if_neg hC]))

/-- A rank-0 value broadcast over a shape. -/
theorem scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

end Cert.Bcast

end
-- ==== Proof.LibAggregate.lean ====
/-
  THE NEIGHBOURHOOD AGGREGATION, READ AT ONE ENTRY.

  Both programs aggregate a feature table `feat : [N, C]` over a list of `E` weighted edges in the same three host
  operations: the rows of the table are gathered at the edges' source indices `S : [E, 1]`, each gathered row is
  multiplied by its edge's weight `q : [E]` (laid out as a column and repeated across the `C` lanes), and the weighted
  rows are scatter-added into a zero array at the edges' target indices `D : [E, 1]`. On the extended reals the entry
  `(n, k)` of the result is

      0 + ∑ over the edges e whose target index is n, feat (source row of e, k) · q e,

  the source index clamped into the table, an edge whose target index is out of range landing nowhere.
-/
import proofs.«168404_j17343077941930_1_alg».proof.Proof.LibRowGatherScatter
import proofs.«168404_j17343077941930_1_alg».proof.Proof.LibBroadcast
import Idealize.ShloMosaic.PureOps.Ideal.Laws

noncomputable section

open scoped BigOperators

namespace Cert.Aggregate

open Idealize.ShloMosaic Idealize.ShloMosaic.ValueIdx Cert.RowGS

variable {N E C : Nat}

/-- The edges whose target index is the node `n`. -/
abbrev into (D : IVec ⟨2, ![E, 1]⟩ 32) (n : Fin N) : Finset (Fin E) :=
  Finset.univ.filter (fun e : Fin E => Lands D e n)

/-- Gather at the sources, weight, scatter-add into zeros at the targets: entry `(n, k)` is the weighted sum, over the
    edges into `n`, of the table's entries at the edges' source rows. -/
theorem aggregate_apply
    {g : GatherDims ⟨2, ![N, C]⟩ ⟨2, ![E, 1]⟩ ⟨2, ![E, C]⟩} (hg : IsRowGather g)
    {d : ScatterDims ⟨2, ![N, C]⟩ ⟨2, ![E, 1]⟩ ⟨2, ![E, C]⟩} (hd : IsRowScatter d)
    (hN : 0 < N) (hE : E ≠ 1)
    (feat : FVec Ideal ⟨2, ![N, C]⟩ .f32) (S D : IVec ⟨2, ![E, 1]⟩ 32) (q : FVec Ideal ⟨1, ![E]⟩ .f32)
    (h0 : (⟨0, ![]⟩ : Shape).BroadcastsInDim ⟨2, ![N, C]⟩ ![])
    (h1 : (⟨1, ![E]⟩ : Shape).BroadcastsInDim ⟨2, ![E, 1]⟩ ![0])
    (h2 : (⟨2, ![E, 1]⟩ : Shape).BroadcastsInDim ⟨2, ![E, C]⟩ ![0, 1]) (n : Fin N) (k : Fin C) :
    Host.scatterAdd d (broadcastInDim ⟨2, ![N, C]⟩ ![] h0 (constant (F := Ideal) ⟨0, ![]⟩ .f32 0x00000000#32)) D
        (mulf (Host.gather g feat S)
          (broadcastInDim ⟨2, ![E, C]⟩ ![0, 1] h2 (broadcastInDim ⟨2, ![E, 1]⟩ ![0] h1 q))) (ix2 n k)
      = 0 + ∑ e ∈ into D n, feat (ix2 (srcRow hN S e) k) * q (ix1 e) := by
  rw [scatterAdd_row_apply hd]
  refine congrArg₂ (· + ·) ?_ (Finset.sum_congr rfl fun e _ => ?_)
  · rw [Bcast.scalar_apply]
    exact Ideal.ofBits_zero_f32
  · show Host.gather g feat S (ix2 e k)
        * broadcastInDim ⟨2, ![E, C]⟩ ![0, 1] h2 (broadcastInDim ⟨2, ![E, 1]⟩ ![0] h1 q) (ix2 e k) = _
    rw [gather_row_apply hg hN, Bcast.rows_of_col_apply hE, Bcast.col_apply hE]

end Cert.Aggregate

end
-- ==== Proof.KI.RealA.lean ====
/-
  REAL ENTRIES STAY REAL through every step between the kernel regions, and a layer over the summed aggregate is
  the layer over the two aggregates taken separately.

  The rows picked from a table, a stack of two tables, a fold's row of the edge arrays, a layer's weight matrix: each
  entry of the result is an entry of the operand. A fold's aggregate of a real table with real edge weights has real
  entries: the entry at (n, k) is zero plus a finite sum of products of a table entry and an edge weight. Hence, by
  LayerSpec, the layer of the summed aggregate equals the split form, and its entries are real again.
-/
import proofs.«168404_j17343077941930_1_alg».proof.Proof.KI.KFn
import proofs.«168404_j17343077941930_1_alg».proof.Proof.LibAggregate

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Cert.LayerSpec Cert.RealSum Cert.RowGS Cert.Aggregate Cert.HostWalk

theorem isRowGather_user : IsRowGather gather_S100000x64_S100000x1_S100000x64_1_0_n_n_0_1_164 := ⟨rfl, rfl, rfl, rfl, rfl, rfl, rfl⟩
theorem isRowGather_edge : IsRowGather gather_S200000x64_S1600000x1_S1600000x64_1_0_n_n_0_1_164 := ⟨rfl, rfl, rfl, rfl, rfl, rfl, rfl⟩
theorem isRowScatter_edge : IsRowScatter scatter_S200000x64_S1600000x1_S1600000x64_1_0_0_1 := ⟨rfl, rfl, rfl, rfl⟩

/-- The rows picked from a real table are real. -/
theorem allReal_rowsOf (a : (⟨S100000x64, .f32⟩ : BufTy).Contents (Elt Ideal)) (x : (⟨S100000, .i32⟩ : BufTy).Contents (Elt Ideal))
    (ha : AllReal (s := S100000x64) a) : AllReal (s := S100000x64) (rowsOf a x) := fun i => by
  obtain ⟨e, k, rfl⟩ : ∃ (e : Fin 100000) (k : Fin 64), i = ix2 e k := ⟨i 0, i 1, eq_ix2 i⟩
  unfold rowsOf
  rw [gather_row_apply isRowGather_user (by decide : 0 < 100000)]
  exact ha _

/-- A stack of two real tables is real. -/
theorem allReal_stack (u i : (⟨S100000x64, .f32⟩ : BufTy).Contents (Elt Ideal))
    (hu : AllReal (s := S100000x64) u) (hi : AllReal (s := S100000x64) i) : AllReal (s := S200000x64) (stack u i) := fun j => by
  obtain ⟨n, c, rfl⟩ : ∃ (n : Fin 200000) (c : Fin 64), j = ix2 n c := ⟨j 0, j 1, eq_ix2 j⟩
  unfold stack cat2
  by_cases h : n.val < 100000
  · rw [concatenate_pair_apply_left (0 : Fin 2) u i _ (ix2 n c) rfl (ix2 (⟨n.val, h⟩ : Fin 100000) c) (fun b => by
      match b with
      | ⟨0, _⟩ => rfl
      | ⟨1, _⟩ => rfl)]
    exact hu _
  · rw [concatenate_pair_apply_right (0 : Fin 2) u i _ (ix2 n c) rfl rfl (ix2 (⟨n.val - 100000, by omega⟩ : Fin 100000) c) (fun b hb => by
      match b with
      | ⟨0, _⟩ => exact absurd rfl hb
      | ⟨1, _⟩ => rfl) (by show n.val - 100000 + 100000 = n.val; omega)]
    exact hi _

end Cert.KernelIdeal.Hand

end
-- ==== Proof.KI.RealB.lean ====
/-
  REAL ENTRIES STAY REAL through every step between the kernel regions, and a layer over the summed aggregate is
  the layer over the two aggregates taken separately.

  The rows picked from a table, a stack of two tables, a fold's row of the edge arrays, a layer's weight matrix: each
  entry of the result is an entry of the operand. A fold's aggregate of a real table with real edge weights has real
  entries: the entry at (n, k) is zero plus a finite sum of products of a table entry and an edge weight. Hence, by
  LayerSpec, the layer of the summed aggregate equals the split form, and its entries are real again.
-/
import proofs.«168404_j17343077941930_1_alg».proof.Proof.KI.KFn
import proofs.«168404_j17343077941930_1_alg».proof.Proof.LibAggregate

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Cert.LayerSpec Cert.RealSum Cert.RowGS Cert.Aggregate Cert.HostWalk

/-- A fold's row of a real [2, 1600000] array is real; a layer's matrix of a real stack of three is real: a slice and a
    reshape read entries of their operand. -/
theorem allReal_fold0 (a : (⟨S2x1600000, .f32⟩ : BufTy).Contents (Elt Ideal)) (ha : AllReal (s := S2x1600000) a) :
    AllReal (s := S1600000) (fold0 a) := fun i => by
  unfold fold0 shapeCast extractStridedSlice
  exact ha _
theorem allReal_fold1 (a : (⟨S2x1600000, .f32⟩ : BufTy).Contents (Elt Ideal)) (ha : AllReal (s := S2x1600000) a) :
    AllReal (s := S1600000) (fold1 a) := fun i => by
  unfold fold1 shapeCast extractStridedSlice
  exact ha _
theorem allReal_wmat0 (a : (⟨S3x64x64, .f32⟩ : BufTy).Contents (Elt Ideal)) (ha : AllReal (s := S3x64x64) a) :
    AllReal (s := S64x64) (wmat0 a) := fun i => by
  unfold wmat0 shapeCast extractStridedSlice
  exact ha _
theorem allReal_wmat1 (a : (⟨S3x64x64, .f32⟩ : BufTy).Contents (Elt Ideal)) (ha : AllReal (s := S3x64x64) a) :
    AllReal (s := S64x64) (wmat1 a) := fun i => by
  unfold wmat1 shapeCast extractStridedSlice
  exact ha _
theorem allReal_wmat2 (a : (⟨S3x64x64, .f32⟩ : BufTy).Contents (Elt Ideal)) (ha : AllReal (s := S3x64x64) a) :
    AllReal (s := S64x64) (wmat2 a) := fun i => by
  unfold wmat2 shapeCast extractStridedSlice
  exact ha _

end Cert.KernelIdeal.Hand

end
-- ==== Proof.KI.RealC.lean ====
/-
  REAL ENTRIES STAY REAL through every step between the kernel regions, and a layer over the summed aggregate is
  the layer over the two aggregates taken separately.

  The rows picked from a table, a stack of two tables, a fold's row of the edge arrays, a layer's weight matrix: each
  entry of the result is an entry of the operand. A fold's aggregate of a real table with real edge weights has real
  entries: the entry at (n, k) is zero plus a finite sum of products of a table entry and an edge weight. Hence, by
  LayerSpec, the layer of the summed aggregate equals the split form, and its entries are real again.
-/
import proofs.«168404_j17343077941930_1_alg».proof.Proof.KI.RealA
import proofs.«168404_j17343077941930_1_alg».proof.Proof.KI.RealB
import proofs.«168404_j17343077941930_1_alg».proof.Proof.LibAggregate

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Cert.LayerSpec Cert.RealSum Cert.RowGS Cert.Aggregate Cert.HostWalk

/-- A fold's aggregate of a real table with real edge weights is real. -/
theorem allReal_aggOf (tab : (⟨S200000x64, .f32⟩ : BufTy).Contents (Elt Ideal)) (q : (⟨S1600000, .f32⟩ : BufTy).Contents (Elt Ideal))
    (src dst : (⟨S1600000, .i32⟩ : BufTy).Contents (Elt Ideal)) (ht : AllReal (s := S200000x64) tab) (hq : AllReal (s := S1600000) q) :
    AllReal (s := S200000x64) (aggOf tab q src dst) := fun i => by
  obtain ⟨n, k, rfl⟩ : ∃ (n : Fin 200000) (k : Fin 64), i = ix2 n k := ⟨i 0, i 1, eq_ix2 i⟩
  unfold aggOf zeros
  rw [aggregate_apply isRowGather_edge isRowScatter_edge (by decide) (by decide)]
  exact isReal_zero.add (isReal_sum _ _ fun e _ => (ht _).mul (hq _))

/-- The zero array reads zero. -/
theorem zeros_apply (j : S200000x64.Idx) : zeros (F := Ideal) j = (0 : EReal) := by
  unfold zeros
  rw [Cert.Bcast.scalar_apply, constant_apply, Ideal.ofBits_zero_f32]

/-- The summed aggregate, entry by entry. -/
theorem relsum_apply (tab : (⟨S200000x64, .f32⟩ : BufTy).Contents (Elt Ideal)) (a4 : (⟨S2x1600000, .f32⟩ : BufTy).Contents (Elt Ideal))
    (a5 a6 : (⟨S2x1600000, .i32⟩ : BufTy).Contents (Elt Ideal)) :
    relsum tab a4 a5 a6 = fun j => (0 + aggOf tab (fold0 a4) (fold0 a6) (fold0 a5) j) + aggOf tab (fold1 a4) (fold1 a6) (fold1 a5) j := by
  funext j
  unfold relsum
  rw [addf_apply, addf_apply, zeros_apply]

/-- ONE LAYER over the summed aggregate of a real table, with real edge weights and real weight matrices, is the split
    form over the two folds' aggregates, and is real. -/
theorem layer_relsum (E : (⟨S200000x64, .f32⟩ : BufTy).Contents (Elt Ideal)) (W1 W2 : (⟨S64x64, .f32⟩ : BufTy).Contents (Elt Ideal))
    (a4 : (⟨S2x1600000, .f32⟩ : BufTy).Contents (Elt Ideal)) (a5 a6 : (⟨S2x1600000, .i32⟩ : BufTy).Contents (Elt Ideal))
    (hE : AllReal (s := S200000x64) E) (hW1 : AllReal (s := S64x64) W1) (hW2 : AllReal (s := S64x64) W2) (h4 : AllReal (s := S2x1600000) a4) :
    layer (M := 200000) (relsum E a4 a5 a6) E W1 W2
        = layerSplit (M := 200000) (aggOf E (fold0 a4) (fold0 a6) (fold0 a5)) (aggOf E (fold1 a4) (fold1 a6) (fold1 a5)) E W1 W2
      ∧ AllReal (s := S200000x64) (layer (M := 200000) (relsum E a4 a5 a6) E W1 W2) := by
  rw [relsum_apply]
  exact ⟨layer_sum_eq_layerSplit _ _ E W1 W2 (allReal_aggOf E _ _ _ hE (allReal_fold0 a4 h4)) (allReal_aggOf E _ _ _ hE (allReal_fold1 a4 h4)) hE hW1 hW2,
    allReal_layer _ _ E W1 W2 (allReal_aggOf E _ _ _ hE (allReal_fold0 a4 h4)) (allReal_aggOf E _ _ _ hE (allReal_fold1 a4 h4)) hE hW1 hW2⟩

end Cert.KernelIdeal.Hand

end
-- ==== Proof.LibHostRowFold.lean ====
/-
  The host's reductions along the second axis of a matrix, each read at one row, on the extended reals.

  A `stablehlo.reduce` of an [a, b] array across dimension 1 with a maximum body holds at row p the fold
  of `max` from the initial value over the entries (p, k), k < b; with an add body (the host's float sum)
  it holds the initial value plus the finite sum of the entries (p, k). These are the host-side companions
  of the vector unit's row maximum and row sum. Any extents; depends on no program.
-/
import Idealize.ShloMosaic.Lib.ValueIdx
import Idealize.ShloMosaic.PureOps.Ideal.Laws

noncomputable section

open scoped BigOperators

namespace Cert.HostRowFold

open Idealize.ShloMosaic Idealize.ShloMosaic.ValueIdx

/-- Dropping axis 1 of a rank-2 shape leaves a rank-1 shape, so the host's shape fact is also the vector
    unit's (which asks in addition that a result axis is left). -/
theorem reduces_of_to {a b : ℕ} (h' : (⟨2, ![a, b]⟩ : Shape).ReducesTo [1] ⟨1, ![a]⟩) :
    (⟨2, ![a, b]⟩ : Shape).Reduces [1] ⟨1, ![a]⟩ :=
  let ⟨e, hb⟩ := h'; ⟨e, Nat.one_pos, hb⟩

/-- The host's maximum along row `p`: the fold of `max` from the initial value over the row's entries. -/
theorem row_max {a b : ℕ} (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (p : Fin a) :
    Host.reduce FloatOps.maximumf x init h' hu (ix1 p)
      = (Finset.univ : Finset (Fin b)).fold max (init ix0) fun k => x (ix2 p k) := by
  rw [Host.reduce_eq_fold_single FloatOps.maximumf x init h' (reduces_of_to h') hu, eq_ix0 (Shape.Idx.first hu)]
  exact congrArg (fun f => Finset.fold max (init ix0) f (Finset.univ : Finset (Fin b)))
    (funext fun k => congrArg x (funext fun c => Fin.ext (by
      match c with
      | ⟨0, _⟩ => rfl
      | ⟨1, _⟩ => rfl)))

/-- The host's float sum along row `p`: the initial value plus the finite sum of the row's entries. -/
theorem row_sum {a b : ℕ} (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (p : Fin a) :
    Host.reduceAdd x init h' hu (ix1 p) = init ix0 + ∑ k : Fin b, x (ix2 p k) := by
  simp only [Host.reduceAdd, Ideal.hostReduceAdd_def]
  rw [Ideal.hostReduceAdd_single h' (reduces_of_to h'), eq_ix0 (Shape.Idx.first hu)]
  refine congrArg (init ix0 + ·) (Finset.sum_congr rfl fun k _ => ?_)
  exact congrArg x (funext fun c => Fin.ext (by
    match c with
    | ⟨0, _⟩ => rfl
    | ⟨1, _⟩ => rfl))

/-- From a zero initial value the host's float sum along row `p` is the finite sum of the row's entries. -/
theorem row_sum_zero {a b : ℕ} (x : FVec Ideal ⟨2, ![a, b]⟩ .f32)
    (h' : (⟨2, ![a, b]⟩ : Shape).ReducesTo [1] ⟨1, ![a]⟩) (hu : 0 < (⟨0, ![]⟩ : Shape).numel) (p : Fin a) :
    Host.reduceAdd x (constant (F := Ideal) ⟨0, ![]⟩ .f32 0x00000000#32) h' hu (ix1 p) = ∑ k : Fin b, x (ix2 p k) :=
  (row_sum x _ h' hu p).trans (by rw [constant_apply, Ideal.ofBits_zero_f32, zero_add])

end Cert.HostRowFold

end
-- ==== Proof.LibHostForms.lean ====
/-
  TWO LAWS ABOUT THE HOST'S SPELLING, on the extended reals; no program.

  (1) A layer as the host computes it from the two folds' aggregates: start from the broadcast zero word, add the four
  products r0·W1, (r0∘E)·W2, r1·W1, (r1∘E)·W2 one after the other, and rectify with the weak test against the
  broadcast zero and the broadcast slope word. Entry by entry this is the layer "from the two aggregates separately"
  (`layerSplit`): a broadcast rank-0 value is that value everywhere, the zero word denotes 0, and a plain product of
  the host is the matrix product.

  (2) The read-out as the host computes it: the entrywise product of the two [100000, 256] tables summed along each
  row from zero. It is the column of row-wise dot products, read flat: the flat position of (n, 0) in a [100000, 1]
  array is n.
-/
import proofs.«168404_j17343077941930_1_alg».proof.Proof.LibLayerSpec
import proofs.«168404_j17343077941930_1_alg».proof.Proof.LibWholeProduct
import proofs.«168404_j17343077941930_1_alg».proof.Proof.LibBroadcast
import proofs.«168404_j17343077941930_1_alg».proof.Proof.LibHostRowFold
import Idealize.ShloMosaic.Lib.Pipeline.Value
import Idealize.ShloMosaic.Lib.ValueIdx

noncomputable section

open scoped BigOperators

namespace Cert.HostForms

open Idealize.ShloMosaic Idealize.ShloMosaic.ValueIdx Cert.LayerSpec Cert.Product

/-- THE HOST'S LAYER is the layer from the two aggregates separately. -/
theorem hostLayer_eq {M : Nat} (d : DotDims ⟨2, ![M, 64]⟩ ⟨2, ![64, 64]⟩ ⟨2, ![M, 64]⟩) (hd : Cert.PlainDot.IsPlain d)
    (hb : (⟨0, ![]⟩ : Shape).BroadcastsInDim ⟨2, ![M, 64]⟩ ![])
    (r0 r1 E : FVec Ideal ⟨2, ![M, 64]⟩ .f32) (W1 W2 : FVec Ideal ⟨2, ![64, 64]⟩ .f32) :
    select
        (cmpf .oge
          (addf (addf (addf (addf (broadcastInDim ⟨2, ![M, 64]⟩ ![] hb (constant (F := Ideal) ⟨0, ![]⟩ .f32 0x00000000#32)) (Host.dotGeneral d none r0 W1)) (Host.dotGeneral d none (mulf r0 E) W2)) (Host.dotGeneral d none r1 W1)) (Host.dotGeneral d none (mulf r1 E) W2))
          (broadcastInDim ⟨2, ![M, 64]⟩ ![] hb (constant (F := Ideal) ⟨0, ![]⟩ .f32 0x00000000#32)))
        (addf (addf (addf (addf (broadcastInDim ⟨2, ![M, 64]⟩ ![] hb (constant (F := Ideal) ⟨0, ![]⟩ .f32 0x00000000#32)) (Host.dotGeneral d none r0 W1)) (Host.dotGeneral d none (mulf r0 E) W2)) (Host.dotGeneral d none r1 W1)) (Host.dotGeneral d none (mulf r1 E) W2))
        (mulf (broadcastInDim ⟨2, ![M, 64]⟩ ![] hb (id (constant (F := Ideal) ⟨0, ![]⟩ .f32 0x3E4CCCCD#32)))
          (addf (addf (addf (addf (broadcastInDim ⟨2, ![M, 64]⟩ ![] hb (constant (F := Ideal) ⟨0, ![]⟩ .f32 0x00000000#32)) (Host.dotGeneral d none r0 W1)) (Host.dotGeneral d none (mulf r0 E) W2)) (Host.dotGeneral d none r1 W1)) (Host.dotGeneral d none (mulf r1 E) W2)))
      = layerSplit (M := M) r0 r1 E W1 W2 := by
  have hZ : ∀ i, (broadcastInDim ⟨2, ![M, 64]⟩ ![] hb (constant (F := Ideal) ⟨0, ![]⟩ .f32 0x00000000#32)) i = Ideal.ofBits .f32 0x00000000#32 :=
    fun i => (Cert.Bcast.scalar_apply _ hb i).trans (constant_apply _ _)
  have hS : ∀ i, (broadcastInDim ⟨2, ![M, 64]⟩ ![] hb (id (constant (F := Ideal) ⟨0, ![]⟩ .f32 0x3E4CCCCD#32))) i = Ideal.ofBits .f32 0x3E4CCCCD#32 :=
    fun i => (Cert.Bcast.scalar_apply _ hb i).trans (constant_apply _ _)
  funext i
  unfold layerSplit leakyGe
  simp only [select_apply, cmpf_apply, mulf_apply, addf_apply, hZ, hS, dotGeneral_eq hd, Ideal.ofBits_zero_f32]
  rfl

/-- THE HOST'S READ-OUT is the column of row-wise dot products, read flat. -/
theorem readout_eq (U I : FVec Ideal ⟨2, ![100000, 256]⟩ .f32)
    (h' : (⟨2, ![100000, 256]⟩ : Shape).ReducesTo [1] ⟨1, ![100000]⟩) (hu : 0 < (⟨0, ![]⟩ : Shape).numel)
    (hc : (⟨2, ![100000, 1]⟩ : Shape).ShapeCasts ⟨1, ![100000]⟩) :
    Host.reduceAdd (mulf U I) (constant (F := Ideal) ⟨0, ![]⟩ .f32 0x00000000#32) h' hu
      = fun i => shapeCast ⟨1, ![100000]⟩
          (fun j : (⟨2, ![100000, 1]⟩ : Shape).Idx => rowdot (N := 100000) (C := 256) U I (j 0)) hc i := by
  funext i
  obtain ⟨n, rfl⟩ : ∃ n : Fin 100000, i = ix1 n := ⟨i 0, eq_ix1 i⟩
  refine (Cert.HostRowFold.row_sum_zero (mulf U I) h' hu n).trans ?_
  refine Eq.symm ((shapeCast_apply _ hc (ix1 n) (ix2 n (0 : Fin 1)) ?_).trans ?_)
  · rw [Shape.rowMajor_val_two, Shape.rowMajor_val_one]
    show n.val * 1 + 0 = n.val
    omega
  · rfl

end Cert.HostForms

end
-- ==== Proof.Bridge.lean ====
/-
  THE TWO PROGRAMS COMPUTE ONE FUNCTION OF REAL ARGUMENT ARRAYS.

  Both start from the same embeddings (the tables' rows at the given indices, stacked) and, layer by layer, aggregate
  them over the two folds of the adjacency by the same operations. The kernel program adds the two aggregates and
  applies one layer; the reference applies the products to each aggregate and adds the four up from zero, rectifying
  with the weak test. On real entries these agree (LayerSpec), and a layer of real arrays is real, so the agreement
  carries through the three layers; finiteness of the five float arguments is what makes the first embeddings, the edge
  weights and the weight matrices real. The read-outs — a row sum of the product of the two concatenated tables on the
  host, a flattened column of row-wise dot products from the last kernel — are the same numbers.
-/
import proofs.«168404_j17343077941930_1_alg».proof.Proof.KI.RealA
import proofs.«168404_j17343077941930_1_alg».proof.Proof.KI.RealB
import proofs.«168404_j17343077941930_1_alg».proof.Proof.KI.RealC
import proofs.«168404_j17343077941930_1_alg».proof.Proof.Ref.Steps
import proofs.«168404_j17343077941930_1_alg».proof.Proof.LibHostForms

set_option maxRecDepth 16384

noncomputable section

namespace Cert.Bridge

open Idealize.ShloMosaic Idealize.ShloMosaic.ValueIdx Cert.LayerSpec Cert.RealSum

/-! ## The shared steps are the same functions in the two programs' vocabularies -/

theorem rowsOf_eq (a : (⟨Cert.KernelIdeal.S100000x64, .f32⟩ : BufTy).Contents (Elt Ideal)) (x : (⟨Cert.KernelIdeal.S100000, .i32⟩ : BufTy).Contents (Elt Ideal)) : Cert.ReferenceIdeal.Hand.rowsOf (F := Ideal) a x = Cert.KernelIdeal.Hand.rowsOf a x := rfl
theorem stack_eq (u i : (⟨Cert.KernelIdeal.S100000x64, .f32⟩ : BufTy).Contents (Elt Ideal)) : Cert.ReferenceIdeal.Hand.stack (F := Ideal) u i = Cert.KernelIdeal.Hand.stack u i := rfl
theorem fold0_eq {e : EltTy} (a : (⟨Cert.KernelIdeal.S2x1600000, e⟩ : BufTy).Contents (Elt Ideal)) : Cert.ReferenceIdeal.Hand.fold0 (F := Ideal) a = Cert.KernelIdeal.Hand.fold0 a := rfl
theorem fold1_eq {e : EltTy} (a : (⟨Cert.KernelIdeal.S2x1600000, e⟩ : BufTy).Contents (Elt Ideal)) : Cert.ReferenceIdeal.Hand.fold1 (F := Ideal) a = Cert.KernelIdeal.Hand.fold1 a := rfl
theorem aggOf_eq (tab : (⟨Cert.KernelIdeal.S200000x64, .f32⟩ : BufTy).Contents (Elt Ideal)) (q : (⟨Cert.KernelIdeal.S1600000, .f32⟩ : BufTy).Contents (Elt Ideal)) (s d : (⟨Cert.KernelIdeal.S1600000, .i32⟩ : BufTy).Contents (Elt Ideal)) :
    Cert.ReferenceIdeal.Hand.aggOf (F := Ideal) tab q s d = Cert.KernelIdeal.Hand.aggOf tab q s d := rfl
theorem wmat0_eq (a : (⟨Cert.KernelIdeal.S3x64x64, .f32⟩ : BufTy).Contents (Elt Ideal)) : Cert.ReferenceIdeal.Hand.wmat0 (F := Ideal) a = Cert.KernelIdeal.Hand.wmat0 a := rfl
theorem wmat1_eq (a : (⟨Cert.KernelIdeal.S3x64x64, .f32⟩ : BufTy).Contents (Elt Ideal)) : Cert.ReferenceIdeal.Hand.wmat1 (F := Ideal) a = Cert.KernelIdeal.Hand.wmat1 a := rfl
theorem wmat2_eq (a : (⟨Cert.KernelIdeal.S3x64x64, .f32⟩ : BufTy).Contents (Elt Ideal)) : Cert.ReferenceIdeal.Hand.wmat2 (F := Ideal) a = Cert.KernelIdeal.Hand.wmat2 a := rfl
theorem lo_eq (e : (⟨Cert.KernelIdeal.S200000x64, .f32⟩ : BufTy).Contents (Elt Ideal)) : Cert.ReferenceIdeal.Hand.lo (F := Ideal) e = Cert.KernelIdeal.Hand.lo e := rfl
theorem hi_eq (e : (⟨Cert.KernelIdeal.S200000x64, .f32⟩ : BufTy).Contents (Elt Ideal)) : Cert.ReferenceIdeal.Hand.hi (F := Ideal) e = Cert.KernelIdeal.Hand.hi e := rfl
theorem cat4_eq (a b c d : (⟨Cert.KernelIdeal.S100000x64, .f32⟩ : BufTy).Contents (Elt Ideal)) : Cert.ReferenceIdeal.Hand.cat4 (F := Ideal) a b c d = Cert.KernelIdeal.Hand.cat4 a b c d := rfl

/-! ## One layer -/

/-- The reference's products are plain: left axis 1 against right axis 0, no batch axes. -/
theorem isPlainRef : Cert.PlainDot.IsPlain Cert.ReferenceIdeal.dot_S200000x64_S64x64_S200000x64_1_0_0_1_n_n :=
  ⟨rfl, rfl, rfl, rfl, rfl, rfl⟩

/-- The reference's layer is the split form. -/
theorem refLayer_eq (r0 r1 E : (⟨Cert.KernelIdeal.S200000x64, .f32⟩ : BufTy).Contents (Elt Ideal)) (W1 W2 : (⟨Cert.KernelIdeal.S64x64, .f32⟩ : BufTy).Contents (Elt Ideal)) :
    Cert.ReferenceIdeal.Hand.refLayer (F := Ideal) r0 r1 E W1 W2 = layerSplit (M := 200000) r0 r1 E W1 W2 :=
  Cert.HostForms.hostLayer_eq (M := 200000) _ isPlainRef _ r0 r1 E W1 W2

section
variable (a0 a1 : (⟨Cert.KernelIdeal.S100000x64, .f32⟩ : BufTy).Contents (Elt Ideal)) (a2 a3 : (⟨Cert.KernelIdeal.S3x64x64, .f32⟩ : BufTy).Contents (Elt Ideal))
  (a4 : (⟨Cert.KernelIdeal.S2x1600000, .f32⟩ : BufTy).Contents (Elt Ideal)) (a5 a6 : (⟨Cert.KernelIdeal.S2x1600000, .i32⟩ : BufTy).Contents (Elt Ideal))
  (a7 a8 : (⟨Cert.KernelIdeal.S100000, .i32⟩ : BufTy).Contents (Elt Ideal))

/-- ONE LAYER, BOTH PROGRAMS: over a real table, real edge weights and real weight matrices, the reference's layer of the
    two folds' aggregates is the kernel program's layer of the summed aggregate. -/
theorem layer_bridge (E : (⟨Cert.KernelIdeal.S200000x64, .f32⟩ : BufTy).Contents (Elt Ideal)) (W1 W2 : (⟨Cert.KernelIdeal.S64x64, .f32⟩ : BufTy).Contents (Elt Ideal))
    (hE : AllReal (s := Cert.KernelIdeal.S200000x64) E) (hW1 : AllReal (s := Cert.KernelIdeal.S64x64) W1)
    (hW2 : AllReal (s := Cert.KernelIdeal.S64x64) W2) (h4 : AllReal (s := Cert.KernelIdeal.S2x1600000) a4) :
    Cert.ReferenceIdeal.Hand.refLayer (F := Ideal)
        (Cert.ReferenceIdeal.Hand.aggOf E (Cert.ReferenceIdeal.Hand.fold0 a4) (Cert.ReferenceIdeal.Hand.fold0 a6) (Cert.ReferenceIdeal.Hand.fold0 a5))
        (Cert.ReferenceIdeal.Hand.aggOf E (Cert.ReferenceIdeal.Hand.fold1 a4) (Cert.ReferenceIdeal.Hand.fold1 a6) (Cert.ReferenceIdeal.Hand.fold1 a5)) E W1 W2
      = layer (M := 200000) (Cert.KernelIdeal.Hand.relsum E a4 a5 a6) E W1 W2 := by
  rw [refLayer_eq, aggOf_eq, aggOf_eq, fold0_eq, fold0_eq, fold0_eq, fold1_eq, fold1_eq, fold1_eq]
  exact (Cert.KernelIdeal.Hand.layer_relsum E W1 W2 a4 a5 a6 hE hW1 hW2 h4).1.symm

variable (h0 : AllReal (s := Cert.KernelIdeal.S100000x64) a0) (h1 : AllReal (s := Cert.KernelIdeal.S100000x64) a1)
  (h2 : AllReal (s := Cert.KernelIdeal.S3x64x64) a2) (h3 : AllReal (s := Cert.KernelIdeal.S3x64x64) a3)
  (h4 : AllReal (s := Cert.KernelIdeal.S2x1600000) a4)

/-! ## The three layers -/

theorem refE0_eq : Cert.ReferenceIdeal.Hand.refE0 (F := Ideal) a0 a1 a7 a8 = Cert.KernelIdeal.Hand.kE0 a0 a1 a7 a8 := by
  unfold Cert.ReferenceIdeal.Hand.refE0 Cert.KernelIdeal.Hand.kE0
  rw [rowsOf_eq, rowsOf_eq, stack_eq]

include h0 h1 in
theorem real_kE0 : AllReal (s := Cert.KernelIdeal.S200000x64) (Cert.KernelIdeal.Hand.kE0 a0 a1 a7 a8) :=
  Cert.KernelIdeal.Hand.allReal_stack _ _ (Cert.KernelIdeal.Hand.allReal_rowsOf a0 a7 h0) (Cert.KernelIdeal.Hand.allReal_rowsOf a1 a8 h1)

include h0 h1 h2 h3 h4 in
theorem refE1_eq : Cert.ReferenceIdeal.Hand.refE1 (F := Ideal) a0 a1 a2 a3 a4 a5 a6 a7 a8 = Cert.KernelIdeal.Hand.kE1 a0 a1 a2 a3 a4 a5 a6 a7 a8 := by
  unfold Cert.ReferenceIdeal.Hand.refE1 Cert.KernelIdeal.Hand.kE1
  rw [refE0_eq, wmat0_eq, wmat0_eq]
  exact layer_bridge a4 a5 a6 _ _ _ (real_kE0 a0 a1 a7 a8 h0 h1) (Cert.KernelIdeal.Hand.allReal_wmat0 a2 h2) (Cert.KernelIdeal.Hand.allReal_wmat0 a3 h3) h4

include h0 h1 h2 h3 h4 in
theorem real_kE1 : AllReal (s := Cert.KernelIdeal.S200000x64) (Cert.KernelIdeal.Hand.kE1 a0 a1 a2 a3 a4 a5 a6 a7 a8) :=
  (Cert.KernelIdeal.Hand.layer_relsum _ _ _ a4 a5 a6 (real_kE0 a0 a1 a7 a8 h0 h1) (Cert.KernelIdeal.Hand.allReal_wmat0 a2 h2) (Cert.KernelIdeal.Hand.allReal_wmat0 a3 h3) h4).2

include h0 h1 h2 h3 h4 in
theorem refE2_eq : Cert.ReferenceIdeal.Hand.refE2 (F := Ideal) a0 a1 a2 a3 a4 a5 a6 a7 a8 = Cert.KernelIdeal.Hand.kE2 a0 a1 a2 a3 a4 a5 a6 a7 a8 := by
  unfold Cert.ReferenceIdeal.Hand.refE2 Cert.KernelIdeal.Hand.kE2
  rw [refE1_eq a0 a1 a2 a3 a4 a5 a6 a7 a8 h0 h1 h2 h3 h4, wmat1_eq, wmat1_eq]
  exact layer_bridge a4 a5 a6 _ _ _ (real_kE1 a0 a1 a2 a3 a4 a5 a6 a7 a8 h0 h1 h2 h3 h4) (Cert.KernelIdeal.Hand.allReal_wmat1 a2 h2) (Cert.KernelIdeal.Hand.allReal_wmat1 a3 h3) h4

include h0 h1 h2 h3 h4 in
theorem real_kE2 : AllReal (s := Cert.KernelIdeal.S200000x64) (Cert.KernelIdeal.Hand.kE2 a0 a1 a2 a3 a4 a5 a6 a7 a8) :=
  (Cert.KernelIdeal.Hand.layer_relsum _ _ _ a4 a5 a6 (real_kE1 a0 a1 a2 a3 a4 a5 a6 a7 a8 h0 h1 h2 h3 h4) (Cert.KernelIdeal.Hand.allReal_wmat1 a2 h2) (Cert.KernelIdeal.Hand.allReal_wmat1 a3 h3) h4).2

include h0 h1 h2 h3 h4 in
theorem refE3_eq : Cert.ReferenceIdeal.Hand.refE3 (F := Ideal) a0 a1 a2 a3 a4 a5 a6 a7 a8 = Cert.KernelIdeal.Hand.kE3 a0 a1 a2 a3 a4 a5 a6 a7 a8 := by
  unfold Cert.ReferenceIdeal.Hand.refE3 Cert.KernelIdeal.Hand.kE3
  rw [refE2_eq a0 a1 a2 a3 a4 a5 a6 a7 a8 h0 h1 h2 h3 h4, wmat2_eq, wmat2_eq]
  exact layer_bridge a4 a5 a6 _ _ _ (real_kE2 a0 a1 a2 a3 a4 a5 a6 a7 a8 h0 h1 h2 h3 h4) (Cert.KernelIdeal.Hand.allReal_wmat2 a2 h2) (Cert.KernelIdeal.Hand.allReal_wmat2 a3 h3) h4

/-! ## The read-out -/

include h0 h1 h2 h3 h4 in
theorem refU_eq : Cert.ReferenceIdeal.Hand.refU (F := Ideal) a0 a1 a2 a3 a4 a5 a6 a7 a8 = Cert.KernelIdeal.Hand.kU a0 a1 a2 a3 a4 a5 a6 a7 a8 := by
  unfold Cert.ReferenceIdeal.Hand.refU Cert.KernelIdeal.Hand.kU
  rw [refE1_eq a0 a1 a2 a3 a4 a5 a6 a7 a8 h0 h1 h2 h3 h4, refE2_eq a0 a1 a2 a3 a4 a5 a6 a7 a8 h0 h1 h2 h3 h4, refE3_eq a0 a1 a2 a3 a4 a5 a6 a7 a8 h0 h1 h2 h3 h4, rowsOf_eq, lo_eq, lo_eq, lo_eq, cat4_eq]

include h0 h1 h2 h3 h4 in
theorem refI_eq : Cert.ReferenceIdeal.Hand.refI (F := Ideal) a0 a1 a2 a3 a4 a5 a6 a7 a8 = Cert.KernelIdeal.Hand.kI a0 a1 a2 a3 a4 a5 a6 a7 a8 := by
  unfold Cert.ReferenceIdeal.Hand.refI Cert.KernelIdeal.Hand.kI
  rw [refE1_eq a0 a1 a2 a3 a4 a5 a6 a7 a8 h0 h1 h2 h3 h4, refE2_eq a0 a1 a2 a3 a4 a5 a6 a7 a8 h0 h1 h2 h3 h4, refE3_eq a0 a1 a2 a3 a4 a5 a6 a7 a8 h0 h1 h2 h3 h4, rowsOf_eq, hi_eq, hi_eq, hi_eq, cat4_eq]

include h0 h1 h2 h3 h4 in
/-- THE TWO RESULTS ARE EQUAL when the five float arguments have real entries. -/
theorem refOut_eq_kOut : Cert.ReferenceIdeal.Hand.refOut (F := Ideal) a0 a1 a2 a3 a4 a5 a6 a7 a8 = Cert.KernelIdeal.Hand.kOut a0 a1 a2 a3 a4 a5 a6 a7 a8 := by
  unfold Cert.ReferenceIdeal.Hand.refOut Cert.KernelIdeal.Hand.kOut Cert.KernelIdeal.Hand.flat
  rw [refU_eq a0 a1 a2 a3 a4 a5 a6 a7 a8 h0 h1 h2 h3 h4, refI_eq a0 a1 a2 a3 a4 a5 a6 a7 a8 h0 h1 h2 h3 h4]
  exact Cert.HostForms.readout_eq _ _ _ _ _

end

end Cert.Bridge

end
-- ==== Proof.LibFiniteAll.lean ====
/-
  A printed "every entry is finite" test, read back on the extended reals.

  The test `all(|x| < +inf)` prints as: the absolute value of every entry, compared (ordered, less-than) with the
  broadcast of the single-precision word of plus infinity, and the resulting array of truth values reduced by `and`
  into a result that has one index. On the extended reals the absolute value is `max x (-x)` and the word
  0x7F800000 (sign 0, exponent field all ones, mantissa 0) denotes plus infinity. So an entry passes the comparison
  exactly when it is neither plus nor minus infinity, that is, when it is a real number; and a reduction by `and`
  that came out 1 met a 1 at every entry.
-/
import Idealize.ShloMosaic.PureOps.Ideal
import Idealize.ShloMosaic.Lib.ReduceAll

namespace Cert.FiniteAll

open Idealize.ShloMosaic

/-- The single-precision word with sign 0, exponent field all ones and mantissa 0 denotes plus infinity. -/
theorem ofBits_inf_f32 : Ideal.ofBits .f32 0x7F800000#32 = (⊤ : EReal) := by
  simp [Ideal.ofBits, Ideal.ieee]

/-- An extended real whose absolute value `max x (-x)` lies below plus infinity is a real number: plus infinity
    is its own absolute value, and the negative of minus infinity is plus infinity. -/
theorem exists_real_of_abs_lt_top {x : EReal} (h : max x (-x) < ⊤) : ∃ r : ℝ, x = (r : EReal) := by
  induction x using EReal.rec with
  | bot => simp at h
  | coe r => exact ⟨r, rfl⟩
  | top => simp at h

/-- One entry: if the ordered comparison `|x| < +inf` answers 1, then `x` is a real number. -/
theorem exists_real_of_cmp (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  by_cases hlt : max (x : EReal) (-(x : EReal)) < ⊤
  · exact exists_real_of_abs_lt_top hlt
  · simp [hlt] at h'

/-- THE ARRAY FACT: if `|x| < +inf`, taken entry by entry against the broadcast word of plus infinity and reduced
    by `and` into a result with one index, is 1, then every entry of `x` is a real number. The shape of `x`, the
    reduced axes, the shape the constant is broadcast from and the reduction's starting value are arbitrary. -/
theorem all_real_of_reduce_and {s t u z : Shape} {axes : List (Fin s.rank)} [Subsingleton t.Idx]
    (x : FVec Ideal s .f32) (dims : Fin z.rank → Fin s.rank) (hb : z.BroadcastsInDim s dims)
    (init : u.Idx → BitVec 1) (hr : s.ReducesTo axes t) (hu : 0 < u.numel) (j : t.Idx)
    (e : Host.reduce IntOp.andi
          (cmpf .olt (Host.absf x) (broadcastInDim s dims hb (constant (F := Ideal) z .f32 0x7F800000#32)))
          init hr hu j = 1#1)
    (i : s.Idx) : ∃ r : ℝ, (x i : EReal) = (r : EReal) :=
  exists_real_of_cmp (x i) (Host.reduce_andi_all _ init hr hu j e i)

end Cert.FiniteAll
-- ==== Proof.PreReal.lean ====
/-
  THE PRECONDITION, READ BACK. The printed test is the conjunction, nested to the left, of five tests "every entry of
  the array has absolute value below plus infinity", one per float argument: the two [100000, 64] tables, the two
  [3, 64, 64] weight stacks and the [2, 1600000] edge weights. Each test is the entrywise ordered comparison of the
  absolute value with the broadcast word of plus infinity, reduced by `and` over all axes from 1. On the extended
  reals a conjunction of one-bit words that is 1 has both words 1, and a test that is 1 says that every entry of its
  array is a real number. No conversion of format stands between an argument and its test.
-/
import proofs.«168404_j17343077941930_1_alg».proof.Defs
import proofs.«168404_j17343077941930_1_alg».proof.Proof.Gen.Pre_finite_inputs
import proofs.«168404_j17343077941930_1_alg».proof.Proof.Gen.KernelIdeal
import proofs.«168404_j17343077941930_1_alg».proof.Proof.LibFiniteAll
import proofs.«168404_j17343077941930_1_alg».proof.Proof.LibLayerSpec
import Idealize.ShloMosaic.Lib.ReduceAll
import Idealize.ShloMosaic.Lib.ValueIdx

noncomputable section

namespace Cert.KernelIdeal.Hand

open Idealize.ShloMosaic Idealize.ShloMosaic.ValueIdx Idealize.SL.Sem

/-- The shape with no axes has one index. -/
theorem subsingleton_scalar_idx : Subsingleton Cert.Pre_finite_inputs.S_.Idx := ⟨fun a b => funext fun d => d.elim0⟩

/-- Under the precondition every entry of each of the five float argument arrays is a real number. -/
theorem pre_real (m : (ℓ : Loc Cert.KernelIdeal.nD Cert.KernelIdeal.τ Cert.KernelIdeal.sig) → Buf (Elt Ideal) ℓ)
    (h : Cert.Pre_KernelIdeal m) (c : Dev Cert.KernelIdeal.nD) :
    Cert.LayerSpec.AllReal (s := Cert.KernelIdeal.S100000x64) (m ((c.tc : Thread Cert.KernelIdeal.nD Cert.KernelIdeal.τ).loc Cert.KernelIdeal.main_arg0))
    ∧ Cert.LayerSpec.AllReal (s := Cert.KernelIdeal.S100000x64) (m ((c.tc : Thread _ _).loc Cert.KernelIdeal.main_arg1))
    ∧ Cert.LayerSpec.AllReal (s := Cert.KernelIdeal.S3x64x64) (m ((c.tc : Thread _ _).loc Cert.KernelIdeal.main_arg2))
    ∧ Cert.LayerSpec.AllReal (s := Cert.KernelIdeal.S3x64x64) (m ((c.tc : Thread _ _).loc Cert.KernelIdeal.main_arg3))
    ∧ Cert.LayerSpec.AllReal (s := Cert.KernelIdeal.S2x1600000) (m ((c.tc : Thread _ _).loc Cert.KernelIdeal.main_arg4)) := by
  haveI := subsingleton_scalar_idx
  have e := congrFun (h c) ValueIdx.ix0
  dsimp only [Cert.Pre_finite_inputs.fn, Cert.Pre_finite_inputs.fn_part1] at e
  -- the outermost conjunction first: ((((t0 ∧ t1) ∧ t2) ∧ t3) ∧ t4)
  obtain ⟨e0123, e4⟩ := IntOp.andi_eq_one.1 e
  obtain ⟨e012, e3⟩ := IntOp.andi_eq_one.1 e0123
  obtain ⟨e01, e2⟩ := IntOp.andi_eq_one.1 e012
  obtain ⟨e0, e1⟩ := IntOp.andi_eq_one.1 e01
  exact ⟨fun i => Cert.FiniteAll.all_real_of_reduce_and _ _ _ _ _ _ ix0 e0 i,
    fun i => Cert.FiniteAll.all_real_of_reduce_and _ _ _ _ _ _ ix0 e1 i,
    fun i => Cert.FiniteAll.all_real_of_reduce_and _ _ _ _ _ _ ix0 e2 i,
    fun i => Cert.FiniteAll.all_real_of_reduce_and _ _ _ _ _ _ ix0 e3 i,
    fun i => Cert.FiniteAll.all_real_of_reduce_and _ _ _ _ _ _ ix0 e4 i⟩

end Cert.KernelIdeal.Hand

end
-- ==== Proof.lean ====
/-
  THE CERTIFICATE: a three-layer graph-convolution model over a two-fold sparse adjacency, computed by a program that
  launches four kernels (one per layer, and a final row-wise dot product) between stretches of host operations, against a
  reference written in host operations only.

  Frames. The kernel program (at the word level and on the extended reals alike) is nine segments: five stretches of host
  operations and four kernel regions. A stretch maps every buffer through its operations; a region, whose body loads its
  windows' blocks whole and stores its output block whole at each of its 50 grid points, leaves its output array holding,
  block by block, what the body stored, and every other buffer as it was. No operation and no region writes an argument
  array. The reference is one straight line of host operations, none of which writes an argument.

  Values. On the extended reals a layer's kernel stores, for each block of 4000 rows, the leaky rectifier of
  R·W1 + (R ⊙ E)·W2, with R the sum of the two folds' aggregates of the embeddings E; the reference multiplies each fold's
  aggregate by W1 and (after the entrywise product with E) by W2 and adds the four products up from zero, then rectifies.
  These agree when every entry is a real number — distributivity fails at the infinities of the extended reals — and the
  precondition (every float argument finite) makes the first embeddings, the edge weights and the weight matrices real;
  a layer of real arrays is real again, so the three layers agree one after the other. The final kernel's row-wise dot
  products of the two concatenated embedding tables are the reference's row sums of their entrywise product.
-/
import proofs.«168404_j17343077941930_1_alg».proof.Defs
import proofs.«168404_j17343077941930_1_alg».proof.Proof.Gen.Kernel
import proofs.«168404_j17343077941930_1_alg».proof.Proof.Gen.KernelIdeal
import proofs.«168404_j17343077941930_1_alg».proof.Proof.Gen.ReferenceIdeal
import proofs.«168404_j17343077941930_1_alg».proof.Proof.Gen.Pre_finite_inputs
import proofs.«168404_j17343077941930_1_alg».proof.Proof.K.Frame
import proofs.«168404_j17343077941930_1_alg».proof.Proof.KI.Frame
import proofs.«168404_j17343077941930_1_alg».proof.Proof.KI.ValChain
import proofs.«168404_j17343077941930_1_alg».proof.Proof.Ref.Frame
import proofs.«168404_j17343077941930_1_alg».proof.Proof.Ref.Stages
import proofs.«168404_j17343077941930_1_alg».proof.Proof.Bridge
import proofs.«168404_j17343077941930_1_alg».proof.Proof.PreReal

set_option maxRecDepth 16384

noncomputable section

namespace Cert.Proof

open Idealize.ShloMosaic Idealize.ShloMosaic.TcCoe Idealize.SL.Sem

/-- The word-level kernel program runs to the end and leaves its arguments unchanged. -/
theorem frame_k : Cert.frame_Kernel := fun m ρ _ => Cert.Kernel.Hand.frame m ρ

/-- So does the kernel program on the extended reals. -/
theorem frame_ki : Cert.frame_KernelIdeal := fun m ρ _ => Cert.KernelIdeal.Hand.frame m ρ

/-- So does the reference. -/
theorem frame_ri : Cert.frame_ReferenceIdeal := Cert.ReferenceIdeal.Hand.frame

/-- The idealization rewrote no operation. -/
theorem preserves : Cert.preserves_Kernel_KernelIdeal := trivial

/-- From memories agreeing on the arguments, both programs end with the same result array: the kernel program's result as
    one function of the launch arrays (the segments read back), the reference's as its own composition of the same steps,
    and the two functions equal on real arguments. -/
theorem algebraic : Cert.algebraic_KernelIdeal_ReferenceIdeal := by
  intro m ρ m' ρ' hpre hagree
  refine ⟨fun c => Cert.KernelIdeal.Hand.kOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono (fun r h c =>
      ⟨(h c Cert.KernelIdeal.main_v162 (by decide)).trans (Cert.KernelIdeal.Hand.W9_v162 m ρ c),
       (h c Cert.KernelIdeal.main_arg0 (by decide)).trans (Cert.KernelIdeal.Hand.W9_main_arg0 m ρ c),
       (h c Cert.KernelIdeal.main_arg1 (by decide)).trans (Cert.KernelIdeal.Hand.W9_main_arg1 m ρ c),
       (h c Cert.KernelIdeal.main_arg2 (by decide)).trans (Cert.KernelIdeal.Hand.W9_main_arg2 m ρ c),
       (h c Cert.KernelIdeal.main_arg3 (by decide)).trans (Cert.KernelIdeal.Hand.W9_main_arg3 m ρ c),
       (h c Cert.KernelIdeal.main_arg4 (by decide)).trans (Cert.KernelIdeal.Hand.W9_main_arg4 m ρ c),
       (h c Cert.KernelIdeal.main_arg5 (by decide)).trans (Cert.KernelIdeal.Hand.W9_main_arg5 m ρ c),
       (h c Cert.KernelIdeal.main_arg6 (by decide)).trans (Cert.KernelIdeal.Hand.W9_main_arg6 m ρ c),
       (h c Cert.KernelIdeal.main_arg7 (by decide)).trans (Cert.KernelIdeal.Hand.W9_main_arg7 m ρ c),
       (h c Cert.KernelIdeal.main_arg8 (by decide)).trans (Cert.KernelIdeal.Hand.W9_main_arg8 m ρ c)⟩)
      (Cert.KernelIdeal.Hand.run_main m ρ)
  · refine (θ_run Cert.ReferenceIdeal.defs _ _).mono (fun r h c => ?_) (Cert.ReferenceIdeal.Hand.run_main (F := Ideal) m' ρ')
    obtain ⟨g0, g1, g2, g3, g4, g5, g6, g7, g8⟩ := hagree c
    obtain ⟨p0, p1, p2, p3, p4⟩ := Cert.KernelIdeal.Hand.pre_real m hpre c
    refine ⟨?_, (h c _).trans (Cert.ReferenceIdeal.Hand.arg0_eq _), (h c _).trans (Cert.ReferenceIdeal.Hand.arg1_eq _),
      (h c _).trans (Cert.ReferenceIdeal.Hand.arg2_eq _), (h c _).trans (Cert.ReferenceIdeal.Hand.arg3_eq _),
      (h c _).trans (Cert.ReferenceIdeal.Hand.arg4_eq _), (h c _).trans (Cert.ReferenceIdeal.Hand.arg5_eq _),
      (h c _).trans (Cert.ReferenceIdeal.Hand.arg6_eq _), (h c _).trans (Cert.ReferenceIdeal.Hand.arg7_eq _),
      (h c _).trans (Cert.ReferenceIdeal.Hand.arg8_eq _)⟩
    refine (h c Cert.ReferenceIdeal.main_v198).trans ((Cert.ReferenceIdeal.Hand.out_eq _).trans ?_)
    show Cert.ReferenceIdeal.Hand.refOut (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8)) = _
    rw [g0, g1, g2, g3, g4, g5, g6, g7, g8]
    exact Cert.Bridge.refOut_eq_kOut _ _ _ _ _ _ _ _ _ p0 p1 p2 p3 p4

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
